-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_

variable [Facts]

def fn {F : FTy → Type} [FloatOps F] (main_arg0 : FVec F S4x8192x768 .f32) (main_arg1 : FVec F S8192x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S4x8192x768 : Shape := ⟨3, ![4, 8192, 768]⟩
abbrev S8192x768 : Shape := ⟨2, ![8192, 768]⟩
abbrev S16x768 : Shape := ⟨2, ![16, 768]⟩
abbrev S_ : Shape := ⟨0, ![]⟩
abbrev S1x16x768 : Shape := ⟨3, ![1, 16, 768]⟩
abbrev S1x16 : Shape := ⟨2, ![1, 16]⟩
abbrev S16 : Shape := ⟨1, ![16]⟩

abbrev nBuf : Table → Nat
  | .hbm => 3
  | .local .scVector .vmem => 10
  | _ => 0

abbrev bufTy : (tb : Table) → Fin (nBuf tb) → BufTy
  | .hbm, ⟨0, _⟩ => ⟨S4x8192x768, .f32⟩
  | .hbm, ⟨1, _⟩ => ⟨S8192x768, .f32⟩
  | .hbm, ⟨2, _⟩ => ⟨S4x8192x768, .f32⟩
  | .local .scVector .vmem, ⟨0, _⟩ => ⟨S16x768, .f32⟩
  | .local .scVector .vmem, ⟨1, _⟩ => ⟨S16x768, .f32⟩
  | .local .scVector .vmem, ⟨2, _⟩ => ⟨S16x768, .f32⟩
  | .local .scVector .vmem, ⟨3, _⟩ => ⟨S16x768, .f32⟩
  | .local .scVector .vmem, ⟨4, _⟩ => ⟨S16x768, .f32⟩
  | .local .scVector .vmem, ⟨5, _⟩ => ⟨S16x768, .f32⟩
  | .local .scVector .vmem, ⟨6, _⟩ => ⟨S16x768, .f32⟩
  | .local .scVector .vmem, ⟨7, _⟩ => ⟨S16x768, .f32⟩
  | .local .scVector .vmem, ⟨8, _⟩ => ⟨S16x768, .f32⟩
  | .local .scVector .vmem, ⟨9, _⟩ => ⟨S16x768, .f32⟩
  | _, _ => ⟨S4x8192x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let v3 : BitVec 32 := Scalar.addi v2 c0_i32
  let c0_i32_0 : BitVec 32 := 0#32
  ![v3.toNat, 0]
def k0_off2 (i : grid0.Coords) (c0_i32_2 : BitVec 32) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v6 : BitVec 32 := Scalar.addi v2 c0_i32_2
  let c0_i32_4 : BitVec 32 := 0#32
  ![0, v6.toNat, 0]
def k0_off2_at (r : Fin 3) : BitVec 32 :=
  if r.val < 1 then
    0#32
  else
    if r.val < 2 then
      224#32
    else
      240#32
def k0_off3 (i : grid0.Coords) (c0_i32_6 : BitVec 32) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v11 : BitVec 32 := Scalar.addi v2 c0_i32_6
  let c0_i32_7 : BitVec 32 := 0#32
  ![1, v11.toNat, 0]
def k0_off3_at (r : Fin 3) : BitVec 32 :=
  if r.val < 1 then
    0#32
  else
    if r.val < 2 then
      224#32
    else
      240#32
def k0_off4 (i : grid0.Coords) (c0_i32_9 : BitVec 32) : Fin 3 → Nat :=
  let c2_i32_10 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v16 : BitVec 32 := Scalar.addi v2 c0_i32_9
  let c0_i32_11 : BitVec 32 := 0#32
  ![2, v16.toNat, 0]
def k0_off4_at (r : Fin 3) : BitVec 32 :=
  if r.val < 1 then
    0#32
  else
    if r.val < 2 then
      224#32
    else
      240#32
def k0_off5 (i : grid0.Coords) (c0_i32_13 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v21 : BitVec 32 := Scalar.addi v2 c0_i32_13
  let c0_i32_14 : BitVec 32 := 0#32
  ![3, v21.toNat, 0]
def k0_off5_at (r : Fin 3) : BitVec 32 :=
  if r.val < 1 then
    0#32
  else
    if r.val < 2 then
      224#32
    else
      240#32
@[reducible] def k0_t1_loop : Scf.Loop 32 :=
  let c0_i32_17 : BitVec 32 := 0#32
  let c8_i32 : BitVec 32 := 8#32
  let v26 : BitVec 32 := Scalar.addi c0_i32_17 c8_i32
  let c1_i32_18 : BitVec 32 := 1#32
  ⟨c0_i32_17, v26, c1_i32_18⟩
def k0_cond1 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_52 : BitVec 32 := 1#32
  let v70 : BitVec 1 := Scalar.cmpi .sge v69 c1_i32_52
  let c1_i32_53 : BitVec 32 := 1#32
  let v71 : BitVec 32 := Scalar.addi v69 c1_i32_53
  let c16_i32 : BitVec 32 := 16#32
  let v72 : BitVec 1 := Scalar.cmpi .slt v71 c16_i32
  let v73 : BitVec 1 := Scalar.andi v70 v72
  let v74 : BitVec 32 := Scalar.extui v73
  let c0_i32_54 : BitVec 32 := 0#32
  let v75 : BitVec 1 := Scalar.cmpi .ne v74 c0_i32_54
  v75

def k0_off6 (i : grid0.Coords) (k0_t1 : Fin k0_t1_loop.trips) : Fin 3 → Nat :=
  let c0_i32_156 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_154 : BitVec 32 := 1#32
  let v208 : BitVec 32 := Scalar.subi v69 c1_i32_154
  let c16_i32_155 : BitVec 32 := 16#32
  let v209 : BitVec 32 := Scalar.muli v208 c16_i32_155
  let v210 : BitVec 32 := Scalar.addi v2 v209
  let c0_i32_157 : BitVec 32 := 0#32
  ![0, v210.toNat, 0]
def k0_off7 (i : grid0.Coords) (k0_t1 : Fin k0_t1_loop.trips) : Fin 3 → Nat :=
  let c1_i32_160 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_154 : BitVec 32 := 1#32
  let v208 : BitVec 32 := Scalar.subi v69 c1_i32_154
  let c16_i32_159 : BitVec 32 := 16#32
  let v215 : BitVec 32 := Scalar.muli v208 c16_i32_159
  let v216 : BitVec 32 := Scalar.addi v2 v215
  let c0_i32_161 : BitVec 32 := 0#32
  ![1, v216.toNat, 0]
def k0_off8 (i : grid0.Coords) (k0_t1 : Fin k0_t1_loop.trips) : Fin 3 → Nat :=
  let c2_i32_164 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_154 : BitVec 32 := 1#32
  let v208 : BitVec 32 := Scalar.subi v69 c1_i32_154
  let c16_i32_163 : BitVec 32 := 16#32
  let v221 : BitVec 32 := Scalar.muli v208 c16_i32_163
  let v222 : BitVec 32 := Scalar.addi v2 v221
  let c0_i32_165 : BitVec 32 := 0#32
  ![2, v222.toNat, 0]
def k0_off9 (i : grid0.Coords) (k0_t1 : Fin k0_t1_loop.trips) : Fin 3 → Nat :=
  let c3_i32_168 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_154 : BitVec 32 := 1#32
  let v208 : BitVec 32 := Scalar.subi v69 c1_i32_154
  let c16_i32_167 : BitVec 32 := 16#32
  let v227 : BitVec 32 := Scalar.muli v208 c16_i32_167
  let v228 : BitVec 32 := Scalar.addi v2 v227
  let c0_i32_169 : BitVec 32 := 0#32
  ![3, v228.toNat, 0]
def k0_cond2 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_55 : BitVec 32 := 1#32
  let v76 : BitVec 32 := Scalar.addi v69 c1_i32_55
  let c16_i32_56 : BitVec 32 := 16#32
  let v77 : BitVec 1 := Scalar.cmpi .slt v76 c16_i32_56
  let v78 : BitVec 32 := Scalar.extui v77
  let c0_i32_57 : BitVec 32 := 0#32
  let v79 : BitVec 1 := Scalar.cmpi .ne v78 c0_i32_57
  v79

def k0_off10 (i : grid0.Coords) (k0_t1 : Fin k0_t1_loop.trips) : Fin 3 → Nat :=
  let c0_i32_156 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_154 : BitVec 32 := 1#32
  let v208 : BitVec 32 := Scalar.addi v69 c1_i32_154
  let c16_i32_155 : BitVec 32 := 16#32
  let v209 : BitVec 32 := Scalar.muli v208 c16_i32_155
  let v210 : BitVec 32 := Scalar.addi v2 v209
  let c0_i32_157 : BitVec 32 := 0#32
  ![0, v210.toNat, 0]
def k0_off11 (i : grid0.Coords) (k0_t1 : Fin k0_t1_loop.trips) : Fin 3 → Nat :=
  let c1_i32_160 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_154 : BitVec 32 := 1#32
  let v208 : BitVec 32 := Scalar.addi v69 c1_i32_154
  let c16_i32_159 : BitVec 32 := 16#32
  let v215 : BitVec 32 := Scalar.muli v208 c16_i32_159
  let v216 : BitVec 32 := Scalar.addi v2 v215
  let c0_i32_161 : BitVec 32 := 0#32
  ![1, v216.toNat, 0]
def k0_off12 (i : grid0.Coords) (k0_t1 : Fin k0_t1_loop.trips) : Fin 3 → Nat :=
  let c2_i32_164 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_154 : BitVec 32 := 1#32
  let v208 : BitVec 32 := Scalar.addi v69 c1_i32_154
  let c16_i32_163 : BitVec 32 := 16#32
  let v221 : BitVec 32 := Scalar.muli v208 c16_i32_163
  let v222 : BitVec 32 := Scalar.addi v2 v221
  let c0_i32_165 : BitVec 32 := 0#32
  ![2, v222.toNat, 0]
def k0_off13 (i : grid0.Coords) (k0_t1 : Fin k0_t1_loop.trips) : Fin 3 → Nat :=
  let c3_i32_168 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_154 : BitVec 32 := 1#32
  let v208 : BitVec 32 := Scalar.addi v69 c1_i32_154
  let c16_i32_167 : BitVec 32 := 16#32
  let v227 : BitVec 32 := Scalar.muli v208 c16_i32_167
  let v228 : BitVec 32 := Scalar.addi v2 v227
  let c0_i32_169 : BitVec 32 := 0#32
  ![3, v228.toNat, 0]
def k0_off14 (i : grid0.Coords) (k0_t1 : Fin k0_t1_loop.trips) (c0_i32_51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let v69 : BitVec 32 := Scalar.addi v68 c0_i32_51
  let c16_i32_58 : BitVec 32 := 16#32
  let v80 : BitVec 32 := Scalar.muli v69 c16_i32_58
  let v81 : BitVec 32 := Scalar.addi v2 v80
  let c0_i32_59 : BitVec 32 := 0#32
  ![v81.toNat, 0]
def k0_cond3 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_61 : BitVec 32 := 1#32
  let v84 : BitVec 32 := Scalar.addi v69 c1_i32_61
  let c16_i32_62 : BitVec 32 := 16#32
  let v85 : BitVec 1 := Scalar.cmpi .slt v84 c16_i32_62
  let v86 : BitVec 32 := Scalar.extui v85
  let c0_i32_63 : BitVec 32 := 0#32
  let v87 : BitVec 1 := Scalar.cmpi .ne v86 c0_i32_63
  v87

def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let c0_i32_51 : BitVec 32 := 0#32
  let v69 : BitVec 32 := Scalar.addi v68 c0_i32_51
  let c1_i32_154 : BitVec 32 := 1#32
  let v208 : BitVec 32 := Scalar.addi v69 c1_i32_154
  let c16_i32_155 : BitVec 32 := 16#32
  let v209 : BitVec 32 := Scalar.muli v208 c16_i32_155
  let v210 : BitVec 32 := Scalar.addi v2 v209
  let c0_i32_156 : BitVec 32 := 0#32
  ![v210.toNat, 0]
def k0_off16 (i : grid0.Coords) (k0_t1 : Fin k0_t1_loop.trips) (c0_i32_51 : BitVec 32) : Fin 3 → Nat :=
  let c0_i32_65 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let v69 : BitVec 32 := Scalar.addi v68 c0_i32_51
  let c16_i32_64 : BitVec 32 := 16#32
  let v88 : BitVec 32 := Scalar.muli v69 c16_i32_64
  let v89 : BitVec 32 := Scalar.addi v2 v88
  let c0_i32_66 : BitVec 32 := 0#32
  ![0, v89.toNat, 0]
def k0_off17 (i : grid0.Coords) (k0_t1 : Fin k0_t1_loop.trips) (c0_i32_51 : BitVec 32) : Fin 3 → Nat :=
  let c1_i32_69 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let v69 : BitVec 32 := Scalar.addi v68 c0_i32_51
  let c16_i32_68 : BitVec 32 := 16#32
  let v94 : BitVec 32 := Scalar.muli v69 c16_i32_68
  let v95 : BitVec 32 := Scalar.addi v2 v94
  let c0_i32_70 : BitVec 32 := 0#32
  ![1, v95.toNat, 0]
def k0_off18 (i : grid0.Coords) (k0_t1 : Fin k0_t1_loop.trips) (c0_i32_51 : BitVec 32) : Fin 3 → Nat :=
  let c2_i32_73 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let v69 : BitVec 32 := Scalar.addi v68 c0_i32_51
  let c16_i32_72 : BitVec 32 := 16#32
  let v100 : BitVec 32 := Scalar.muli v69 c16_i32_72
  let v101 : BitVec 32 := Scalar.addi v2 v100
  let c0_i32_74 : BitVec 32 := 0#32
  ![2, v101.toNat, 0]
def k0_off19 (i : grid0.Coords) (k0_t1 : Fin k0_t1_loop.trips) (c0_i32_51 : BitVec 32) : Fin 3 → Nat :=
  let c3_i32_77 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_50 : BitVec 32 := 2#32
  let v68 : BitVec 32 := Scalar.muli arg21 c2_i32_50
  let v69 : BitVec 32 := Scalar.addi v68 c0_i32_51
  let c16_i32_76 : BitVec 32 := 16#32
  let v106 : BitVec 32 := Scalar.muli v69 c16_i32_76
  let v107 : BitVec 32 := Scalar.addi v2 v106
  let c0_i32_78 : BitVec 32 := 0#32
  ![3, v107.toNat, 0]
@[reducible] def k0_t2_loop : Scf.Loop 32 :=
  let c0_i32_81 : BitVec 32 := 0#32
  let c16_i32_82 : BitVec 32 := 16#32
  let v112 : BitVec 32 := Scalar.addi c0_i32_81 c16_i32_82
  let c1_i32_83 : BitVec 32 := 1#32
  ⟨c0_i32_81, v112, c1_i32_83⟩
def k0_off20 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v208 : Index := Scalar.indexCast arg23
  let c0 : Index := 0#32
  ![v208.toNat, 0]
def k0_off21 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v255 : Index := Scalar.indexCast arg23
  let c16 : Index := 16#32
  ![v255.toNat, 16]
def k0_off22 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v302 : Index := Scalar.indexCast arg23
  let c32 : Index := 32#32
  ![v302.toNat, 32]
def k0_off23 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v349 : Index := Scalar.indexCast arg23
  let c48 : Index := 48#32
  ![v349.toNat, 48]
def k0_off24 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v396 : Index := Scalar.indexCast arg23
  let c64 : Index := 64#32
  ![v396.toNat, 64]
def k0_off25 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v443 : Index := Scalar.indexCast arg23
  let c80 : Index := 80#32
  ![v443.toNat, 80]
def k0_off26 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v490 : Index := Scalar.indexCast arg23
  let c96 : Index := 96#32
  ![v490.toNat, 96]
def k0_off27 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v537 : Index := Scalar.indexCast arg23
  let c112 : Index := 112#32
  ![v537.toNat, 112]
def k0_off28 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v584 : Index := Scalar.indexCast arg23
  let c128 : Index := 128#32
  ![v584.toNat, 128]
def k0_off29 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v631 : Index := Scalar.indexCast arg23
  let c144 : Index := 144#32
  ![v631.toNat, 144]
def k0_off30 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v678 : Index := Scalar.indexCast arg23
  let c160 : Index := 160#32
  ![v678.toNat, 160]
def k0_off31 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v725 : Index := Scalar.indexCast arg23
  let c176 : Index := 176#32
  ![v725.toNat, 176]
def k0_off32 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v772 : Index := Scalar.indexCast arg23
  let c192 : Index := 192#32
  ![v772.toNat, 192]
def k0_off33 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v819 : Index := Scalar.indexCast arg23
  let c208 : Index := 208#32
  ![v819.toNat, 208]
def k0_off34 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v866 : Index := Scalar.indexCast arg23
  let c224 : Index := 224#32
  ![v866.toNat, 224]
def k0_off35 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v913 : Index := Scalar.indexCast arg23
  let c240 : Index := 240#32
  ![v913.toNat, 240]
def k0_off36 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v960 : Index := Scalar.indexCast arg23
  let c256 : Index := 256#32
  ![v960.toNat, 256]
def k0_off37 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1007 : Index := Scalar.indexCast arg23
  let c272 : Index := 272#32
  ![v1007.toNat, 272]
def k0_off38 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1054 : Index := Scalar.indexCast arg23
  let c288 : Index := 288#32
  ![v1054.toNat, 288]
def k0_off39 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1101 : Index := Scalar.indexCast arg23
  let c304 : Index := 304#32
  ![v1101.toNat, 304]
def k0_off40 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1148 : Index := Scalar.indexCast arg23
  let c320 : Index := 320#32
  ![v1148.toNat, 320]
def k0_off41 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1195 : Index := Scalar.indexCast arg23
  let c336 : Index := 336#32
  ![v1195.toNat, 336]
def k0_off42 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1242 : Index := Scalar.indexCast arg23
  let c352 : Index := 352#32
  ![v1242.toNat, 352]
def k0_off43 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1289 : Index := Scalar.indexCast arg23
  let c368 : Index := 368#32
  ![v1289.toNat, 368]
def k0_off44 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1336 : Index := Scalar.indexCast arg23
  let c384 : Index := 384#32
  ![v1336.toNat, 384]
def k0_off45 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1383 : Index := Scalar.indexCast arg23
  let c400 : Index := 400#32
  ![v1383.toNat, 400]
def k0_off46 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1430 : Index := Scalar.indexCast arg23
  let c416 : Index := 416#32
  ![v1430.toNat, 416]
def k0_off47 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1477 : Index := Scalar.indexCast arg23
  let c432 : Index := 432#32
  ![v1477.toNat, 432]
def k0_off48 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1524 : Index := Scalar.indexCast arg23
  let c448 : Index := 448#32
  ![v1524.toNat, 448]
def k0_off49 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1571 : Index := Scalar.indexCast arg23
  let c464 : Index := 464#32
  ![v1571.toNat, 464]
def k0_off50 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1618 : Index := Scalar.indexCast arg23
  let c480 : Index := 480#32
  ![v1618.toNat, 480]
def k0_off51 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1665 : Index := Scalar.indexCast arg23
  let c496 : Index := 496#32
  ![v1665.toNat, 496]
def k0_off52 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1712 : Index := Scalar.indexCast arg23
  let c512 : Index := 512#32
  ![v1712.toNat, 512]
def k0_off53 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1759 : Index := Scalar.indexCast arg23
  let c528 : Index := 528#32
  ![v1759.toNat, 528]
def k0_off54 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1806 : Index := Scalar.indexCast arg23
  let c544 : Index := 544#32
  ![v1806.toNat, 544]
def k0_off55 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1853 : Index := Scalar.indexCast arg23
  let c560 : Index := 560#32
  ![v1853.toNat, 560]
def k0_off56 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1900 : Index := Scalar.indexCast arg23
  let c576 : Index := 576#32
  ![v1900.toNat, 576]
def k0_off57 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1947 : Index := Scalar.indexCast arg23
  let c592 : Index := 592#32
  ![v1947.toNat, 592]
def k0_off58 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v1994 : Index := Scalar.indexCast arg23
  let c608 : Index := 608#32
  ![v1994.toNat, 608]
def k0_off59 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v2041 : Index := Scalar.indexCast arg23
  let c624 : Index := 624#32
  ![v2041.toNat, 624]
def k0_off60 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v2088 : Index := Scalar.indexCast arg23
  let c640 : Index := 640#32
  ![v2088.toNat, 640]
def k0_off61 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v2135 : Index := Scalar.indexCast arg23
  let c656 : Index := 656#32
  ![v2135.toNat, 656]
def k0_off62 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v2182 : Index := Scalar.indexCast arg23
  let c672 : Index := 672#32
  ![v2182.toNat, 672]
def k0_off63 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v2229 : Index := Scalar.indexCast arg23
  let c688 : Index := 688#32
  ![v2229.toNat, 688]
def k0_off64 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v2276 : Index := Scalar.indexCast arg23
  let c704 : Index := 704#32
  ![v2276.toNat, 704]
def k0_off65 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v2323 : Index := Scalar.indexCast arg23
  let c720 : Index := 720#32
  ![v2323.toNat, 720]
def k0_off66 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v2370 : Index := Scalar.indexCast arg23
  let c736 : Index := 736#32
  ![v2370.toNat, 736]
def k0_off67 (k0_t2 : Fin k0_t2_loop.trips) : Fin 2 → Nat :=
  let c0_i32_81 : BitVec 32 := 0#32
  let c1_i32_83 : BitVec 32 := 1#32
  let arg23 : BitVec 32 := Scf.iv c0_i32_81 c1_i32_83 k0_t2
  let v2417 : Index := Scalar.indexCast arg23
  let c752 : Index := 752#32
  ![v2417.toNat, 752]
def k0_cond4 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_103 : BitVec 32 := 1#32
  let v140 : BitVec 1 := Scalar.cmpi .sge v139 c1_i32_103
  let c1_i32_104 : BitVec 32 := 1#32
  let v141 : BitVec 32 := Scalar.addi v139 c1_i32_104
  let c16_i32_105 : BitVec 32 := 16#32
  let v142 : BitVec 1 := Scalar.cmpi .slt v141 c16_i32_105
  let v143 : BitVec 1 := Scalar.andi v140 v142
  let v144 : BitVec 32 := Scalar.extui v143
  let c0_i32_106 : BitVec 32 := 0#32
  let v145 : BitVec 1 := Scalar.cmpi .ne v144 c0_i32_106
  v145

def k0_off68 (i : grid0.Coords) (k0_t1 : Fin k0_t1_loop.trips) : Fin 3 → Nat :=
  let c0_i32_156 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_154 : BitVec 32 := 1#32
  let v208 : BitVec 32 := Scalar.subi v139 c1_i32_154
  let c16_i32_155 : BitVec 32 := 16#32
  let v209 : BitVec 32 := Scalar.muli v208 c16_i32_155
  let v210 : BitVec 32 := Scalar.addi v2 v209
  let c0_i32_157 : BitVec 32 := 0#32
  ![0, v210.toNat, 0]
def k0_off69 (i : grid0.Coords) (k0_t1 : Fin k0_t1_loop.trips) : Fin 3 → Nat :=
  let c1_i32_160 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_154 : BitVec 32 := 1#32
  let v208 : BitVec 32 := Scalar.subi v139 c1_i32_154
  let c16_i32_159 : BitVec 32 := 16#32
  let v215 : BitVec 32 := Scalar.muli v208 c16_i32_159
  let v216 : BitVec 32 := Scalar.addi v2 v215
  let c0_i32_161 : BitVec 32 := 0#32
  ![1, v216.toNat, 0]
def k0_off70 (i : grid0.Coords) (k0_t1 : Fin k0_t1_loop.trips) : Fin 3 → Nat :=
  let c2_i32_164 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_154 : BitVec 32 := 1#32
  let v208 : BitVec 32 := Scalar.subi v139 c1_i32_154
  let c16_i32_163 : BitVec 32 := 16#32
  let v221 : BitVec 32 := Scalar.muli v208 c16_i32_163
  let v222 : BitVec 32 := Scalar.addi v2 v221
  let c0_i32_165 : BitVec 32 := 0#32
  ![2, v222.toNat, 0]
def k0_off71 (i : grid0.Coords) (k0_t1 : Fin k0_t1_loop.trips) : Fin 3 → Nat :=
  let c3_i32_168 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_154 : BitVec 32 := 1#32
  let v208 : BitVec 32 := Scalar.subi v139 c1_i32_154
  let c16_i32_167 : BitVec 32 := 16#32
  let v227 : BitVec 32 := Scalar.muli v208 c16_i32_167
  let v228 : BitVec 32 := Scalar.addi v2 v227
  let c0_i32_169 : BitVec 32 := 0#32
  ![3, v228.toNat, 0]
def k0_cond5 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_107 : BitVec 32 := 1#32
  let v146 : BitVec 32 := Scalar.addi v139 c1_i32_107
  let c16_i32_108 : BitVec 32 := 16#32
  let v147 : BitVec 1 := Scalar.cmpi .slt v146 c16_i32_108
  let v148 : BitVec 32 := Scalar.extui v147
  let c0_i32_109 : BitVec 32 := 0#32
  let v149 : BitVec 1 := Scalar.cmpi .ne v148 c0_i32_109
  v149

def k0_off72 (i : grid0.Coords) (k0_t1 : Fin k0_t1_loop.trips) : Fin 3 → Nat :=
  let c0_i32_156 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_154 : BitVec 32 := 1#32
  let v208 : BitVec 32 := Scalar.addi v139 c1_i32_154
  let c16_i32_155 : BitVec 32 := 16#32
  let v209 : BitVec 32 := Scalar.muli v208 c16_i32_155
  let v210 : BitVec 32 := Scalar.addi v2 v209
  let c0_i32_157 : BitVec 32 := 0#32
  ![0, v210.toNat, 0]
def k0_off73 (i : grid0.Coords) (k0_t1 : Fin k0_t1_loop.trips) : Fin 3 → Nat :=
  let c1_i32_160 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_154 : BitVec 32 := 1#32
  let v208 : BitVec 32 := Scalar.addi v139 c1_i32_154
  let c16_i32_159 : BitVec 32 := 16#32
  let v215 : BitVec 32 := Scalar.muli v208 c16_i32_159
  let v216 : BitVec 32 := Scalar.addi v2 v215
  let c0_i32_161 : BitVec 32 := 0#32
  ![1, v216.toNat, 0]
def k0_off74 (i : grid0.Coords) (k0_t1 : Fin k0_t1_loop.trips) : Fin 3 → Nat :=
  let c2_i32_164 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_154 : BitVec 32 := 1#32
  let v208 : BitVec 32 := Scalar.addi v139 c1_i32_154
  let c16_i32_163 : BitVec 32 := 16#32
  let v221 : BitVec 32 := Scalar.muli v208 c16_i32_163
  let v222 : BitVec 32 := Scalar.addi v2 v221
  let c0_i32_165 : BitVec 32 := 0#32
  ![2, v222.toNat, 0]
def k0_off75 (i : grid0.Coords) (k0_t1 : Fin k0_t1_loop.trips) : Fin 3 → Nat :=
  let c3_i32_168 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_154 : BitVec 32 := 1#32
  let v208 : BitVec 32 := Scalar.addi v139 c1_i32_154
  let c16_i32_167 : BitVec 32 := 16#32
  let v227 : BitVec 32 := Scalar.muli v208 c16_i32_167
  let v228 : BitVec 32 := Scalar.addi v2 v227
  let c0_i32_169 : BitVec 32 := 0#32
  ![3, v228.toNat, 0]
def k0_cond6 (k0_t1 : Fin k0_t1_loop.trips) : BitVec 1 :=
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_113 : BitVec 32 := 1#32
  let v154 : BitVec 32 := Scalar.addi v139 c1_i32_113
  let c16_i32_114 : BitVec 32 := 16#32
  let v155 : BitVec 1 := Scalar.cmpi .slt v154 c16_i32_114
  let v156 : BitVec 32 := Scalar.extui v155
  let c0_i32_115 : BitVec 32 := 0#32
  let v157 : BitVec 1 := Scalar.cmpi .ne v156 c0_i32_115
  v157

def k0_off76 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_17 : BitVec 32 := 0#32
  let c1_i32_18 : BitVec 32 := 1#32
  let arg21 : BitVec 32 := Scf.iv c0_i32_17 c1_i32_18 k0_t1
  let c2_i32_101 : BitVec 32 := 2#32
  let v138 : BitVec 32 := Scalar.muli arg21 c2_i32_101
  let c1_i32_102 : BitVec 32 := 1#32
  let v139 : BitVec 32 := Scalar.addi v138 c1_i32_102
  let c1_i32_154 : BitVec 32 := 1#32
  let v208 : BitVec 32 := Scalar.addi v139 c1_i32_154
  let c16_i32_155 : BitVec 32 := 16#32
  let v209 : BitVec 32 := Scalar.muli v208 c16_i32_155
  let v210 : BitVec 32 := Scalar.addi v2 v209
  let c0_i32_156 : BitVec 32 := 0#32
  ![v210.toNat, 0]
@[reducible] def k0_t3_loop : Scf.Loop 32 :=
  let c0_i32_133 : BitVec 32 := 0#32
  let c16_i32_134 : BitVec 32 := 16#32
  let v182 : BitVec 32 := Scalar.addi c0_i32_133 c16_i32_134
  let c1_i32_135 : BitVec 32 := 1#32
  ⟨c0_i32_133, v182, c1_i32_135⟩
def k0_off77 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v208 : Index := Scalar.indexCast arg23
  let c0 : Index := 0#32
  ![v208.toNat, 0]
def k0_off78 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v255 : Index := Scalar.indexCast arg23
  let c16 : Index := 16#32
  ![v255.toNat, 16]
def k0_off79 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v302 : Index := Scalar.indexCast arg23
  let c32 : Index := 32#32
  ![v302.toNat, 32]
def k0_off80 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v349 : Index := Scalar.indexCast arg23
  let c48 : Index := 48#32
  ![v349.toNat, 48]
def k0_off81 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v396 : Index := Scalar.indexCast arg23
  let c64 : Index := 64#32
  ![v396.toNat, 64]
def k0_off82 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v443 : Index := Scalar.indexCast arg23
  let c80 : Index := 80#32
  ![v443.toNat, 80]
def k0_off83 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v490 : Index := Scalar.indexCast arg23
  let c96 : Index := 96#32
  ![v490.toNat, 96]
def k0_off84 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v537 : Index := Scalar.indexCast arg23
  let c112 : Index := 112#32
  ![v537.toNat, 112]
def k0_off85 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v584 : Index := Scalar.indexCast arg23
  let c128 : Index := 128#32
  ![v584.toNat, 128]
def k0_off86 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v631 : Index := Scalar.indexCast arg23
  let c144 : Index := 144#32
  ![v631.toNat, 144]
def k0_off87 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v678 : Index := Scalar.indexCast arg23
  let c160 : Index := 160#32
  ![v678.toNat, 160]
def k0_off88 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v725 : Index := Scalar.indexCast arg23
  let c176 : Index := 176#32
  ![v725.toNat, 176]
def k0_off89 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v772 : Index := Scalar.indexCast arg23
  let c192 : Index := 192#32
  ![v772.toNat, 192]
def k0_off90 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v819 : Index := Scalar.indexCast arg23
  let c208 : Index := 208#32
  ![v819.toNat, 208]
def k0_off91 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v866 : Index := Scalar.indexCast arg23
  let c224 : Index := 224#32
  ![v866.toNat, 224]
def k0_off92 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v913 : Index := Scalar.indexCast arg23
  let c240 : Index := 240#32
  ![v913.toNat, 240]
def k0_off93 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v960 : Index := Scalar.indexCast arg23
  let c256 : Index := 256#32
  ![v960.toNat, 256]
def k0_off94 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1007 : Index := Scalar.indexCast arg23
  let c272 : Index := 272#32
  ![v1007.toNat, 272]
def k0_off95 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1054 : Index := Scalar.indexCast arg23
  let c288 : Index := 288#32
  ![v1054.toNat, 288]
def k0_off96 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1101 : Index := Scalar.indexCast arg23
  let c304 : Index := 304#32
  ![v1101.toNat, 304]
def k0_off97 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1148 : Index := Scalar.indexCast arg23
  let c320 : Index := 320#32
  ![v1148.toNat, 320]
def k0_off98 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1195 : Index := Scalar.indexCast arg23
  let c336 : Index := 336#32
  ![v1195.toNat, 336]
def k0_off99 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1242 : Index := Scalar.indexCast arg23
  let c352 : Index := 352#32
  ![v1242.toNat, 352]
def k0_off100 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1289 : Index := Scalar.indexCast arg23
  let c368 : Index := 368#32
  ![v1289.toNat, 368]
def k0_off101 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1336 : Index := Scalar.indexCast arg23
  let c384 : Index := 384#32
  ![v1336.toNat, 384]
def k0_off102 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1383 : Index := Scalar.indexCast arg23
  let c400 : Index := 400#32
  ![v1383.toNat, 400]
def k0_off103 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1430 : Index := Scalar.indexCast arg23
  let c416 : Index := 416#32
  ![v1430.toNat, 416]
def k0_off104 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1477 : Index := Scalar.indexCast arg23
  let c432 : Index := 432#32
  ![v1477.toNat, 432]
def k0_off105 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1524 : Index := Scalar.indexCast arg23
  let c448 : Index := 448#32
  ![v1524.toNat, 448]
def k0_off106 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1571 : Index := Scalar.indexCast arg23
  let c464 : Index := 464#32
  ![v1571.toNat, 464]
def k0_off107 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1618 : Index := Scalar.indexCast arg23
  let c480 : Index := 480#32
  ![v1618.toNat, 480]
def k0_off108 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1665 : Index := Scalar.indexCast arg23
  let c496 : Index := 496#32
  ![v1665.toNat, 496]
def k0_off109 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1712 : Index := Scalar.indexCast arg23
  let c512 : Index := 512#32
  ![v1712.toNat, 512]
def k0_off110 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1759 : Index := Scalar.indexCast arg23
  let c528 : Index := 528#32
  ![v1759.toNat, 528]
def k0_off111 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1806 : Index := Scalar.indexCast arg23
  let c544 : Index := 544#32
  ![v1806.toNat, 544]
def k0_off112 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1853 : Index := Scalar.indexCast arg23
  let c560 : Index := 560#32
  ![v1853.toNat, 560]
def k0_off113 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1900 : Index := Scalar.indexCast arg23
  let c576 : Index := 576#32
  ![v1900.toNat, 576]
def k0_off114 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1947 : Index := Scalar.indexCast arg23
  let c592 : Index := 592#32
  ![v1947.toNat, 592]
def k0_off115 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v1994 : Index := Scalar.indexCast arg23
  let c608 : Index := 608#32
  ![v1994.toNat, 608]
def k0_off116 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v2041 : Index := Scalar.indexCast arg23
  let c624 : Index := 624#32
  ![v2041.toNat, 624]
def k0_off117 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v2088 : Index := Scalar.indexCast arg23
  let c640 : Index := 640#32
  ![v2088.toNat, 640]
def k0_off118 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v2135 : Index := Scalar.indexCast arg23
  let c656 : Index := 656#32
  ![v2135.toNat, 656]
def k0_off119 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v2182 : Index := Scalar.indexCast arg23
  let c672 : Index := 672#32
  ![v2182.toNat, 672]
def k0_off120 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v2229 : Index := Scalar.indexCast arg23
  let c688 : Index := 688#32
  ![v2229.toNat, 688]
def k0_off121 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v2276 : Index := Scalar.indexCast arg23
  let c704 : Index := 704#32
  ![v2276.toNat, 704]
def k0_off122 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v2323 : Index := Scalar.indexCast arg23
  let c720 : Index := 720#32
  ![v2323.toNat, 720]
def k0_off123 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v2370 : Index := Scalar.indexCast arg23
  let c736 : Index := 736#32
  ![v2370.toNat, 736]
def k0_off124 (k0_t3 : Fin k0_t3_loop.trips) : Fin 2 → Nat :=
  let c0_i32_133 : BitVec 32 := 0#32
  let c1_i32_135 : BitVec 32 := 1#32
  let arg23 : BitVec 32 := Scf.iv c0_i32_133 c1_i32_135 k0_t3
  let v2417 : Index := Scalar.indexCast arg23
  let c752 : Index := 752#32
  ![v2417.toNat, 752]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x16x768_S16x768 : S1x16x768.Squeezes S16x768
  h_S1x16 : 0 < S1x16.numel
  shapeCasts_S1x16_S16 : S1x16.ShapeCasts S16
  shapeCasts_S16_S1x16 : S16.ShapeCasts S1x16
  hcc0_scratch10 : 0 + S_.numel ≤ 6
  hcc0_scratch11 : 1 + S_.numel ≤ 6
  hcc0_scratch12 : 2 + S_.numel ≤ 6
  hcc0_scratch13 : 3 + S_.numel ≤ 6
  hcc0_scratch14 : 4 + S_.numel ≤ 6
  hcc0_scratch15 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16x768.size a ≤ S8192x768.size a
  k0_off2_inb : ∀ i : grid0.Coords, ∀ (r : Fin 3), ∀ a, (k0_off2 i (k0_off2_at r)) a + S1x16x768.size a ≤ S4x8192x768.size a
  k0_off3_inb : ∀ i : grid0.Coords, ∀ (r : Fin 3), ∀ a, (k0_off3 i (k0_off3_at r)) a + S1x16x768.size a ≤ S4x8192x768.size a
  k0_off4_inb : ∀ i : grid0.Coords, ∀ (r : Fin 3), ∀ a, (k0_off4 i (k0_off4_at r)) a + S1x16x768.size a ≤ S4x8192x768.size a
  k0_off5_inb : ∀ i : grid0.Coords, ∀ (r : Fin 3), ∀ a, (k0_off5 i (k0_off5_at r)) a + S1x16x768.size a ≤ S4x8192x768.size a
  k0_t1_ok : k0_t1_loop.OK
  k0_off6_inb : ∀ (i : grid0.Coords) (k0_t1 : Fin k0_t1_loop.trips), ∀ (k0_h1 : k0_cond1 k0_t1 = 1#1), ∀ a, (k0_off6 i k0_t1) a + S1x16x768.size a ≤ S4x8192x768.size a
  k0_off7_inb : ∀ (i : grid0.Coords) (k0_t1 : Fin k0_t1_loop.trips), ∀ (k0_h1 : k0_cond1 k0_t1 = 1#1), ∀ a, (k0_off7 i k0_t1) a + S1x16x768.size a ≤ S4x8192x768.size a
  k0_off8_inb : ∀ (i : grid0.Coords) (k0_t1 : Fin k0_t1_loop.trips), ∀ (k0_h1 : k0_cond1 k0_t1 = 1#1), ∀ a, (k0_off8 i k0_t1) a + S1x16x768.size a ≤ S4x8192x768.size a
  k0_off9_inb : ∀ (i : grid0.Coords) (k0_t1 : Fin k0_t1_loop.trips), ∀ (k0_h1 : k0_cond1 k0_t1 = 1#1), ∀ a, (k0_off9 i k0_t1) a + S1x16x768.size a ≤ S4x8192x768.size a
  k0_off10_inb : ∀ (i : grid0.Coords) (k0_t1 : Fin k0_t1_loop.trips), ∀ (k0_h2 : k0_cond2 k0_t1 = 1#1), ∀ a, (k0_off10 i k0_t1) a + S1x16x768.size a ≤ S4x8192x768.size a
  k0_off11_inb : ∀ (i : grid0.Coords) (k0_t1 : Fin k0_t1_loop.trips), ∀ (k0_h2 : k0_cond2 k0_t1 = 1#1), ∀ a, (k0_off11 i k0_t1) a + S1x16x768.size a ≤ S4x8192x768.size a
  k0_off12_inb : ∀ (i : grid0.Coords) (k0_t1 : Fin k0_t1_loop.trips), ∀ (k0_h2 : k0_cond2 k0_t1 = 1#1), ∀ a, (k0_off12 i k0_t1) a + S1x16x768.size a ≤ S4x8192x768.size a
  k0_off13_inb : ∀ (i : grid0.Coords) (k0_t1 : Fin k0_t1_loop.trips), ∀ (k0_h2 : k0_cond2 k0_t1 = 1#1), ∀ a, (k0_off13 i k0_t1) a + S1x16x768.size a ≤ S4x8192x768.size a
  k0_off14_inb : ∀ (i : grid0.Coords) (k0_t1 : Fin k0_t1_loop.trips), ∀ (r : Fin 2), ∀ a, (k0_off14 i k0_t1 (BitVec.ofNat 32 r.val)) a + S16x768.size a ≤ S8192x768.size a
  k0_off15_inb : ∀ (i : grid0.Coords) (k0_t1 : Fin k0_t1_loop.trips), ∀ (k0_h3 : k0_cond3 k0_t1 = 1#1), ∀ a, (k0_off15 i k0_t1) a + S16x768.size a ≤ S8192x768.size a
  k0_off16_inb : ∀ (i : grid0.Coords) (k0_t1 : Fin k0_t1_loop.trips), ∀ (r : Fin 2), ∀ a, (k0_off16 i k0_t1 (BitVec.ofNat 32 r.val)) a + S1x16x768.size a ≤ S4x8192x768.size a
  k0_off17_inb : ∀ (i : grid0.Coords) (k0_t1 : Fin k0_t1_loop.trips), ∀ (r : Fin 2), ∀ a, (k0_off17 i k0_t1 (BitVec.ofNat 32 r.val)) a + S1x16x768.size a ≤ S4x8192x768.size a
  k0_off18_inb : ∀ (i : grid0.Coords) (k0_t1 : Fin k0_t1_loop.trips), ∀ (r : Fin 2), ∀ a, (k0_off18 i k0_t1 (BitVec.ofNat 32 r.val)) a + S1x16x768.size a ≤ S4x8192x768.size a
  k0_off19_inb : ∀ (i : grid0.Coords) (k0_t1 : Fin k0_t1_loop.trips), ∀ (r : Fin 2), ∀ a, (k0_off19 i k0_t1 (BitVec.ofNat 32 r.val)) a + S1x16x768.size a ≤ S4x8192x768.size a
  k0_t2_ok : k0_t2_loop.OK
  k0_off20_inb : ∀ k0_t2 : Fin k0_t2_loop.trips, ∀ a, (k0_off20 k0_t2) a + S1x16.size a ≤ S16x768.size a
  k0_off21_inb : ∀ k0_t2 : Fin k0_t2_loop.trips, ∀ a, (k0_off21 k0_t2) a + S1x16.size a ≤ S16x768.size a
  k0_off22_inb : ∀ k0_t2 : Fin k0_t2_loop.trips, ∀ a, (k0_off22 k0_t2) a + S1x16.size a ≤ S16x768.size a
  k0_off23_inb : ∀ k0_t2 : Fin k0_t2_loop.trips, ∀ a, (k0_off23 k0_t2) a + S1x16.size a ≤ S16x768.size a
  k0_off24_inb : ∀ k0_t2 : Fin k0_t2_loop.trips, ∀ a, (k0_off24 k0_t2) a + S1x16.size a ≤ S16x768.size a
  k0_off25_inb : ∀ k0_t2 : Fin k0_t2_loop.trips, ∀ a, (k0_off25 k0_t2) a + S1x16.size a ≤ S16x768.size a
  k0_off26_inb : ∀ k0_t2 : Fin k0_t2_loop.trips, ∀ a, (k0_off26 k0_t2) a + S1x16.size a ≤ S16x768.size a
  k0_off27_inb : ∀ k0_t2 : Fin k0_t2_loop.trips, ∀ a, (k0_off27 k0_t2) a + S1x16.size a ≤ S16x768.size a
  k0_off28_inb : ∀ k0_t2 : Fin k0_t2_loop.trips, ∀ a, (k0_off28 k0_t2) a + S1x16.size a ≤ S16x768.size a
  k0_off29_inb : ∀ k0_t2 : Fin k0_t2_loop.trips, ∀ a, (k0_off29 k0_t2) a + S1x16.size a ≤ S16x768.size a
  k0_off30_inb : ∀ k0_t2 : Fin k0_t2_loop.trips, ∀ a, (k0_off30 k0_t2) a + S1x16.size a ≤ S16x768.size a
  k0_off31_inb : ∀ k0_t2 : Fin k0_t2_loop.trips, ∀ a, (k0_off31 k0_t2) a + S1x16.size a ≤ S16x768.size a
  k0_off32_inb : ∀ k0_t2 : Fin k0_t2_loop.trips, ∀ a, (k0_off32 k0_t2) a + S1x16.size a ≤ S16x768.size a
  k0_off33_inb : ∀ k0_t2 : Fin k0_t2_loop.trips, ∀ a, (k0_off33 k0_t2) a + S1x16.size a ≤ S16x768.size a
  k0_off34_inb : ∀ k0_t2 : Fin k0_t2_loop.trips, ∀ a, (k0_off34 k0_t2) a + S1x16.size a ≤ S16x768.size a
  k0_off35_inb : ∀ k0_t2 : Fin k0_t2_loop.trips, ∀ a, (k0_off35 k0_t2) a + S1x16.size a ≤ S16x768.size a
  k0_off36_inb : ∀ k0_t2 : Fin k0_t2_loop.trips, ∀ a, (k0_off36 k0_t2) a + S1x16.size a ≤ S16x768.size a
  k0_off37_inb : ∀ k0_t2 : Fin k0_t2_loop.trips, ∀ a, (k0_off37 k0_t2) a + S1x16.size a ≤ S16x768.size a
  k0_off38_inb : ∀ k0_t2 : Fin k0_t2_loop.trips, ∀ a, (k0_off38 k0_t2) a + S1x16.size a ≤ S16x768.size a
  k0_off39_inb : ∀ k0_t2 : Fin k0_t2_loop.trips, ∀ a, (k0_off39 k0_t2) a + S1x16.size a ≤ S16x768.size a
  k0_off40_inb : ∀ k0_t2 : Fin k0_t2_loop.trips, ∀ a, (k0_off40 k0_t2) a + S1x16.size a ≤ S16x768.size a
  k0_off41_inb : ∀ k0_t2 : Fin k0_t2_loop.trips, ∀ a, (k0_off41 k0_t2) a + S1x16.size a ≤ S16x768.size a
  k0_off42_inb : ∀ k0_t2 : Fin k0_t2_loop.trips, ∀ a, (k0_off42 k0_t2) a + S1x16.size a ≤ S16x768.size a
  k0_off43_inb : ∀ k0_t2 : Fin k0_t2_loop.trips, ∀ a, (k0_off43 k0_t2) a + S1x16.size a ≤ S16x768.size a
  k0_off44_inb : ∀ k0_t2 : Fin k0_t2_loop.trips, ∀ a, (k0_off44 k0_t2) a + S1x16.size a ≤ S16x768.size a
  k0_off45_inb : ∀ k0_t2 : Fin k0_t2_loop.trips, ∀ a, (k0_off45 k0_t2) a + S1x16.size a ≤ S16x768.size a
  k0_off46_inb : ∀ k0_t2 : Fin k0_t2_loop.trips, ∀ a, (k0_off46 k0_t2) a + S1x16.size a ≤ S16x768.size a
  k0_off47_inb : ∀ k0_t2 : Fin k0_t2_loop.trips, ∀ a, (k0_off47 k0_t2) a + S1x16.size a ≤ S16x768.size a
  k0_off48_inb : ∀ k0_t2 : Fin k0_t2_loop.trips, ∀ a, (k0_off48 k0_t2) a + S1x16.size a ≤ S16x768.size a
  k0_off49_inb : ∀ k0_t2 : Fin k0_t2_loop.trips, ∀ a, (k0_off49 k0_t2) a + S1x16.size a ≤ S16x768.size a
  k0_off50_inb : ∀ k0_t2 : Fin k0_t2_loop.trips, ∀ a, (k0_off50 k0_t2) a + S1x16.size a ≤ S16x768.size a
  k0_off51_inb : ∀ k0_t2 : Fin k0_t2_loop.trips, ∀ a, (k0_off51 k0_t2) a + S1x16.size a ≤ S16x768.size a
  k0_off52_inb : ∀ k0_t2 : Fin k0_t2_loop.trips, ∀ a, (k0_off52 k0_t2) a + S1x16.size a ≤ S16x768.size a
  k0_off53_inb : ∀ k0_t2 : Fin k0_t2_loop.trips, ∀ a, (k0_off53 k0_t2) a + S1x16.size a ≤ S16x768.size a
  k0_off54_inb : ∀ k0_t2 : Fin k0_t2_loop.trips, ∀ a, (k0_off54 k0_t2) a + S1x16.size a ≤ S16x768.size a
  k0_off55_inb : ∀ k0_t2 : Fin k0_t2_loop.trips, ∀ a, (k0_off55 k0_t2) a + S1x16.size a ≤ S16x768.size a
  k0_off56_inb : ∀ k0_t2 : Fin k0_t2_loop.trips, ∀ a, (k0_off56 k0_t2) a + S1x16.size a ≤ S16x768.size a
  k0_off57_inb : ∀ k0_t2 : Fin k0_t2_loop.trips, ∀ a, (k0_off57 k0_t2) a + S1x16.size a ≤ S16x768.size a
  k0_off58_inb : ∀ k0_t2 : Fin k0_t2_loop.trips, ∀ a, (k0_off58 k0_t2) a + S1x16.size a ≤ S16x768.size a
  k0_off59_inb : ∀ k0_t2 : Fin k0_t2_loop.trips, ∀ a, (k0_off59 k0_t2) a + S1x16.size a ≤ S16x768.size a
  k0_off60_inb : ∀ k0_t2 : Fin k0_t2_loop.trips, ∀ a, (k0_off60 k0_t2) a + S1x16.size a ≤ S16x768.size a
  k0_off61_inb : ∀ k0_t2 : Fin k0_t2_loop.trips, ∀ a, (k0_off61 k0_t2) a + S1x16.size a ≤ S16x768.size a
  k0_off62_inb : ∀ k0_t2 : Fin k0_t2_loop.trips, ∀ a, (k0_off62 k0_t2) a + S1x16.size a ≤ S16x768.size a
  k0_off63_inb : ∀ k0_t2 : Fin k0_t2_loop.trips, ∀ a, (k0_off63 k0_t2) a + S1x16.size a ≤ S16x768.size a
  k0_off64_inb : ∀ k0_t2 : Fin k0_t2_loop.trips, ∀ a, (k0_off64 k0_t2) a + S1x16.size a ≤ S16x768.size a
  k0_off65_inb : ∀ k0_t2 : Fin k0_t2_loop.trips, ∀ a, (k0_off65 k0_t2) a + S1x16.size a ≤ S16x768.size a
  k0_off66_inb : ∀ k0_t2 : Fin k0_t2_loop.trips, ∀ a, (k0_off66 k0_t2) a + S1x16.size a ≤ S16x768.size a
  k0_off67_inb : ∀ k0_t2 : Fin k0_t2_loop.trips, ∀ a, (k0_off67 k0_t2) a + S1x16.size a ≤ S16x768.size a
  k0_off68_inb : ∀ (i : grid0.Coords) (k0_t1 : Fin k0_t1_loop.trips), ∀ (k0_h4 : k0_cond4 k0_t1 = 1#1), ∀ a, (k0_off68 i k0_t1) a + S1x16x768.size a ≤ S4x8192x768.size a
  k0_off69_inb : ∀ (i : grid0.Coords) (k0_t1 : Fin k0_t1_loop.trips), ∀ (k0_h4 : k0_cond4 k0_t1 = 1#1), ∀ a, (k0_off69 i k0_t1) a + S1x16x768.size a ≤ S4x8192x768.size a
  k0_off70_inb : ∀ (i : grid0.Coords) (k0_t1 : Fin k0_t1_loop.trips), ∀ (k0_h4 : k0_cond4 k0_t1 = 1#1), ∀ a, (k0_off70 i k0_t1) a + S1x16x768.size a ≤ S4x8192x768.size a
  k0_off71_inb : ∀ (i : grid0.Coords) (k0_t1 : Fin k0_t1_loop.trips), ∀ (k0_h4 : k0_cond4 k0_t1 = 1#1), ∀ a, (k0_off71 i k0_t1) a + S1x16x768.size a ≤ S4x8192x768.size a
  k0_off72_inb : ∀ (i : grid0.Coords) (k0_t1 : Fin k0_t1_loop.trips), ∀ (k0_h5 : k0_cond5 k0_t1 = 1#1), ∀ a, (k0_off72 i k0_t1) a + S1x16x768.size a ≤ S4x8192x768.size a
  k0_off73_inb : ∀ (i : grid0.Coords) (k0_t1 : Fin k0_t1_loop.trips), ∀ (k0_h5 : k0_cond5 k0_t1 = 1#1), ∀ a, (k0_off73 i k0_t1) a + S1x16x768.size a ≤ S4x8192x768.size a
  k0_off74_inb : ∀ (i : grid0.Coords) (k0_t1 : Fin k0_t1_loop.trips), ∀ (k0_h5 : k0_cond5 k0_t1 = 1#1), ∀ a, (k0_off74 i k0_t1) a + S1x16x768.size a ≤ S4x8192x768.size a
  k0_off75_inb : ∀ (i : grid0.Coords) (k0_t1 : Fin k0_t1_loop.trips), ∀ (k0_h5 : k0_cond5 k0_t1 = 1#1), ∀ a, (k0_off75 i k0_t1) a + S1x16x768.size a ≤ S4x8192x768.size a
  k0_off76_inb : ∀ (i : grid0.Coords) (k0_t1 : Fin k0_t1_loop.trips), ∀ (k0_h6 : k0_cond6 k0_t1 = 1#1), ∀ a, (k0_off76 i k0_t1) a + S16x768.size a ≤ S8192x768.size a
  k0_t3_ok : k0_t3_loop.OK
  k0_off77_inb : ∀ k0_t3 : Fin k0_t3_loop.trips, ∀ a, (k0_off77 k0_t3) a + S1x16.size a ≤ S16x768.size a
  k0_off78_inb : ∀ k0_t3 : Fin k0_t3_loop.trips, ∀ a, (k0_off78 k0_t3) a + S1x16.size a ≤ S16x768.size a
  k0_off79_inb : ∀ k0_t3 : Fin k0_t3_loop.trips, ∀ a, (k0_off79 k0_t3) a + S1x16.size a ≤ S16x768.size a
  k0_off80_inb : ∀ k0_t3 : Fin k0_t3_loop.trips, ∀ a, (k0_off80 k0_t3) a + S1x16.size a ≤ S16x768.size a
  k0_off81_inb : ∀ k0_t3 : Fin k0_t3_loop.trips, ∀ a, (k0_off81 k0_t3) a + S1x16.size a ≤ S16x768.size a
  k0_off82_inb : ∀ k0_t3 : Fin k0_t3_loop.trips, ∀ a, (k0_off82 k0_t3) a + S1x16.size a ≤ S16x768.size a
  k0_off83_inb : ∀ k0_t3 : Fin k0_t3_loop.trips, ∀ a, (k0_off83 k0_t3) a + S1x16.size a ≤ S16x768.size a
  k0_off84_inb : ∀ k0_t3 : Fin k0_t3_loop.trips, ∀ a, (k0_off84 k0_t3) a + S1x16.size a ≤ S16x768.size a
  k0_off85_inb : ∀ k0_t3 : Fin k0_t3_loop.trips, ∀ a, (k0_off85 k0_t3) a + S1x16.size a ≤ S16x768.size a
  k0_off86_inb : ∀ k0_t3 : Fin k0_t3_loop.trips, ∀ a, (k0_off86 k0_t3) a + S1x16.size a ≤ S16x768.size a
  k0_off87_inb : ∀ k0_t3 : Fin k0_t3_loop.trips, ∀ a, (k0_off87 k0_t3) a + S1x16.size a ≤ S16x768.size a
  k0_off88_inb : ∀ k0_t3 : Fin k0_t3_loop.trips, ∀ a, (k0_off88 k0_t3) a + S1x16.size a ≤ S16x768.size a
  k0_off89_inb : ∀ k0_t3 : Fin k0_t3_loop.trips, ∀ a, (k0_off89 k0_t3) a + S1x16.size a ≤ S16x768.size a
  k0_off90_inb : ∀ k0_t3 : Fin k0_t3_loop.trips, ∀ a, (k0_off90 k0_t3) a + S1x16.size a ≤ S16x768.size a
  k0_off91_inb : ∀ k0_t3 : Fin k0_t3_loop.trips, ∀ a, (k0_off91 k0_t3) a + S1x16.size a ≤ S16x768.size a
  k0_off92_inb : ∀ k0_t3 : Fin k0_t3_loop.trips, ∀ a, (k0_off92 k0_t3) a + S1x16.size a ≤ S16x768.size a
  k0_off93_inb : ∀ k0_t3 : Fin k0_t3_loop.trips, ∀ a, (k0_off93 k0_t3) a + S1x16.size a ≤ S16x768.size a
  k0_off94_inb : ∀ k0_t3 : Fin k0_t3_loop.trips, ∀ a, (k0_off94 k0_t3) a + S1x16.size a ≤ S16x768.size a
  k0_off95_inb : ∀ k0_t3 : Fin k0_t3_loop.trips, ∀ a, (k0_off95 k0_t3) a + S1x16.size a ≤ S16x768.size a
  k0_off96_inb : ∀ k0_t3 : Fin k0_t3_loop.trips, ∀ a, (k0_off96 k0_t3) a + S1x16.size a ≤ S16x768.size a
  k0_off97_inb : ∀ k0_t3 : Fin k0_t3_loop.trips, ∀ a, (k0_off97 k0_t3) a + S1x16.size a ≤ S16x768.size a
  k0_off98_inb : ∀ k0_t3 : Fin k0_t3_loop.trips, ∀ a, (k0_off98 k0_t3) a + S1x16.size a ≤ S16x768.size a
  k0_off99_inb : ∀ k0_t3 : Fin k0_t3_loop.trips, ∀ a, (k0_off99 k0_t3) a + S1x16.size a ≤ S16x768.size a
  k0_off100_inb : ∀ k0_t3 : Fin k0_t3_loop.trips, ∀ a, (k0_off100 k0_t3) a + S1x16.size a ≤ S16x768.size a
  k0_off101_inb : ∀ k0_t3 : Fin k0_t3_loop.trips, ∀ a, (k0_off101 k0_t3) a + S1x16.size a ≤ S16x768.size a
  k0_off102_inb : ∀ k0_t3 : Fin k0_t3_loop.trips, ∀ a, (k0_off102 k0_t3) a + S1x16.size a ≤ S16x768.size a
  k0_off103_inb : ∀ k0_t3 : Fin k0_t3_loop.trips, ∀ a, (k0_off103 k0_t3) a + S1x16.size a ≤ S16x768.size a
  k0_off104_inb : ∀ k0_t3 : Fin k0_t3_loop.trips, ∀ a, (k0_off104 k0_t3) a + S1x16.size a ≤ S16x768.size a
  k0_off105_inb : ∀ k0_t3 : Fin k0_t3_loop.trips, ∀ a, (k0_off105 k0_t3) a + S1x16.size a ≤ S16x768.size a
  k0_off106_inb : ∀ k0_t3 : Fin k0_t3_loop.trips, ∀ a, (k0_off106 k0_t3) a + S1x16.size a ≤ S16x768.size a
  k0_off107_inb : ∀ k0_t3 : Fin k0_t3_loop.trips, ∀ a, (k0_off107 k0_t3) a + S1x16.size a ≤ S16x768.size a
  k0_off108_inb : ∀ k0_t3 : Fin k0_t3_loop.trips, ∀ a, (k0_off108 k0_t3) a + S1x16.size a ≤ S16x768.size a
  k0_off109_inb : ∀ k0_t3 : Fin k0_t3_loop.trips, ∀ a, (k0_off109 k0_t3) a + S1x16.size a ≤ S16x768.size a
  k0_off110_inb : ∀ k0_t3 : Fin k0_t3_loop.trips, ∀ a, (k0_off110 k0_t3) a + S1x16.size a ≤ S16x768.size a
  k0_off111_inb : ∀ k0_t3 : Fin k0_t3_loop.trips, ∀ a, (k0_off111 k0_t3) a + S1x16.size a ≤ S16x768.size a
  k0_off112_inb : ∀ k0_t3 : Fin k0_t3_loop.trips, ∀ a, (k0_off112 k0_t3) a + S1x16.size a ≤ S16x768.size a
  k0_off113_inb : ∀ k0_t3 : Fin k0_t3_loop.trips, ∀ a, (k0_off113 k0_t3) a + S1x16.size a ≤ S16x768.size a
  k0_off114_inb : ∀ k0_t3 : Fin k0_t3_loop.trips, ∀ a, (k0_off114 k0_t3) a + S1x16.size a ≤ S16x768.size a
  k0_off115_inb : ∀ k0_t3 : Fin k0_t3_loop.trips, ∀ a, (k0_off115 k0_t3) a + S1x16.size a ≤ S16x768.size a
  k0_off116_inb : ∀ k0_t3 : Fin k0_t3_loop.trips, ∀ a, (k0_off116 k0_t3) a + S1x16.size a ≤ S16x768.size a
  k0_off117_inb : ∀ k0_t3 : Fin k0_t3_loop.trips, ∀ a, (k0_off117 k0_t3) a + S1x16.size a ≤ S16x768.size a
  k0_off118_inb : ∀ k0_t3 : Fin k0_t3_loop.trips, ∀ a, (k0_off118 k0_t3) a + S1x16.size a ≤ S16x768.size a
  k0_off119_inb : ∀ k0_t3 : Fin k0_t3_loop.trips, ∀ a, (k0_off119 k0_t3) a + S1x16.size a ≤ S16x768.size a
  k0_off120_inb : ∀ k0_t3 : Fin k0_t3_loop.trips, ∀ a, (k0_off120 k0_t3) a + S1x16.size a ≤ S16x768.size a
  k0_off121_inb : ∀ k0_t3 : Fin k0_t3_loop.trips, ∀ a, (k0_off121 k0_t3) a + S1x16.size a ≤ S16x768.size a
  k0_off122_inb : ∀ k0_t3 : Fin k0_t3_loop.trips, ∀ a, (k0_off122 k0_t3) a + S1x16.size a ≤ S16x768.size a
  k0_off123_inb : ∀ k0_t3 : Fin k0_t3_loop.trips, ∀ a, (k0_off123 k0_t3) a + S1x16.size a ≤ S16x768.size a
  k0_off124_inb : ∀ k0_t3 : Fin k0_t3_loop.trips, ∀ a, (k0_off124 k0_t3) a + S1x16.size a ≤ S16x768.size a

variable [Facts₀]

abbrev cc0_scratch10 : DmaSems sig S_ := SemArray.consecutive 0 S_ hcc0_scratch10
abbrev cc0_scratch11 : DmaSems sig S_ := SemArray.consecutive 1 S_ hcc0_scratch11
abbrev cc0_scratch12 : DmaSems sig S_ := SemArray.consecutive 2 S_ hcc0_scratch12
abbrev cc0_scratch13 : DmaSems sig S_ := SemArray.consecutive 3 S_ hcc0_scratch13
abbrev cc0_scratch14 : DmaSems sig S_ := SemArray.consecutive 4 S_ hcc0_scratch14
abbrev cc0_scratch15 : DmaSems sig S_ := SemArray.consecutive 5 S_ hcc0_scratch15

class Facts : Prop extends Facts₀ where

variable [Facts]
-- ==== ReferenceIdeal.lean ====
abbrev S4x8192x768 : Shape := ⟨3, ![4, 8192, 768]⟩
abbrev S8192x768 : Shape := ⟨2, ![8192, 768]⟩
abbrev S_ : Shape := ⟨0, ![]⟩
abbrev S1x8192x768 : Shape := ⟨3, ![1, 8192, 768]⟩

abbrev nBuf : Space → Nat
  | .hbm => 9
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S_, .f32⟩
  | .hbm, ⟨3, _⟩ => ⟨S4x8192x768, .f32⟩
  | .hbm, ⟨4, _⟩ => ⟨S4x8192x768, .i1⟩
  | .hbm, ⟨5, _⟩ => ⟨S1x8192x768, .f32⟩
  | .hbm, ⟨6, _⟩ => ⟨S4x8192x768, .f32⟩
  | .hbm, ⟨7, _⟩ => ⟨S4x8192x768, .f32⟩
  | .hbm, ⟨8, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S4x8192x768 : S_.BroadcastsInDim S4x8192x768 (![] : Fin 0 → Fin S4x8192x768.rank)
  bcast_S8192x768_S1x8192x768_1_2 : S8192x768.BroadcastsInDim S1x8192x768 (![1, 2] : Fin 2 → Fin S1x8192x768.rank)
  bcast_S1x8192x768_S4x8192x768_0_1_2 : S1x8192x768.BroadcastsInDim S4x8192x768 (![0, 1, 2] : Fin 3 → Fin S4x8192x768.rank)

variable [Facts₀]

class Facts : Prop extends Facts₀ where

variable [Facts]
-- ==== Proof.Setup.lean ====
/-
  The idealized kernel's program as the SparseCore launch theorem reads it: the launch configuration, the body table,
  the ghost state (the launch handshakes' rounds beside the counters of the tile's own transfers), and the names of
  the tile's memrefs — the three arrays in HBM, the ten row buffers, the six DMA semaphores.
-/
import proofs.«210086_g67980742361152_cont_9to1c4b_184_18_alg».proof.Proof.Gen.KernelIdeal
import proofs.«210086_g67980742361152_cont_9to1c4b_184_18_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays and the tile's buffers -/

/-- The input, the position table and the result, as locations of device `d`. -/
abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0

abbrev xV : Memref sig .scVector .hbm S4x8192x768 .f32 := Memref.whole main_arg0_scv
abbrev pV : Memref sig .scVector .hbm S8192x768 .f32 := Memref.whole main_arg1_scv
abbrev oV : Memref sig .scVector .hbm S4x8192x768 .f32 := Memref.whole main_v0_scv
/-- The two buffers a chunk of the position table is fetched into, and the two sets of four buffers a chunk of the
    input (one buffer per batch entry) is fetched into, worked on and written out from. -/
abbrev b0 : Memref sig .scVector .vmem S16x768 .f32 := Memref.whole cc0_scratch0
abbrev b1 : Memref sig .scVector .vmem S16x768 .f32 := Memref.whole cc0_scratch1
abbrev b2 : Memref sig .scVector .vmem S16x768 .f32 := Memref.whole cc0_scratch2
abbrev b3 : Memref sig .scVector .vmem S16x768 .f32 := Memref.whole cc0_scratch3
abbrev b4 : Memref sig .scVector .vmem S16x768 .f32 := Memref.whole cc0_scratch4
abbrev b5 : Memref sig .scVector .vmem S16x768 .f32 := Memref.whole cc0_scratch5
abbrev b6 : Memref sig .scVector .vmem S16x768 .f32 := Memref.whole cc0_scratch6
abbrev b7 : Memref sig .scVector .vmem S16x768 .f32 := Memref.whole cc0_scratch7
abbrev b8 : Memref sig .scVector .vmem S16x768 .f32 := Memref.whole cc0_scratch8
abbrev b9 : Memref sig .scVector .vmem S16x768 .f32 := Memref.whole cc0_scratch9

abbrev cV (L : grid0.Coords) : Fin τ.nSC := (L 0).castLE hcore0
abbrev jV (L : grid0.Coords) : Fin τ.nSub := (L 1).castLE hsub0
/-- The tile at grid coordinates `L` of device `d`. -/
abbrev thrV (d : Dev nD) (L : grid0.Coords) : Thread nD τ := V d (cV L) (jV L)

end Cert.KernelIdeal.Hand

end
-- ==== Proof.Spec.lean ====
/-
  What the kernel computes, as one function of the two argument arrays: an entry of the input that is exactly zero
  (a padding entry) is kept; to every other entry the position table's entry of the same row and column is added.
-/
import proofs.«210086_g67980742361152_cont_9to1c4b_184_18_alg».proof.Proof.Setup
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

/-- The result array: at `(b, s, c)` the input's entry if it is zero, else that entry plus the table's at `(s, c)`. -/
def Gfun (x : FVec F S4x8192x768 .f32) (pe : FVec F S8192x768 .f32) : FVec F S4x8192x768 .f32 :=
  select (cmpf .oeq x (broadcast S4x8192x768 (Scalar.ofBits .f32 0x00000000#32))) x
    (addf x (fun i => pe (ValueIdx.ix2 (i 1) (i 2))))

/-- The same on one 16-row block held in a tile's buffer: `x` the block of the input, `pe` the block of the table. -/
def Gblk (pe x : FVec F S16x768 .f32) : FVec F S16x768 .f32 :=
  select (cmpf .oeq x (broadcast S16x768 (Scalar.ofBits .f32 0x00000000#32))) x (addf x pe)

/-- The block with its rows below `r` done and the others as fetched. -/
def Grows (pe x : FVec F S16x768 .f32) (r : ℕ) : FVec F S16x768 .f32 :=
  fun i => if (i 0).val < r then Gblk pe x i else x i

theorem Grows_zero (pe x : FVec F S16x768 .f32) : Grows pe x 0 = x := by
  funext i; simp [Grows]

theorem Grows_all (pe x : FVec F S16x768 .f32) : Grows pe x 16 = Gblk pe x := by
  funext i; have := (i 0).isLt; simp only [Grows]; rw [if_pos]; exact this

end Cert.KernelIdeal.Hand

end
-- ==== Proof.Pieces.lean ====
/-
  A tile's share of the three arrays, chunk by chunk. The tile at grid coordinates `(c, s)` works on the 256 rows from
  `512 s + 256 c` on, in sixteen chunks of sixteen rows; chunk `k` is, for each of the four batch entries, a
  `[1, 16, 768]` block of the input and of the result, and a `[16, 768]` block of the position table.
-/
import proofs.«210086_g67980742361152_cont_9to1c4b_184_18_alg».proof.Proof.Spec

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The first row of chunk `k` of the tile at `L`. -/
def rowOf (L : grid0.Coords) (k : Fin 16) : ℕ := 512 * (L 1).val + 256 * (L 0).val + 16 * k.val

theorem rowOf_le (L : grid0.Coords) (k : Fin 16) : rowOf L k + 16 ≤ 8192 := by
  have h0 : (L 0).val < 2 := (L 0).isLt
  have h1 : (L 1).val < 16 := (L 1).isLt
  have hk := k.isLt
  unfold rowOf; omega

theorem x_inb (L : grid0.Coords) (b : Fin 4) (k : Fin 16) :
    ∀ a, (![b.val, rowOf L k, 0] : Fin 3 → ℕ) a + S1x16x768.size a ≤ S4x8192x768.size a := by
  have := rowOf_le L k; have := b.isLt
  intro a; fin_cases a
  · show b.val + 1 ≤ 4; omega
  · show rowOf L k + 16 ≤ 8192; omega
  · show 0 + 768 ≤ 768; omega

theorem p_inb (L : grid0.Coords) (k : Fin 16) :
    ∀ a, (![rowOf L k, 0] : Fin 2 → ℕ) a + S16x768.size a ≤ S8192x768.size a := by
  have := rowOf_le L k
  intro a; fin_cases a
  · show rowOf L k + 16 ≤ 8192; omega
  · show 0 + 768 ≤ 768; omega

/-- Chunk `k`'s block of batch entry `b`, as a rectangle of a `[4, 8192, 768]` array, and the table's block. -/
abbrev xRect (L : grid0.Coords) (b : Fin 4) (k : Fin 16) : Rect S4x8192x768 := Rect.unit ![b.val, rowOf L k, 0] S1x16x768.size (x_inb L b k)
abbrev pRect (L : grid0.Coords) (k : Fin 16) : Rect S8192x768 := Rect.unit ![rowOf L k, 0] S16x768.size (p_inb L k)

/-- The blocks as memrefs of the tile: of the input, of the result, of the table. -/
abbrev xM (L : grid0.Coords) (b : Fin 4) (k : Fin 16) : Memref sig .scVector .hbm S16x768 .f32 :=
  ((xV).slice (xRect L b k) (fun _ => rfl)).squeeze S16x768 squeezes_S1x16x768_S16x768
abbrev oM (L : grid0.Coords) (b : Fin 4) (k : Fin 16) : Memref sig .scVector .hbm S16x768 .f32 :=
  ((oV).slice (xRect L b k) (fun _ => rfl)).squeeze S16x768 squeezes_S1x16x768_S16x768
abbrev pM (L : grid0.Coords) (k : Fin 16) : Memref sig .scVector .hbm S16x768 .f32 :=
  (pV).slice (pRect L k) (fun _ => rfl)

variable (m : (ℓ : Loc nD τ sig) → Buf (Elt F) ℓ)

variable [FloatOps F]

/-- The result array the kernel leaves on device `d`, of the launch memory's two arguments. -/
def Gout (d : Dev nD) : Buf (Elt F) (oLoc d) := Gfun (m (xLoc d)) (m (pLoc d))

/-- A block held by exactly its own elements. -/
abbrev own (d : Dev nD) (L : grid0.Coords) (M : Memref sig .scVector .hbm S16x768 .f32) (f : Buf (Elt F) (M.view.loc (thrV d L))) : sProp 𝕄 :=
  M.view.loc (thrV d L) ↦[M.view.set]{fullShare} f

/-- What the tile at `L` is handed of chunk `k`: the four blocks of the input and the table's block at their launch
    contents, the four blocks of the result at the launch contents. -/
def chunkPre (d : Dev nD) (L : grid0.Coords) (k : Fin 16) : sProp 𝕄 :=
  iprop((bigSep Finset.univ fun b : Fin 4 => own d L (xM L b k) (m (xLoc d))) ∗ own d L (pM L k) (m (pLoc d))
    ∗ bigSep Finset.univ fun b : Fin 4 => own d L (oM L b k) (m (oLoc d)))

/-- What it hands back: the input's and the table's blocks unchanged, the result's blocks at the result array. -/
def chunkPost (d : Dev nD) (L : grid0.Coords) (k : Fin 16) : sProp 𝕄 :=
  iprop((bigSep Finset.univ fun b : Fin 4 => own d L (xM L b k) (m (xLoc d))) ∗ own d L (pM L k) (m (pLoc d))
    ∗ bigSep Finset.univ fun b : Fin 4 => own d L (oM L b k) (Gout m d))

def tilePre (d : Dev nD) (L : grid0.Coords) : sProp 𝕄 := bigSep Finset.univ fun k : Fin 16 => chunkPre m d L k
def tilePost (d : Dev nD) (L : grid0.Coords) : sProp 𝕄 := bigSep Finset.univ fun k : Fin 16 => chunkPost m d L k

end Cert.KernelIdeal.Hand

end
-- ==== Proof.TileSpec.lean ====
/-
  The statement of one tile's run, as the launch theorem's obligation for a vector-subcore task reads it: from the
  tile's share of the arrays at the launch contents, its own buffers and semaphores, and what it owes the launch, the
  kernel's function on that tile ends with the share handed back, the result's blocks at the result array.
-/
import proofs.«210086_g67980742361152_cont_9to1c4b_184_18_alg».proof.Proof.Pieces

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- Every tile's run, of a launch memory `m`. -/
def TileRun (m : (ℓ : Loc nD τ sig) → Buf (Elt F) ℓ) : Prop :=
  ∀ (d : Dev nD) (L : grid0.Coords) (O : CellTallies nD τ sig (HIx 1)) (W : Waits sig (HIx 1)), (∀ g, O g none = 0) →
    (iprop(levAts (K (F := F)).L (K (F := F)).lev ∗ emp ∗ tilePre m d L
        ∗ scopedBufs (thrV d L) ∗ scopedSems0 (thrV d L) ∗ owes (thrV d L) O W) : sProp 𝕄)
      ⊢ wp frame (wpE (defs₀ (F := F)) 𝒱₀ (thrV d L) none) Set.univ
          (cc0__sc_kernel_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15)
          fun _ => iprop(tilePost m d L ∗ scopedBufs (thrV d L) ∗ scopedSems0 (thrV d L)
            ∗ ∃ W', ⌜∀ p ∈ W', p ∈ W ∨ p.2 = none⌝ ∗ owes (thrV d L) O W')

/-- What the whole program's run leaves: the result at the result array, the two arguments unchanged. -/
def QC (m : (ℓ : Loc nD τ sig) → Buf (Elt F) ℓ) : PUnit × MemSt nD τ sig (Elt F) → Prop :=
  fun r => ∀ c : Dev nD, r.2.mem (oLoc c) = Gout m c ∧ r.2.mem (xLoc c) = m (xLoc c) ∧ r.2.mem (pLoc c) = m (pLoc c)

end Cert.KernelIdeal.Hand

end
-- ==== Proof.Launch.lean ====
/-
  The launch. The program is one SparseCore call: two SparseCores of sixteen tiles each, every tile running the kernel's
  function on its own 256 rows of the three arrays. From a proof of one tile's run the whole program's run follows: the
  three arrays, held whole by the TensorCore at the launch contents, split into the blocks the tiles own — every index
  (b, row, column) lies in exactly one block (c, s, k, b), row = 512 s + 256 c + 16 k + (row mod 16) — and the blocks that
  come back, the result's all at the result array, join to the three arrays whole again.
-/
import proofs.«210086_g67980742361152_cont_9to1c4b_184_18_alg».proof.Proof.TileSpec

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tiles' coordinates -/

theorem bound_zero : grid0.bound 0 = 2 := rfl
theorem bound_one : grid0.bound 1 = 16 := rfl

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same, of the SparseCore's number below 2 and the tile's below 16. -/
abbrev tileL (c : Fin 2) (i : Fin 16) : grid0.Coords := coordsV (Fin.cast bound_zero.symm c) (Fin.cast bound_one.symm i)

theorem rowOf_tileL (c : Fin 2) (i k : Fin 16) : rowOf (tileL c i) k = 512 * i.val + 256 * c.val + 16 * k.val := rfl

/-! ## The blocks as sets of indices -/

/-- An index of a `[4, 8192, 768]` array lies in chunk `k`'s block of batch entry `b` exactly when its batch entry is
    `b` and its row is one of the chunk's sixteen. -/
theorem mem_xRect (L : grid0.Coords) (b : Fin 4) (k : Fin 16) (j : S4x8192x768.Idx) :
    j ∈ (xRect L b k).set ↔ (j 0).val = b.val ∧ rowOf L k ≤ (j 1).val ∧ (j 1).val < rowOf L k + 16 := by
  constructor
  · intro h
    obtain ⟨j0, hj0, e0⟩ := (LoadRect.mem_set _).mp h 0
    obtain ⟨j1, hj1, e1⟩ := (LoadRect.mem_set _).mp h 1
    have hj0' : j0 < 1 := hj0
    have hj1' : j1 < 16 := hj1
    have e0' : (j 0).val = b.val + 1 * j0 := e0
    have e1' : (j 1).val = rowOf L k + 1 * j1 := e1
    omega
  · rintro ⟨h0, h1, h2⟩
    refine (LoadRect.mem_set _).mpr fun a => ?_
    fin_cases a
    · exact ⟨0, Nat.one_pos, show (j 0).val = b.val + 1 * 0 by omega⟩
    · exact ⟨(j 1).val - rowOf L k, show (j 1).val - rowOf L k < 16 by omega,
        show (j 1).val = rowOf L k + 1 * ((j 1).val - rowOf L k) by omega⟩
    · exact ⟨(j 2).val, (j 2).isLt, show (j 2).val = 0 + 1 * (j 2).val by omega⟩

/-- An index of the `[8192, 768]` table lies in chunk `k`'s block exactly when its row is one of the chunk's. -/
theorem mem_pRect (L : grid0.Coords) (k : Fin 16) (j : S8192x768.Idx) :
    j ∈ (pRect L k).set ↔ rowOf L k ≤ (j 0).val ∧ (j 0).val < rowOf L k + 16 := by
  constructor
  · intro h
    obtain ⟨j0, hj0, e0⟩ := (LoadRect.mem_set _).mp h 0
    have hj0' : j0 < 16 := hj0
    have e0' : (j 0).val = rowOf L k + 1 * j0 := e0
    omega
  · rintro ⟨h1, h2⟩
    refine (LoadRect.mem_set _).mpr fun a => ?_
    fin_cases a
    · exact ⟨(j 0).val - rowOf L k, show (j 0).val - rowOf L k < 16 by omega,
        show (j 0).val = rowOf L k + 1 * ((j 0).val - rowOf L k) by omega⟩
    · exact ⟨(j 1).val, (j 1).isLt, show (j 1).val = 0 + 1 * (j 1).val by omega⟩

/-- The blocks' names: SparseCore, tile, chunk, batch entry; and the table's blocks': SparseCore, tile, chunk. -/
abbrev Blk : Type := Fin 2 × Fin 16 × Fin 16 × Fin 4
abbrev Chk : Type := Fin 2 × Fin 16 × Fin 16

def xSet (t : Blk) : Finset S4x8192x768.Idx := (xRect (tileL t.1 t.2.1) t.2.2.2 t.2.2.1).set
def pSet (t : Chk) : Finset S8192x768.Idx := (pRect (tileL t.1 t.2.1) t.2.2).set

theorem mem_xSet (c : Fin 2) (i k : Fin 16) (b : Fin 4) (j : S4x8192x768.Idx) :
    j ∈ xSet (c, i, k, b) ↔ (j 0).val = b.val ∧ 512 * i.val + 256 * c.val + 16 * k.val ≤ (j 1).val
      ∧ (j 1).val < 512 * i.val + 256 * c.val + 16 * k.val + 16 :=
  mem_xRect (tileL c i) b k j

theorem mem_pSet (c : Fin 2) (i k : Fin 16) (j : S8192x768.Idx) :
    j ∈ pSet (c, i, k) ↔ 512 * i.val + 256 * c.val + 16 * k.val ≤ (j 0).val
      ∧ (j 0).val < 512 * i.val + 256 * c.val + 16 * k.val + 16 :=
  mem_pRect (tileL c i) k j

/-- Two different blocks share no index: a row determines tile, SparseCore and chunk. -/
theorem xSet_disjoint : ∀ t ∈ (Finset.univ : Finset Blk), ∀ t' ∈ (Finset.univ : Finset Blk), t ≠ t' → Disjoint (xSet t) (xSet t') := by
  rintro ⟨c, i, k, b⟩ - ⟨c', i', k', b'⟩ - hne
  rw [Finset.disjoint_left]
  intro j h h'
  rw [mem_xSet] at h h'
  have := c.isLt; have := c'.isLt; have := k.isLt; have := k'.isLt
  have hc : c = c' := Fin.ext (by omega)
  have hi : i = i' := Fin.ext (by omega)
  have hk : k = k' := Fin.ext (by omega)
  have hb : b = b' := Fin.ext (by omega)
  subst hc hi hk hb
  exact hne rfl

theorem pSet_disjoint : ∀ t ∈ (Finset.univ : Finset Chk), ∀ t' ∈ (Finset.univ : Finset Chk), t ≠ t' → Disjoint (pSet t) (pSet t') := by
  rintro ⟨c, i, k⟩ - ⟨c', i', k'⟩ - hne
  rw [Finset.disjoint_left]
  intro j h h'
  rw [mem_pSet] at h h'
  have := c.isLt; have := c'.isLt; have := k.isLt; have := k'.isLt
  have hc : c = c' := Fin.ext (by omega)
  have hi : i = i' := Fin.ext (by omega)
  have hk : k = k' := Fin.ext (by omega)
  subst hc hi hk
  exact hne rfl

/-- Every index lies in a block: that of its batch entry and of its row's tile, SparseCore and chunk. -/
theorem xSet_cover : (Finset.univ : Finset Blk).biUnion xSet = Finset.univ := by
  ext j
  simp only [Finset.mem_biUnion, Finset.mem_univ, true_and, iff_true]
  have h0 : (j 0).val < 4 := (j 0).isLt
  have h1 : (j 1).val < 8192 := (j 1).isLt
  refine ⟨(⟨(j 1).val % 512 / 256, by omega⟩, ⟨(j 1).val / 512, by omega⟩, ⟨(j 1).val % 256 / 16, by omega⟩, ⟨(j 0).val, h0⟩), ?_⟩
  rw [mem_xSet]
  refine ⟨rfl, ?_, ?_⟩
  · show 512 * ((j 1).val / 512) + 256 * ((j 1).val % 512 / 256) + 16 * ((j 1).val % 256 / 16) ≤ (j 1).val
    omega
  · show (j 1).val < 512 * ((j 1).val / 512) + 256 * ((j 1).val % 512 / 256) + 16 * ((j 1).val % 256 / 16) + 16
    omega

theorem pSet_cover : (Finset.univ : Finset Chk).biUnion pSet = Finset.univ := by
  ext j
  simp only [Finset.mem_biUnion, Finset.mem_univ, true_and, iff_true]
  have h1 : (j 0).val < 8192 := (j 0).isLt
  refine ⟨(⟨(j 0).val % 512 / 256, by omega⟩, ⟨(j 0).val / 512, by omega⟩, ⟨(j 0).val % 256 / 16, by omega⟩), ?_⟩
  rw [mem_pSet]
  refine ⟨?_, ?_⟩
  · show 512 * ((j 0).val / 512) + 256 * ((j 0).val % 512 / 256) + 16 * ((j 0).val % 256 / 16) ≤ (j 0).val
    omega
  · show (j 0).val < 512 * ((j 0).val / 512) + 256 * ((j 0).val % 512 / 256) + 16 * ((j 0).val % 256 / 16) + 16
    omega

/-! ## The blocks as what the tiles own -/

theorem set_xM (L : grid0.Coords) (b : Fin 4) (k : Fin 16) : (xM L b k).view.set = (xRect L b k).set := by
  show (((View.whole (main_arg0_scv : Ref sig .scVector)).slice (xRect L b k)).reshape S16x768 squeezes_S1x16x768_S16x768.numel_eq).set = _
  rw [View.set_reshape, View.set_slice_whole]
theorem set_oM (L : grid0.Coords) (b : Fin 4) (k : Fin 16) : (oM L b k).view.set = (xRect L b k).set := by
  show (((View.whole (main_v0_scv : Ref sig .scVector)).slice (xRect L b k)).reshape S16x768 squeezes_S1x16x768_S16x768.numel_eq).set = _
  rw [View.set_reshape, View.set_slice_whole]
theorem set_pM (L : grid0.Coords) (k : Fin 16) : (pM L k).view.set = (pRect L k).set := by
  show ((View.whole (main_arg1_scv : Ref sig .scVector)).slice (pRect L k)).set = _
  rw [View.set_slice_whole]

variable (m : (ℓ : Loc nD τ sig) → Buf (Elt F) ℓ) (ρ : Dev nD → PrngReg)

theorem own_xM (d : Dev nD) (c : Fin 2) (i k : Fin 16) (b : Fin 4) (f : Buf (Elt F) (xLoc d)) :
    (own d (tileL c i) (xM (tileL c i) b k) f : sProp 𝕄) = xLoc d ↦[xSet (c, i, k, b)]{fullShare} f := by
  show (xLoc d ↦[(xM (tileL c i) b k).view.set]{fullShare} f : sProp 𝕄) = _
  rw [set_xM]; rfl
theorem own_oM (d : Dev nD) (c : Fin 2) (i k : Fin 16) (b : Fin 4) (f : Buf (Elt F) (oLoc d)) :
    (own d (tileL c i) (oM (tileL c i) b k) f : sProp 𝕄) = oLoc d ↦[xSet (c, i, k, b)]{fullShare} f := by
  show (oLoc d ↦[(oM (tileL c i) b k).view.set]{fullShare} f : sProp 𝕄) = _
  rw [set_oM]; rfl
theorem own_pM (d : Dev nD) (c : Fin 2) (i k : Fin 16) (f : Buf (Elt F) (pLoc d)) :
    (own d (tileL c i) (pM (tileL c i) k) f : sProp 𝕄) = pLoc d ↦[pSet (c, i, k)]{fullShare} f := by
  show (pLoc d ↦[(pM (tileL c i) k).view.set]{fullShare} f : sProp 𝕄) = _
  rw [set_pM]; rfl

/-- A family over the blocks' names, SparseCore by SparseCore, tile by tile, chunk by chunk, batch entry by batch entry. -/
theorem bigSep_blk (Φ : Blk → sProp 𝕄) :
    bigSep Finset.univ Φ = bigSep Finset.univ fun c : Fin 2 => bigSep Finset.univ fun i : Fin 16 => bigSep Finset.univ fun k : Fin 16 =>
      bigSep Finset.univ fun b : Fin 4 => Φ (c, i, k, b) := by
  rw [bigSep_univ_prod]
  refine bigSep_congr fun c _ => ?_
  rw [bigSep_univ_prod]
  refine bigSep_congr fun i _ => ?_
  rw [bigSep_univ_prod]
theorem bigSep_chk (Φ : Chk → sProp 𝕄) :
    bigSep Finset.univ Φ = bigSep Finset.univ fun c : Fin 2 => bigSep Finset.univ fun i : Fin 16 => bigSep Finset.univ fun k : Fin 16 => Φ (c, i, k) := by
  rw [bigSep_univ_prod]
  refine bigSep_congr fun c _ => ?_
  rw [bigSep_univ_prod]

/-- An array of the input's shape held whole is its blocks, each held by the tile that owns it. -/
theorem x_split (d : Dev nD) (f : Buf (Elt F) (xLoc d)) :
    (xLoc d ↦{fullShare} f : sProp 𝕄) = bigSep Finset.univ fun c : Fin 2 => bigSep Finset.univ fun i : Fin 16 => bigSep Finset.univ fun k : Fin 16 =>
      bigSep Finset.univ fun b : Fin 4 => own d (tileL c i) (xM (tileL c i) b k) f := by
  have e : (xLoc d ↦{fullShare} f : sProp 𝕄) = bigSep Finset.univ fun t : Blk => xLoc d ↦[xSet t]{fullShare} f := by
    rw [← pointsTo_biUnion Finset.univ (ℓ := xLoc d) xSet xSet_disjoint, xSet_cover]; try rfl
  rw [e, bigSep_blk]
  exact bigSep_congr fun c _ => bigSep_congr fun i _ => bigSep_congr fun k _ => bigSep_congr fun b _ => (own_xM d c i k b f).symm
theorem o_split (d : Dev nD) (f : Buf (Elt F) (oLoc d)) :
    (oLoc d ↦{fullShare} f : sProp 𝕄) = bigSep Finset.univ fun c : Fin 2 => bigSep Finset.univ fun i : Fin 16 => bigSep Finset.univ fun k : Fin 16 =>
      bigSep Finset.univ fun b : Fin 4 => own d (tileL c i) (oM (tileL c i) b k) f := by
  have e : (oLoc d ↦{fullShare} f : sProp 𝕄) = bigSep Finset.univ fun t : Blk => oLoc d ↦[xSet t]{fullShare} f := by
    rw [← pointsTo_biUnion Finset.univ (ℓ := oLoc d) xSet xSet_disjoint, xSet_cover]; try rfl
  rw [e, bigSep_blk]
  exact bigSep_congr fun c _ => bigSep_congr fun i _ => bigSep_congr fun k _ => bigSep_congr fun b _ => (own_oM d c i k b f).symm
theorem p_split (d : Dev nD) (f : Buf (Elt F) (pLoc d)) :
    (pLoc d ↦{fullShare} f : sProp 𝕄) = bigSep Finset.univ fun c : Fin 2 => bigSep Finset.univ fun i : Fin 16 => bigSep Finset.univ fun k : Fin 16 =>
      own d (tileL c i) (pM (tileL c i) k) f := by
  have e : (pLoc d ↦{fullShare} f : sProp 𝕄) = bigSep Finset.univ fun t : Chk => pLoc d ↦[pSet t]{fullShare} f := by
    rw [← pointsTo_biUnion Finset.univ (ℓ := pLoc d) pSet pSet_disjoint, pSet_cover]; try rfl
  rw [e, bigSep_chk]
  exact bigSep_congr fun c _ => bigSep_congr fun i _ => bigSep_congr fun k _ => (own_pM d c i k f).symm

variable [FloatOps F]

/-- The three arrays whole. -/
abbrev xPts (d : Dev nD) : sProp 𝕄 := xLoc d ↦{fullShare} m (xLoc d)
abbrev pPts (d : Dev nD) : sProp 𝕄 := pLoc d ↦{fullShare} m (pLoc d)
abbrev oPts (d : Dev nD) (f : Buf (Elt F) (oLoc d)) : sProp 𝕄 := oLoc d ↦{fullShare} f

/-- A SparseCore's share: its sixteen tiles' shares, at the launch and as they come back. -/
def corePre (d : Dev nD) (c : Fin 2) : sProp 𝕄 := bigSep Finset.univ fun i : Fin 16 => tilePre m d (tileL c i)
def corePost (d : Dev nD) (c : Fin 2) : sProp 𝕄 := bigSep Finset.univ fun i : Fin 16 => tilePost m d (tileL c i)

/-- All the tiles' shares at the launch are the three arrays whole at the launch contents; -/
theorem tiles_pre (d : Dev nD) :
    (bigSep Finset.univ fun c : Fin 2 => corePre m d c)
      = (iprop(xPts m d ∗ pPts m d ∗ oPts d (m (oLoc d))) : sProp 𝕄) := by
  unfold xPts pPts oPts
  rw [x_split, p_split, o_split]
  simp only [corePre, tilePre, chunkPre, bigSep_sep']
/-- and what they hand back, the input and the table whole unchanged and the result whole at the result array. -/
theorem tiles_post (d : Dev nD) :
    (bigSep Finset.univ fun c : Fin 2 => corePost m d c)
      = (iprop(xPts m d ∗ pPts m d ∗ oPts d (Gout m d)) : sProp 𝕄) := by
  unfold xPts pPts oPts
  rw [x_split, p_split, o_split]
  simp only [corePost, tilePost, chunkPost, bigSep_sep']

/-! ## What the handshakes carry -/

/-- The call hands each SparseCore its sixteen tiles' shares, each tile its own; they come back with the result's blocks
    at the result array. The tiles' own transfers need nothing of the launch. -/
def P : (K (F := F)).Pay (nD := nD) (Val := Elt F) (Name := ℕ) (U := UU) where
  st := fun q d c => match q with | 0 => corePre m d (Fin.cast nCore_zero c)
  dn := fun q d c => match q with | 0 => corePost m d (Fin.cast nCore_zero c)
  go := fun q d c i => match q with | 0 => tilePre m d (tileL (Fin.cast nCore_zero c) (Fin.cast nSub_zero i))
  td := fun q d c i => match q with | 0 => tilePost m d (tileL (Fin.cast nCore_zero c) (Fin.cast nSub_zero i))
  x := fun _ _ => iprop(emp)

theorem P_st (d : Dev nD) (c : Fin ((K (F := F)).nCore 0)) : (P m).st 0 d c = corePre m d (Fin.cast nCore_zero c) := by simp only [P]
theorem P_dn (d : Dev nD) (c : Fin ((K (F := F)).nCore 0)) : (P m).dn 0 d c = corePost m d (Fin.cast nCore_zero c) := by simp only [P]
theorem P_go (d : Dev nD) (c : Fin ((K (F := F)).nCore 0)) (i : Fin ((K (F := F)).nSub 0)) :
    (P m).go 0 d c i = tilePre m d (tileL (Fin.cast nCore_zero c) (Fin.cast nSub_zero i)) := by simp only [P]
theorem P_td (d : Dev nD) (c : Fin ((K (F := F)).nCore 0)) (i : Fin ((K (F := F)).nSub 0)) :
    (P m).td 0 d c i = tilePost m d (tileL (Fin.cast nCore_zero c) (Fin.cast nSub_zero i)) := by simp only [P]
theorem P_x (q : Fin 1) (thr : Thread nD τ) : (P m).x q thr = iprop(emp) := rfl

instance tilePre_storable (d : Dev nD) (L : grid0.Coords) : BI.Storable (upEmb : UEmb _ 𝕄) (tilePre m d L) := by
  unfold tilePre chunkPre; infer_instance
instance tilePost_storable (d : Dev nD) (L : grid0.Coords) : BI.Storable (upEmb : UEmb _ 𝕄) (tilePost m d L) := by
  unfold tilePost chunkPost; infer_instance

instance P_storable : (P (F := F) m).IsStorable where
  st q d c := match q with | 0 => by rw [P_st]; unfold corePre; infer_instance
  dn q d c := match q with | 0 => by rw [P_dn]; unfold corePost; infer_instance
  go q d c i := match q with | 0 => by rw [P_go]; infer_instance
  td q d c i := match q with | 0 => by rw [P_td]; infer_instance

/-! ## The launch theorem's obligations -/

theorem defs₀_vector (c : Fin τ.nSC) (s : Fin τ.nSub) :
    defs₀ (F := F) (.scVector c s) 0 ()
      = SparseCore.onTile hcore0 hsub0 (fun c s => cc0__sc_kernel_body (coordsV c s)
          xV (Memref.isWhole_whole _) pV (Memref.isWhole_whole _) oV (Memref.isWhole_whole _)
          b0 (Memref.isWhole_whole _) b1 (Memref.isWhole_whole _) b2 (Memref.isWhole_whole _) b3 (Memref.isWhole_whole _)
          b4 (Memref.isWhole_whole _) b5 (Memref.isWhole_whole _) b6 (Memref.isWhole_whole _) b7 (Memref.isWhole_whole _)
          b8 (Memref.isWhole_whole _) b9 (Memref.isWhole_whole _)
          cc0_scratch10 cc0_scratch11 cc0_scratch12 cc0_scratch13 cc0_scratch14 cc0_scratch15) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One tile's task, from the tile's run: the task of vector subcore `i` of SparseCore `c` is the kernel's function at the
    grid coordinates `(c, i)`. -/
theorem tileObl (hbody : TileRun m) : (K (F := F)).TileObl (D (F := F)) 𝒱 (P m) v₀ 0 := by
  intro d c i O W hO _ _
  simp only [show (P m).ox = fun _ _ => 0 from rfl, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share is its tiles' shares, and so is what it hands back. -/
theorem vecSplit : (K (F := F)).VecSplit' (P m) 0 := by
  intro d c
  rw [P_st, P_dn]
  unfold corePre corePost
  simp only [P_go, P_td]
  rw [bigSep_tasks (F := F) (fun i => tilePre m d (tileL (Fin.cast nCore_zero c) i)),
    bigSep_tasks (F := F) (fun i => tilePost m d (tileL (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c) = iprop(xPts m d ∗ pPts m d ∗ oPts d (m (oLoc d))) :=
  (bigSep_congr fun c _ => (P_st m d c).trans (congrArg (corePre m d) (Fin.ext rfl))).trans (tiles_pre m d)
theorem dn0_eq (d : Dev nD) :
    (bigSep Finset.univ fun c : Fin ((K (F := F)).nCore 0) => (P m).dn 0 d c) = iprop(xPts m d ∗ pPts m d ∗ oPts d (Gout m d)) :=
  (bigSep_congr fun c _ => (P_dn m d c).trans (congrArg (corePost m d) (Fin.ext rfl))).trans (tiles_post m d)

/-- What the TensorCore ends with: the input and the table whole at the launch contents, the result whole at the result array. -/
abbrev FIN (d : Dev nD) : sProp 𝕄 := iprop(xPts m d ∗ pPts m d ∗ oPts d (Gout m d))

/-- @main on device `d`'s TensorCore: the one call, handed the three arrays as the tiles' shares, handing them back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Ho⟩, -, -⟩, -⟩
  iapply ((K (F := F)).wp_run (D (F := F)) 𝒱 (EH := EH) (P := P m) κ d 0) $$ [Hst Hx Hp Ho]
  isplitr; · iexact Hctx
  isplitl [Hst]; · iexact Hst
  isplitl [Hx Hp Ho]
  · rw [st0_eq]
    isplitl [Hx]; · iexact Hx
    isplitl [Hp]; · iexact Hp
    iexact Ho
  iintro ⟨Hst, Hdn⟩
  ihave Hdn' := (Entails.of_eq (dn0_eq m d)) $$ Hdn
  icases Hdn' with ⟨Hx, Hp, Ho⟩
  imodintro
  isplitl [Hst]; · iexact Hst
  isplitl [Hx]; · iexact Hx
  isplitl [Hp]; · iexact Hp
  iexact Ho

def fq (d : Dev nD) (s' : Phys nD τ sig (Elt F)) : Prop :=
  s'.mem.mem (oLoc d) = Gout m d ∧ s'.mem.mem (xLoc d) = m (xLoc d) ∧ s'.mem.mem (pLoc d) = m (pLoc d)

/-- An array held whole at some contents holds those contents in the memory. -/
theorem hfin (d : Dev nD) (s' : Phys nD τ sig (Elt F)) : iprop(FIN m d ∗ SI s') ⊢ (⌜fq m d s'⌝ : sProp 𝕄) := by
  iintro ⟨⟨Hx, Hp, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From every tile's run, the whole program's: it runs to the end and leaves the result at the result array, the two
    arguments unchanged. -/
theorem run_main [∀ e, Nonempty (Elt F e)] (m : (ℓ : Loc nD τ sig) → Buf (Elt F) ℓ) (ρ : Dev nD → PrngReg) (hbody : TileRun m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Hand

end
-- ==== Proof.SetupK.lean ====
/-
  The program of the kernel as printed, as the SparseCore launch theorem reads it: the launch configuration, the body table,
  the ghost state (the launch handshakes' rounds beside the counters of the tile's own transfers), and the names of
  the tile's memrefs — the three arrays in HBM, the ten row buffers, the six DMA semaphores.
-/
import proofs.«210086_g67980742361152_cont_9to1c4b_184_18_alg».proof.Proof.Gen.Kernel
import proofs.«210086_g67980742361152_cont_9to1c4b_184_18_alg».proof.Proof.Gen.Kernel.Skeleton
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays and the tile's buffers -/

/-- The input, the position table and the result, as locations of device `d`. -/
abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0

abbrev xV : Memref sig .scVector .hbm S4x8192x768 .f32 := Memref.whole main_arg0_scv
abbrev pV : Memref sig .scVector .hbm S8192x768 .f32 := Memref.whole main_arg1_scv
abbrev oV : Memref sig .scVector .hbm S4x8192x768 .f32 := Memref.whole main_v0_scv
/-- The two buffers a chunk of the position table is fetched into, and the two sets of four buffers a chunk of the
    input (one buffer per batch entry) is fetched into, worked on and written out from. -/
abbrev b0 : Memref sig .scVector .vmem S16x768 .f32 := Memref.whole cc0_scratch0
abbrev b1 : Memref sig .scVector .vmem S16x768 .f32 := Memref.whole cc0_scratch1
abbrev b2 : Memref sig .scVector .vmem S16x768 .f32 := Memref.whole cc0_scratch2
abbrev b3 : Memref sig .scVector .vmem S16x768 .f32 := Memref.whole cc0_scratch3
abbrev b4 : Memref sig .scVector .vmem S16x768 .f32 := Memref.whole cc0_scratch4
abbrev b5 : Memref sig .scVector .vmem S16x768 .f32 := Memref.whole cc0_scratch5
abbrev b6 : Memref sig .scVector .vmem S16x768 .f32 := Memref.whole cc0_scratch6
abbrev b7 : Memref sig .scVector .vmem S16x768 .f32 := Memref.whole cc0_scratch7
abbrev b8 : Memref sig .scVector .vmem S16x768 .f32 := Memref.whole cc0_scratch8
abbrev b9 : Memref sig .scVector .vmem S16x768 .f32 := Memref.whole cc0_scratch9

abbrev cV (L : grid0.Coords) : Fin τ.nSC := (L 0).castLE hcore0
abbrev jV (L : grid0.Coords) : Fin τ.nSub := (L 1).castLE hsub0
/-- The tile at grid coordinates `L` of device `d`. -/
abbrev thrV (d : Dev nD) (L : grid0.Coords) : Thread nD τ := V d (cV L) (jV L)

end Cert.Kernel.Hand

end
-- ==== Proof.SpecK.lean ====
/-
  What the kernel computes, as one function of the two argument arrays: an entry of the input that is exactly zero
  (a padding entry) is kept; to every other entry the position table's entry of the same row and column is added.
-/
import proofs.«210086_g67980742361152_cont_9to1c4b_184_18_alg».proof.Proof.SetupK
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

/-- The result array: at `(b, s, c)` the input's entry if it is zero, else that entry plus the table's at `(s, c)`. -/
def Gfun (x : FVec F S4x8192x768 .f32) (pe : FVec F S8192x768 .f32) : FVec F S4x8192x768 .f32 :=
  select (cmpf .oeq x (broadcast S4x8192x768 (Scalar.ofBits .f32 0x00000000#32))) x
    (addf x (fun i => pe (ValueIdx.ix2 (i 1) (i 2))))

/-- The same on one 16-row block held in a tile's buffer: `x` the block of the input, `pe` the block of the table. -/
def Gblk (pe x : FVec F S16x768 .f32) : FVec F S16x768 .f32 :=
  select (cmpf .oeq x (broadcast S16x768 (Scalar.ofBits .f32 0x00000000#32))) x (addf x pe)

/-- The block with its rows below `r` done and the others as fetched. -/
def Grows (pe x : FVec F S16x768 .f32) (r : ℕ) : FVec F S16x768 .f32 :=
  fun i => if (i 0).val < r then Gblk pe x i else x i

theorem Grows_zero (pe x : FVec F S16x768 .f32) : Grows pe x 0 = x := by
  funext i; simp [Grows]

theorem Grows_all (pe x : FVec F S16x768 .f32) : Grows pe x 16 = Gblk pe x := by
  funext i; have := (i 0).isLt; simp only [Grows]; rw [if_pos]; exact this

end Cert.Kernel.Hand

end
-- ==== Proof.PiecesK.lean ====
/-
  A tile's share of the three arrays, chunk by chunk. The tile at grid coordinates `(c, s)` works on the 256 rows from
  `512 s + 256 c` on, in sixteen chunks of sixteen rows; chunk `k` is, for each of the four batch entries, a
  `[1, 16, 768]` block of the input and of the result, and a `[16, 768]` block of the position table.
-/
import proofs.«210086_g67980742361152_cont_9to1c4b_184_18_alg».proof.Proof.SpecK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The first row of chunk `k` of the tile at `L`. -/
def rowOf (L : grid0.Coords) (k : Fin 16) : ℕ := 512 * (L 1).val + 256 * (L 0).val + 16 * k.val

theorem rowOf_le (L : grid0.Coords) (k : Fin 16) : rowOf L k + 16 ≤ 8192 := by
  have h0 : (L 0).val < 2 := (L 0).isLt
  have h1 : (L 1).val < 16 := (L 1).isLt
  have hk := k.isLt
  unfold rowOf; omega

theorem x_inb (L : grid0.Coords) (b : Fin 4) (k : Fin 16) :
    ∀ a, (![b.val, rowOf L k, 0] : Fin 3 → ℕ) a + S1x16x768.size a ≤ S4x8192x768.size a := by
  have := rowOf_le L k; have := b.isLt
  intro a; fin_cases a
  · show b.val + 1 ≤ 4; omega
  · show rowOf L k + 16 ≤ 8192; omega
  · show 0 + 768 ≤ 768; omega

theorem p_inb (L : grid0.Coords) (k : Fin 16) :
    ∀ a, (![rowOf L k, 0] : Fin 2 → ℕ) a + S16x768.size a ≤ S8192x768.size a := by
  have := rowOf_le L k
  intro a; fin_cases a
  · show rowOf L k + 16 ≤ 8192; omega
  · show 0 + 768 ≤ 768; omega

/-- Chunk `k`'s block of batch entry `b`, as a rectangle of a `[4, 8192, 768]` array, and the table's block. -/
abbrev xRect (L : grid0.Coords) (b : Fin 4) (k : Fin 16) : Rect S4x8192x768 := Rect.unit ![b.val, rowOf L k, 0] S1x16x768.size (x_inb L b k)
abbrev pRect (L : grid0.Coords) (k : Fin 16) : Rect S8192x768 := Rect.unit ![rowOf L k, 0] S16x768.size (p_inb L k)

/-- The blocks as memrefs of the tile: of the input, of the result, of the table. -/
abbrev xM (L : grid0.Coords) (b : Fin 4) (k : Fin 16) : Memref sig .scVector .hbm S16x768 .f32 :=
  ((xV).slice (xRect L b k) (fun _ => rfl)).squeeze S16x768 squeezes_S1x16x768_S16x768
abbrev oM (L : grid0.Coords) (b : Fin 4) (k : Fin 16) : Memref sig .scVector .hbm S16x768 .f32 :=
  ((oV).slice (xRect L b k) (fun _ => rfl)).squeeze S16x768 squeezes_S1x16x768_S16x768
abbrev pM (L : grid0.Coords) (k : Fin 16) : Memref sig .scVector .hbm S16x768 .f32 :=
  (pV).slice (pRect L k) (fun _ => rfl)

variable (m : (ℓ : Loc nD τ sig) → Buf (Elt F) ℓ)

variable [FloatOps F]

/-- The result array the kernel leaves on device `d`, of the launch memory's two arguments. -/
def Gout (d : Dev nD) : Buf (Elt F) (oLoc d) := Gfun (m (xLoc d)) (m (pLoc d))

/-- A block held by exactly its own elements. -/
abbrev own (d : Dev nD) (L : grid0.Coords) (M : Memref sig .scVector .hbm S16x768 .f32) (f : Buf (Elt F) (M.view.loc (thrV d L))) : sProp 𝕄 :=
  M.view.loc (thrV d L) ↦[M.view.set]{fullShare} f

/-- What the tile at `L` is handed of chunk `k`: the four blocks of the input and the table's block at their launch
    contents, the four blocks of the result at the launch contents. -/
def chunkPre (d : Dev nD) (L : grid0.Coords) (k : Fin 16) : sProp 𝕄 :=
  iprop((bigSep Finset.univ fun b : Fin 4 => own d L (xM L b k) (m (xLoc d))) ∗ own d L (pM L k) (m (pLoc d))
    ∗ bigSep Finset.univ fun b : Fin 4 => own d L (oM L b k) (m (oLoc d)))

/-- What it hands back: the input's and the table's blocks unchanged, the result's blocks at the result array. -/
def chunkPost (d : Dev nD) (L : grid0.Coords) (k : Fin 16) : sProp 𝕄 :=
  iprop((bigSep Finset.univ fun b : Fin 4 => own d L (xM L b k) (m (xLoc d))) ∗ own d L (pM L k) (m (pLoc d))
    ∗ bigSep Finset.univ fun b : Fin 4 => own d L (oM L b k) (Gout m d))

def tilePre (d : Dev nD) (L : grid0.Coords) : sProp 𝕄 := bigSep Finset.univ fun k : Fin 16 => chunkPre m d L k
def tilePost (d : Dev nD) (L : grid0.Coords) : sProp 𝕄 := bigSep Finset.univ fun k : Fin 16 => chunkPost m d L k

end Cert.Kernel.Hand

end
-- ==== Proof.TileSpecK.lean ====
/-
  The statement of one tile's run, as the launch theorem's obligation for a vector-subcore task reads it: from the
  tile's share of the arrays at the launch contents, its own buffers and semaphores, and what it owes the launch, the
  kernel's function on that tile ends with the share handed back, the result's blocks at the result array.
-/
import proofs.«210086_g67980742361152_cont_9to1c4b_184_18_alg».proof.Proof.PiecesK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- Every tile's run, of a launch memory `m`. -/
def TileRun (m : (ℓ : Loc nD τ sig) → Buf (Elt F) ℓ) : Prop :=
  ∀ (d : Dev nD) (L : grid0.Coords) (O : CellTallies nD τ sig (HIx 1)) (W : Waits sig (HIx 1)), (∀ g, O g none = 0) →
    (iprop(levAts (K (F := F)).L (K (F := F)).lev ∗ emp ∗ tilePre m d L
        ∗ scopedBufs (thrV d L) ∗ scopedSems0 (thrV d L) ∗ owes (thrV d L) O W) : sProp 𝕄)
      ⊢ wp frame (wpE (defs₀ (F := F)) 𝒱₀ (thrV d L) none) Set.univ
          (cc0__sc_kernel_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15)
          fun _ => iprop(tilePost m d L ∗ scopedBufs (thrV d L) ∗ scopedSems0 (thrV d L)
            ∗ ∃ W', ⌜∀ p ∈ W', p ∈ W ∨ p.2 = none⌝ ∗ owes (thrV d L) O W')

/-- What the whole program's run leaves: the result at the result array, the two arguments unchanged. -/
def QC (m : (ℓ : Loc nD τ sig) → Buf (Elt F) ℓ) : PUnit × MemSt nD τ sig (Elt F) → Prop :=
  fun r => ∀ c : Dev nD, r.2.mem (oLoc c) = Gout m c ∧ r.2.mem (xLoc c) = m (xLoc c) ∧ r.2.mem (pLoc c) = m (pLoc c)

end Cert.Kernel.Hand

end
-- ==== Proof.LaunchK.lean ====
/-
  The launch. The program is one SparseCore call: two SparseCores of sixteen tiles each, every tile running the kernel's
  function on its own 256 rows of the three arrays. From a proof of one tile's run the whole program's run follows: the
  three arrays, held whole by the TensorCore at the launch contents, split into the blocks the tiles own — every index
  (b, row, column) lies in exactly one block (c, s, k, b), row = 512 s + 256 c + 16 k + (row mod 16) — and the blocks that
  come back, the result's all at the result array, join to the three arrays whole again.
-/
import proofs.«210086_g67980742361152_cont_9to1c4b_184_18_alg».proof.Proof.TileSpecK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tiles' coordinates -/

theorem bound_zero : grid0.bound 0 = 2 := rfl
theorem bound_one : grid0.bound 1 = 16 := rfl

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same, of the SparseCore's number below 2 and the tile's below 16. -/
abbrev tileL (c : Fin 2) (i : Fin 16) : grid0.Coords := coordsV (Fin.cast bound_zero.symm c) (Fin.cast bound_one.symm i)

theorem rowOf_tileL (c : Fin 2) (i k : Fin 16) : rowOf (tileL c i) k = 512 * i.val + 256 * c.val + 16 * k.val := rfl

/-! ## The blocks as sets of indices -/

/-- An index of a `[4, 8192, 768]` array lies in chunk `k`'s block of batch entry `b` exactly when its batch entry is
    `b` and its row is one of the chunk's sixteen. -/
theorem mem_xRect (L : grid0.Coords) (b : Fin 4) (k : Fin 16) (j : S4x8192x768.Idx) :
    j ∈ (xRect L b k).set ↔ (j 0).val = b.val ∧ rowOf L k ≤ (j 1).val ∧ (j 1).val < rowOf L k + 16 := by
  constructor
  · intro h
    obtain ⟨j0, hj0, e0⟩ := (LoadRect.mem_set _).mp h 0
    obtain ⟨j1, hj1, e1⟩ := (LoadRect.mem_set _).mp h 1
    have hj0' : j0 < 1 := hj0
    have hj1' : j1 < 16 := hj1
    have e0' : (j 0).val = b.val + 1 * j0 := e0
    have e1' : (j 1).val = rowOf L k + 1 * j1 := e1
    omega
  · rintro ⟨h0, h1, h2⟩
    refine (LoadRect.mem_set _).mpr fun a => ?_
    fin_cases a
    · exact ⟨0, Nat.one_pos, show (j 0).val = b.val + 1 * 0 by omega⟩
    · exact ⟨(j 1).val - rowOf L k, show (j 1).val - rowOf L k < 16 by omega,
        show (j 1).val = rowOf L k + 1 * ((j 1).val - rowOf L k) by omega⟩
    · exact ⟨(j 2).val, (j 2).isLt, show (j 2).val = 0 + 1 * (j 2).val by omega⟩

/-- An index of the `[8192, 768]` table lies in chunk `k`'s block exactly when its row is one of the chunk's. -/
theorem mem_pRect (L : grid0.Coords) (k : Fin 16) (j : S8192x768.Idx) :
    j ∈ (pRect L k).set ↔ rowOf L k ≤ (j 0).val ∧ (j 0).val < rowOf L k + 16 := by
  constructor
  · intro h
    obtain ⟨j0, hj0, e0⟩ := (LoadRect.mem_set _).mp h 0
    have hj0' : j0 < 16 := hj0
    have e0' : (j 0).val = rowOf L k + 1 * j0 := e0
    omega
  · rintro ⟨h1, h2⟩
    refine (LoadRect.mem_set _).mpr fun a => ?_
    fin_cases a
    · exact ⟨(j 0).val - rowOf L k, show (j 0).val - rowOf L k < 16 by omega,
        show (j 0).val = rowOf L k + 1 * ((j 0).val - rowOf L k) by omega⟩
    · exact ⟨(j 1).val, (j 1).isLt, show (j 1).val = 0 + 1 * (j 1).val by omega⟩

/-- The blocks' names: SparseCore, tile, chunk, batch entry; and the table's blocks': SparseCore, tile, chunk. -/
abbrev Blk : Type := Fin 2 × Fin 16 × Fin 16 × Fin 4
abbrev Chk : Type := Fin 2 × Fin 16 × Fin 16

def xSet (t : Blk) : Finset S4x8192x768.Idx := (xRect (tileL t.1 t.2.1) t.2.2.2 t.2.2.1).set
def pSet (t : Chk) : Finset S8192x768.Idx := (pRect (tileL t.1 t.2.1) t.2.2).set

theorem mem_xSet (c : Fin 2) (i k : Fin 16) (b : Fin 4) (j : S4x8192x768.Idx) :
    j ∈ xSet (c, i, k, b) ↔ (j 0).val = b.val ∧ 512 * i.val + 256 * c.val + 16 * k.val ≤ (j 1).val
      ∧ (j 1).val < 512 * i.val + 256 * c.val + 16 * k.val + 16 :=
  mem_xRect (tileL c i) b k j

theorem mem_pSet (c : Fin 2) (i k : Fin 16) (j : S8192x768.Idx) :
    j ∈ pSet (c, i, k) ↔ 512 * i.val + 256 * c.val + 16 * k.val ≤ (j 0).val
      ∧ (j 0).val < 512 * i.val + 256 * c.val + 16 * k.val + 16 :=
  mem_pRect (tileL c i) k j

/-- Two different blocks share no index: a row determines tile, SparseCore and chunk. -/
theorem xSet_disjoint : ∀ t ∈ (Finset.univ : Finset Blk), ∀ t' ∈ (Finset.univ : Finset Blk), t ≠ t' → Disjoint (xSet t) (xSet t') := by
  rintro ⟨c, i, k, b⟩ - ⟨c', i', k', b'⟩ - hne
  rw [Finset.disjoint_left]
  intro j h h'
  rw [mem_xSet] at h h'
  have := c.isLt; have := c'.isLt; have := k.isLt; have := k'.isLt
  have hc : c = c' := Fin.ext (by omega)
  have hi : i = i' := Fin.ext (by omega)
  have hk : k = k' := Fin.ext (by omega)
  have hb : b = b' := Fin.ext (by omega)
  subst hc hi hk hb
  exact hne rfl

theorem pSet_disjoint : ∀ t ∈ (Finset.univ : Finset Chk), ∀ t' ∈ (Finset.univ : Finset Chk), t ≠ t' → Disjoint (pSet t) (pSet t') := by
  rintro ⟨c, i, k⟩ - ⟨c', i', k'⟩ - hne
  rw [Finset.disjoint_left]
  intro j h h'
  rw [mem_pSet] at h h'
  have := c.isLt; have := c'.isLt; have := k.isLt; have := k'.isLt
  have hc : c = c' := Fin.ext (by omega)
  have hi : i = i' := Fin.ext (by omega)
  have hk : k = k' := Fin.ext (by omega)
  subst hc hi hk
  exact hne rfl

/-- Every index lies in a block: that of its batch entry and of its row's tile, SparseCore and chunk. -/
theorem xSet_cover : (Finset.univ : Finset Blk).biUnion xSet = Finset.univ := by
  ext j
  simp only [Finset.mem_biUnion, Finset.mem_univ, true_and, iff_true]
  have h0 : (j 0).val < 4 := (j 0).isLt
  have h1 : (j 1).val < 8192 := (j 1).isLt
  refine ⟨(⟨(j 1).val % 512 / 256, by omega⟩, ⟨(j 1).val / 512, by omega⟩, ⟨(j 1).val % 256 / 16, by omega⟩, ⟨(j 0).val, h0⟩), ?_⟩
  rw [mem_xSet]
  refine ⟨rfl, ?_, ?_⟩
  · show 512 * ((j 1).val / 512) + 256 * ((j 1).val % 512 / 256) + 16 * ((j 1).val % 256 / 16) ≤ (j 1).val
    omega
  · show (j 1).val < 512 * ((j 1).val / 512) + 256 * ((j 1).val % 512 / 256) + 16 * ((j 1).val % 256 / 16) + 16
    omega

theorem pSet_cover : (Finset.univ : Finset Chk).biUnion pSet = Finset.univ := by
  ext j
  simp only [Finset.mem_biUnion, Finset.mem_univ, true_and, iff_true]
  have h1 : (j 0).val < 8192 := (j 0).isLt
  refine ⟨(⟨(j 0).val % 512 / 256, by omega⟩, ⟨(j 0).val / 512, by omega⟩, ⟨(j 0).val % 256 / 16, by omega⟩), ?_⟩
  rw [mem_pSet]
  refine ⟨?_, ?_⟩
  · show 512 * ((j 0).val / 512) + 256 * ((j 0).val % 512 / 256) + 16 * ((j 0).val % 256 / 16) ≤ (j 0).val
    omega
  · show (j 0).val < 512 * ((j 0).val / 512) + 256 * ((j 0).val % 512 / 256) + 16 * ((j 0).val % 256 / 16) + 16
    omega

/-! ## The blocks as what the tiles own -/

theorem set_xM (L : grid0.Coords) (b : Fin 4) (k : Fin 16) : (xM L b k).view.set = (xRect L b k).set := by
  show (((View.whole (main_arg0_scv : Ref sig .scVector)).slice (xRect L b k)).reshape S16x768 squeezes_S1x16x768_S16x768.numel_eq).set = _
  rw [View.set_reshape, View.set_slice_whole]
theorem set_oM (L : grid0.Coords) (b : Fin 4) (k : Fin 16) : (oM L b k).view.set = (xRect L b k).set := by
  show (((View.whole (main_v0_scv : Ref sig .scVector)).slice (xRect L b k)).reshape S16x768 squeezes_S1x16x768_S16x768.numel_eq).set = _
  rw [View.set_reshape, View.set_slice_whole]
theorem set_pM (L : grid0.Coords) (k : Fin 16) : (pM L k).view.set = (pRect L k).set := by
  show ((View.whole (main_arg1_scv : Ref sig .scVector)).slice (pRect L k)).set = _
  rw [View.set_slice_whole]

variable (m : (ℓ : Loc nD τ sig) → Buf (Elt F) ℓ) (ρ : Dev nD → PrngReg)

theorem own_xM (d : Dev nD) (c : Fin 2) (i k : Fin 16) (b : Fin 4) (f : Buf (Elt F) (xLoc d)) :
    (own d (tileL c i) (xM (tileL c i) b k) f : sProp 𝕄) = xLoc d ↦[xSet (c, i, k, b)]{fullShare} f := by
  show (xLoc d ↦[(xM (tileL c i) b k).view.set]{fullShare} f : sProp 𝕄) = _
  rw [set_xM]; rfl
theorem own_oM (d : Dev nD) (c : Fin 2) (i k : Fin 16) (b : Fin 4) (f : Buf (Elt F) (oLoc d)) :
    (own d (tileL c i) (oM (tileL c i) b k) f : sProp 𝕄) = oLoc d ↦[xSet (c, i, k, b)]{fullShare} f := by
  show (oLoc d ↦[(oM (tileL c i) b k).view.set]{fullShare} f : sProp 𝕄) = _
  rw [set_oM]; rfl
theorem own_pM (d : Dev nD) (c : Fin 2) (i k : Fin 16) (f : Buf (Elt F) (pLoc d)) :
    (own d (tileL c i) (pM (tileL c i) k) f : sProp 𝕄) = pLoc d ↦[pSet (c, i, k)]{fullShare} f := by
  show (pLoc d ↦[(pM (tileL c i) k).view.set]{fullShare} f : sProp 𝕄) = _
  rw [set_pM]; rfl

/-- A family over the blocks' names, SparseCore by SparseCore, tile by tile, chunk by chunk, batch entry by batch entry. -/
theorem bigSep_blk (Φ : Blk → sProp 𝕄) :
    bigSep Finset.univ Φ = bigSep Finset.univ fun c : Fin 2 => bigSep Finset.univ fun i : Fin 16 => bigSep Finset.univ fun k : Fin 16 =>
      bigSep Finset.univ fun b : Fin 4 => Φ (c, i, k, b) := by
  rw [bigSep_univ_prod]
  refine bigSep_congr fun c _ => ?_
  rw [bigSep_univ_prod]
  refine bigSep_congr fun i _ => ?_
  rw [bigSep_univ_prod]
theorem bigSep_chk (Φ : Chk → sProp 𝕄) :
    bigSep Finset.univ Φ = bigSep Finset.univ fun c : Fin 2 => bigSep Finset.univ fun i : Fin 16 => bigSep Finset.univ fun k : Fin 16 => Φ (c, i, k) := by
  rw [bigSep_univ_prod]
  refine bigSep_congr fun c _ => ?_
  rw [bigSep_univ_prod]

/-- An array of the input's shape held whole is its blocks, each held by the tile that owns it. -/
theorem x_split (d : Dev nD) (f : Buf (Elt F) (xLoc d)) :
    (xLoc d ↦{fullShare} f : sProp 𝕄) = bigSep Finset.univ fun c : Fin 2 => bigSep Finset.univ fun i : Fin 16 => bigSep Finset.univ fun k : Fin 16 =>
      bigSep Finset.univ fun b : Fin 4 => own d (tileL c i) (xM (tileL c i) b k) f := by
  have e : (xLoc d ↦{fullShare} f : sProp 𝕄) = bigSep Finset.univ fun t : Blk => xLoc d ↦[xSet t]{fullShare} f := by
    rw [← pointsTo_biUnion Finset.univ (ℓ := xLoc d) xSet xSet_disjoint, xSet_cover]; try rfl
  rw [e, bigSep_blk]
  exact bigSep_congr fun c _ => bigSep_congr fun i _ => bigSep_congr fun k _ => bigSep_congr fun b _ => (own_xM d c i k b f).symm
theorem o_split (d : Dev nD) (f : Buf (Elt F) (oLoc d)) :
    (oLoc d ↦{fullShare} f : sProp 𝕄) = bigSep Finset.univ fun c : Fin 2 => bigSep Finset.univ fun i : Fin 16 => bigSep Finset.univ fun k : Fin 16 =>
      bigSep Finset.univ fun b : Fin 4 => own d (tileL c i) (oM (tileL c i) b k) f := by
  have e : (oLoc d ↦{fullShare} f : sProp 𝕄) = bigSep Finset.univ fun t : Blk => oLoc d ↦[xSet t]{fullShare} f := by
    rw [← pointsTo_biUnion Finset.univ (ℓ := oLoc d) xSet xSet_disjoint, xSet_cover]; try rfl
  rw [e, bigSep_blk]
  exact bigSep_congr fun c _ => bigSep_congr fun i _ => bigSep_congr fun k _ => bigSep_congr fun b _ => (own_oM d c i k b f).symm
theorem p_split (d : Dev nD) (f : Buf (Elt F) (pLoc d)) :
    (pLoc d ↦{fullShare} f : sProp 𝕄) = bigSep Finset.univ fun c : Fin 2 => bigSep Finset.univ fun i : Fin 16 => bigSep Finset.univ fun k : Fin 16 =>
      own d (tileL c i) (pM (tileL c i) k) f := by
  have e : (pLoc d ↦{fullShare} f : sProp 𝕄) = bigSep Finset.univ fun t : Chk => pLoc d ↦[pSet t]{fullShare} f := by
    rw [← pointsTo_biUnion Finset.univ (ℓ := pLoc d) pSet pSet_disjoint, pSet_cover]; try rfl
  rw [e, bigSep_chk]
  exact bigSep_congr fun c _ => bigSep_congr fun i _ => bigSep_congr fun k _ => (own_pM d c i k f).symm

variable [FloatOps F]

/-- The three arrays whole. -/
abbrev xPts (d : Dev nD) : sProp 𝕄 := xLoc d ↦{fullShare} m (xLoc d)
abbrev pPts (d : Dev nD) : sProp 𝕄 := pLoc d ↦{fullShare} m (pLoc d)
abbrev oPts (d : Dev nD) (f : Buf (Elt F) (oLoc d)) : sProp 𝕄 := oLoc d ↦{fullShare} f

/-- A SparseCore's share: its sixteen tiles' shares, at the launch and as they come back. -/
def corePre (d : Dev nD) (c : Fin 2) : sProp 𝕄 := bigSep Finset.univ fun i : Fin 16 => tilePre m d (tileL c i)
def corePost (d : Dev nD) (c : Fin 2) : sProp 𝕄 := bigSep Finset.univ fun i : Fin 16 => tilePost m d (tileL c i)

/-- All the tiles' shares at the launch are the three arrays whole at the launch contents; -/
theorem tiles_pre (d : Dev nD) :
    (bigSep Finset.univ fun c : Fin 2 => corePre m d c)
      = (iprop(xPts m d ∗ pPts m d ∗ oPts d (m (oLoc d))) : sProp 𝕄) := by
  unfold xPts pPts oPts
  rw [x_split, p_split, o_split]
  simp only [corePre, tilePre, chunkPre, bigSep_sep']
/-- and what they hand back, the input and the table whole unchanged and the result whole at the result array. -/
theorem tiles_post (d : Dev nD) :
    (bigSep Finset.univ fun c : Fin 2 => corePost m d c)
      = (iprop(xPts m d ∗ pPts m d ∗ oPts d (Gout m d)) : sProp 𝕄) := by
  unfold xPts pPts oPts
  rw [x_split, p_split, o_split]
  simp only [corePost, tilePost, chunkPost, bigSep_sep']

/-! ## What the handshakes carry -/

/-- The call hands each SparseCore its sixteen tiles' shares, each tile its own; they come back with the result's blocks
    at the result array. The tiles' own transfers need nothing of the launch. -/
def P : (K (F := F)).Pay (nD := nD) (Val := Elt F) (Name := ℕ) (U := UU) where
  st := fun q d c => match q with | 0 => corePre m d (Fin.cast nCore_zero c)
  dn := fun q d c => match q with | 0 => corePost m d (Fin.cast nCore_zero c)
  go := fun q d c i => match q with | 0 => tilePre m d (tileL (Fin.cast nCore_zero c) (Fin.cast nSub_zero i))
  td := fun q d c i => match q with | 0 => tilePost m d (tileL (Fin.cast nCore_zero c) (Fin.cast nSub_zero i))
  x := fun _ _ => iprop(emp)

theorem P_st (d : Dev nD) (c : Fin ((K (F := F)).nCore 0)) : (P m).st 0 d c = corePre m d (Fin.cast nCore_zero c) := by simp only [P]
theorem P_dn (d : Dev nD) (c : Fin ((K (F := F)).nCore 0)) : (P m).dn 0 d c = corePost m d (Fin.cast nCore_zero c) := by simp only [P]
theorem P_go (d : Dev nD) (c : Fin ((K (F := F)).nCore 0)) (i : Fin ((K (F := F)).nSub 0)) :
    (P m).go 0 d c i = tilePre m d (tileL (Fin.cast nCore_zero c) (Fin.cast nSub_zero i)) := by simp only [P]
theorem P_td (d : Dev nD) (c : Fin ((K (F := F)).nCore 0)) (i : Fin ((K (F := F)).nSub 0)) :
    (P m).td 0 d c i = tilePost m d (tileL (Fin.cast nCore_zero c) (Fin.cast nSub_zero i)) := by simp only [P]
theorem P_x (q : Fin 1) (thr : Thread nD τ) : (P m).x q thr = iprop(emp) := rfl

instance tilePre_storable (d : Dev nD) (L : grid0.Coords) : BI.Storable (upEmb : UEmb _ 𝕄) (tilePre m d L) := by
  unfold tilePre chunkPre; infer_instance
instance tilePost_storable (d : Dev nD) (L : grid0.Coords) : BI.Storable (upEmb : UEmb _ 𝕄) (tilePost m d L) := by
  unfold tilePost chunkPost; infer_instance

instance P_storable : (P (F := F) m).IsStorable where
  st q d c := match q with | 0 => by rw [P_st]; unfold corePre; infer_instance
  dn q d c := match q with | 0 => by rw [P_dn]; unfold corePost; infer_instance
  go q d c i := match q with | 0 => by rw [P_go]; infer_instance
  td q d c i := match q with | 0 => by rw [P_td]; infer_instance

/-! ## The launch theorem's obligations -/

theorem defs₀_vector (c : Fin τ.nSC) (s : Fin τ.nSub) :
    defs₀ (F := F) (.scVector c s) 0 ()
      = SparseCore.onTile hcore0 hsub0 (fun c s => cc0__sc_kernel_body (coordsV c s)
          xV (Memref.isWhole_whole _) pV (Memref.isWhole_whole _) oV (Memref.isWhole_whole _)
          b0 (Memref.isWhole_whole _) b1 (Memref.isWhole_whole _) b2 (Memref.isWhole_whole _) b3 (Memref.isWhole_whole _)
          b4 (Memref.isWhole_whole _) b5 (Memref.isWhole_whole _) b6 (Memref.isWhole_whole _) b7 (Memref.isWhole_whole _)
          b8 (Memref.isWhole_whole _) b9 (Memref.isWhole_whole _)
          cc0_scratch10 cc0_scratch11 cc0_scratch12 cc0_scratch13 cc0_scratch14 cc0_scratch15) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- One tile's task, from the tile's run: the task of vector subcore `i` of SparseCore `c` is the kernel's function at the
    grid coordinates `(c, i)`. -/
theorem tileObl (hbody : TileRun m) : (K (F := F)).TileObl (D (F := F)) 𝒱 (P m) v₀ 0 := by
  intro d c i O W hO _ _
  simp only [show (P m).ox = fun _ _ => 0 from rfl, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share is its tiles' shares, and so is what it hands back. -/
theorem vecSplit : (K (F := F)).VecSplit' (P m) 0 := by
  intro d c
  rw [P_st, P_dn]
  unfold corePre corePost
  simp only [P_go, P_td]
  rw [bigSep_tasks (F := F) (fun i => tilePre m d (tileL (Fin.cast nCore_zero c) i)),
    bigSep_tasks (F := F) (fun i => tilePost m d (tileL (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) :
    (bigSep Finset.univ fun c : Fin ((K (F := F)).nCore 0) => (P m).st 0 d c) = iprop(xPts m d ∗ pPts m d ∗ oPts d (m (oLoc d))) :=
  (bigSep_congr fun c _ => (P_st m d c).trans (congrArg (corePre m d) (Fin.ext rfl))).trans (tiles_pre m d)
theorem dn0_eq (d : Dev nD) :
    (bigSep Finset.univ fun c : Fin ((K (F := F)).nCore 0) => (P m).dn 0 d c) = iprop(xPts m d ∗ pPts m d ∗ oPts d (Gout m d)) :=
  (bigSep_congr fun c _ => (P_dn m d c).trans (congrArg (corePost m d) (Fin.ext rfl))).trans (tiles_post m d)

/-- What the TensorCore ends with: the input and the table whole at the launch contents, the result whole at the result array. -/
abbrev FIN (d : Dev nD) : sProp 𝕄 := iprop(xPts m d ∗ pPts m d ∗ oPts d (Gout m d))

/-- @main on device `d`'s TensorCore: the one call, handed the three arrays as the tiles' shares, handing them back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Ho⟩, -, -⟩, -⟩
  iapply ((K (F := F)).wp_run (D (F := F)) 𝒱 (EH := EH) (P := P m) κ d 0) $$ [Hst Hx Hp Ho]
  isplitr; · iexact Hctx
  isplitl [Hst]; · iexact Hst
  isplitl [Hx Hp Ho]
  · rw [st0_eq]
    isplitl [Hx]; · iexact Hx
    isplitl [Hp]; · iexact Hp
    iexact Ho
  iintro ⟨Hst, Hdn⟩
  ihave Hdn' := (Entails.of_eq (dn0_eq m d)) $$ Hdn
  icases Hdn' with ⟨Hx, Hp, Ho⟩
  imodintro
  isplitl [Hst]; · iexact Hst
  isplitl [Hx]; · iexact Hx
  isplitl [Hp]; · iexact Hp
  iexact Ho

def fq (d : Dev nD) (s' : Phys nD τ sig (Elt F)) : Prop :=
  s'.mem.mem (oLoc d) = Gout m d ∧ s'.mem.mem (xLoc d) = m (xLoc d) ∧ s'.mem.mem (pLoc d) = m (pLoc d)

/-- An array held whole at some contents holds those contents in the memory. -/
theorem hfin (d : Dev nD) (s' : Phys nD τ sig (Elt F)) : iprop(FIN m d ∗ SI s') ⊢ (⌜fq m d s'⌝ : sProp 𝕄) := by
  iintro ⟨⟨Hx, Hp, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From every tile's run, the whole program's: it runs to the end and leaves the result at the result array, the two
    arguments unchanged. -/
theorem run_main [∀ e, Nonempty (Elt F e)] (m : (ℓ : Loc nD τ sig) → Buf (Elt F) ℓ) (ρ : Dev nD → PrngReg) (hbody : TileRun m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Hand

end
-- ==== Proof.Own.lean ====
/-
  A tile's own buffers and semaphores, by name. Of everything a vector subcore owns, the ten row buffers and the six
  DMA semaphores the kernel's function is handed are split off one by one: each buffer whole at some contents, each
  semaphore at zero, beside the rest of what the subcore owns.
-/
import proofs.«210086_g67980742361152_cont_9to1c4b_184_18_alg».proof.Proof.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-! ## Telling the cells and the buffers apart -/

/-- Two cells of one thread at different semaphores are different cells. -/
private theorem cell_ne (thr : Thread nD τ) {a b : SemLoc sig} (h : a ≠ b) : ((thr, a) : GSem nD τ sig) ≠ (thr, b) :=
  fun e => h (Prod.ext_iff.mp e).2

/-- A scoped semaphore of the tile's kind is one of the tile's own cells. -/
private theorem cell_own (s : SemLoc sig) (h : s.isScoped .scVector = true) : ((thrV d L, s) : GSem nD τ sig) ∈ ownCells (thrV d L) :=
  mem_ownCells.mpr ⟨rfl, h⟩

/-- Different names of one vector subcore are different buffers of the device. -/
private theorem ref_ne (c : Fin τ.nSC) (j : Fin τ.nSub) {a b : Ref sig .scVector} (h : a ≠ b) :
    ((Proc.scVector c j).devRef a : DevRef τ sig) ≠ (Proc.scVector c j).devRef b :=
  fun e => h (Proc.devRef_injective _ e)

/-- The tile's own cells other than the six semaphores, and its own buffers other than the ten row buffers. -/
abbrev restCells : Finset (GSem nD τ sig) :=
  ((((((ownCells (thrV d L)).erase ((thrV d L, SemLoc.dma cc0_scratch10.sem) : GSem nD τ sig)).erase ((thrV d L, SemLoc.dma cc0_scratch11.sem) : GSem nD τ sig)).erase ((thrV d L, SemLoc.dma cc0_scratch12.sem) : GSem nD τ sig)).erase ((thrV d L, SemLoc.dma cc0_scratch13.sem) : GSem nD τ sig)).erase ((thrV d L, SemLoc.dma cc0_scratch14.sem) : GSem nD τ sig)).erase ((thrV d L, SemLoc.dma cc0_scratch15.sem) : GSem nD τ sig)
abbrev restRefs : Finset (DevRef τ sig) :=
  ((((((((((ownRefs (τ := τ) (sig := sig) (.scVector (cV L) (jV L))).erase ((Proc.scVector (cV L) (jV L)).devRef cc0_scratch0 : DevRef τ sig)).erase ((Proc.scVector (cV L) (jV L)).devRef cc0_scratch1 : DevRef τ sig)).erase ((Proc.scVector (cV L) (jV L)).devRef cc0_scratch2 : DevRef τ sig)).erase ((Proc.scVector (cV L) (jV L)).devRef cc0_scratch3 : DevRef τ sig)).erase ((Proc.scVector (cV L) (jV L)).devRef cc0_scratch4 : DevRef τ sig)).erase ((Proc.scVector (cV L) (jV L)).devRef cc0_scratch5 : DevRef τ sig)).erase ((Proc.scVector (cV L) (jV L)).devRef cc0_scratch6 : DevRef τ sig)).erase ((Proc.scVector (cV L) (jV L)).devRef cc0_scratch7 : DevRef τ sig)).erase ((Proc.scVector (cV L) (jV L)).devRef cc0_scratch8 : DevRef τ sig)).erase ((Proc.scVector (cV L) (jV L)).devRef cc0_scratch9 : DevRef τ sig)

/-! ## The semaphores -/

/-- The six DMA semaphores are among the tile's own cells: each of them at zero, and the rest at zero. -/
theorem ownSems0_V :
    (ownSems0 (thrV d L) : sProp 𝕄)
      = iprop(semVal (thrV d L, SemLoc.dma cc0_scratch10.sem) 0
        ∗ semVal (thrV d L, SemLoc.dma cc0_scratch11.sem) 0
        ∗ semVal (thrV d L, SemLoc.dma cc0_scratch12.sem) 0
        ∗ semVal (thrV d L, SemLoc.dma cc0_scratch13.sem) 0
        ∗ semVal (thrV d L, SemLoc.dma cc0_scratch14.sem) 0
        ∗ semVal (thrV d L, SemLoc.dma cc0_scratch15.sem) 0
        ∗ bigSep (restCells d L) fun g => semVal g 0) := by
  unfold SparseCore.Cfg.ownSems0
  rw [SparseCore.bigSep_erase' (cell_own d L _ (show (SemLoc.dma cc0_scratch10.sem : SemLoc sig).isScoped .scVector = true by decide)),
    SparseCore.bigSep_erase' (Finset.mem_erase.mpr ⟨cell_ne _ (show (SemLoc.dma cc0_scratch11.sem : SemLoc sig) ≠ SemLoc.dma cc0_scratch10.sem by decide), cell_own d L _ (show (SemLoc.dma cc0_scratch11.sem : SemLoc sig).isScoped .scVector = true by decide)⟩),
    SparseCore.bigSep_erase' (Finset.mem_erase.mpr ⟨cell_ne _ (show (SemLoc.dma cc0_scratch12.sem : SemLoc sig) ≠ SemLoc.dma cc0_scratch11.sem by decide), Finset.mem_erase.mpr ⟨cell_ne _ (show (SemLoc.dma cc0_scratch12.sem : SemLoc sig) ≠ SemLoc.dma cc0_scratch10.sem by decide), cell_own d L _ (show (SemLoc.dma cc0_scratch12.sem : SemLoc sig).isScoped .scVector = true by decide)⟩⟩),
    SparseCore.bigSep_erase' (Finset.mem_erase.mpr ⟨cell_ne _ (show (SemLoc.dma cc0_scratch13.sem : SemLoc sig) ≠ SemLoc.dma cc0_scratch12.sem by decide), Finset.mem_erase.mpr ⟨cell_ne _ (show (SemLoc.dma cc0_scratch13.sem : SemLoc sig) ≠ SemLoc.dma cc0_scratch11.sem by decide), Finset.mem_erase.mpr ⟨cell_ne _ (show (SemLoc.dma cc0_scratch13.sem : SemLoc sig) ≠ SemLoc.dma cc0_scratch10.sem by decide), cell_own d L _ (show (SemLoc.dma cc0_scratch13.sem : SemLoc sig).isScoped .scVector = true by decide)⟩⟩⟩),
    SparseCore.bigSep_erase' (Finset.mem_erase.mpr ⟨cell_ne _ (show (SemLoc.dma cc0_scratch14.sem : SemLoc sig) ≠ SemLoc.dma cc0_scratch13.sem by decide), Finset.mem_erase.mpr ⟨cell_ne _ (show (SemLoc.dma cc0_scratch14.sem : SemLoc sig) ≠ SemLoc.dma cc0_scratch12.sem by decide), Finset.mem_erase.mpr ⟨cell_ne _ (show (SemLoc.dma cc0_scratch14.sem : SemLoc sig) ≠ SemLoc.dma cc0_scratch11.sem by decide), Finset.mem_erase.mpr ⟨cell_ne _ (show (SemLoc.dma cc0_scratch14.sem : SemLoc sig) ≠ SemLoc.dma cc0_scratch10.sem by decide), cell_own d L _ (show (SemLoc.dma cc0_scratch14.sem : SemLoc sig).isScoped .scVector = true by decide)⟩⟩⟩⟩),
    SparseCore.bigSep_erase' (Finset.mem_erase.mpr ⟨cell_ne _ (show (SemLoc.dma cc0_scratch15.sem : SemLoc sig) ≠ SemLoc.dma cc0_scratch14.sem by decide), Finset.mem_erase.mpr ⟨cell_ne _ (show (SemLoc.dma cc0_scratch15.sem : SemLoc sig) ≠ SemLoc.dma cc0_scratch13.sem by decide), Finset.mem_erase.mpr ⟨cell_ne _ (show (SemLoc.dma cc0_scratch15.sem : SemLoc sig) ≠ SemLoc.dma cc0_scratch12.sem by decide), Finset.mem_erase.mpr ⟨cell_ne _ (show (SemLoc.dma cc0_scratch15.sem : SemLoc sig) ≠ SemLoc.dma cc0_scratch11.sem by decide), Finset.mem_erase.mpr ⟨cell_ne _ (show (SemLoc.dma cc0_scratch15.sem : SemLoc sig) ≠ SemLoc.dma cc0_scratch10.sem by decide), cell_own d L _ (show (SemLoc.dma cc0_scratch15.sem : SemLoc sig).isScoped .scVector = true by decide)⟩⟩⟩⟩⟩)]

/-! ## The buffers -/

/-- The ten row buffers are among the subcore's own: each of them whole at some contents, and the rest. -/
theorem ownBufs_V :
    (ownBufs (thrV d L) : sProp 𝕄)
      = iprop((∃ f, (thrV d L).loc cc0_scratch0 ↦{fullShare} f)
        ∗ (∃ f, (thrV d L).loc cc0_scratch1 ↦{fullShare} f)
        ∗ (∃ f, (thrV d L).loc cc0_scratch2 ↦{fullShare} f)
        ∗ (∃ f, (thrV d L).loc cc0_scratch3 ↦{fullShare} f)
        ∗ (∃ f, (thrV d L).loc cc0_scratch4 ↦{fullShare} f)
        ∗ (∃ f, (thrV d L).loc cc0_scratch5 ↦{fullShare} f)
        ∗ (∃ f, (thrV d L).loc cc0_scratch6 ↦{fullShare} f)
        ∗ (∃ f, (thrV d L).loc cc0_scratch7 ↦{fullShare} f)
        ∗ (∃ f, (thrV d L).loc cc0_scratch8 ↦{fullShare} f)
        ∗ (∃ f, (thrV d L).loc cc0_scratch9 ↦{fullShare} f)
        ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨ref_ne _ _ (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨ref_ne _ _ (show (cc0_scratch2 : Ref sig .scVector) ≠ cc0_scratch1 by decide), Finset.mem_erase.mpr ⟨ref_ne _ _ (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨ref_ne _ _ (show (cc0_scratch3 : Ref sig .scVector) ≠ cc0_scratch2 by decide), Finset.mem_erase.mpr ⟨ref_ne _ _ (show (cc0_scratch3 : Ref sig .scVector) ≠ cc0_scratch1 by decide), Finset.mem_erase.mpr ⟨ref_ne _ _ (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨ref_ne _ _ (show (cc0_scratch4 : Ref sig .scVector) ≠ cc0_scratch3 by decide), Finset.mem_erase.mpr ⟨ref_ne _ _ (show (cc0_scratch4 : Ref sig .scVector) ≠ cc0_scratch2 by decide), Finset.mem_erase.mpr ⟨ref_ne _ _ (show (cc0_scratch4 : Ref sig .scVector) ≠ cc0_scratch1 by decide), Finset.mem_erase.mpr ⟨ref_ne _ _ (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨ref_ne _ _ (show (cc0_scratch5 : Ref sig .scVector) ≠ cc0_scratch4 by decide), Finset.mem_erase.mpr ⟨ref_ne _ _ (show (cc0_scratch5 : Ref sig .scVector) ≠ cc0_scratch3 by decide), Finset.mem_erase.mpr ⟨ref_ne _ _ (show (cc0_scratch5 : Ref sig .scVector) ≠ cc0_scratch2 by decide), Finset.mem_erase.mpr ⟨ref_ne _ _ (show (cc0_scratch5 : Ref sig .scVector) ≠ cc0_scratch1 by decide), Finset.mem_erase.mpr ⟨ref_ne _ _ (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨ref_ne _ _ (show (cc0_scratch6 : Ref sig .scVector) ≠ cc0_scratch5 by decide), Finset.mem_erase.mpr ⟨ref_ne _ _ (show (cc0_scratch6 : Ref sig .scVector) ≠ cc0_scratch4 by decide), Finset.mem_erase.mpr ⟨ref_ne _ _ (show (cc0_scratch6 : Ref sig .scVector) ≠ cc0_scratch3 by decide), Finset.mem_erase.mpr ⟨ref_ne _ _ (show (cc0_scratch6 : Ref sig .scVector) ≠ cc0_scratch2 by decide), Finset.mem_erase.mpr ⟨ref_ne _ _ (show (cc0_scratch6 : Ref sig .scVector) ≠ cc0_scratch1 by decide), Finset.mem_erase.mpr ⟨ref_ne _ _ (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨ref_ne _ _ (show (cc0_scratch7 : Ref sig .scVector) ≠ cc0_scratch6 by decide), Finset.mem_erase.mpr ⟨ref_ne _ _ (show (cc0_scratch7 : Ref sig .scVector) ≠ cc0_scratch5 by decide), Finset.mem_erase.mpr ⟨ref_ne _ _ (show (cc0_scratch7 : Ref sig .scVector) ≠ cc0_scratch4 by decide), Finset.mem_erase.mpr ⟨ref_ne _ _ (show (cc0_scratch7 : Ref sig .scVector) ≠ cc0_scratch3 by decide), Finset.mem_erase.mpr ⟨ref_ne _ _ (show (cc0_scratch7 : Ref sig .scVector) ≠ cc0_scratch2 by decide), Finset.mem_erase.mpr ⟨ref_ne _ _ (show (cc0_scratch7 : Ref sig .scVector) ≠ cc0_scratch1 by decide), Finset.mem_erase.mpr ⟨ref_ne _ _ (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨ref_ne _ _ (show (cc0_scratch8 : Ref sig .scVector) ≠ cc0_scratch7 by decide), Finset.mem_erase.mpr ⟨ref_ne _ _ (show (cc0_scratch8 : Ref sig .scVector) ≠ cc0_scratch6 by decide), Finset.mem_erase.mpr ⟨ref_ne _ _ (show (cc0_scratch8 : Ref sig .scVector) ≠ cc0_scratch5 by decide), Finset.mem_erase.mpr ⟨ref_ne _ _ (show (cc0_scratch8 : Ref sig .scVector) ≠ cc0_scratch4 by decide), Finset.mem_erase.mpr ⟨ref_ne _ _ (show (cc0_scratch8 : Ref sig .scVector) ≠ cc0_scratch3 by decide), Finset.mem_erase.mpr ⟨ref_ne _ _ (show (cc0_scratch8 : Ref sig .scVector) ≠ cc0_scratch2 by decide), Finset.mem_erase.mpr ⟨ref_ne _ _ (show (cc0_scratch8 : Ref sig .scVector) ≠ cc0_scratch1 by decide), Finset.mem_erase.mpr ⟨ref_ne _ _ (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩),
    SparseCore.bigSep_erase' (Finset.mem_erase.mpr ⟨ref_ne _ _ (show (cc0_scratch9 : Ref sig .scVector) ≠ cc0_scratch8 by decide), Finset.mem_erase.mpr ⟨ref_ne _ _ (show (cc0_scratch9 : Ref sig .scVector) ≠ cc0_scratch7 by decide), Finset.mem_erase.mpr ⟨ref_ne _ _ (show (cc0_scratch9 : Ref sig .scVector) ≠ cc0_scratch6 by decide), Finset.mem_erase.mpr ⟨ref_ne _ _ (show (cc0_scratch9 : Ref sig .scVector) ≠ cc0_scratch5 by decide), Finset.mem_erase.mpr ⟨ref_ne _ _ (show (cc0_scratch9 : Ref sig .scVector) ≠ cc0_scratch4 by decide), Finset.mem_erase.mpr ⟨ref_ne _ _ (show (cc0_scratch9 : Ref sig .scVector) ≠ cc0_scratch3 by decide), Finset.mem_erase.mpr ⟨ref_ne _ _ (show (cc0_scratch9 : Ref sig .scVector) ≠ cc0_scratch2 by decide), Finset.mem_erase.mpr ⟨ref_ne _ _ (show (cc0_scratch9 : Ref sig .scVector) ≠ cc0_scratch1 by decide), Finset.mem_erase.mpr ⟨ref_ne _ _ (show (cc0_scratch9 : Ref sig .scVector) ≠ cc0_scratch0 by decide), SparseCore.Cfg.mem_ownRefs_of_owner (p := Proc.scVector (cV L) (jV L)) (b := (Proc.scVector (cV L) (jV L)).devRef cc0_scratch9) rfl⟩⟩⟩⟩⟩⟩⟩⟩⟩)]

/-! ## What the launch hands the tile, opened -/

/-- The tile's scoped buffers are its ten row buffers and the rest of its own. -/
theorem scopedBufs_open (hF : (K (F := F)).Facts) :
    (scopedBufs (thrV d L) : sProp 𝕄)
      = iprop((∃ f, (thrV d L).loc cc0_scratch0 ↦{fullShare} f)
        ∗ (∃ f, (thrV d L).loc cc0_scratch1 ↦{fullShare} f)
        ∗ (∃ f, (thrV d L).loc cc0_scratch2 ↦{fullShare} f)
        ∗ (∃ f, (thrV d L).loc cc0_scratch3 ↦{fullShare} f)
        ∗ (∃ f, (thrV d L).loc cc0_scratch4 ↦{fullShare} f)
        ∗ (∃ f, (thrV d L).loc cc0_scratch5 ↦{fullShare} f)
        ∗ (∃ f, (thrV d L).loc cc0_scratch6 ↦{fullShare} f)
        ∗ (∃ f, (thrV d L).loc cc0_scratch7 ↦{fullShare} f)
        ∗ (∃ f, (thrV d L).loc cc0_scratch8 ↦{fullShare} f)
        ∗ (∃ f, (thrV d L).loc cc0_scratch9 ↦{fullShare} f)
        ∗ bigSep (restRefs L) fun b => iprop(∃ f, ((d, b) : Loc nD τ sig) ↦{fullShare} f)) := by
  rw [(K (F := F)).scopedBufs_V hF d (cV L) (jV L), ownBufs_V]

/-- The tile's scoped semaphores at zero are its six DMA semaphores and the rest of its own cells. -/
theorem scopedSems0_open :
    (scopedSems0 (thrV d L) : sProp 𝕄)
      = iprop(semVal (thrV d L, SemLoc.dma cc0_scratch10.sem) 0
        ∗ semVal (thrV d L, SemLoc.dma cc0_scratch11.sem) 0
        ∗ semVal (thrV d L, SemLoc.dma cc0_scratch12.sem) 0
        ∗ semVal (thrV d L, SemLoc.dma cc0_scratch13.sem) 0
        ∗ semVal (thrV d L, SemLoc.dma cc0_scratch14.sem) 0
        ∗ semVal (thrV d L, SemLoc.dma cc0_scratch15.sem) 0
        ∗ bigSep (restCells d L) fun g => semVal g 0) := by
  rw [SparseCore.Cfg.scopedSems0_V (Val := Elt F) d (cV L) (jV L), ownSems0_V]

/-- Both at once. -/
theorem scoped_open (hF : (K (F := F)).Facts) :
    (iprop(scopedBufs (thrV d L) ∗ scopedSems0 (thrV d L)) : sProp 𝕄)
      = iprop(((∃ f, (thrV d L).loc cc0_scratch0 ↦{fullShare} f)
        ∗ (∃ f, (thrV d L).loc cc0_scratch1 ↦{fullShare} f)
        ∗ (∃ f, (thrV d L).loc cc0_scratch2 ↦{fullShare} f)
        ∗ (∃ f, (thrV d L).loc cc0_scratch3 ↦{fullShare} f)
        ∗ (∃ f, (thrV d L).loc cc0_scratch4 ↦{fullShare} f)
        ∗ (∃ f, (thrV d L).loc cc0_scratch5 ↦{fullShare} f)
        ∗ (∃ f, (thrV d L).loc cc0_scratch6 ↦{fullShare} f)
        ∗ (∃ f, (thrV d L).loc cc0_scratch7 ↦{fullShare} f)
        ∗ (∃ f, (thrV d L).loc cc0_scratch8 ↦{fullShare} f)
        ∗ (∃ f, (thrV d L).loc cc0_scratch9 ↦{fullShare} f)
        ∗ bigSep (restRefs L) fun b => iprop(∃ f, ((d, b) : Loc nD τ sig) ↦{fullShare} f))
        ∗ semVal (thrV d L, SemLoc.dma cc0_scratch10.sem) 0
        ∗ semVal (thrV d L, SemLoc.dma cc0_scratch11.sem) 0
        ∗ semVal (thrV d L, SemLoc.dma cc0_scratch12.sem) 0
        ∗ semVal (thrV d L, SemLoc.dma cc0_scratch13.sem) 0
        ∗ semVal (thrV d L, SemLoc.dma cc0_scratch14.sem) 0
        ∗ semVal (thrV d L, SemLoc.dma cc0_scratch15.sem) 0
        ∗ bigSep (restCells d L) fun g => semVal g 0) := by
  rw [scopedBufs_open d L hF, scopedSems0_open d L]

end Cert.KernelIdeal.Hand

end
-- ==== Proof.Spell.lean ====
/-
  The blocks as the body slices them. Every transfer of the body names its block of an array by offsets it computes
  from the tile's coordinates and the trip of the chunk-pair loop; each is the block of one chunk: the first fetches
  take chunk 0, the first half of trip `t` fetches chunk `2 t + 1` and writes out chunk `2 t`, the second half fetches
  chunk `2 t + 2` and writes out chunk `2 t + 1`.
-/
import proofs.«210086_g67980742361152_cont_9to1c4b_184_18_alg».proof.Proof.Pieces

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem trips1_le : k0_t1_loop.trips ≤ 8 := k0_t1_abs.2.1
theorem odd_lt (t : Fin k0_t1_loop.trips) : 2 * t.val + 1 < 16 := by have := t.isLt; have := trips1_le; omega
theorem even_lt (t : Fin k0_t1_loop.trips) : 2 * t.val < 16 := by have := t.isLt; have := trips1_le; omega
/-- Chunk `2 t` and chunk `2 t + 1` of trip `t`. -/
abbrev kEven (t : Fin k0_t1_loop.trips) : Fin 16 := ⟨2 * t.val, even_lt t⟩
abbrev kOdd (t : Fin k0_t1_loop.trips) : Fin 16 := ⟨2 * t.val + 1, odd_lt t⟩
/-- Chunk `2 t + 2`, for a trip that is not the last. -/
abbrev kNext (t : Fin k0_t1_loop.trips) (h : t.val + 1 < 8) : Fin 16 := ⟨2 * t.val + 2, by omega⟩

/-- A memref sliced at offsets that are a chunk's is that chunk's block. -/
theorem xM_of_off (L : grid0.Coords) (b : Fin 4) (k : Fin 16) (o : Fin 3 → ℕ) (hbo : ∀ a, o a + S1x16x768.size a ≤ S4x8192x768.size a)
    (ho : o = ![b.val, rowOf L k, 0]) :
    ((xV).slice (Rect.unit o S1x16x768.size hbo) (fun _ => rfl)).squeeze S16x768 squeezes_S1x16x768_S16x768 = xM L b k := by
  subst ho; rfl
theorem oM_of_off (L : grid0.Coords) (b : Fin 4) (k : Fin 16) (o : Fin 3 → ℕ) (hbo : ∀ a, o a + S1x16x768.size a ≤ S4x8192x768.size a)
    (ho : o = ![b.val, rowOf L k, 0]) :
    ((oV).slice (Rect.unit o S1x16x768.size hbo) (fun _ => rfl)).squeeze S16x768 squeezes_S1x16x768_S16x768 = oM L b k := by
  subst ho; rfl
theorem pM_of_off (L : grid0.Coords) (k : Fin 16) (o : Fin 2 → ℕ) (hbo : ∀ a, o a + S16x768.size a ≤ S8192x768.size a)
    (ho : o = ![rowOf L k, 0]) :
    (pV).slice (Rect.unit o S16x768.size hbo) (fun _ => rfl) = pM L k := by
  subst ho; rfl

local notation "𝕄" => MT nD τ sig (HIx 1) (Elt F) ℕ UU ℕ

/-- A block held through a memref sliced at a chunk's offsets is that chunk's block held. -/
theorem own_x_of_off (d : Dev nD) (L : grid0.Coords) (b : Fin 4) (k : Fin 16) (o : Fin 3 → ℕ)
    (hbo : ∀ a, o a + S1x16x768.size a ≤ S4x8192x768.size a) (ho : o = ![b.val, rowOf L k, 0]) (f : Buf (Elt F) (xLoc d)) :
    (own d L (((xV).slice (Rect.unit o S1x16x768.size hbo) (fun _ => rfl)).squeeze S16x768 squeezes_S1x16x768_S16x768) f : sProp 𝕄)
      = own d L (xM L b k) f := by
  subst ho; rfl
theorem own_o_of_off (d : Dev nD) (L : grid0.Coords) (b : Fin 4) (k : Fin 16) (o : Fin 3 → ℕ)
    (hbo : ∀ a, o a + S1x16x768.size a ≤ S4x8192x768.size a) (ho : o = ![b.val, rowOf L k, 0]) (f : Buf (Elt F) (oLoc d)) :
    (own d L (((oV).slice (Rect.unit o S1x16x768.size hbo) (fun _ => rfl)).squeeze S16x768 squeezes_S1x16x768_S16x768) f : sProp 𝕄)
      = own d L (oM L b k) f := by
  subst ho; rfl
theorem own_p_of_off (d : Dev nD) (L : grid0.Coords) (k : Fin 16) (o : Fin 2 → ℕ)
    (hbo : ∀ a, o a + S16x768.size a ≤ S8192x768.size a) (ho : o = ![rowOf L k, 0]) (f : Buf (Elt F) (pLoc d)) :
    (own d L ((pV).slice (Rect.unit o S16x768.size hbo) (fun _ => rfl)) f : sProp 𝕄) = own d L (pM L k) f := by
  subst ho; rfl

/-! ## The first fetches: chunk 0 -/

theorem off1_c (L : grid0.Coords) : k0_off1 L = ![rowOf L 0, 0] := by
  rw [k0_off1_eq]; unfold rowOf; simp
theorem off2_c0 : ∀ L : grid0.Coords, k0_off2 L 0#32 = ![0, 512 * (L 1).val + 256 * (L 0).val, 0] := by decide +kernel
theorem off2_c (L : grid0.Coords) : k0_off2 L 0#32 = ![(0 : Fin 4).val, rowOf L 0, 0] := by
  rw [off2_c0]; unfold rowOf; simp
theorem off3_c0 : ∀ L : grid0.Coords, k0_off3 L 0#32 = ![1, 512 * (L 1).val + 256 * (L 0).val, 0] := by decide +kernel
theorem off3_c (L : grid0.Coords) : k0_off3 L 0#32 = ![(1 : Fin 4).val, rowOf L 0, 0] := by
  rw [off3_c0]; unfold rowOf; simp
theorem off4_c0 : ∀ L : grid0.Coords, k0_off4 L 0#32 = ![2, 512 * (L 1).val + 256 * (L 0).val, 0] := by decide +kernel
theorem off4_c (L : grid0.Coords) : k0_off4 L 0#32 = ![(2 : Fin 4).val, rowOf L 0, 0] := by
  rw [off4_c0]; unfold rowOf; simp
theorem off5_c0 : ∀ L : grid0.Coords, k0_off5 L 0#32 = ![3, 512 * (L 1).val + 256 * (L 0).val, 0] := by decide +kernel
theorem off5_c (L : grid0.Coords) : k0_off5 L 0#32 = ![(3 : Fin 4).val, rowOf L 0, 0] := by
  rw [off5_c0]; unfold rowOf; simp

/-! ## Trip `t`, first half: fetch chunk `2 t + 1`, write out chunk `2 t` -/

theorem off10_c (L : grid0.Coords) (t : Fin k0_t1_loop.trips) : k0_off10 L t = ![(0 : Fin 4).val, rowOf L (kOdd t), 0] := by
  rw [k0_off10_eq]
  have e : 512 * (L 1).val + 256 * (L 0).val + 32 * t.val + 16 = rowOf L (kOdd t) := by
    show _ = 512 * (L 1).val + 256 * (L 0).val + 16 * (2 * t.val + 1); omega
  rw [e]; rfl
theorem off11_c (L : grid0.Coords) (t : Fin k0_t1_loop.trips) : k0_off11 L t = ![(1 : Fin 4).val, rowOf L (kOdd t), 0] := by
  rw [k0_off11_eq]
  have e : 512 * (L 1).val + 256 * (L 0).val + 32 * t.val + 16 = rowOf L (kOdd t) := by
    show _ = 512 * (L 1).val + 256 * (L 0).val + 16 * (2 * t.val + 1); omega
  rw [e]; rfl
theorem off12_c (L : grid0.Coords) (t : Fin k0_t1_loop.trips) : k0_off12 L t = ![(2 : Fin 4).val, rowOf L (kOdd t), 0] := by
  rw [k0_off12_eq]
  have e : 512 * (L 1).val + 256 * (L 0).val + 32 * t.val + 16 = rowOf L (kOdd t) := by
    show _ = 512 * (L 1).val + 256 * (L 0).val + 16 * (2 * t.val + 1); omega
  rw [e]; rfl
theorem off13_c (L : grid0.Coords) (t : Fin k0_t1_loop.trips) : k0_off13 L t = ![(3 : Fin 4).val, rowOf L (kOdd t), 0] := by
  rw [k0_off13_eq]
  have e : 512 * (L 1).val + 256 * (L 0).val + 32 * t.val + 16 = rowOf L (kOdd t) := by
    show _ = 512 * (L 1).val + 256 * (L 0).val + 16 * (2 * t.val + 1); omega
  rw [e]; rfl
theorem off15_c (L : grid0.Coords) (t : Fin k0_t1_loop.trips) : k0_off15 L t = ![rowOf L (kOdd t), 0] := by
  rw [k0_off15_eq]
  have e : 512 * (L 1).val + 256 * (L 0).val + 32 * t.val + 16 = rowOf L (kOdd t) := by
    show _ = 512 * (L 1).val + 256 * (L 0).val + 16 * (2 * t.val + 1); omega
  rw [e]
theorem off16_c0 (L : grid0.Coords) (t : Fin k0_t1_loop.trips) : k0_off16 L t 0#32 = ![(0 : Fin 4).val, rowOf L (kEven t), 0] := by
  have h := k0_off16_eq L t (0 : Fin 2)
  have e : 512 * (L 1).val + 256 * (L 0).val + 32 * t.val + 16 * (0 : Fin 2).val = rowOf L (kEven t) := by
    show 512 * (L 1).val + 256 * (L 0).val + 32 * t.val + 16 * 0 = 512 * (L 1).val + 256 * (L 0).val + 16 * (2 * t.val); omega
  rw [e] at h; exact h
theorem off16_c1 (L : grid0.Coords) (t : Fin k0_t1_loop.trips) : k0_off16 L t 1#32 = ![(0 : Fin 4).val, rowOf L (kOdd t), 0] := by
  have h := k0_off16_eq L t (1 : Fin 2)
  have e : 512 * (L 1).val + 256 * (L 0).val + 32 * t.val + 16 * (1 : Fin 2).val = rowOf L (kOdd t) := by
    show 512 * (L 1).val + 256 * (L 0).val + 32 * t.val + 16 * 1 = 512 * (L 1).val + 256 * (L 0).val + 16 * (2 * t.val + 1); omega
  rw [e] at h; exact h
theorem off17_c0 (L : grid0.Coords) (t : Fin k0_t1_loop.trips) : k0_off17 L t 0#32 = ![(1 : Fin 4).val, rowOf L (kEven t), 0] := by
  have h := k0_off17_eq L t (0 : Fin 2)
  have e : 512 * (L 1).val + 256 * (L 0).val + 32 * t.val + 16 * (0 : Fin 2).val = rowOf L (kEven t) := by
    show 512 * (L 1).val + 256 * (L 0).val + 32 * t.val + 16 * 0 = 512 * (L 1).val + 256 * (L 0).val + 16 * (2 * t.val); omega
  rw [e] at h; exact h
theorem off17_c1 (L : grid0.Coords) (t : Fin k0_t1_loop.trips) : k0_off17 L t 1#32 = ![(1 : Fin 4).val, rowOf L (kOdd t), 0] := by
  have h := k0_off17_eq L t (1 : Fin 2)
  have e : 512 * (L 1).val + 256 * (L 0).val + 32 * t.val + 16 * (1 : Fin 2).val = rowOf L (kOdd t) := by
    show 512 * (L 1).val + 256 * (L 0).val + 32 * t.val + 16 * 1 = 512 * (L 1).val + 256 * (L 0).val + 16 * (2 * t.val + 1); omega
  rw [e] at h; exact h
theorem off18_c0 (L : grid0.Coords) (t : Fin k0_t1_loop.trips) : k0_off18 L t 0#32 = ![(2 : Fin 4).val, rowOf L (kEven t), 0] := by
  have h := k0_off18_eq L t (0 : Fin 2)
  have e : 512 * (L 1).val + 256 * (L 0).val + 32 * t.val + 16 * (0 : Fin 2).val = rowOf L (kEven t) := by
    show 512 * (L 1).val + 256 * (L 0).val + 32 * t.val + 16 * 0 = 512 * (L 1).val + 256 * (L 0).val + 16 * (2 * t.val); omega
  rw [e] at h; exact h
theorem off18_c1 (L : grid0.Coords) (t : Fin k0_t1_loop.trips) : k0_off18 L t 1#32 = ![(2 : Fin 4).val, rowOf L (kOdd t), 0] := by
  have h := k0_off18_eq L t (1 : Fin 2)
  have e : 512 * (L 1).val + 256 * (L 0).val + 32 * t.val + 16 * (1 : Fin 2).val = rowOf L (kOdd t) := by
    show 512 * (L 1).val + 256 * (L 0).val + 32 * t.val + 16 * 1 = 512 * (L 1).val + 256 * (L 0).val + 16 * (2 * t.val + 1); omega
  rw [e] at h; exact h
theorem off19_c0 (L : grid0.Coords) (t : Fin k0_t1_loop.trips) : k0_off19 L t 0#32 = ![(3 : Fin 4).val, rowOf L (kEven t), 0] := by
  have h := k0_off19_eq L t (0 : Fin 2)
  have e : 512 * (L 1).val + 256 * (L 0).val + 32 * t.val + 16 * (0 : Fin 2).val = rowOf L (kEven t) := by
    show 512 * (L 1).val + 256 * (L 0).val + 32 * t.val + 16 * 0 = 512 * (L 1).val + 256 * (L 0).val + 16 * (2 * t.val); omega
  rw [e] at h; exact h
theorem off19_c1 (L : grid0.Coords) (t : Fin k0_t1_loop.trips) : k0_off19 L t 1#32 = ![(3 : Fin 4).val, rowOf L (kOdd t), 0] := by
  have h := k0_off19_eq L t (1 : Fin 2)
  have e : 512 * (L 1).val + 256 * (L 0).val + 32 * t.val + 16 * (1 : Fin 2).val = rowOf L (kOdd t) := by
    show 512 * (L 1).val + 256 * (L 0).val + 32 * t.val + 16 * 1 = 512 * (L 1).val + 256 * (L 0).val + 16 * (2 * t.val + 1); omega
  rw [e] at h; exact h

/-! ## Trip `t`, second half: fetch chunk `2 t + 2` -/

theorem off72_c (L : grid0.Coords) (t : Fin k0_t1_loop.trips) (h : t.val + 1 < 8) : k0_off72 L t = ![(0 : Fin 4).val, rowOf L (kNext t h), 0] := by
  rw [k0_off72_eq]
  have e : 512 * (L 1).val + 256 * (L 0).val + 32 * t.val + 32 = rowOf L (kNext t h) := by
    show _ = 512 * (L 1).val + 256 * (L 0).val + 16 * (2 * t.val + 2); omega
  rw [e]; rfl
theorem off73_c (L : grid0.Coords) (t : Fin k0_t1_loop.trips) (h : t.val + 1 < 8) : k0_off73 L t = ![(1 : Fin 4).val, rowOf L (kNext t h), 0] := by
  rw [k0_off73_eq]
  have e : 512 * (L 1).val + 256 * (L 0).val + 32 * t.val + 32 = rowOf L (kNext t h) := by
    show _ = 512 * (L 1).val + 256 * (L 0).val + 16 * (2 * t.val + 2); omega
  rw [e]; rfl
theorem off74_c (L : grid0.Coords) (t : Fin k0_t1_loop.trips) (h : t.val + 1 < 8) : k0_off74 L t = ![(2 : Fin 4).val, rowOf L (kNext t h), 0] := by
  rw [k0_off74_eq]
  have e : 512 * (L 1).val + 256 * (L 0).val + 32 * t.val + 32 = rowOf L (kNext t h) := by
    show _ = 512 * (L 1).val + 256 * (L 0).val + 16 * (2 * t.val + 2); omega
  rw [e]; rfl
theorem off75_c (L : grid0.Coords) (t : Fin k0_t1_loop.trips) (h : t.val + 1 < 8) : k0_off75 L t = ![(3 : Fin 4).val, rowOf L (kNext t h), 0] := by
  rw [k0_off75_eq]
  have e : 512 * (L 1).val + 256 * (L 0).val + 32 * t.val + 32 = rowOf L (kNext t h) := by
    show _ = 512 * (L 1).val + 256 * (L 0).val + 16 * (2 * t.val + 2); omega
  rw [e]; rfl
theorem off76_c (L : grid0.Coords) (t : Fin k0_t1_loop.trips) (h : t.val + 1 < 8) : k0_off76 L t = ![rowOf L (kNext t h), 0] := by
  rw [k0_off76_eq]
  have e : 512 * (L 1).val + 256 * (L 0).val + 32 * t.val + 32 = rowOf L (kNext t h) := by
    show _ = 512 * (L 1).val + 256 * (L 0).val + 16 * (2 * t.val + 2); omega
  rw [e]

end Cert.KernelIdeal.Hand

end
-- ==== Proof.RowLoop.lean ====
/-
  One chunk's work on a tile: sixteen rows, each row forty-eight lane slices of sixteen entries. A trip of the row
  loop reads, for each lane slice of its row, the table's slice and then each of the four batch entries' slices, and
  stores back the slice with the table's entries added wherever the input's entry is not zero. The slices of one row
  tile that row, no slice of a row is read after it is written, and nothing of another row is touched: after the
  trip the row is done, and after sixteen trips the block is.
-/
import proofs.«210086_g67980742361152_cont_9to1c4b_184_18_alg».proof.Proof.Pieces
import Idealize.ShloMosaic.Lib.Writes
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

variable [FloatOps F]

/-! ## One entry, one lane slice -/

/-- One entry: kept if it is exactly zero, else the table's entry added. -/
def gS (xe pe : F .f32) : F .f32 :=
  Scalar.select (FloatOps.cmpf .oeq xe (Scalar.ofBits .f32 0x00000000#32)) xe (FloatOps.addf xe pe)

theorem Gblk_apply (pe x : FVec F S16x768 .f32) (i : S16x768.Idx) : Gblk pe x i = gS (x i) (pe i) := rfl

/-- A lane slice's stored value of the table's slice `pv` and the input's slice `xv`, as the body computes it:
    both slices flattened to sixteen lanes, compared, added, selected, and laid out as a `[1, 16]` slice again. -/
def payG (pv xv : Vec F S1x16 .f32) : FVec F S1x16 .f32 :=
  shapeCast S1x16 (select (cmpf .oeq (shapeCast S16 xv shapeCasts_S1x16_S16) (broadcast S16 (Scalar.ofBits .f32 0x00000000#32)))
    (shapeCast S16 xv shapeCasts_S1x16_S16) (addf (shapeCast S16 xv shapeCasts_S1x16_S16) (shapeCast S16 pv shapeCasts_S1x16_S16)))
    shapeCasts_S16_S1x16

/-- Flattening and laying out again is the identity, and the three operations act entry by entry. -/
theorem payG_apply (pv xv : Vec F S1x16 .f32) (i : S1x16.Idx) : payG pv xv i = gS (xv i) (pv i) := by
  have hx := congrFun (shapeCast_shapeCast xv shapeCasts_S1x16_S16 shapeCasts_S16_S1x16) i
  have hp := congrFun (shapeCast_shapeCast pv shapeCasts_S1x16_S16 shapeCasts_S16_S1x16) i
  show gS (shapeCast S1x16 (shapeCast S16 xv shapeCasts_S1x16_S16) shapeCasts_S16_S1x16 i)
    (shapeCast S1x16 (shapeCast S16 pv shapeCasts_S1x16_S16) shapeCasts_S16_S1x16 i) = _
  rw [hx, hp]

/-! ## The lane slices of one row -/

/-- A `[1, 16]` slice at offsets `(r, c)` of a `[16, 768]` block holds the entries of row `r` in columns `c … c + 15`. -/
theorem mem_rowslice {o : Fin 2 → ℕ} {hbo : ∀ a, o a + S1x16.size a ≤ S16x768.size a} {r c : ℕ} (ho : o = ![r, c]) {y : S16x768.Idx} :
    y ∈ (Rect.unit (s := S16x768) o S1x16.size hbo).set ↔ (y 0).val = r ∧ c ≤ (y 1).val ∧ (y 1).val < c + 16 := by
  subst ho
  rw [Rect.mem_set_unit]
  constructor
  · intro h
    have h0 := h 0; have h1 := h 1
    have e0 : (![r, c] : Fin 2 → ℕ) 0 = r := rfl
    have e1 : (![r, c] : Fin 2 → ℕ) 1 = c := rfl
    have s0 : S1x16.size 0 = 1 := rfl
    have s1 : S1x16.size 1 = 16 := rfl
    rw [e0, s0] at h0; rw [e1, s1] at h1
    omega
  · rintro ⟨h0, h1, h2⟩ a
    fin_cases a
    · show r ≤ (y 0).val ∧ (y 0).val < r + 1; omega
    · show c ≤ (y 1).val ∧ (y 1).val < c + 16; omega

section Row

variable {κ : Kind} {sp sp' : Space} (vp : View sig κ sp S16x768 .f32) (vx : View sig κ sp' S16x768 .f32)
variable (off : Fin 48 → Fin 2 → ℕ) (hb : ∀ j a, off j a + S1x16.size a ≤ S16x768.size a)

/-- What a trip stores through its `j`-th lane slice (at offsets `off j`): the slice's value of the table's slice and of
    the slice of the block as the trip found it. -/
def rowPiece (pe : vp.ty.Contents (Elt F)) (f : vx.ty.Contents (Elt F)) (j : Fin 48) : View.Piece (Elt F) S16x768 .f32 :=
  ⟨Rect.unit (s := S16x768) (off j) S1x16.size (hb j), payG (vp.readAt (Elt F) (Rect.unit (s := S16x768) (off j) S1x16.size (hb j)).toLoadRect pe)
    (vx.readAt (Elt F) (Rect.unit (s := S16x768) (off j) S1x16.size (hb j)).toLoadRect f)⟩

/-- The trip's forty-eight stores, the last first. -/
def rowPieces (pe : vp.ty.Contents (Elt F)) (f : vx.ty.Contents (Elt F)) : List (View.Piece (Elt F) S16x768 .f32) :=
  ((List.finRange 48).map (rowPiece (F := F) vp vx off hb pe f)).reverse

/-- When slice `j` sits at `(r, 16 j)`: after the trip's stores an entry of row `r` is the entry of the input, the
    table's added unless it is zero, and every other entry is as it was — the slices lie in row `r`, tile it, and each
    holds that value. -/
theorem read_rowWrites (pe : vp.ty.Contents (Elt F)) (f : vx.ty.Contents (Elt F)) (r : ℕ) (hoff : ∀ j, off j = ![r, 16 * j.val]) (y : S16x768.Idx) :
    vx.read (Elt F) (vx.writes (Elt F) f (rowPieces (F := F) vp vx off hb pe f)) y
      = if (y 0).val = r then gS (vx.read (Elt F) f y) (vp.read (Elt F) pe y) else vx.read (Elt F) f y := by
  have hmem : ∀ p ∈ rowPieces (F := F) vp vx off hb pe f, ∃ j, p = rowPiece (F := F) vp vx off hb pe f j := by
    intro p hp
    obtain ⟨j, -, rfl⟩ := List.mem_map.mp (List.mem_reverse.mp hp)
    exact ⟨j, rfl⟩
  by_cases h : (y 0).val = r
  · rw [if_pos h]
    refine View.read_writes_apply_of_pieces vx f (fun y => gS (vx.read (Elt F) f y) (vp.read (Elt F) pe y)) _ ?_ y ?_
    · intro p hp x'
      obtain ⟨j, rfl⟩ := hmem p hp
      exact payG_apply _ _ x'
    · have hy1 : (y 1).val < 768 := (y 1).isLt
      have hjlt : (y 1).val / 16 < 48 := by omega
      refine ⟨rowPiece (F := F) vp vx off hb pe f ⟨(y 1).val / 16, hjlt⟩,
        List.mem_reverse.mpr (List.mem_map.mpr ⟨_, List.mem_finRange _, rfl⟩), ?_⟩
      have key := (mem_rowslice (hbo := hb ⟨(y 1).val / 16, hjlt⟩) (hoff ⟨(y 1).val / 16, hjlt⟩) (y := y)).mpr
        ⟨h, by show 16 * ((y 1).val / 16) ≤ (y 1).val; omega, by show (y 1).val < 16 * ((y 1).val / 16) + 16; omega⟩
      exact key
  · rw [if_neg h]
    refine View.read_writes_apply_of_forall_not_mem vx f y _ ?_
    intro p hp hy
    obtain ⟨j, rfl⟩ := hmem p hp
    exact h ((mem_rowslice (hbo := hb j) (hoff j)).mp hy).1

end Row

/-! ## The printed offsets of the two row loops' lane slices -/

/-- Trip `k` of the first row loop: the offsets of its forty-eight lane slices, as the body computes them. -/
def off2 (k : Fin k0_t2_loop.trips) : Fin 48 → Fin 2 → ℕ := ![k0_off20 k, k0_off21 k, k0_off22 k, k0_off23 k, k0_off24 k, k0_off25 k, k0_off26 k, k0_off27 k, k0_off28 k, k0_off29 k, k0_off30 k, k0_off31 k, k0_off32 k, k0_off33 k, k0_off34 k, k0_off35 k, k0_off36 k, k0_off37 k, k0_off38 k, k0_off39 k, k0_off40 k, k0_off41 k, k0_off42 k, k0_off43 k, k0_off44 k, k0_off45 k, k0_off46 k, k0_off47 k, k0_off48 k, k0_off49 k, k0_off50 k, k0_off51 k, k0_off52 k, k0_off53 k, k0_off54 k, k0_off55 k, k0_off56 k, k0_off57 k, k0_off58 k, k0_off59 k, k0_off60 k, k0_off61 k, k0_off62 k, k0_off63 k, k0_off64 k, k0_off65 k, k0_off66 k, k0_off67 k]
/-- They are row `k`, columns `16 j`. -/
theorem off2_eq (k : Fin k0_t2_loop.trips) : ∀ j : Fin 48, off2 k j = ![k.val, 16 * j.val] := by
  intro j; fin_cases j
  exacts [k0_off20_eq k, k0_off21_eq k, k0_off22_eq k, k0_off23_eq k, k0_off24_eq k, k0_off25_eq k, k0_off26_eq k, k0_off27_eq k, k0_off28_eq k, k0_off29_eq k, k0_off30_eq k, k0_off31_eq k, k0_off32_eq k, k0_off33_eq k, k0_off34_eq k, k0_off35_eq k, k0_off36_eq k, k0_off37_eq k, k0_off38_eq k, k0_off39_eq k, k0_off40_eq k, k0_off41_eq k, k0_off42_eq k, k0_off43_eq k, k0_off44_eq k, k0_off45_eq k, k0_off46_eq k, k0_off47_eq k, k0_off48_eq k, k0_off49_eq k, k0_off50_eq k, k0_off51_eq k, k0_off52_eq k, k0_off53_eq k, k0_off54_eq k, k0_off55_eq k, k0_off56_eq k, k0_off57_eq k, k0_off58_eq k, k0_off59_eq k, k0_off60_eq k, k0_off61_eq k, k0_off62_eq k, k0_off63_eq k, k0_off64_eq k, k0_off65_eq k, k0_off66_eq k, k0_off67_eq k]
theorem off2_inb (k : Fin k0_t2_loop.trips) : ∀ j a, off2 k j a + S1x16.size a ≤ S16x768.size a := by
  have hk : k.val < 16 := lt_of_lt_of_le k.isLt k0_t2_abs.2.1
  intro j a; rw [off2_eq k j]; have := j.isLt
  fin_cases a
  · show k.val + 1 ≤ 16; omega
  · show 16 * j.val + 16 ≤ 768; omega

/-- Trip `k` of the second row loop, likewise. -/
def off3 (k : Fin k0_t3_loop.trips) : Fin 48 → Fin 2 → ℕ := ![k0_off77 k, k0_off78 k, k0_off79 k, k0_off80 k, k0_off81 k, k0_off82 k, k0_off83 k, k0_off84 k, k0_off85 k, k0_off86 k, k0_off87 k, k0_off88 k, k0_off89 k, k0_off90 k, k0_off91 k, k0_off92 k, k0_off93 k, k0_off94 k, k0_off95 k, k0_off96 k, k0_off97 k, k0_off98 k, k0_off99 k, k0_off100 k, k0_off101 k, k0_off102 k, k0_off103 k, k0_off104 k, k0_off105 k, k0_off106 k, k0_off107 k, k0_off108 k, k0_off109 k, k0_off110 k, k0_off111 k, k0_off112 k, k0_off113 k, k0_off114 k, k0_off115 k, k0_off116 k, k0_off117 k, k0_off118 k, k0_off119 k, k0_off120 k, k0_off121 k, k0_off122 k, k0_off123 k, k0_off124 k]
theorem off3_eq (k : Fin k0_t3_loop.trips) : ∀ j : Fin 48, off3 k j = ![k.val, 16 * j.val] := by
  intro j; fin_cases j
  exacts [k0_off77_eq k, k0_off78_eq k, k0_off79_eq k, k0_off80_eq k, k0_off81_eq k, k0_off82_eq k, k0_off83_eq k, k0_off84_eq k, k0_off85_eq k, k0_off86_eq k, k0_off87_eq k, k0_off88_eq k, k0_off89_eq k, k0_off90_eq k, k0_off91_eq k, k0_off92_eq k, k0_off93_eq k, k0_off94_eq k, k0_off95_eq k, k0_off96_eq k, k0_off97_eq k, k0_off98_eq k, k0_off99_eq k, k0_off100_eq k, k0_off101_eq k, k0_off102_eq k, k0_off103_eq k, k0_off104_eq k, k0_off105_eq k, k0_off106_eq k, k0_off107_eq k, k0_off108_eq k, k0_off109_eq k, k0_off110_eq k, k0_off111_eq k, k0_off112_eq k, k0_off113_eq k, k0_off114_eq k, k0_off115_eq k, k0_off116_eq k, k0_off117_eq k, k0_off118_eq k, k0_off119_eq k, k0_off120_eq k, k0_off121_eq k, k0_off122_eq k, k0_off123_eq k, k0_off124_eq k]
theorem off3_inb (k : Fin k0_t3_loop.trips) : ∀ j a, off3 k j a + S1x16.size a ≤ S16x768.size a := by
  have hk : k.val < 16 := lt_of_lt_of_le k.isLt k0_t3_abs.2.1
  intro j a; rw [off3_eq k j]; have := j.isLt
  fin_cases a
  · show k.val + 1 ≤ 16; omega
  · show 16 * j.val + 16 ≤ 768; omega

/-- A row done on top of the rows below it done is the rows up to it done. -/
theorem Grows_step (pe x : FVec F S16x768 .f32) (r : ℕ) (y : S16x768.Idx) :
    (if (y 0).val = r then gS (Grows pe x r y) (pe y) else Grows pe x r y) = Grows pe x (r + 1) y := by
  unfold Grows
  by_cases h : (y 0).val = r
  · rw [if_pos h, if_neg (by omega), if_pos (by omega)]; rfl
  · rw [if_neg h]
    by_cases h' : (y 0).val < r
    · rw [if_pos h', if_pos (by omega)]
    · rw [if_neg h', if_neg (by omega)]

/-! ## The trips' stores, buffer by buffer -/

theorem trip_b0_b2 (pe x : FVec F S16x768 .f32) (k : Fin k0_t2_loop.trips) :
    (b2).view.writes (Elt F) (Grows pe x k.val) (rowPieces (F := F) (b0).view (b2).view (off2 k) (off2_inb k) pe (Grows pe x k.val))
      = Grows pe x (k.val + 1) := by
  funext y
  refine (read_rowWrites (F := F) (b0).view (b2).view (off2 k) (off2_inb k) pe (Grows pe x k.val) k.val (off2_eq k) y).trans ?_
  exact Grows_step pe x k.val y

theorem trip_b0_b3 (pe x : FVec F S16x768 .f32) (k : Fin k0_t2_loop.trips) :
    (b3).view.writes (Elt F) (Grows pe x k.val) (rowPieces (F := F) (b0).view (b3).view (off2 k) (off2_inb k) pe (Grows pe x k.val))
      = Grows pe x (k.val + 1) := by
  funext y
  refine (read_rowWrites (F := F) (b0).view (b3).view (off2 k) (off2_inb k) pe (Grows pe x k.val) k.val (off2_eq k) y).trans ?_
  exact Grows_step pe x k.val y

theorem trip_b0_b4 (pe x : FVec F S16x768 .f32) (k : Fin k0_t2_loop.trips) :
    (b4).view.writes (Elt F) (Grows pe x k.val) (rowPieces (F := F) (b0).view (b4).view (off2 k) (off2_inb k) pe (Grows pe x k.val))
      = Grows pe x (k.val + 1) := by
  funext y
  refine (read_rowWrites (F := F) (b0).view (b4).view (off2 k) (off2_inb k) pe (Grows pe x k.val) k.val (off2_eq k) y).trans ?_
  exact Grows_step pe x k.val y

theorem trip_b0_b5 (pe x : FVec F S16x768 .f32) (k : Fin k0_t2_loop.trips) :
    (b5).view.writes (Elt F) (Grows pe x k.val) (rowPieces (F := F) (b0).view (b5).view (off2 k) (off2_inb k) pe (Grows pe x k.val))
      = Grows pe x (k.val + 1) := by
  funext y
  refine (read_rowWrites (F := F) (b0).view (b5).view (off2 k) (off2_inb k) pe (Grows pe x k.val) k.val (off2_eq k) y).trans ?_
  exact Grows_step pe x k.val y

theorem trip_b1_b6 (pe x : FVec F S16x768 .f32) (k : Fin k0_t3_loop.trips) :
    (b6).view.writes (Elt F) (Grows pe x k.val) (rowPieces (F := F) (b1).view (b6).view (off3 k) (off3_inb k) pe (Grows pe x k.val))
      = Grows pe x (k.val + 1) := by
  funext y
  refine (read_rowWrites (F := F) (b1).view (b6).view (off3 k) (off3_inb k) pe (Grows pe x k.val) k.val (off3_eq k) y).trans ?_
  exact Grows_step pe x k.val y

theorem trip_b1_b7 (pe x : FVec F S16x768 .f32) (k : Fin k0_t3_loop.trips) :
    (b7).view.writes (Elt F) (Grows pe x k.val) (rowPieces (F := F) (b1).view (b7).view (off3 k) (off3_inb k) pe (Grows pe x k.val))
      = Grows pe x (k.val + 1) := by
  funext y
  refine (read_rowWrites (F := F) (b1).view (b7).view (off3 k) (off3_inb k) pe (Grows pe x k.val) k.val (off3_eq k) y).trans ?_
  exact Grows_step pe x k.val y

theorem trip_b1_b8 (pe x : FVec F S16x768 .f32) (k : Fin k0_t3_loop.trips) :
    (b8).view.writes (Elt F) (Grows pe x k.val) (rowPieces (F := F) (b1).view (b8).view (off3 k) (off3_inb k) pe (Grows pe x k.val))
      = Grows pe x (k.val + 1) := by
  funext y
  refine (read_rowWrites (F := F) (b1).view (b8).view (off3 k) (off3_inb k) pe (Grows pe x k.val) k.val (off3_eq k) y).trans ?_
  exact Grows_step pe x k.val y

theorem trip_b1_b9 (pe x : FVec F S16x768 .f32) (k : Fin k0_t3_loop.trips) :
    (b9).view.writes (Elt F) (Grows pe x k.val) (rowPieces (F := F) (b1).view (b9).view (off3 k) (off3_inb k) pe (Grows pe x k.val))
      = Grows pe x (k.val + 1) := by
  funext y
  refine (read_rowWrites (F := F) (b1).view (b9).view (off3 k) (off3_inb k) pe (Grows pe x k.val) k.val (off3_eq k) y).trans ?_
  exact Grows_step pe x k.val y

end Cert.KernelIdeal.Hand

end
-- ==== Proof.RowRun.lean ====
/-
  The two row loops of the kernel's body, each run once at a symbolic chunk: the first over the first table buffer
  and the first set of four input buffers, the second over the second ones. The invariant of either: the rows below
  the trip are done.
-/
import proofs.«210086_g67980742361152_cont_9to1c4b_184_18_alg».proof.Proof.RowLoop

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

variable [FloatOps F] [∀ e, Nonempty (Elt F e)]

theorem trips2 : k0_t2_loop.trips = 16 := by decide
theorem trips3 : k0_t3_loop.trips = 16 := by decide

/-- Before trip `k` of the row loop: the table's block as fetched, and in each of the four buffers the rows below `k`
    done and the others as fetched. -/
def rowInv0 (d : Dev nD) (L : grid0.Coords) (pe x0 x1 x2 x3 : FVec F S16x768 .f32) (k : ℕ) (_ : BitVec 32) : sProp 𝕄 :=
  iprop(∃ f0 f1 f2 f3 : FVec F S16x768 .f32, ((b0).view.loc (thrV d L) ↦{fullShare} pe) ∗ ((b2).view.loc (thrV d L) ↦{fullShare} f0) ∗ ((b3).view.loc (thrV d L) ↦{fullShare} f1)
    ∗ ((b4).view.loc (thrV d L) ↦{fullShare} f2) ∗ ((b5).view.loc (thrV d L) ↦{fullShare} f3)
    ∗ ⌜f0 = Grows pe x0 k ∧ f1 = Grows pe x1 k ∧ f2 = Grows pe x2 k ∧ f3 = Grows pe x3 k⌝)

set_option maxHeartbeats 4000000 in
/-- The row loop over a fetched chunk: sixteen trips leave the four blocks done. -/
theorem rowLoop0 (d : Dev nD) (L : grid0.Coords) (v2 v69 : BitVec 32) (t1 : Fin k0_t1_loop.trips) (pe x0 x1 x2 x3 : FVec F S16x768 .f32) :
    (iprop(((b0).view.loc (thrV d L) ↦{fullShare} pe) ∗ ((b2).view.loc (thrV d L) ↦{fullShare} x0) ∗ ((b3).view.loc (thrV d L) ↦{fullShare} x1) ∗ ((b4).view.loc (thrV d L) ↦{fullShare} x2) ∗ ((b5).view.loc (thrV d L) ↦{fullShare} x3)) : sProp 𝕄)
      ⊢ wp frame (wpE (defs₀ (F := F)) 𝒱₀ (thrV d L) none) Set.univ
          (Scf.Loop.for k0_t2_loop k0_t2_ok 0#32 (k0_t2_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15 v2 t1 v69))
          fun _ => iprop(((b0).view.loc (thrV d L) ↦{fullShare} pe) ∗ ((b2).view.loc (thrV d L) ↦{fullShare} Gblk pe x0) ∗ ((b3).view.loc (thrV d L) ↦{fullShare} Gblk pe x1)
            ∗ ((b4).view.loc (thrV d L) ↦{fullShare} Gblk pe x2) ∗ ((b5).view.loc (thrV d L) ↦{fullShare} Gblk pe x3)) := by
  iintro ⟨Hp, H0, H1, H2, H3⟩
  sl_for (rowInv0 (F := F) d L pe x0 x1 x2 x3) $$ [Hp H0 H1 H2 H3]
  case region =>
    intro k acc
    unfold rowInv0
    iintro ⟨%f0, %f1, %f2, %f3, Hp, H0, H1, H2, H3, %hf⟩
    obtain ⟨rfl, rfl, rfl, rfl⟩ := hf
    sl_exec_parts
    sl_step
    iexists _, _, _, _
    isplitl [Hp]; · iexact Hp
    isplitl [H0]; · iexact H0
    isplitl [H1]; · iexact H1
    isplitl [H2]; · iexact H2
    isplitl [H3]; · iexact H3
    ipureintro
    refine ⟨?_, ?_, ?_, ?_⟩
    · sl_unfold_run_names
      exact trip_b0_b2 pe x0 k
    · sl_unfold_run_names
      exact trip_b0_b3 pe x1 k
    · sl_unfold_run_names
      exact trip_b0_b4 pe x2 k
    · sl_unfold_run_names
      exact trip_b0_b5 pe x3 k
  isplitl [Hp H0 H1 H2 H3]
  · unfold rowInv0
    iexists x0, x1, x2, x3
    isplitl [Hp]; · iexact Hp
    isplitl [H0]; · iexact H0
    isplitl [H1]; · iexact H1
    isplitl [H2]; · iexact H2
    isplitl [H3]; · iexact H3
    ipureintro
    exact ⟨(Grows_zero pe x0).symm, (Grows_zero pe x1).symm, (Grows_zero pe x2).symm, (Grows_zero pe x3).symm⟩
  · iintro %acc HI
    unfold rowInv0
    icases HI with ⟨%f0, %f1, %f2, %f3, Hp, H0, H1, H2, H3, %hf⟩
    have e : Scf.trips k0_t2_loop.lb k0_t2_loop.ub k0_t2_loop.st = 16 := trips2
    obtain ⟨h0, h1, h2, h3⟩ := hf
    rw [e, Grows_all] at h0 h1 h2 h3
    subst h0 h1 h2 h3
    isplitl [Hp]; · iexact Hp
    isplitl [H0]; · iexact H0
    isplitl [H1]; · iexact H1
    isplitl [H2]; · iexact H2
    iexact H3

/-- Before trip `k` of the row loop: the table's block as fetched, and in each of the four buffers the rows below `k`
    done and the others as fetched. -/
def rowInv1 (d : Dev nD) (L : grid0.Coords) (pe x0 x1 x2 x3 : FVec F S16x768 .f32) (k : ℕ) (_ : BitVec 32) : sProp 𝕄 :=
  iprop(∃ f0 f1 f2 f3 : FVec F S16x768 .f32, ((b1).view.loc (thrV d L) ↦{fullShare} pe) ∗ ((b6).view.loc (thrV d L) ↦{fullShare} f0) ∗ ((b7).view.loc (thrV d L) ↦{fullShare} f1)
    ∗ ((b8).view.loc (thrV d L) ↦{fullShare} f2) ∗ ((b9).view.loc (thrV d L) ↦{fullShare} f3)
    ∗ ⌜f0 = Grows pe x0 k ∧ f1 = Grows pe x1 k ∧ f2 = Grows pe x2 k ∧ f3 = Grows pe x3 k⌝)

set_option maxHeartbeats 4000000 in
/-- The row loop over a fetched chunk: sixteen trips leave the four blocks done. -/
theorem rowLoop1 (d : Dev nD) (L : grid0.Coords) (v2 v69 : BitVec 32) (t1 : Fin k0_t1_loop.trips) (pe x0 x1 x2 x3 : FVec F S16x768 .f32) :
    (iprop(((b1).view.loc (thrV d L) ↦{fullShare} pe) ∗ ((b6).view.loc (thrV d L) ↦{fullShare} x0) ∗ ((b7).view.loc (thrV d L) ↦{fullShare} x1) ∗ ((b8).view.loc (thrV d L) ↦{fullShare} x2) ∗ ((b9).view.loc (thrV d L) ↦{fullShare} x3)) : sProp 𝕄)
      ⊢ wp frame (wpE (defs₀ (F := F)) 𝒱₀ (thrV d L) none) Set.univ
          (Scf.Loop.for k0_t3_loop k0_t3_ok 0#32 (k0_t3_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15 v2 t1 v69))
          fun _ => iprop(((b1).view.loc (thrV d L) ↦{fullShare} pe) ∗ ((b6).view.loc (thrV d L) ↦{fullShare} Gblk pe x0) ∗ ((b7).view.loc (thrV d L) ↦{fullShare} Gblk pe x1)
            ∗ ((b8).view.loc (thrV d L) ↦{fullShare} Gblk pe x2) ∗ ((b9).view.loc (thrV d L) ↦{fullShare} Gblk pe x3)) := by
  iintro ⟨Hp, H0, H1, H2, H3⟩
  sl_for (rowInv1 (F := F) d L pe x0 x1 x2 x3) $$ [Hp H0 H1 H2 H3]
  case region =>
    intro k acc
    unfold rowInv1
    iintro ⟨%f0, %f1, %f2, %f3, Hp, H0, H1, H2, H3, %hf⟩
    obtain ⟨rfl, rfl, rfl, rfl⟩ := hf
    sl_exec_parts
    sl_step
    iexists _, _, _, _
    isplitl [Hp]; · iexact Hp
    isplitl [H0]; · iexact H0
    isplitl [H1]; · iexact H1
    isplitl [H2]; · iexact H2
    isplitl [H3]; · iexact H3
    ipureintro
    refine ⟨?_, ?_, ?_, ?_⟩
    · sl_unfold_run_names
      exact trip_b1_b6 pe x0 k
    · sl_unfold_run_names
      exact trip_b1_b7 pe x1 k
    · sl_unfold_run_names
      exact trip_b1_b8 pe x2 k
    · sl_unfold_run_names
      exact trip_b1_b9 pe x3 k
  isplitl [Hp H0 H1 H2 H3]
  · unfold rowInv1
    iexists x0, x1, x2, x3
    isplitl [Hp]; · iexact Hp
    isplitl [H0]; · iexact H0
    isplitl [H1]; · iexact H1
    isplitl [H2]; · iexact H2
    isplitl [H3]; · iexact H3
    ipureintro
    exact ⟨(Grows_zero pe x0).symm, (Grows_zero pe x1).symm, (Grows_zero pe x2).symm, (Grows_zero pe x3).symm⟩
  · iintro %acc HI
    unfold rowInv1
    icases HI with ⟨%f0, %f1, %f2, %f3, Hp, H0, H1, H2, H3, %hf⟩
    have e : Scf.trips k0_t3_loop.lb k0_t3_loop.ub k0_t3_loop.st = 16 := trips3
    obtain ⟨h0, h1, h2, h3⟩ := hf
    rw [e, Grows_all] at h0 h1 h2 h3
    subst h0 h1 h2 h3
    isplitl [Hp]; · iexact Hp
    isplitl [H0]; · iexact H0
    isplitl [H1]; · iexact H1
    isplitl [H2]; · iexact H2
    iexact H3

end Cert.KernelIdeal.Hand

end
-- ==== Proof.Glue.lean ====
/-
  Small facts the tile's run is assembled from: a row loop followed by the rest of the body, and a block fetched whole
  into a buffer being just the block.
-/
import proofs.«210086_g67980742361152_cont_9to1c4b_184_18_alg».proof.Proof.RowRun

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

/-- A write of a whole buffer through its whole rectangle leaves the payload. -/
theorem writes_whole_buf {κ : Kind} (b : Ref sig κ) (fd : b.ty.Contents (Elt F)) (w : (Rect.whole b.ty.shape).shape.Idx → Elt F b.ty.elt) (i : b.ty.shape.Idx) :
    (View.whole b).writes (Elt F) fd [⟨Rect.whole b.ty.shape, w⟩] i = w i := by
  have h := View.read_writes_cons_emb (View.whole b) fd (Rect.whole b.ty.shape) w [] i
  rwa [Rect.emb_whole_apply] at h

variable [FloatOps F] [∀ e, Nonempty (Elt F e)]

/-- The row loop followed by the rest of the body: from the fetched blocks, and the rest run from the blocks done. -/
theorem rowLoop0_bind {β : Type} (d : Dev nD) (L : grid0.Coords) (v2 v69 : BitVec 32) (t1 : Fin k0_t1_loop.trips) (pe x0 x1 x2 x3 : FVec F S16x768 .f32)
    (kk : BitVec 32 → Prog (TpuEff nD τ sig (Elt F) Λ₀ (.scVector (cV L) (jV L))) β) (Q : β → sProp 𝕄) :
    (iprop((((b0).view.loc (thrV d L) ↦{fullShare} pe) ∗ ((b2).view.loc (thrV d L) ↦{fullShare} x0) ∗ ((b3).view.loc (thrV d L) ↦{fullShare} x1) ∗ ((b4).view.loc (thrV d L) ↦{fullShare} x2) ∗ ((b5).view.loc (thrV d L) ↦{fullShare} x3))
        ∗ (∀ a : BitVec 32, (((b0).view.loc (thrV d L) ↦{fullShare} pe) ∗ ((b2).view.loc (thrV d L) ↦{fullShare} Gblk pe x0) ∗ ((b3).view.loc (thrV d L) ↦{fullShare} Gblk pe x1)
            ∗ ((b4).view.loc (thrV d L) ↦{fullShare} Gblk pe x2) ∗ ((b5).view.loc (thrV d L) ↦{fullShare} Gblk pe x3))
          -∗ wp frame (wpE (defs₀ (F := F)) 𝒱₀ (thrV d L) none) Set.univ (kk a) Q)) : sProp 𝕄)
      ⊢ wp frame (wpE (defs₀ (F := F)) 𝒱₀ (thrV d L) none) Set.univ
          (Scf.Loop.for k0_t2_loop k0_t2_ok 0#32 (k0_t2_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15 v2 t1 v69) >>= kk) Q := by
  rw [wp_bind]
  exact (sep_mono (rowLoop0 (F := F) d L v2 v69 t1 pe x0 x1 x2 x3) .rfl).trans (wp_wand_r frame _ _)

/-- The row loop followed by the rest of the body: from the fetched blocks, and the rest run from the blocks done. -/
theorem rowLoop1_bind {β : Type} (d : Dev nD) (L : grid0.Coords) (v2 v69 : BitVec 32) (t1 : Fin k0_t1_loop.trips) (pe x0 x1 x2 x3 : FVec F S16x768 .f32)
    (kk : BitVec 32 → Prog (TpuEff nD τ sig (Elt F) Λ₀ (.scVector (cV L) (jV L))) β) (Q : β → sProp 𝕄) :
    (iprop((((b1).view.loc (thrV d L) ↦{fullShare} pe) ∗ ((b6).view.loc (thrV d L) ↦{fullShare} x0) ∗ ((b7).view.loc (thrV d L) ↦{fullShare} x1) ∗ ((b8).view.loc (thrV d L) ↦{fullShare} x2) ∗ ((b9).view.loc (thrV d L) ↦{fullShare} x3))
        ∗ (∀ a : BitVec 32, (((b1).view.loc (thrV d L) ↦{fullShare} pe) ∗ ((b6).view.loc (thrV d L) ↦{fullShare} Gblk pe x0) ∗ ((b7).view.loc (thrV d L) ↦{fullShare} Gblk pe x1)
            ∗ ((b8).view.loc (thrV d L) ↦{fullShare} Gblk pe x2) ∗ ((b9).view.loc (thrV d L) ↦{fullShare} Gblk pe x3))
          -∗ wp frame (wpE (defs₀ (F := F)) 𝒱₀ (thrV d L) none) Set.univ (kk a) Q)) : sProp 𝕄)
      ⊢ wp frame (wpE (defs₀ (F := F)) 𝒱₀ (thrV d L) none) Set.univ
          (Scf.Loop.for k0_t3_loop k0_t3_ok 0#32 (k0_t3_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15 v2 t1 v69) >>= kk) Q := by
  rw [wp_bind]
  exact (sep_mono (rowLoop1 (F := F) d L v2 v69 t1 pe x0 x1 x2 x3) .rfl).trans (wp_wand_r frame _ _)

end Cert.KernelIdeal.Hand

end
-- ==== Proof.BlockVal.lean ====
/-
  The value of one written-out block. A tile computes, on chunk `k`'s block of batch entry `b` of the input and the
  table's block, the function `Gblk`, and copies the result into the same block of the result array. Entry `(r, c)` of
  the block sits at `(b, rowOf L k + r, c)` of the input and of the result, and at `(rowOf L k + r, c)` of the table,
  so what the copy leaves on the block is the result array `Gout` there.
-/
import proofs.«210086_g67980742361152_cont_9to1c4b_184_18_alg».proof.Proof.Pieces
import Idealize.ShloMosaic.Lib.Writes
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Where a block's entries sit -/

/-- An index `(r, c)` of a block, matched with the block as a `[1, 16, 768]` array, is `(0, r, c)`. -/
private theorem squeeze_idx (j : S16x768.Idx) :
    Shape.reshapeEquiv squeezes_S1x16x768_S16x768.numel_eq j = ValueIdx.ix3 (⟨0, Nat.one_pos⟩ : Fin 1) (j 0) (j 1) := by
  have h := ValueIdx.reshapeEquiv_ix2_1ab (a := 16) (b := 768) squeezes_S1x16x768_S16x768.numel_eq (j 0) (j 1)
  exact (congrArg (Shape.reshapeEquiv squeezes_S1x16x768_S16x768.numel_eq) (ValueIdx.eq_ix2 j)).trans h

variable (m : (ℓ : Loc nD τ sig) → Buf (Elt F) ℓ) (d : Dev nD) (L : grid0.Coords) (b : Fin 4) (k : Fin 16)

/-- The input's block and the result's block are the same entries of a `[4, 8192, 768]` array. -/
theorem xM_emb (j : S16x768.Idx) : ((xM L b k).view.emb j : S4x8192x768.Idx) = (oM L b k).view.emb j := rfl

/-- The table's block is read at the last two coordinates of the result's entry. -/
theorem pM_emb (j : S16x768.Idx) :
    ((pM L k).view.emb j : S8192x768.Idx)
      = ValueIdx.ix2 (((oM L b k).view.emb j : S4x8192x768.Idx) 1) (((oM L b k).view.emb j : S4x8192x768.Idx) 2) := by
  funext a
  match a with
  | ⟨0, _⟩ =>
    apply Fin.ext
    show rowOf L k + 1 * (j 0).val = rowOf L k + 1 * ((Shape.reshapeEquiv squeezes_S1x16x768_S16x768.numel_eq j) 1).val
    rw [squeeze_idx]
  | ⟨1, _⟩ =>
    apply Fin.ext
    show 0 + 1 * (j 1).val = 0 + 1 * ((Shape.reshapeEquiv squeezes_S1x16x768_S16x768.numel_eq j) 2).val
    rw [squeeze_idx]

/-! ## The block as written -/

variable [FloatOps F]

/-- On the block, the copy of `Gblk` of the fetched blocks leaves the result array. -/
theorem block_val (fo : Buf (Elt F) (oLoc d)) :
    ∀ i ∈ (oM L b k).view.set,
      ((oM L b k).view.writes (Elt F) fo [⟨Rect.whole S16x768, ReadAs.same.apply (Gblk ((pM L k).view.read (Elt F) (m (pLoc d))) ((xM L b k).view.read (Elt F) (m (xLoc d))))⟩]) i = Gout m d i := by
  intro i hi
  obtain ⟨j, -, rfl⟩ := Finset.mem_map.mp hi
  have hw := View.read_writes_cons_emb (oM L b k).view fo (Rect.whole S16x768) (ReadAs.same.apply (Gblk ((pM L k).view.read (Elt F) (m (pLoc d))) ((xM L b k).view.read (Elt F) (m (xLoc d))))) [] j
  rw [Rect.emb_whole_apply, View.read_apply, cast_eq] at hw
  rw [hw]
  show Gblk _ _ j = Gfun (m (xLoc d)) (m (pLoc d)) ((oM L b k).view.emb j)
  simp only [Gblk, Gfun, select, cmpf, addf, broadcast, View.read_apply, cast_eq]
  rw [xM_emb, pM_emb L b k]
  rfl

/-- So the block held at what the copy leaves is the block held at the result array. -/
theorem own_block_val (fo : Buf (Elt F) (oLoc d)) :
    (own d L (oM L b k) ((oM L b k).view.writes (Elt F) fo [⟨Rect.whole S16x768, ReadAs.same.apply (Gblk ((pM L k).view.read (Elt F) (m (pLoc d))) ((xM L b k).view.read (Elt F) (m (xLoc d))))⟩]) : sProp 𝕄)
      = own d L (oM L b k) (Gout m d) :=
  pointsTo_congr (block_val m d L b k fo)

end Cert.KernelIdeal.Hand

end
-- ==== Proof.Close.lean ====
/-
  What is left when the tile's run ends. A result block written out from a buffer holds the block of the result
  array: the buffer held the done block of the fetched input block and table block, each fetched whole. And the
  waits a tile records are all on its own semaphores.
-/
import proofs.«210086_g67980742361152_cont_9to1c4b_184_18_alg».proof.Proof.TileSpec
import proofs.«210086_g67980742361152_cont_9to1c4b_184_18_alg».proof.Proof.Own
import proofs.«210086_g67980742361152_cont_9to1c4b_184_18_alg».proof.Proof.Spell
import proofs.«210086_g67980742361152_cont_9to1c4b_184_18_alg».proof.Proof.Glue
import proofs.«210086_g67980742361152_cont_9to1c4b_184_18_alg».proof.Proof.BlockVal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

variable [FloatOps F]

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide), SparseCore.bigSep_insert' (by decide), bigSep_singleton]
omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem trips1 : k0_t1_loop.trips = 8 := by decide
theorem lt_trips (n : ℕ) (h : n < 8) : n < k0_t1_loop.trips := by rw [trips1]; exact h
/-- Trip `n` of the chunk-pair loop. -/
abbrev Tr (n : ℕ) (h : n < 8 := by decide) : Fin k0_t1_loop.trips := ⟨n, lt_trips n h⟩
/-- Every trip fetches its second chunk; every trip but the last fetches the next trip's first. -/
theorem cond2_all : ∀ t : Fin k0_t1_loop.trips, k0_cond2 t = 1#1 := by decide +kernel
theorem cond3_all : ∀ t : Fin k0_t1_loop.trips, k0_cond3 t = 1#1 := by decide +kernel
theorem cond5_of : ∀ t : Fin k0_t1_loop.trips, t.val + 1 < 8 → k0_cond5 t = 1#1 := by decide +kernel
theorem cond6_of : ∀ t : Fin k0_t1_loop.trips, t.val + 1 < 8 → k0_cond6 t = 1#1 := by decide +kernel

/-- The blocks as the body slices them, at any offsets. -/
abbrev xSp (o : Fin 3 → ℕ) (hb : ∀ a, o a + S1x16x768.size a ≤ S4x8192x768.size a) : Memref sig .scVector .hbm S16x768 .f32 :=
  ((xV).slice (Rect.unit o S1x16x768.size hb) (fun _ => rfl)).squeeze S16x768 squeezes_S1x16x768_S16x768
abbrev oSp (o : Fin 3 → ℕ) (hb : ∀ a, o a + S1x16x768.size a ≤ S4x8192x768.size a) : Memref sig .scVector .hbm S16x768 .f32 :=
  ((oV).slice (Rect.unit o S1x16x768.size hb) (fun _ => rfl)).squeeze S16x768 squeezes_S1x16x768_S16x768
abbrev pSp (o : Fin 2 → ℕ) (hb : ∀ a, o a + S16x768.size a ≤ S8192x768.size a) : Memref sig .scVector .hbm S16x768 .f32 :=
  (pV).slice (Rect.unit o S16x768.size hb) (fun _ => rfl)

omit [FloatOps F] in
/-- One more wait on a semaphore of the tile's own keeps the recorded waits of the allowed kind. -/
theorem ins_ok {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

variable [∀ e, Nonempty (Elt F e)]

/-! ## A block fetched whole into a buffer is the block -/

omit [FloatOps F] in
theorem land_b0 (d : Dev nD) (L : grid0.Coords) (f w : Buf (Elt F) ((thrV d L).loc cc0_scratch0)) :
    ((b0).view.loc (thrV d L) ↦{fullShare} View.write (Elt F) (b0).view f w Finset.univ : sProp 𝕄) = ((b0).view.loc (thrV d L) ↦{fullShare} w) := by
  rw [show View.write (Elt F) (b0).view f w Finset.univ = w from View.write_whole_univ cc0_scratch0 f w]

omit [FloatOps F] in
theorem land_b1 (d : Dev nD) (L : grid0.Coords) (f w : Buf (Elt F) ((thrV d L).loc cc0_scratch1)) :
    ((b1).view.loc (thrV d L) ↦{fullShare} View.write (Elt F) (b1).view f w Finset.univ : sProp 𝕄) = ((b1).view.loc (thrV d L) ↦{fullShare} w) := by
  rw [show View.write (Elt F) (b1).view f w Finset.univ = w from View.write_whole_univ cc0_scratch1 f w]

omit [FloatOps F] in
theorem land_b2 (d : Dev nD) (L : grid0.Coords) (f w : Buf (Elt F) ((thrV d L).loc cc0_scratch2)) :
    ((b2).view.loc (thrV d L) ↦{fullShare} View.write (Elt F) (b2).view f w Finset.univ : sProp 𝕄) = ((b2).view.loc (thrV d L) ↦{fullShare} w) := by
  rw [show View.write (Elt F) (b2).view f w Finset.univ = w from View.write_whole_univ cc0_scratch2 f w]

omit [FloatOps F] in
theorem land_b3 (d : Dev nD) (L : grid0.Coords) (f w : Buf (Elt F) ((thrV d L).loc cc0_scratch3)) :
    ((b3).view.loc (thrV d L) ↦{fullShare} View.write (Elt F) (b3).view f w Finset.univ : sProp 𝕄) = ((b3).view.loc (thrV d L) ↦{fullShare} w) := by
  rw [show View.write (Elt F) (b3).view f w Finset.univ = w from View.write_whole_univ cc0_scratch3 f w]

omit [FloatOps F] in
theorem land_b4 (d : Dev nD) (L : grid0.Coords) (f w : Buf (Elt F) ((thrV d L).loc cc0_scratch4)) :
    ((b4).view.loc (thrV d L) ↦{fullShare} View.write (Elt F) (b4).view f w Finset.univ : sProp 𝕄) = ((b4).view.loc (thrV d L) ↦{fullShare} w) := by
  rw [show View.write (Elt F) (b4).view f w Finset.univ = w from View.write_whole_univ cc0_scratch4 f w]

omit [FloatOps F] in
theorem land_b5 (d : Dev nD) (L : grid0.Coords) (f w : Buf (Elt F) ((thrV d L).loc cc0_scratch5)) :
    ((b5).view.loc (thrV d L) ↦{fullShare} View.write (Elt F) (b5).view f w Finset.univ : sProp 𝕄) = ((b5).view.loc (thrV d L) ↦{fullShare} w) := by
  rw [show View.write (Elt F) (b5).view f w Finset.univ = w from View.write_whole_univ cc0_scratch5 f w]

omit [FloatOps F] in
theorem land_b6 (d : Dev nD) (L : grid0.Coords) (f w : Buf (Elt F) ((thrV d L).loc cc0_scratch6)) :
    ((b6).view.loc (thrV d L) ↦{fullShare} View.write (Elt F) (b6).view f w Finset.univ : sProp 𝕄) = ((b6).view.loc (thrV d L) ↦{fullShare} w) := by
  rw [show View.write (Elt F) (b6).view f w Finset.univ = w from View.write_whole_univ cc0_scratch6 f w]

omit [FloatOps F] in
theorem land_b7 (d : Dev nD) (L : grid0.Coords) (f w : Buf (Elt F) ((thrV d L).loc cc0_scratch7)) :
    ((b7).view.loc (thrV d L) ↦{fullShare} View.write (Elt F) (b7).view f w Finset.univ : sProp 𝕄) = ((b7).view.loc (thrV d L) ↦{fullShare} w) := by
  rw [show View.write (Elt F) (b7).view f w Finset.univ = w from View.write_whole_univ cc0_scratch7 f w]

omit [FloatOps F] in
theorem land_b8 (d : Dev nD) (L : grid0.Coords) (f w : Buf (Elt F) ((thrV d L).loc cc0_scratch8)) :
    ((b8).view.loc (thrV d L) ↦{fullShare} View.write (Elt F) (b8).view f w Finset.univ : sProp 𝕄) = ((b8).view.loc (thrV d L) ↦{fullShare} w) := by
  rw [show View.write (Elt F) (b8).view f w Finset.univ = w from View.write_whole_univ cc0_scratch8 f w]

omit [FloatOps F] in
theorem land_b9 (d : Dev nD) (L : grid0.Coords) (f w : Buf (Elt F) ((thrV d L).loc cc0_scratch9)) :
    ((b9).view.loc (thrV d L) ↦{fullShare} View.write (Elt F) (b9).view f w Finset.univ : sProp 𝕄) = ((b9).view.loc (thrV d L) ↦{fullShare} w) := by
  rw [show View.write (Elt F) (b9).view f w Finset.univ = w from View.write_whole_univ cc0_scratch9 f w]

/-! ## A result block written out -/

/-- A result block written whole — over whatever it held — with the done block of the fetched table block and input block — the three blocks
    named by offsets that are chunk `k`'s, batch entry `b`'s — holds the result array's entries. -/
theorem own_block_off (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (w : S16x768.Idx → Elt F .f32)
    (hw : w = ReadAs.same.apply (Gblk (View.read (Elt F) (pSp op hbp).view (m (pLoc d))) (View.read (Elt F) (xSp ox hbx).view (m (xLoc d)))))
    (fo : Buf (Elt F) (oLoc d)) :
    (own d L (oSp oo hbo) ((oSp oo hbo).view.writes (Elt F) fo [⟨Rect.whole S16x768, w⟩]) : sProp 𝕄)
      = own d L (oM L b k) (Gout m d) := by
  subst hx hp ho hw
  exact own_block_val m d L b k fo

/-- The same with the written block spelt out: what was read back from the buffer of the done block. -/
theorem own_block_fin_b2 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b2).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b3 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b3).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b4 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b4).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b5 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b5).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b6 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b6).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b7 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b7).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b8 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b8).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b9 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b9).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

end Cert.KernelIdeal.Hand

end
-- ==== Proof.TileBody.lean ====
/-
  One tile's run. The tile fetches its sixteen chunks in turn — the table's block and the four batch entries' blocks
  of the input — into two sets of buffers used alternately, works each fetched chunk row by row, and writes the four
  done blocks out to the result; a chunk's fetches are started while the chunk before it is worked on, and its
  write-outs are waited for before its buffers are fetched into again. Every transfer names its block by offsets the
  body computes; each is the block of one chunk, so the tile holds, at every moment, exactly the blocks no transfer
  in flight has been lent. At the end every block of the input and of the table is back unchanged, and every block of
  the result holds the result array's entries.
-/
import proofs.«210086_g67980742361152_cont_9to1c4b_184_18_alg».proof.Proof.Close

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

variable [FloatOps F] [∀ e, Nonempty (Elt F e)]

set_option maxHeartbeats 8000000 in
/-- The tile at any grid coordinates: the launch theorem's obligation for the kernel's one task. -/
theorem tile_body (m : (ℓ : Loc nD τ sig) → Buf (Elt F) ℓ) : TileRun (F := F) m := by
  intro d L O W hO
  -- four transfers share each of the four load and store semaphores
  have p12 : Transfers.BatchOf (thrV d L) (SemLoc.dma (sig := sig) cc0_scratch12.sem) 4 := trivial
  have p13 : Transfers.BatchOf (thrV d L) (SemLoc.dma (sig := sig) cc0_scratch13.sem) 4 := trivial
  have p14 : Transfers.BatchOf (thrV d L) (SemLoc.dma (sig := sig) cc0_scratch14.sem) 4 := trivial
  have p15 : Transfers.BatchOf (thrV d L) (SemLoc.dma (sig := sig) cc0_scratch15.sem) 4 := trivial
  rw [scopedBufs_open d L facts, scopedSems0_open d L]
  simp only [cc0__sc_kernel_body_eq_skeleton]; unfold cc0__sc_kernel_body_skel
  unfold tilePre
  rw [bigSep_fin16]
  unfold chunkPre
  simp only [bigSep_fin4]
  iintro ⟨#Hlv, -, ⟨⟨⟨HX_0_0, HX_0_1, HX_0_2, HX_0_3⟩, HP_0, ⟨HO_0_0, HO_0_1, HO_0_2, HO_0_3⟩⟩, ⟨⟨HX_1_0, HX_1_1, HX_1_2, HX_1_3⟩, HP_1, ⟨HO_1_0, HO_1_1, HO_1_2, HO_1_3⟩⟩, ⟨⟨HX_2_0, HX_2_1, HX_2_2, HX_2_3⟩, HP_2, ⟨HO_2_0, HO_2_1, HO_2_2, HO_2_3⟩⟩, ⟨⟨HX_3_0, HX_3_1, HX_3_2, HX_3_3⟩, HP_3, ⟨HO_3_0, HO_3_1, HO_3_2, HO_3_3⟩⟩, ⟨⟨HX_4_0, HX_4_1, HX_4_2, HX_4_3⟩, HP_4, ⟨HO_4_0, HO_4_1, HO_4_2, HO_4_3⟩⟩, ⟨⟨HX_5_0, HX_5_1, HX_5_2, HX_5_3⟩, HP_5, ⟨HO_5_0, HO_5_1, HO_5_2, HO_5_3⟩⟩, ⟨⟨HX_6_0, HX_6_1, HX_6_2, HX_6_3⟩, HP_6, ⟨HO_6_0, HO_6_1, HO_6_2, HO_6_3⟩⟩, ⟨⟨HX_7_0, HX_7_1, HX_7_2, HX_7_3⟩, HP_7, ⟨HO_7_0, HO_7_1, HO_7_2, HO_7_3⟩⟩, ⟨⟨HX_8_0, HX_8_1, HX_8_2, HX_8_3⟩, HP_8, ⟨HO_8_0, HO_8_1, HO_8_2, HO_8_3⟩⟩, ⟨⟨HX_9_0, HX_9_1, HX_9_2, HX_9_3⟩, HP_9, ⟨HO_9_0, HO_9_1, HO_9_2, HO_9_3⟩⟩, ⟨⟨HX_10_0, HX_10_1, HX_10_2, HX_10_3⟩, HP_10, ⟨HO_10_0, HO_10_1, HO_10_2, HO_10_3⟩⟩, ⟨⟨HX_11_0, HX_11_1, HX_11_2, HX_11_3⟩, HP_11, ⟨HO_11_0, HO_11_1, HO_11_2, HO_11_3⟩⟩, ⟨⟨HX_12_0, HX_12_1, HX_12_2, HX_12_3⟩, HP_12, ⟨HO_12_0, HO_12_1, HO_12_2, HO_12_3⟩⟩, ⟨⟨HX_13_0, HX_13_1, HX_13_2, HX_13_3⟩, HP_13, ⟨HO_13_0, HO_13_1, HO_13_2, HO_13_3⟩⟩, ⟨⟨HX_14_0, HX_14_1, HX_14_2, HX_14_3⟩, HP_14, ⟨HO_14_0, HO_14_1, HO_14_2, HO_14_3⟩⟩, ⟨⟨HX_15_0, HX_15_1, HX_15_2, HX_15_3⟩, HP_15, ⟨HO_15_0, HO_15_1, HO_15_2, HO_15_3⟩⟩⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs10, Hs11, Hs12, Hs13, Hs14, Hs15, Hsems⟩, HO⟩
  ihave Hmw := ((K (F := F)).mayWaits_none (thr := thrV d L) hO) $$ Hlv
  -- every block, named as the body slices it
  ihave HX_0_0 := (Entails.of_eq (own_x_of_off (F := F) d L (0 : Fin 4) (0 : Fin 16) (k0_off2 L 0#32) (k0_off2_inb L 0) (off2_c L) (m (xLoc d))).symm) $$ HX_0_0
  ihave HX_0_1 := (Entails.of_eq (own_x_of_off (F := F) d L (1 : Fin 4) (0 : Fin 16) (k0_off3 L 0#32) (k0_off3_inb L 0) (off3_c L) (m (xLoc d))).symm) $$ HX_0_1
  ihave HX_0_2 := (Entails.of_eq (own_x_of_off (F := F) d L (2 : Fin 4) (0 : Fin 16) (k0_off4 L 0#32) (k0_off4_inb L 0) (off4_c L) (m (xLoc d))).symm) $$ HX_0_2
  ihave HX_0_3 := (Entails.of_eq (own_x_of_off (F := F) d L (3 : Fin 4) (0 : Fin 16) (k0_off5 L 0#32) (k0_off5_inb L 0) (off5_c L) (m (xLoc d))).symm) $$ HX_0_3
  ihave HP_0 := (Entails.of_eq (own_p_of_off (F := F) d L (0 : Fin 16) (k0_off1 L) (k0_off1_inb L) (off1_c L) (m (pLoc d))).symm) $$ HP_0
  ihave HO_0_0 := (Entails.of_eq (own_o_of_off (F := F) d L (0 : Fin 4) (0 : Fin 16) (k0_off16 L (Tr 0) 0#32) (k0_off16_inb L (Tr 0) 0) (off16_c0 L (Tr 0)) (m (oLoc d))).symm) $$ HO_0_0
  ihave HO_0_1 := (Entails.of_eq (own_o_of_off (F := F) d L (1 : Fin 4) (0 : Fin 16) (k0_off17 L (Tr 0) 0#32) (k0_off17_inb L (Tr 0) 0) (off17_c0 L (Tr 0)) (m (oLoc d))).symm) $$ HO_0_1
  ihave HO_0_2 := (Entails.of_eq (own_o_of_off (F := F) d L (2 : Fin 4) (0 : Fin 16) (k0_off18 L (Tr 0) 0#32) (k0_off18_inb L (Tr 0) 0) (off18_c0 L (Tr 0)) (m (oLoc d))).symm) $$ HO_0_2
  ihave HO_0_3 := (Entails.of_eq (own_o_of_off (F := F) d L (3 : Fin 4) (0 : Fin 16) (k0_off19 L (Tr 0) 0#32) (k0_off19_inb L (Tr 0) 0) (off19_c0 L (Tr 0)) (m (oLoc d))).symm) $$ HO_0_3
  ihave HX_1_0 := (Entails.of_eq (own_x_of_off (F := F) d L (0 : Fin 4) (1 : Fin 16) (k0_off10 L (Tr 0)) (k0_off10_inb L (Tr 0) (cond2_all _)) (off10_c L (Tr 0)) (m (xLoc d))).symm) $$ HX_1_0
  ihave HX_1_1 := (Entails.of_eq (own_x_of_off (F := F) d L (1 : Fin 4) (1 : Fin 16) (k0_off11 L (Tr 0)) (k0_off11_inb L (Tr 0) (cond2_all _)) (off11_c L (Tr 0)) (m (xLoc d))).symm) $$ HX_1_1
  ihave HX_1_2 := (Entails.of_eq (own_x_of_off (F := F) d L (2 : Fin 4) (1 : Fin 16) (k0_off12 L (Tr 0)) (k0_off12_inb L (Tr 0) (cond2_all _)) (off12_c L (Tr 0)) (m (xLoc d))).symm) $$ HX_1_2
  ihave HX_1_3 := (Entails.of_eq (own_x_of_off (F := F) d L (3 : Fin 4) (1 : Fin 16) (k0_off13 L (Tr 0)) (k0_off13_inb L (Tr 0) (cond2_all _)) (off13_c L (Tr 0)) (m (xLoc d))).symm) $$ HX_1_3
  ihave HP_1 := (Entails.of_eq (own_p_of_off (F := F) d L (1 : Fin 16) (k0_off15 L (Tr 0)) (k0_off15_inb L (Tr 0) (cond3_all _)) (off15_c L (Tr 0)) (m (pLoc d))).symm) $$ HP_1
  ihave HO_1_0 := (Entails.of_eq (own_o_of_off (F := F) d L (0 : Fin 4) (1 : Fin 16) (k0_off16 L (Tr 0) 1#32) (k0_off16_inb L (Tr 0) 1) (off16_c1 L (Tr 0)) (m (oLoc d))).symm) $$ HO_1_0
  ihave HO_1_1 := (Entails.of_eq (own_o_of_off (F := F) d L (1 : Fin 4) (1 : Fin 16) (k0_off17 L (Tr 0) 1#32) (k0_off17_inb L (Tr 0) 1) (off17_c1 L (Tr 0)) (m (oLoc d))).symm) $$ HO_1_1
  ihave HO_1_2 := (Entails.of_eq (own_o_of_off (F := F) d L (2 : Fin 4) (1 : Fin 16) (k0_off18 L (Tr 0) 1#32) (k0_off18_inb L (Tr 0) 1) (off18_c1 L (Tr 0)) (m (oLoc d))).symm) $$ HO_1_2
  ihave HO_1_3 := (Entails.of_eq (own_o_of_off (F := F) d L (3 : Fin 4) (1 : Fin 16) (k0_off19 L (Tr 0) 1#32) (k0_off19_inb L (Tr 0) 1) (off19_c1 L (Tr 0)) (m (oLoc d))).symm) $$ HO_1_3
  ihave HX_2_0 := (Entails.of_eq (own_x_of_off (F := F) d L (0 : Fin 4) (2 : Fin 16) (k0_off72 L (Tr 0)) (k0_off72_inb L (Tr 0) (cond5_of _ (by decide))) (off72_c L (Tr 0) (by decide)) (m (xLoc d))).symm) $$ HX_2_0
  ihave HX_2_1 := (Entails.of_eq (own_x_of_off (F := F) d L (1 : Fin 4) (2 : Fin 16) (k0_off73 L (Tr 0)) (k0_off73_inb L (Tr 0) (cond5_of _ (by decide))) (off73_c L (Tr 0) (by decide)) (m (xLoc d))).symm) $$ HX_2_1
  ihave HX_2_2 := (Entails.of_eq (own_x_of_off (F := F) d L (2 : Fin 4) (2 : Fin 16) (k0_off74 L (Tr 0)) (k0_off74_inb L (Tr 0) (cond5_of _ (by decide))) (off74_c L (Tr 0) (by decide)) (m (xLoc d))).symm) $$ HX_2_2
  ihave HX_2_3 := (Entails.of_eq (own_x_of_off (F := F) d L (3 : Fin 4) (2 : Fin 16) (k0_off75 L (Tr 0)) (k0_off75_inb L (Tr 0) (cond5_of _ (by decide))) (off75_c L (Tr 0) (by decide)) (m (xLoc d))).symm) $$ HX_2_3
  ihave HP_2 := (Entails.of_eq (own_p_of_off (F := F) d L (2 : Fin 16) (k0_off76 L (Tr 0)) (k0_off76_inb L (Tr 0) (cond6_of _ (by decide))) (off76_c L (Tr 0) (by decide)) (m (pLoc d))).symm) $$ HP_2
  ihave HO_2_0 := (Entails.of_eq (own_o_of_off (F := F) d L (0 : Fin 4) (2 : Fin 16) (k0_off16 L (Tr 1) 0#32) (k0_off16_inb L (Tr 1) 0) (off16_c0 L (Tr 1)) (m (oLoc d))).symm) $$ HO_2_0
  ihave HO_2_1 := (Entails.of_eq (own_o_of_off (F := F) d L (1 : Fin 4) (2 : Fin 16) (k0_off17 L (Tr 1) 0#32) (k0_off17_inb L (Tr 1) 0) (off17_c0 L (Tr 1)) (m (oLoc d))).symm) $$ HO_2_1
  ihave HO_2_2 := (Entails.of_eq (own_o_of_off (F := F) d L (2 : Fin 4) (2 : Fin 16) (k0_off18 L (Tr 1) 0#32) (k0_off18_inb L (Tr 1) 0) (off18_c0 L (Tr 1)) (m (oLoc d))).symm) $$ HO_2_2
  ihave HO_2_3 := (Entails.of_eq (own_o_of_off (F := F) d L (3 : Fin 4) (2 : Fin 16) (k0_off19 L (Tr 1) 0#32) (k0_off19_inb L (Tr 1) 0) (off19_c0 L (Tr 1)) (m (oLoc d))).symm) $$ HO_2_3
  ihave HX_3_0 := (Entails.of_eq (own_x_of_off (F := F) d L (0 : Fin 4) (3 : Fin 16) (k0_off10 L (Tr 1)) (k0_off10_inb L (Tr 1) (cond2_all _)) (off10_c L (Tr 1)) (m (xLoc d))).symm) $$ HX_3_0
  ihave HX_3_1 := (Entails.of_eq (own_x_of_off (F := F) d L (1 : Fin 4) (3 : Fin 16) (k0_off11 L (Tr 1)) (k0_off11_inb L (Tr 1) (cond2_all _)) (off11_c L (Tr 1)) (m (xLoc d))).symm) $$ HX_3_1
  ihave HX_3_2 := (Entails.of_eq (own_x_of_off (F := F) d L (2 : Fin 4) (3 : Fin 16) (k0_off12 L (Tr 1)) (k0_off12_inb L (Tr 1) (cond2_all _)) (off12_c L (Tr 1)) (m (xLoc d))).symm) $$ HX_3_2
  ihave HX_3_3 := (Entails.of_eq (own_x_of_off (F := F) d L (3 : Fin 4) (3 : Fin 16) (k0_off13 L (Tr 1)) (k0_off13_inb L (Tr 1) (cond2_all _)) (off13_c L (Tr 1)) (m (xLoc d))).symm) $$ HX_3_3
  ihave HP_3 := (Entails.of_eq (own_p_of_off (F := F) d L (3 : Fin 16) (k0_off15 L (Tr 1)) (k0_off15_inb L (Tr 1) (cond3_all _)) (off15_c L (Tr 1)) (m (pLoc d))).symm) $$ HP_3
  ihave HO_3_0 := (Entails.of_eq (own_o_of_off (F := F) d L (0 : Fin 4) (3 : Fin 16) (k0_off16 L (Tr 1) 1#32) (k0_off16_inb L (Tr 1) 1) (off16_c1 L (Tr 1)) (m (oLoc d))).symm) $$ HO_3_0
  ihave HO_3_1 := (Entails.of_eq (own_o_of_off (F := F) d L (1 : Fin 4) (3 : Fin 16) (k0_off17 L (Tr 1) 1#32) (k0_off17_inb L (Tr 1) 1) (off17_c1 L (Tr 1)) (m (oLoc d))).symm) $$ HO_3_1
  ihave HO_3_2 := (Entails.of_eq (own_o_of_off (F := F) d L (2 : Fin 4) (3 : Fin 16) (k0_off18 L (Tr 1) 1#32) (k0_off18_inb L (Tr 1) 1) (off18_c1 L (Tr 1)) (m (oLoc d))).symm) $$ HO_3_2
  ihave HO_3_3 := (Entails.of_eq (own_o_of_off (F := F) d L (3 : Fin 4) (3 : Fin 16) (k0_off19 L (Tr 1) 1#32) (k0_off19_inb L (Tr 1) 1) (off19_c1 L (Tr 1)) (m (oLoc d))).symm) $$ HO_3_3
  ihave HX_4_0 := (Entails.of_eq (own_x_of_off (F := F) d L (0 : Fin 4) (4 : Fin 16) (k0_off72 L (Tr 1)) (k0_off72_inb L (Tr 1) (cond5_of _ (by decide))) (off72_c L (Tr 1) (by decide)) (m (xLoc d))).symm) $$ HX_4_0
  ihave HX_4_1 := (Entails.of_eq (own_x_of_off (F := F) d L (1 : Fin 4) (4 : Fin 16) (k0_off73 L (Tr 1)) (k0_off73_inb L (Tr 1) (cond5_of _ (by decide))) (off73_c L (Tr 1) (by decide)) (m (xLoc d))).symm) $$ HX_4_1
  ihave HX_4_2 := (Entails.of_eq (own_x_of_off (F := F) d L (2 : Fin 4) (4 : Fin 16) (k0_off74 L (Tr 1)) (k0_off74_inb L (Tr 1) (cond5_of _ (by decide))) (off74_c L (Tr 1) (by decide)) (m (xLoc d))).symm) $$ HX_4_2
  ihave HX_4_3 := (Entails.of_eq (own_x_of_off (F := F) d L (3 : Fin 4) (4 : Fin 16) (k0_off75 L (Tr 1)) (k0_off75_inb L (Tr 1) (cond5_of _ (by decide))) (off75_c L (Tr 1) (by decide)) (m (xLoc d))).symm) $$ HX_4_3
  ihave HP_4 := (Entails.of_eq (own_p_of_off (F := F) d L (4 : Fin 16) (k0_off76 L (Tr 1)) (k0_off76_inb L (Tr 1) (cond6_of _ (by decide))) (off76_c L (Tr 1) (by decide)) (m (pLoc d))).symm) $$ HP_4
  ihave HO_4_0 := (Entails.of_eq (own_o_of_off (F := F) d L (0 : Fin 4) (4 : Fin 16) (k0_off16 L (Tr 2) 0#32) (k0_off16_inb L (Tr 2) 0) (off16_c0 L (Tr 2)) (m (oLoc d))).symm) $$ HO_4_0
  ihave HO_4_1 := (Entails.of_eq (own_o_of_off (F := F) d L (1 : Fin 4) (4 : Fin 16) (k0_off17 L (Tr 2) 0#32) (k0_off17_inb L (Tr 2) 0) (off17_c0 L (Tr 2)) (m (oLoc d))).symm) $$ HO_4_1
  ihave HO_4_2 := (Entails.of_eq (own_o_of_off (F := F) d L (2 : Fin 4) (4 : Fin 16) (k0_off18 L (Tr 2) 0#32) (k0_off18_inb L (Tr 2) 0) (off18_c0 L (Tr 2)) (m (oLoc d))).symm) $$ HO_4_2
  ihave HO_4_3 := (Entails.of_eq (own_o_of_off (F := F) d L (3 : Fin 4) (4 : Fin 16) (k0_off19 L (Tr 2) 0#32) (k0_off19_inb L (Tr 2) 0) (off19_c0 L (Tr 2)) (m (oLoc d))).symm) $$ HO_4_3
  ihave HX_5_0 := (Entails.of_eq (own_x_of_off (F := F) d L (0 : Fin 4) (5 : Fin 16) (k0_off10 L (Tr 2)) (k0_off10_inb L (Tr 2) (cond2_all _)) (off10_c L (Tr 2)) (m (xLoc d))).symm) $$ HX_5_0
  ihave HX_5_1 := (Entails.of_eq (own_x_of_off (F := F) d L (1 : Fin 4) (5 : Fin 16) (k0_off11 L (Tr 2)) (k0_off11_inb L (Tr 2) (cond2_all _)) (off11_c L (Tr 2)) (m (xLoc d))).symm) $$ HX_5_1
  ihave HX_5_2 := (Entails.of_eq (own_x_of_off (F := F) d L (2 : Fin 4) (5 : Fin 16) (k0_off12 L (Tr 2)) (k0_off12_inb L (Tr 2) (cond2_all _)) (off12_c L (Tr 2)) (m (xLoc d))).symm) $$ HX_5_2
  ihave HX_5_3 := (Entails.of_eq (own_x_of_off (F := F) d L (3 : Fin 4) (5 : Fin 16) (k0_off13 L (Tr 2)) (k0_off13_inb L (Tr 2) (cond2_all _)) (off13_c L (Tr 2)) (m (xLoc d))).symm) $$ HX_5_3
  ihave HP_5 := (Entails.of_eq (own_p_of_off (F := F) d L (5 : Fin 16) (k0_off15 L (Tr 2)) (k0_off15_inb L (Tr 2) (cond3_all _)) (off15_c L (Tr 2)) (m (pLoc d))).symm) $$ HP_5
  ihave HO_5_0 := (Entails.of_eq (own_o_of_off (F := F) d L (0 : Fin 4) (5 : Fin 16) (k0_off16 L (Tr 2) 1#32) (k0_off16_inb L (Tr 2) 1) (off16_c1 L (Tr 2)) (m (oLoc d))).symm) $$ HO_5_0
  ihave HO_5_1 := (Entails.of_eq (own_o_of_off (F := F) d L (1 : Fin 4) (5 : Fin 16) (k0_off17 L (Tr 2) 1#32) (k0_off17_inb L (Tr 2) 1) (off17_c1 L (Tr 2)) (m (oLoc d))).symm) $$ HO_5_1
  ihave HO_5_2 := (Entails.of_eq (own_o_of_off (F := F) d L (2 : Fin 4) (5 : Fin 16) (k0_off18 L (Tr 2) 1#32) (k0_off18_inb L (Tr 2) 1) (off18_c1 L (Tr 2)) (m (oLoc d))).symm) $$ HO_5_2
  ihave HO_5_3 := (Entails.of_eq (own_o_of_off (F := F) d L (3 : Fin 4) (5 : Fin 16) (k0_off19 L (Tr 2) 1#32) (k0_off19_inb L (Tr 2) 1) (off19_c1 L (Tr 2)) (m (oLoc d))).symm) $$ HO_5_3
  ihave HX_6_0 := (Entails.of_eq (own_x_of_off (F := F) d L (0 : Fin 4) (6 : Fin 16) (k0_off72 L (Tr 2)) (k0_off72_inb L (Tr 2) (cond5_of _ (by decide))) (off72_c L (Tr 2) (by decide)) (m (xLoc d))).symm) $$ HX_6_0
  ihave HX_6_1 := (Entails.of_eq (own_x_of_off (F := F) d L (1 : Fin 4) (6 : Fin 16) (k0_off73 L (Tr 2)) (k0_off73_inb L (Tr 2) (cond5_of _ (by decide))) (off73_c L (Tr 2) (by decide)) (m (xLoc d))).symm) $$ HX_6_1
  ihave HX_6_2 := (Entails.of_eq (own_x_of_off (F := F) d L (2 : Fin 4) (6 : Fin 16) (k0_off74 L (Tr 2)) (k0_off74_inb L (Tr 2) (cond5_of _ (by decide))) (off74_c L (Tr 2) (by decide)) (m (xLoc d))).symm) $$ HX_6_2
  ihave HX_6_3 := (Entails.of_eq (own_x_of_off (F := F) d L (3 : Fin 4) (6 : Fin 16) (k0_off75 L (Tr 2)) (k0_off75_inb L (Tr 2) (cond5_of _ (by decide))) (off75_c L (Tr 2) (by decide)) (m (xLoc d))).symm) $$ HX_6_3
  ihave HP_6 := (Entails.of_eq (own_p_of_off (F := F) d L (6 : Fin 16) (k0_off76 L (Tr 2)) (k0_off76_inb L (Tr 2) (cond6_of _ (by decide))) (off76_c L (Tr 2) (by decide)) (m (pLoc d))).symm) $$ HP_6
  ihave HO_6_0 := (Entails.of_eq (own_o_of_off (F := F) d L (0 : Fin 4) (6 : Fin 16) (k0_off16 L (Tr 3) 0#32) (k0_off16_inb L (Tr 3) 0) (off16_c0 L (Tr 3)) (m (oLoc d))).symm) $$ HO_6_0
  ihave HO_6_1 := (Entails.of_eq (own_o_of_off (F := F) d L (1 : Fin 4) (6 : Fin 16) (k0_off17 L (Tr 3) 0#32) (k0_off17_inb L (Tr 3) 0) (off17_c0 L (Tr 3)) (m (oLoc d))).symm) $$ HO_6_1
  ihave HO_6_2 := (Entails.of_eq (own_o_of_off (F := F) d L (2 : Fin 4) (6 : Fin 16) (k0_off18 L (Tr 3) 0#32) (k0_off18_inb L (Tr 3) 0) (off18_c0 L (Tr 3)) (m (oLoc d))).symm) $$ HO_6_2
  ihave HO_6_3 := (Entails.of_eq (own_o_of_off (F := F) d L (3 : Fin 4) (6 : Fin 16) (k0_off19 L (Tr 3) 0#32) (k0_off19_inb L (Tr 3) 0) (off19_c0 L (Tr 3)) (m (oLoc d))).symm) $$ HO_6_3
  ihave HX_7_0 := (Entails.of_eq (own_x_of_off (F := F) d L (0 : Fin 4) (7 : Fin 16) (k0_off10 L (Tr 3)) (k0_off10_inb L (Tr 3) (cond2_all _)) (off10_c L (Tr 3)) (m (xLoc d))).symm) $$ HX_7_0
  ihave HX_7_1 := (Entails.of_eq (own_x_of_off (F := F) d L (1 : Fin 4) (7 : Fin 16) (k0_off11 L (Tr 3)) (k0_off11_inb L (Tr 3) (cond2_all _)) (off11_c L (Tr 3)) (m (xLoc d))).symm) $$ HX_7_1
  ihave HX_7_2 := (Entails.of_eq (own_x_of_off (F := F) d L (2 : Fin 4) (7 : Fin 16) (k0_off12 L (Tr 3)) (k0_off12_inb L (Tr 3) (cond2_all _)) (off12_c L (Tr 3)) (m (xLoc d))).symm) $$ HX_7_2
  ihave HX_7_3 := (Entails.of_eq (own_x_of_off (F := F) d L (3 : Fin 4) (7 : Fin 16) (k0_off13 L (Tr 3)) (k0_off13_inb L (Tr 3) (cond2_all _)) (off13_c L (Tr 3)) (m (xLoc d))).symm) $$ HX_7_3
  ihave HP_7 := (Entails.of_eq (own_p_of_off (F := F) d L (7 : Fin 16) (k0_off15 L (Tr 3)) (k0_off15_inb L (Tr 3) (cond3_all _)) (off15_c L (Tr 3)) (m (pLoc d))).symm) $$ HP_7
  ihave HO_7_0 := (Entails.of_eq (own_o_of_off (F := F) d L (0 : Fin 4) (7 : Fin 16) (k0_off16 L (Tr 3) 1#32) (k0_off16_inb L (Tr 3) 1) (off16_c1 L (Tr 3)) (m (oLoc d))).symm) $$ HO_7_0
  ihave HO_7_1 := (Entails.of_eq (own_o_of_off (F := F) d L (1 : Fin 4) (7 : Fin 16) (k0_off17 L (Tr 3) 1#32) (k0_off17_inb L (Tr 3) 1) (off17_c1 L (Tr 3)) (m (oLoc d))).symm) $$ HO_7_1
  ihave HO_7_2 := (Entails.of_eq (own_o_of_off (F := F) d L (2 : Fin 4) (7 : Fin 16) (k0_off18 L (Tr 3) 1#32) (k0_off18_inb L (Tr 3) 1) (off18_c1 L (Tr 3)) (m (oLoc d))).symm) $$ HO_7_2
  ihave HO_7_3 := (Entails.of_eq (own_o_of_off (F := F) d L (3 : Fin 4) (7 : Fin 16) (k0_off19 L (Tr 3) 1#32) (k0_off19_inb L (Tr 3) 1) (off19_c1 L (Tr 3)) (m (oLoc d))).symm) $$ HO_7_3
  ihave HX_8_0 := (Entails.of_eq (own_x_of_off (F := F) d L (0 : Fin 4) (8 : Fin 16) (k0_off72 L (Tr 3)) (k0_off72_inb L (Tr 3) (cond5_of _ (by decide))) (off72_c L (Tr 3) (by decide)) (m (xLoc d))).symm) $$ HX_8_0
  ihave HX_8_1 := (Entails.of_eq (own_x_of_off (F := F) d L (1 : Fin 4) (8 : Fin 16) (k0_off73 L (Tr 3)) (k0_off73_inb L (Tr 3) (cond5_of _ (by decide))) (off73_c L (Tr 3) (by decide)) (m (xLoc d))).symm) $$ HX_8_1
  ihave HX_8_2 := (Entails.of_eq (own_x_of_off (F := F) d L (2 : Fin 4) (8 : Fin 16) (k0_off74 L (Tr 3)) (k0_off74_inb L (Tr 3) (cond5_of _ (by decide))) (off74_c L (Tr 3) (by decide)) (m (xLoc d))).symm) $$ HX_8_2
  ihave HX_8_3 := (Entails.of_eq (own_x_of_off (F := F) d L (3 : Fin 4) (8 : Fin 16) (k0_off75 L (Tr 3)) (k0_off75_inb L (Tr 3) (cond5_of _ (by decide))) (off75_c L (Tr 3) (by decide)) (m (xLoc d))).symm) $$ HX_8_3
  ihave HP_8 := (Entails.of_eq (own_p_of_off (F := F) d L (8 : Fin 16) (k0_off76 L (Tr 3)) (k0_off76_inb L (Tr 3) (cond6_of _ (by decide))) (off76_c L (Tr 3) (by decide)) (m (pLoc d))).symm) $$ HP_8
  ihave HO_8_0 := (Entails.of_eq (own_o_of_off (F := F) d L (0 : Fin 4) (8 : Fin 16) (k0_off16 L (Tr 4) 0#32) (k0_off16_inb L (Tr 4) 0) (off16_c0 L (Tr 4)) (m (oLoc d))).symm) $$ HO_8_0
  ihave HO_8_1 := (Entails.of_eq (own_o_of_off (F := F) d L (1 : Fin 4) (8 : Fin 16) (k0_off17 L (Tr 4) 0#32) (k0_off17_inb L (Tr 4) 0) (off17_c0 L (Tr 4)) (m (oLoc d))).symm) $$ HO_8_1
  ihave HO_8_2 := (Entails.of_eq (own_o_of_off (F := F) d L (2 : Fin 4) (8 : Fin 16) (k0_off18 L (Tr 4) 0#32) (k0_off18_inb L (Tr 4) 0) (off18_c0 L (Tr 4)) (m (oLoc d))).symm) $$ HO_8_2
  ihave HO_8_3 := (Entails.of_eq (own_o_of_off (F := F) d L (3 : Fin 4) (8 : Fin 16) (k0_off19 L (Tr 4) 0#32) (k0_off19_inb L (Tr 4) 0) (off19_c0 L (Tr 4)) (m (oLoc d))).symm) $$ HO_8_3
  ihave HX_9_0 := (Entails.of_eq (own_x_of_off (F := F) d L (0 : Fin 4) (9 : Fin 16) (k0_off10 L (Tr 4)) (k0_off10_inb L (Tr 4) (cond2_all _)) (off10_c L (Tr 4)) (m (xLoc d))).symm) $$ HX_9_0
  ihave HX_9_1 := (Entails.of_eq (own_x_of_off (F := F) d L (1 : Fin 4) (9 : Fin 16) (k0_off11 L (Tr 4)) (k0_off11_inb L (Tr 4) (cond2_all _)) (off11_c L (Tr 4)) (m (xLoc d))).symm) $$ HX_9_1
  ihave HX_9_2 := (Entails.of_eq (own_x_of_off (F := F) d L (2 : Fin 4) (9 : Fin 16) (k0_off12 L (Tr 4)) (k0_off12_inb L (Tr 4) (cond2_all _)) (off12_c L (Tr 4)) (m (xLoc d))).symm) $$ HX_9_2
  ihave HX_9_3 := (Entails.of_eq (own_x_of_off (F := F) d L (3 : Fin 4) (9 : Fin 16) (k0_off13 L (Tr 4)) (k0_off13_inb L (Tr 4) (cond2_all _)) (off13_c L (Tr 4)) (m (xLoc d))).symm) $$ HX_9_3
  ihave HP_9 := (Entails.of_eq (own_p_of_off (F := F) d L (9 : Fin 16) (k0_off15 L (Tr 4)) (k0_off15_inb L (Tr 4) (cond3_all _)) (off15_c L (Tr 4)) (m (pLoc d))).symm) $$ HP_9
  ihave HO_9_0 := (Entails.of_eq (own_o_of_off (F := F) d L (0 : Fin 4) (9 : Fin 16) (k0_off16 L (Tr 4) 1#32) (k0_off16_inb L (Tr 4) 1) (off16_c1 L (Tr 4)) (m (oLoc d))).symm) $$ HO_9_0
  ihave HO_9_1 := (Entails.of_eq (own_o_of_off (F := F) d L (1 : Fin 4) (9 : Fin 16) (k0_off17 L (Tr 4) 1#32) (k0_off17_inb L (Tr 4) 1) (off17_c1 L (Tr 4)) (m (oLoc d))).symm) $$ HO_9_1
  ihave HO_9_2 := (Entails.of_eq (own_o_of_off (F := F) d L (2 : Fin 4) (9 : Fin 16) (k0_off18 L (Tr 4) 1#32) (k0_off18_inb L (Tr 4) 1) (off18_c1 L (Tr 4)) (m (oLoc d))).symm) $$ HO_9_2
  ihave HO_9_3 := (Entails.of_eq (own_o_of_off (F := F) d L (3 : Fin 4) (9 : Fin 16) (k0_off19 L (Tr 4) 1#32) (k0_off19_inb L (Tr 4) 1) (off19_c1 L (Tr 4)) (m (oLoc d))).symm) $$ HO_9_3
  ihave HX_10_0 := (Entails.of_eq (own_x_of_off (F := F) d L (0 : Fin 4) (10 : Fin 16) (k0_off72 L (Tr 4)) (k0_off72_inb L (Tr 4) (cond5_of _ (by decide))) (off72_c L (Tr 4) (by decide)) (m (xLoc d))).symm) $$ HX_10_0
  ihave HX_10_1 := (Entails.of_eq (own_x_of_off (F := F) d L (1 : Fin 4) (10 : Fin 16) (k0_off73 L (Tr 4)) (k0_off73_inb L (Tr 4) (cond5_of _ (by decide))) (off73_c L (Tr 4) (by decide)) (m (xLoc d))).symm) $$ HX_10_1
  ihave HX_10_2 := (Entails.of_eq (own_x_of_off (F := F) d L (2 : Fin 4) (10 : Fin 16) (k0_off74 L (Tr 4)) (k0_off74_inb L (Tr 4) (cond5_of _ (by decide))) (off74_c L (Tr 4) (by decide)) (m (xLoc d))).symm) $$ HX_10_2
  ihave HX_10_3 := (Entails.of_eq (own_x_of_off (F := F) d L (3 : Fin 4) (10 : Fin 16) (k0_off75 L (Tr 4)) (k0_off75_inb L (Tr 4) (cond5_of _ (by decide))) (off75_c L (Tr 4) (by decide)) (m (xLoc d))).symm) $$ HX_10_3
  ihave HP_10 := (Entails.of_eq (own_p_of_off (F := F) d L (10 : Fin 16) (k0_off76 L (Tr 4)) (k0_off76_inb L (Tr 4) (cond6_of _ (by decide))) (off76_c L (Tr 4) (by decide)) (m (pLoc d))).symm) $$ HP_10
  ihave HO_10_0 := (Entails.of_eq (own_o_of_off (F := F) d L (0 : Fin 4) (10 : Fin 16) (k0_off16 L (Tr 5) 0#32) (k0_off16_inb L (Tr 5) 0) (off16_c0 L (Tr 5)) (m (oLoc d))).symm) $$ HO_10_0
  ihave HO_10_1 := (Entails.of_eq (own_o_of_off (F := F) d L (1 : Fin 4) (10 : Fin 16) (k0_off17 L (Tr 5) 0#32) (k0_off17_inb L (Tr 5) 0) (off17_c0 L (Tr 5)) (m (oLoc d))).symm) $$ HO_10_1
  ihave HO_10_2 := (Entails.of_eq (own_o_of_off (F := F) d L (2 : Fin 4) (10 : Fin 16) (k0_off18 L (Tr 5) 0#32) (k0_off18_inb L (Tr 5) 0) (off18_c0 L (Tr 5)) (m (oLoc d))).symm) $$ HO_10_2
  ihave HO_10_3 := (Entails.of_eq (own_o_of_off (F := F) d L (3 : Fin 4) (10 : Fin 16) (k0_off19 L (Tr 5) 0#32) (k0_off19_inb L (Tr 5) 0) (off19_c0 L (Tr 5)) (m (oLoc d))).symm) $$ HO_10_3
  ihave HX_11_0 := (Entails.of_eq (own_x_of_off (F := F) d L (0 : Fin 4) (11 : Fin 16) (k0_off10 L (Tr 5)) (k0_off10_inb L (Tr 5) (cond2_all _)) (off10_c L (Tr 5)) (m (xLoc d))).symm) $$ HX_11_0
  ihave HX_11_1 := (Entails.of_eq (own_x_of_off (F := F) d L (1 : Fin 4) (11 : Fin 16) (k0_off11 L (Tr 5)) (k0_off11_inb L (Tr 5) (cond2_all _)) (off11_c L (Tr 5)) (m (xLoc d))).symm) $$ HX_11_1
  ihave HX_11_2 := (Entails.of_eq (own_x_of_off (F := F) d L (2 : Fin 4) (11 : Fin 16) (k0_off12 L (Tr 5)) (k0_off12_inb L (Tr 5) (cond2_all _)) (off12_c L (Tr 5)) (m (xLoc d))).symm) $$ HX_11_2
  ihave HX_11_3 := (Entails.of_eq (own_x_of_off (F := F) d L (3 : Fin 4) (11 : Fin 16) (k0_off13 L (Tr 5)) (k0_off13_inb L (Tr 5) (cond2_all _)) (off13_c L (Tr 5)) (m (xLoc d))).symm) $$ HX_11_3
  ihave HP_11 := (Entails.of_eq (own_p_of_off (F := F) d L (11 : Fin 16) (k0_off15 L (Tr 5)) (k0_off15_inb L (Tr 5) (cond3_all _)) (off15_c L (Tr 5)) (m (pLoc d))).symm) $$ HP_11
  ihave HO_11_0 := (Entails.of_eq (own_o_of_off (F := F) d L (0 : Fin 4) (11 : Fin 16) (k0_off16 L (Tr 5) 1#32) (k0_off16_inb L (Tr 5) 1) (off16_c1 L (Tr 5)) (m (oLoc d))).symm) $$ HO_11_0
  ihave HO_11_1 := (Entails.of_eq (own_o_of_off (F := F) d L (1 : Fin 4) (11 : Fin 16) (k0_off17 L (Tr 5) 1#32) (k0_off17_inb L (Tr 5) 1) (off17_c1 L (Tr 5)) (m (oLoc d))).symm) $$ HO_11_1
  ihave HO_11_2 := (Entails.of_eq (own_o_of_off (F := F) d L (2 : Fin 4) (11 : Fin 16) (k0_off18 L (Tr 5) 1#32) (k0_off18_inb L (Tr 5) 1) (off18_c1 L (Tr 5)) (m (oLoc d))).symm) $$ HO_11_2
  ihave HO_11_3 := (Entails.of_eq (own_o_of_off (F := F) d L (3 : Fin 4) (11 : Fin 16) (k0_off19 L (Tr 5) 1#32) (k0_off19_inb L (Tr 5) 1) (off19_c1 L (Tr 5)) (m (oLoc d))).symm) $$ HO_11_3
  ihave HX_12_0 := (Entails.of_eq (own_x_of_off (F := F) d L (0 : Fin 4) (12 : Fin 16) (k0_off72 L (Tr 5)) (k0_off72_inb L (Tr 5) (cond5_of _ (by decide))) (off72_c L (Tr 5) (by decide)) (m (xLoc d))).symm) $$ HX_12_0
  ihave HX_12_1 := (Entails.of_eq (own_x_of_off (F := F) d L (1 : Fin 4) (12 : Fin 16) (k0_off73 L (Tr 5)) (k0_off73_inb L (Tr 5) (cond5_of _ (by decide))) (off73_c L (Tr 5) (by decide)) (m (xLoc d))).symm) $$ HX_12_1
  ihave HX_12_2 := (Entails.of_eq (own_x_of_off (F := F) d L (2 : Fin 4) (12 : Fin 16) (k0_off74 L (Tr 5)) (k0_off74_inb L (Tr 5) (cond5_of _ (by decide))) (off74_c L (Tr 5) (by decide)) (m (xLoc d))).symm) $$ HX_12_2
  ihave HX_12_3 := (Entails.of_eq (own_x_of_off (F := F) d L (3 : Fin 4) (12 : Fin 16) (k0_off75 L (Tr 5)) (k0_off75_inb L (Tr 5) (cond5_of _ (by decide))) (off75_c L (Tr 5) (by decide)) (m (xLoc d))).symm) $$ HX_12_3
  ihave HP_12 := (Entails.of_eq (own_p_of_off (F := F) d L (12 : Fin 16) (k0_off76 L (Tr 5)) (k0_off76_inb L (Tr 5) (cond6_of _ (by decide))) (off76_c L (Tr 5) (by decide)) (m (pLoc d))).symm) $$ HP_12
  ihave HO_12_0 := (Entails.of_eq (own_o_of_off (F := F) d L (0 : Fin 4) (12 : Fin 16) (k0_off16 L (Tr 6) 0#32) (k0_off16_inb L (Tr 6) 0) (off16_c0 L (Tr 6)) (m (oLoc d))).symm) $$ HO_12_0
  ihave HO_12_1 := (Entails.of_eq (own_o_of_off (F := F) d L (1 : Fin 4) (12 : Fin 16) (k0_off17 L (Tr 6) 0#32) (k0_off17_inb L (Tr 6) 0) (off17_c0 L (Tr 6)) (m (oLoc d))).symm) $$ HO_12_1
  ihave HO_12_2 := (Entails.of_eq (own_o_of_off (F := F) d L (2 : Fin 4) (12 : Fin 16) (k0_off18 L (Tr 6) 0#32) (k0_off18_inb L (Tr 6) 0) (off18_c0 L (Tr 6)) (m (oLoc d))).symm) $$ HO_12_2
  ihave HO_12_3 := (Entails.of_eq (own_o_of_off (F := F) d L (3 : Fin 4) (12 : Fin 16) (k0_off19 L (Tr 6) 0#32) (k0_off19_inb L (Tr 6) 0) (off19_c0 L (Tr 6)) (m (oLoc d))).symm) $$ HO_12_3
  ihave HX_13_0 := (Entails.of_eq (own_x_of_off (F := F) d L (0 : Fin 4) (13 : Fin 16) (k0_off10 L (Tr 6)) (k0_off10_inb L (Tr 6) (cond2_all _)) (off10_c L (Tr 6)) (m (xLoc d))).symm) $$ HX_13_0
  ihave HX_13_1 := (Entails.of_eq (own_x_of_off (F := F) d L (1 : Fin 4) (13 : Fin 16) (k0_off11 L (Tr 6)) (k0_off11_inb L (Tr 6) (cond2_all _)) (off11_c L (Tr 6)) (m (xLoc d))).symm) $$ HX_13_1
  ihave HX_13_2 := (Entails.of_eq (own_x_of_off (F := F) d L (2 : Fin 4) (13 : Fin 16) (k0_off12 L (Tr 6)) (k0_off12_inb L (Tr 6) (cond2_all _)) (off12_c L (Tr 6)) (m (xLoc d))).symm) $$ HX_13_2
  ihave HX_13_3 := (Entails.of_eq (own_x_of_off (F := F) d L (3 : Fin 4) (13 : Fin 16) (k0_off13 L (Tr 6)) (k0_off13_inb L (Tr 6) (cond2_all _)) (off13_c L (Tr 6)) (m (xLoc d))).symm) $$ HX_13_3
  ihave HP_13 := (Entails.of_eq (own_p_of_off (F := F) d L (13 : Fin 16) (k0_off15 L (Tr 6)) (k0_off15_inb L (Tr 6) (cond3_all _)) (off15_c L (Tr 6)) (m (pLoc d))).symm) $$ HP_13
  ihave HO_13_0 := (Entails.of_eq (own_o_of_off (F := F) d L (0 : Fin 4) (13 : Fin 16) (k0_off16 L (Tr 6) 1#32) (k0_off16_inb L (Tr 6) 1) (off16_c1 L (Tr 6)) (m (oLoc d))).symm) $$ HO_13_0
  ihave HO_13_1 := (Entails.of_eq (own_o_of_off (F := F) d L (1 : Fin 4) (13 : Fin 16) (k0_off17 L (Tr 6) 1#32) (k0_off17_inb L (Tr 6) 1) (off17_c1 L (Tr 6)) (m (oLoc d))).symm) $$ HO_13_1
  ihave HO_13_2 := (Entails.of_eq (own_o_of_off (F := F) d L (2 : Fin 4) (13 : Fin 16) (k0_off18 L (Tr 6) 1#32) (k0_off18_inb L (Tr 6) 1) (off18_c1 L (Tr 6)) (m (oLoc d))).symm) $$ HO_13_2
  ihave HO_13_3 := (Entails.of_eq (own_o_of_off (F := F) d L (3 : Fin 4) (13 : Fin 16) (k0_off19 L (Tr 6) 1#32) (k0_off19_inb L (Tr 6) 1) (off19_c1 L (Tr 6)) (m (oLoc d))).symm) $$ HO_13_3
  ihave HX_14_0 := (Entails.of_eq (own_x_of_off (F := F) d L (0 : Fin 4) (14 : Fin 16) (k0_off72 L (Tr 6)) (k0_off72_inb L (Tr 6) (cond5_of _ (by decide))) (off72_c L (Tr 6) (by decide)) (m (xLoc d))).symm) $$ HX_14_0
  ihave HX_14_1 := (Entails.of_eq (own_x_of_off (F := F) d L (1 : Fin 4) (14 : Fin 16) (k0_off73 L (Tr 6)) (k0_off73_inb L (Tr 6) (cond5_of _ (by decide))) (off73_c L (Tr 6) (by decide)) (m (xLoc d))).symm) $$ HX_14_1
  ihave HX_14_2 := (Entails.of_eq (own_x_of_off (F := F) d L (2 : Fin 4) (14 : Fin 16) (k0_off74 L (Tr 6)) (k0_off74_inb L (Tr 6) (cond5_of _ (by decide))) (off74_c L (Tr 6) (by decide)) (m (xLoc d))).symm) $$ HX_14_2
  ihave HX_14_3 := (Entails.of_eq (own_x_of_off (F := F) d L (3 : Fin 4) (14 : Fin 16) (k0_off75 L (Tr 6)) (k0_off75_inb L (Tr 6) (cond5_of _ (by decide))) (off75_c L (Tr 6) (by decide)) (m (xLoc d))).symm) $$ HX_14_3
  ihave HP_14 := (Entails.of_eq (own_p_of_off (F := F) d L (14 : Fin 16) (k0_off76 L (Tr 6)) (k0_off76_inb L (Tr 6) (cond6_of _ (by decide))) (off76_c L (Tr 6) (by decide)) (m (pLoc d))).symm) $$ HP_14
  ihave HO_14_0 := (Entails.of_eq (own_o_of_off (F := F) d L (0 : Fin 4) (14 : Fin 16) (k0_off16 L (Tr 7) 0#32) (k0_off16_inb L (Tr 7) 0) (off16_c0 L (Tr 7)) (m (oLoc d))).symm) $$ HO_14_0
  ihave HO_14_1 := (Entails.of_eq (own_o_of_off (F := F) d L (1 : Fin 4) (14 : Fin 16) (k0_off17 L (Tr 7) 0#32) (k0_off17_inb L (Tr 7) 0) (off17_c0 L (Tr 7)) (m (oLoc d))).symm) $$ HO_14_1
  ihave HO_14_2 := (Entails.of_eq (own_o_of_off (F := F) d L (2 : Fin 4) (14 : Fin 16) (k0_off18 L (Tr 7) 0#32) (k0_off18_inb L (Tr 7) 0) (off18_c0 L (Tr 7)) (m (oLoc d))).symm) $$ HO_14_2
  ihave HO_14_3 := (Entails.of_eq (own_o_of_off (F := F) d L (3 : Fin 4) (14 : Fin 16) (k0_off19 L (Tr 7) 0#32) (k0_off19_inb L (Tr 7) 0) (off19_c0 L (Tr 7)) (m (oLoc d))).symm) $$ HO_14_3
  ihave HX_15_0 := (Entails.of_eq (own_x_of_off (F := F) d L (0 : Fin 4) (15 : Fin 16) (k0_off10 L (Tr 7)) (k0_off10_inb L (Tr 7) (cond2_all _)) (off10_c L (Tr 7)) (m (xLoc d))).symm) $$ HX_15_0
  ihave HX_15_1 := (Entails.of_eq (own_x_of_off (F := F) d L (1 : Fin 4) (15 : Fin 16) (k0_off11 L (Tr 7)) (k0_off11_inb L (Tr 7) (cond2_all _)) (off11_c L (Tr 7)) (m (xLoc d))).symm) $$ HX_15_1
  ihave HX_15_2 := (Entails.of_eq (own_x_of_off (F := F) d L (2 : Fin 4) (15 : Fin 16) (k0_off12 L (Tr 7)) (k0_off12_inb L (Tr 7) (cond2_all _)) (off12_c L (Tr 7)) (m (xLoc d))).symm) $$ HX_15_2
  ihave HX_15_3 := (Entails.of_eq (own_x_of_off (F := F) d L (3 : Fin 4) (15 : Fin 16) (k0_off13 L (Tr 7)) (k0_off13_inb L (Tr 7) (cond2_all _)) (off13_c L (Tr 7)) (m (xLoc d))).symm) $$ HX_15_3
  ihave HP_15 := (Entails.of_eq (own_p_of_off (F := F) d L (15 : Fin 16) (k0_off15 L (Tr 7)) (k0_off15_inb L (Tr 7) (cond3_all _)) (off15_c L (Tr 7)) (m (pLoc d))).symm) $$ HP_15
  ihave HO_15_0 := (Entails.of_eq (own_o_of_off (F := F) d L (0 : Fin 4) (15 : Fin 16) (k0_off16 L (Tr 7) 1#32) (k0_off16_inb L (Tr 7) 1) (off16_c1 L (Tr 7)) (m (oLoc d))).symm) $$ HO_15_0
  ihave HO_15_1 := (Entails.of_eq (own_o_of_off (F := F) d L (1 : Fin 4) (15 : Fin 16) (k0_off17 L (Tr 7) 1#32) (k0_off17_inb L (Tr 7) 1) (off17_c1 L (Tr 7)) (m (oLoc d))).symm) $$ HO_15_1
  ihave HO_15_2 := (Entails.of_eq (own_o_of_off (F := F) d L (2 : Fin 4) (15 : Fin 16) (k0_off18 L (Tr 7) 1#32) (k0_off18_inb L (Tr 7) 1) (off18_c1 L (Tr 7)) (m (oLoc d))).symm) $$ HO_15_2
  ihave HO_15_3 := (Entails.of_eq (own_o_of_off (F := F) d L (3 : Fin 4) (15 : Fin 16) (k0_off19 L (Tr 7) 1#32) (k0_off19_inb L (Tr 7) 1) (off19_c1 L (Tr 7)) (m (oLoc d))).symm) $$ HO_15_3
  ihave Hb0 := (Entails.of_eq (show ((thrV d L).loc cc0_scratch0 ↦{fullShare} fb0 : sProp 𝕄) = ((b0).view.loc (thrV d L) ↦{fullShare} fb0) from rfl)) $$ Hb0
  ihave Hb1 := (Entails.of_eq (show ((thrV d L).loc cc0_scratch1 ↦{fullShare} fb1 : sProp 𝕄) = ((b1).view.loc (thrV d L) ↦{fullShare} fb1) from rfl)) $$ Hb1
  ihave Hb2 := (Entails.of_eq (show ((thrV d L).loc cc0_scratch2 ↦{fullShare} fb2 : sProp 𝕄) = ((b2).view.loc (thrV d L) ↦{fullShare} fb2) from rfl)) $$ Hb2
  ihave Hb3 := (Entails.of_eq (show ((thrV d L).loc cc0_scratch3 ↦{fullShare} fb3 : sProp 𝕄) = ((b3).view.loc (thrV d L) ↦{fullShare} fb3) from rfl)) $$ Hb3
  ihave Hb4 := (Entails.of_eq (show ((thrV d L).loc cc0_scratch4 ↦{fullShare} fb4 : sProp 𝕄) = ((b4).view.loc (thrV d L) ↦{fullShare} fb4) from rfl)) $$ Hb4
  ihave Hb5 := (Entails.of_eq (show ((thrV d L).loc cc0_scratch5 ↦{fullShare} fb5 : sProp 𝕄) = ((b5).view.loc (thrV d L) ↦{fullShare} fb5) from rfl)) $$ Hb5
  ihave Hb6 := (Entails.of_eq (show ((thrV d L).loc cc0_scratch6 ↦{fullShare} fb6 : sProp 𝕄) = ((b6).view.loc (thrV d L) ↦{fullShare} fb6) from rfl)) $$ Hb6
  ihave Hb7 := (Entails.of_eq (show ((thrV d L).loc cc0_scratch7 ↦{fullShare} fb7 : sProp 𝕄) = ((b7).view.loc (thrV d L) ↦{fullShare} fb7) from rfl)) $$ Hb7
  ihave Hb8 := (Entails.of_eq (show ((thrV d L).loc cc0_scratch8 ↦{fullShare} fb8 : sProp 𝕄) = ((b8).view.loc (thrV d L) ↦{fullShare} fb8) from rfl)) $$ Hb8
  ihave Hb9 := (Entails.of_eq (show ((thrV d L).loc cc0_scratch9 ↦{fullShare} fb9 : sProp 𝕄) = ((b9).view.loc (thrV d L) ↦{fullShare} fb9) from rfl)) $$ Hb9
  -- the first fetches, then the eight trips of the chunk-pair loop laid out in sequence
  sl_exec_parts
  sl_unroll
  -- trip 0: chunk 0 in the first set of buffers, chunk 1 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra0 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra1 ⟨Hb1, Hb6, Hb7, Hb8, Hb9⟩
  -- trip 1: chunk 2 in the first set of buffers, chunk 3 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra2 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra3 ⟨Hb1, Hb6, Hb7, Hb8, Hb9⟩
  -- trip 2: chunk 4 in the first set of buffers, chunk 5 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra4 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra5 ⟨Hb1, Hb6, Hb7, Hb8, Hb9⟩
  -- trip 3: chunk 6 in the first set of buffers, chunk 7 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra6 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra7 ⟨Hb1, Hb6, Hb7, Hb8, Hb9⟩
  -- trip 4: chunk 8 in the first set of buffers, chunk 9 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra8 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra9 ⟨Hb1, Hb6, Hb7, Hb8, Hb9⟩
  -- trip 5: chunk 10 in the first set of buffers, chunk 11 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra10 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra11 ⟨Hb1, Hb6, Hb7, Hb8, Hb9⟩
  -- trip 6: chunk 12 in the first set of buffers, chunk 13 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra12 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra13 ⟨Hb1, Hb6, Hb7, Hb8, Hb9⟩
  -- trip 7: chunk 14 in the first set of buffers, chunk 15 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra14 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra15 ⟨Hb1, Hb6, Hb7, Hb8, Hb9⟩
  -- the last write-outs and their waits
  sl_exec_parts
  sl_step
  -- the tile's share of the arrays, handed back
  isplitl [HX_0_0 HX_0_1 HX_0_2 HX_0_3 HP_0 HO_0_0 HO_0_1 HO_0_2 HO_0_3 HX_1_0 HX_1_1 HX_1_2 HX_1_3 HP_1 HO_1_0 HO_1_1 HO_1_2 HO_1_3 HX_2_0 HX_2_1 HX_2_2 HX_2_3 HP_2 HO_2_0 HO_2_1 HO_2_2 HO_2_3 HX_3_0 HX_3_1 HX_3_2 HX_3_3 HP_3 HO_3_0 HO_3_1 HO_3_2 HO_3_3 HX_4_0 HX_4_1 HX_4_2 HX_4_3 HP_4 HO_4_0 HO_4_1 HO_4_2 HO_4_3 HX_5_0 HX_5_1 HX_5_2 HX_5_3 HP_5 HO_5_0 HO_5_1 HO_5_2 HO_5_3 HX_6_0 HX_6_1 HX_6_2 HX_6_3 HP_6 HO_6_0 HO_6_1 HO_6_2 HO_6_3 HX_7_0 HX_7_1 HX_7_2 HX_7_3 HP_7 HO_7_0 HO_7_1 HO_7_2 HO_7_3 HX_8_0 HX_8_1 HX_8_2 HX_8_3 HP_8 HO_8_0 HO_8_1 HO_8_2 HO_8_3 HX_9_0 HX_9_1 HX_9_2 HX_9_3 HP_9 HO_9_0 HO_9_1 HO_9_2 HO_9_3 HX_10_0 HX_10_1 HX_10_2 HX_10_3 HP_10 HO_10_0 HO_10_1 HO_10_2 HO_10_3 HX_11_0 HX_11_1 HX_11_2 HX_11_3 HP_11 HO_11_0 HO_11_1 HO_11_2 HO_11_3 HX_12_0 HX_12_1 HX_12_2 HX_12_3 HP_12 HO_12_0 HO_12_1 HO_12_2 HO_12_3 HX_13_0 HX_13_1 HX_13_2 HX_13_3 HP_13 HO_13_0 HO_13_1 HO_13_2 HO_13_3 HX_14_0 HX_14_1 HX_14_2 HX_14_3 HP_14 HO_14_0 HO_14_1 HO_14_2 HO_14_3 HX_15_0 HX_15_1 HX_15_2 HX_15_3 HP_15 HO_15_0 HO_15_1 HO_15_2 HO_15_3]
  · unfold tilePost
    rw [bigSep_fin16]
    unfold chunkPost
    simp only [bigSep_fin4]
    isplitl [HX_0_0 HX_0_1 HX_0_2 HX_0_3 HP_0 HO_0_0 HO_0_1 HO_0_2 HO_0_3]
    ·
      isplitl [HX_0_0 HX_0_1 HX_0_2 HX_0_3]
      · isplitl [HX_0_0]; · iapply (Entails.of_eq (own_x_of_off (F := F) d L (0 : Fin 4) (0 : Fin 16) (k0_off2 L 0#32) (k0_off2_inb L 0) (off2_c L) (m (xLoc d)))); iexact HX_0_0
        isplitl [HX_0_1]; · iapply (Entails.of_eq (own_x_of_off (F := F) d L (1 : Fin 4) (0 : Fin 16) (k0_off3 L 0#32) (k0_off3_inb L 0) (off3_c L) (m (xLoc d)))); iexact HX_0_1
        isplitl [HX_0_2]; · iapply (Entails.of_eq (own_x_of_off (F := F) d L (2 : Fin 4) (0 : Fin 16) (k0_off4 L 0#32) (k0_off4_inb L 0) (off4_c L) (m (xLoc d)))); iexact HX_0_2
        iapply (Entails.of_eq (own_x_of_off (F := F) d L (3 : Fin 4) (0 : Fin 16) (k0_off5 L 0#32) (k0_off5_inb L 0) (off5_c L) (m (xLoc d)))); iexact HX_0_3
      isplitl [HP_0]
      · iapply (Entails.of_eq (own_p_of_off (F := F) d L (0 : Fin 16) (k0_off1 L) (k0_off1_inb L) (off1_c L) (m (pLoc d)))); iexact HP_0
      isplitl [HO_0_0]; · iapply (Entails.of_eq (own_block_fin_b2 (F := F) m d L (0 : Fin 4) (0 : Fin 16) (k0_off2 L 0#32) (k0_off2_inb L 0) (k0_off1 L) (k0_off1_inb L) (k0_off16 L (Tr 0) 0#32) (k0_off16_inb L (Tr 0) 0) (off2_c L) (off1_c L) (off16_c0 L (Tr 0)) _)); iexact HO_0_0
      isplitl [HO_0_1]; · iapply (Entails.of_eq (own_block_fin_b3 (F := F) m d L (1 : Fin 4) (0 : Fin 16) (k0_off3 L 0#32) (k0_off3_inb L 0) (k0_off1 L) (k0_off1_inb L) (k0_off17 L (Tr 0) 0#32) (k0_off17_inb L (Tr 0) 0) (off3_c L) (off1_c L) (off17_c0 L (Tr 0)) _)); iexact HO_0_1
      isplitl [HO_0_2]; · iapply (Entails.of_eq (own_block_fin_b4 (F := F) m d L (2 : Fin 4) (0 : Fin 16) (k0_off4 L 0#32) (k0_off4_inb L 0) (k0_off1 L) (k0_off1_inb L) (k0_off18 L (Tr 0) 0#32) (k0_off18_inb L (Tr 0) 0) (off4_c L) (off1_c L) (off18_c0 L (Tr 0)) _)); iexact HO_0_2
      iapply (Entails.of_eq (own_block_fin_b5 (F := F) m d L (3 : Fin 4) (0 : Fin 16) (k0_off5 L 0#32) (k0_off5_inb L 0) (k0_off1 L) (k0_off1_inb L) (k0_off19 L (Tr 0) 0#32) (k0_off19_inb L (Tr 0) 0) (off5_c L) (off1_c L) (off19_c0 L (Tr 0)) _)); iexact HO_0_3
    isplitl [HX_1_0 HX_1_1 HX_1_2 HX_1_3 HP_1 HO_1_0 HO_1_1 HO_1_2 HO_1_3]
    ·
      isplitl [HX_1_0 HX_1_1 HX_1_2 HX_1_3]
      · isplitl [HX_1_0]; · iapply (Entails.of_eq (own_x_of_off (F := F) d L (0 : Fin 4) (1 : Fin 16) (k0_off10 L (Tr 0)) (k0_off10_inb L (Tr 0) (cond2_all _)) (off10_c L (Tr 0)) (m (xLoc d)))); iexact HX_1_0
        isplitl [HX_1_1]; · iapply (Entails.of_eq (own_x_of_off (F := F) d L (1 : Fin 4) (1 : Fin 16) (k0_off11 L (Tr 0)) (k0_off11_inb L (Tr 0) (cond2_all _)) (off11_c L (Tr 0)) (m (xLoc d)))); iexact HX_1_1
        isplitl [HX_1_2]; · iapply (Entails.of_eq (own_x_of_off (F := F) d L (2 : Fin 4) (1 : Fin 16) (k0_off12 L (Tr 0)) (k0_off12_inb L (Tr 0) (cond2_all _)) (off12_c L (Tr 0)) (m (xLoc d)))); iexact HX_1_2
        iapply (Entails.of_eq (own_x_of_off (F := F) d L (3 : Fin 4) (1 : Fin 16) (k0_off13 L (Tr 0)) (k0_off13_inb L (Tr 0) (cond2_all _)) (off13_c L (Tr 0)) (m (xLoc d)))); iexact HX_1_3
      isplitl [HP_1]
      · iapply (Entails.of_eq (own_p_of_off (F := F) d L (1 : Fin 16) (k0_off15 L (Tr 0)) (k0_off15_inb L (Tr 0) (cond3_all _)) (off15_c L (Tr 0)) (m (pLoc d)))); iexact HP_1
      isplitl [HO_1_0]; · iapply (Entails.of_eq (own_block_fin_b6 (F := F) m d L (0 : Fin 4) (1 : Fin 16) (k0_off10 L (Tr 0)) (k0_off10_inb L (Tr 0) (cond2_all _)) (k0_off15 L (Tr 0)) (k0_off15_inb L (Tr 0) (cond3_all _)) (k0_off16 L (Tr 0) 1#32) (k0_off16_inb L (Tr 0) 1) (off10_c L (Tr 0)) (off15_c L (Tr 0)) (off16_c1 L (Tr 0)) _)); iexact HO_1_0
      isplitl [HO_1_1]; · iapply (Entails.of_eq (own_block_fin_b7 (F := F) m d L (1 : Fin 4) (1 : Fin 16) (k0_off11 L (Tr 0)) (k0_off11_inb L (Tr 0) (cond2_all _)) (k0_off15 L (Tr 0)) (k0_off15_inb L (Tr 0) (cond3_all _)) (k0_off17 L (Tr 0) 1#32) (k0_off17_inb L (Tr 0) 1) (off11_c L (Tr 0)) (off15_c L (Tr 0)) (off17_c1 L (Tr 0)) _)); iexact HO_1_1
      isplitl [HO_1_2]; · iapply (Entails.of_eq (own_block_fin_b8 (F := F) m d L (2 : Fin 4) (1 : Fin 16) (k0_off12 L (Tr 0)) (k0_off12_inb L (Tr 0) (cond2_all _)) (k0_off15 L (Tr 0)) (k0_off15_inb L (Tr 0) (cond3_all _)) (k0_off18 L (Tr 0) 1#32) (k0_off18_inb L (Tr 0) 1) (off12_c L (Tr 0)) (off15_c L (Tr 0)) (off18_c1 L (Tr 0)) _)); iexact HO_1_2
      iapply (Entails.of_eq (own_block_fin_b9 (F := F) m d L (3 : Fin 4) (1 : Fin 16) (k0_off13 L (Tr 0)) (k0_off13_inb L (Tr 0) (cond2_all _)) (k0_off15 L (Tr 0)) (k0_off15_inb L (Tr 0) (cond3_all _)) (k0_off19 L (Tr 0) 1#32) (k0_off19_inb L (Tr 0) 1) (off13_c L (Tr 0)) (off15_c L (Tr 0)) (off19_c1 L (Tr 0)) _)); iexact HO_1_3
    isplitl [HX_2_0 HX_2_1 HX_2_2 HX_2_3 HP_2 HO_2_0 HO_2_1 HO_2_2 HO_2_3]
    ·
      isplitl [HX_2_0 HX_2_1 HX_2_2 HX_2_3]
      · isplitl [HX_2_0]; · iapply (Entails.of_eq (own_x_of_off (F := F) d L (0 : Fin 4) (2 : Fin 16) (k0_off72 L (Tr 0)) (k0_off72_inb L (Tr 0) (cond5_of _ (by decide))) (off72_c L (Tr 0) (by decide)) (m (xLoc d)))); iexact HX_2_0
        isplitl [HX_2_1]; · iapply (Entails.of_eq (own_x_of_off (F := F) d L (1 : Fin 4) (2 : Fin 16) (k0_off73 L (Tr 0)) (k0_off73_inb L (Tr 0) (cond5_of _ (by decide))) (off73_c L (Tr 0) (by decide)) (m (xLoc d)))); iexact HX_2_1
        isplitl [HX_2_2]; · iapply (Entails.of_eq (own_x_of_off (F := F) d L (2 : Fin 4) (2 : Fin 16) (k0_off74 L (Tr 0)) (k0_off74_inb L (Tr 0) (cond5_of _ (by decide))) (off74_c L (Tr 0) (by decide)) (m (xLoc d)))); iexact HX_2_2
        iapply (Entails.of_eq (own_x_of_off (F := F) d L (3 : Fin 4) (2 : Fin 16) (k0_off75 L (Tr 0)) (k0_off75_inb L (Tr 0) (cond5_of _ (by decide))) (off75_c L (Tr 0) (by decide)) (m (xLoc d)))); iexact HX_2_3
      isplitl [HP_2]
      · iapply (Entails.of_eq (own_p_of_off (F := F) d L (2 : Fin 16) (k0_off76 L (Tr 0)) (k0_off76_inb L (Tr 0) (cond6_of _ (by decide))) (off76_c L (Tr 0) (by decide)) (m (pLoc d)))); iexact HP_2
      isplitl [HO_2_0]; · iapply (Entails.of_eq (own_block_fin_b2 (F := F) m d L (0 : Fin 4) (2 : Fin 16) (k0_off72 L (Tr 0)) (k0_off72_inb L (Tr 0) (cond5_of _ (by decide))) (k0_off76 L (Tr 0)) (k0_off76_inb L (Tr 0) (cond6_of _ (by decide))) (k0_off16 L (Tr 1) 0#32) (k0_off16_inb L (Tr 1) 0) (off72_c L (Tr 0) (by decide)) (off76_c L (Tr 0) (by decide)) (off16_c0 L (Tr 1)) _)); iexact HO_2_0
      isplitl [HO_2_1]; · iapply (Entails.of_eq (own_block_fin_b3 (F := F) m d L (1 : Fin 4) (2 : Fin 16) (k0_off73 L (Tr 0)) (k0_off73_inb L (Tr 0) (cond5_of _ (by decide))) (k0_off76 L (Tr 0)) (k0_off76_inb L (Tr 0) (cond6_of _ (by decide))) (k0_off17 L (Tr 1) 0#32) (k0_off17_inb L (Tr 1) 0) (off73_c L (Tr 0) (by decide)) (off76_c L (Tr 0) (by decide)) (off17_c0 L (Tr 1)) _)); iexact HO_2_1
      isplitl [HO_2_2]; · iapply (Entails.of_eq (own_block_fin_b4 (F := F) m d L (2 : Fin 4) (2 : Fin 16) (k0_off74 L (Tr 0)) (k0_off74_inb L (Tr 0) (cond5_of _ (by decide))) (k0_off76 L (Tr 0)) (k0_off76_inb L (Tr 0) (cond6_of _ (by decide))) (k0_off18 L (Tr 1) 0#32) (k0_off18_inb L (Tr 1) 0) (off74_c L (Tr 0) (by decide)) (off76_c L (Tr 0) (by decide)) (off18_c0 L (Tr 1)) _)); iexact HO_2_2
      iapply (Entails.of_eq (own_block_fin_b5 (F := F) m d L (3 : Fin 4) (2 : Fin 16) (k0_off75 L (Tr 0)) (k0_off75_inb L (Tr 0) (cond5_of _ (by decide))) (k0_off76 L (Tr 0)) (k0_off76_inb L (Tr 0) (cond6_of _ (by decide))) (k0_off19 L (Tr 1) 0#32) (k0_off19_inb L (Tr 1) 0) (off75_c L (Tr 0) (by decide)) (off76_c L (Tr 0) (by decide)) (off19_c0 L (Tr 1)) _)); iexact HO_2_3
    isplitl [HX_3_0 HX_3_1 HX_3_2 HX_3_3 HP_3 HO_3_0 HO_3_1 HO_3_2 HO_3_3]
    ·
      isplitl [HX_3_0 HX_3_1 HX_3_2 HX_3_3]
      · isplitl [HX_3_0]; · iapply (Entails.of_eq (own_x_of_off (F := F) d L (0 : Fin 4) (3 : Fin 16) (k0_off10 L (Tr 1)) (k0_off10_inb L (Tr 1) (cond2_all _)) (off10_c L (Tr 1)) (m (xLoc d)))); iexact HX_3_0
        isplitl [HX_3_1]; · iapply (Entails.of_eq (own_x_of_off (F := F) d L (1 : Fin 4) (3 : Fin 16) (k0_off11 L (Tr 1)) (k0_off11_inb L (Tr 1) (cond2_all _)) (off11_c L (Tr 1)) (m (xLoc d)))); iexact HX_3_1
        isplitl [HX_3_2]; · iapply (Entails.of_eq (own_x_of_off (F := F) d L (2 : Fin 4) (3 : Fin 16) (k0_off12 L (Tr 1)) (k0_off12_inb L (Tr 1) (cond2_all _)) (off12_c L (Tr 1)) (m (xLoc d)))); iexact HX_3_2
        iapply (Entails.of_eq (own_x_of_off (F := F) d L (3 : Fin 4) (3 : Fin 16) (k0_off13 L (Tr 1)) (k0_off13_inb L (Tr 1) (cond2_all _)) (off13_c L (Tr 1)) (m (xLoc d)))); iexact HX_3_3
      isplitl [HP_3]
      · iapply (Entails.of_eq (own_p_of_off (F := F) d L (3 : Fin 16) (k0_off15 L (Tr 1)) (k0_off15_inb L (Tr 1) (cond3_all _)) (off15_c L (Tr 1)) (m (pLoc d)))); iexact HP_3
      isplitl [HO_3_0]; · iapply (Entails.of_eq (own_block_fin_b6 (F := F) m d L (0 : Fin 4) (3 : Fin 16) (k0_off10 L (Tr 1)) (k0_off10_inb L (Tr 1) (cond2_all _)) (k0_off15 L (Tr 1)) (k0_off15_inb L (Tr 1) (cond3_all _)) (k0_off16 L (Tr 1) 1#32) (k0_off16_inb L (Tr 1) 1) (off10_c L (Tr 1)) (off15_c L (Tr 1)) (off16_c1 L (Tr 1)) _)); iexact HO_3_0
      isplitl [HO_3_1]; · iapply (Entails.of_eq (own_block_fin_b7 (F := F) m d L (1 : Fin 4) (3 : Fin 16) (k0_off11 L (Tr 1)) (k0_off11_inb L (Tr 1) (cond2_all _)) (k0_off15 L (Tr 1)) (k0_off15_inb L (Tr 1) (cond3_all _)) (k0_off17 L (Tr 1) 1#32) (k0_off17_inb L (Tr 1) 1) (off11_c L (Tr 1)) (off15_c L (Tr 1)) (off17_c1 L (Tr 1)) _)); iexact HO_3_1
      isplitl [HO_3_2]; · iapply (Entails.of_eq (own_block_fin_b8 (F := F) m d L (2 : Fin 4) (3 : Fin 16) (k0_off12 L (Tr 1)) (k0_off12_inb L (Tr 1) (cond2_all _)) (k0_off15 L (Tr 1)) (k0_off15_inb L (Tr 1) (cond3_all _)) (k0_off18 L (Tr 1) 1#32) (k0_off18_inb L (Tr 1) 1) (off12_c L (Tr 1)) (off15_c L (Tr 1)) (off18_c1 L (Tr 1)) _)); iexact HO_3_2
      iapply (Entails.of_eq (own_block_fin_b9 (F := F) m d L (3 : Fin 4) (3 : Fin 16) (k0_off13 L (Tr 1)) (k0_off13_inb L (Tr 1) (cond2_all _)) (k0_off15 L (Tr 1)) (k0_off15_inb L (Tr 1) (cond3_all _)) (k0_off19 L (Tr 1) 1#32) (k0_off19_inb L (Tr 1) 1) (off13_c L (Tr 1)) (off15_c L (Tr 1)) (off19_c1 L (Tr 1)) _)); iexact HO_3_3
    isplitl [HX_4_0 HX_4_1 HX_4_2 HX_4_3 HP_4 HO_4_0 HO_4_1 HO_4_2 HO_4_3]
    ·
      isplitl [HX_4_0 HX_4_1 HX_4_2 HX_4_3]
      · isplitl [HX_4_0]; · iapply (Entails.of_eq (own_x_of_off (F := F) d L (0 : Fin 4) (4 : Fin 16) (k0_off72 L (Tr 1)) (k0_off72_inb L (Tr 1) (cond5_of _ (by decide))) (off72_c L (Tr 1) (by decide)) (m (xLoc d)))); iexact HX_4_0
        isplitl [HX_4_1]; · iapply (Entails.of_eq (own_x_of_off (F := F) d L (1 : Fin 4) (4 : Fin 16) (k0_off73 L (Tr 1)) (k0_off73_inb L (Tr 1) (cond5_of _ (by decide))) (off73_c L (Tr 1) (by decide)) (m (xLoc d)))); iexact HX_4_1
        isplitl [HX_4_2]; · iapply (Entails.of_eq (own_x_of_off (F := F) d L (2 : Fin 4) (4 : Fin 16) (k0_off74 L (Tr 1)) (k0_off74_inb L (Tr 1) (cond5_of _ (by decide))) (off74_c L (Tr 1) (by decide)) (m (xLoc d)))); iexact HX_4_2
        iapply (Entails.of_eq (own_x_of_off (F := F) d L (3 : Fin 4) (4 : Fin 16) (k0_off75 L (Tr 1)) (k0_off75_inb L (Tr 1) (cond5_of _ (by decide))) (off75_c L (Tr 1) (by decide)) (m (xLoc d)))); iexact HX_4_3
      isplitl [HP_4]
      · iapply (Entails.of_eq (own_p_of_off (F := F) d L (4 : Fin 16) (k0_off76 L (Tr 1)) (k0_off76_inb L (Tr 1) (cond6_of _ (by decide))) (off76_c L (Tr 1) (by decide)) (m (pLoc d)))); iexact HP_4
      isplitl [HO_4_0]; · iapply (Entails.of_eq (own_block_fin_b2 (F := F) m d L (0 : Fin 4) (4 : Fin 16) (k0_off72 L (Tr 1)) (k0_off72_inb L (Tr 1) (cond5_of _ (by decide))) (k0_off76 L (Tr 1)) (k0_off76_inb L (Tr 1) (cond6_of _ (by decide))) (k0_off16 L (Tr 2) 0#32) (k0_off16_inb L (Tr 2) 0) (off72_c L (Tr 1) (by decide)) (off76_c L (Tr 1) (by decide)) (off16_c0 L (Tr 2)) _)); iexact HO_4_0
      isplitl [HO_4_1]; · iapply (Entails.of_eq (own_block_fin_b3 (F := F) m d L (1 : Fin 4) (4 : Fin 16) (k0_off73 L (Tr 1)) (k0_off73_inb L (Tr 1) (cond5_of _ (by decide))) (k0_off76 L (Tr 1)) (k0_off76_inb L (Tr 1) (cond6_of _ (by decide))) (k0_off17 L (Tr 2) 0#32) (k0_off17_inb L (Tr 2) 0) (off73_c L (Tr 1) (by decide)) (off76_c L (Tr 1) (by decide)) (off17_c0 L (Tr 2)) _)); iexact HO_4_1
      isplitl [HO_4_2]; · iapply (Entails.of_eq (own_block_fin_b4 (F := F) m d L (2 : Fin 4) (4 : Fin 16) (k0_off74 L (Tr 1)) (k0_off74_inb L (Tr 1) (cond5_of _ (by decide))) (k0_off76 L (Tr 1)) (k0_off76_inb L (Tr 1) (cond6_of _ (by decide))) (k0_off18 L (Tr 2) 0#32) (k0_off18_inb L (Tr 2) 0) (off74_c L (Tr 1) (by decide)) (off76_c L (Tr 1) (by decide)) (off18_c0 L (Tr 2)) _)); iexact HO_4_2
      iapply (Entails.of_eq (own_block_fin_b5 (F := F) m d L (3 : Fin 4) (4 : Fin 16) (k0_off75 L (Tr 1)) (k0_off75_inb L (Tr 1) (cond5_of _ (by decide))) (k0_off76 L (Tr 1)) (k0_off76_inb L (Tr 1) (cond6_of _ (by decide))) (k0_off19 L (Tr 2) 0#32) (k0_off19_inb L (Tr 2) 0) (off75_c L (Tr 1) (by decide)) (off76_c L (Tr 1) (by decide)) (off19_c0 L (Tr 2)) _)); iexact HO_4_3
    isplitl [HX_5_0 HX_5_1 HX_5_2 HX_5_3 HP_5 HO_5_0 HO_5_1 HO_5_2 HO_5_3]
    ·
      isplitl [HX_5_0 HX_5_1 HX_5_2 HX_5_3]
      · isplitl [HX_5_0]; · iapply (Entails.of_eq (own_x_of_off (F := F) d L (0 : Fin 4) (5 : Fin 16) (k0_off10 L (Tr 2)) (k0_off10_inb L (Tr 2) (cond2_all _)) (off10_c L (Tr 2)) (m (xLoc d)))); iexact HX_5_0
        isplitl [HX_5_1]; · iapply (Entails.of_eq (own_x_of_off (F := F) d L (1 : Fin 4) (5 : Fin 16) (k0_off11 L (Tr 2)) (k0_off11_inb L (Tr 2) (cond2_all _)) (off11_c L (Tr 2)) (m (xLoc d)))); iexact HX_5_1
        isplitl [HX_5_2]; · iapply (Entails.of_eq (own_x_of_off (F := F) d L (2 : Fin 4) (5 : Fin 16) (k0_off12 L (Tr 2)) (k0_off12_inb L (Tr 2) (cond2_all _)) (off12_c L (Tr 2)) (m (xLoc d)))); iexact HX_5_2
        iapply (Entails.of_eq (own_x_of_off (F := F) d L (3 : Fin 4) (5 : Fin 16) (k0_off13 L (Tr 2)) (k0_off13_inb L (Tr 2) (cond2_all _)) (off13_c L (Tr 2)) (m (xLoc d)))); iexact HX_5_3
      isplitl [HP_5]
      · iapply (Entails.of_eq (own_p_of_off (F := F) d L (5 : Fin 16) (k0_off15 L (Tr 2)) (k0_off15_inb L (Tr 2) (cond3_all _)) (off15_c L (Tr 2)) (m (pLoc d)))); iexact HP_5
      isplitl [HO_5_0]; · iapply (Entails.of_eq (own_block_fin_b6 (F := F) m d L (0 : Fin 4) (5 : Fin 16) (k0_off10 L (Tr 2)) (k0_off10_inb L (Tr 2) (cond2_all _)) (k0_off15 L (Tr 2)) (k0_off15_inb L (Tr 2) (cond3_all _)) (k0_off16 L (Tr 2) 1#32) (k0_off16_inb L (Tr 2) 1) (off10_c L (Tr 2)) (off15_c L (Tr 2)) (off16_c1 L (Tr 2)) _)); iexact HO_5_0
      isplitl [HO_5_1]; · iapply (Entails.of_eq (own_block_fin_b7 (F := F) m d L (1 : Fin 4) (5 : Fin 16) (k0_off11 L (Tr 2)) (k0_off11_inb L (Tr 2) (cond2_all _)) (k0_off15 L (Tr 2)) (k0_off15_inb L (Tr 2) (cond3_all _)) (k0_off17 L (Tr 2) 1#32) (k0_off17_inb L (Tr 2) 1) (off11_c L (Tr 2)) (off15_c L (Tr 2)) (off17_c1 L (Tr 2)) _)); iexact HO_5_1
      isplitl [HO_5_2]; · iapply (Entails.of_eq (own_block_fin_b8 (F := F) m d L (2 : Fin 4) (5 : Fin 16) (k0_off12 L (Tr 2)) (k0_off12_inb L (Tr 2) (cond2_all _)) (k0_off15 L (Tr 2)) (k0_off15_inb L (Tr 2) (cond3_all _)) (k0_off18 L (Tr 2) 1#32) (k0_off18_inb L (Tr 2) 1) (off12_c L (Tr 2)) (off15_c L (Tr 2)) (off18_c1 L (Tr 2)) _)); iexact HO_5_2
      iapply (Entails.of_eq (own_block_fin_b9 (F := F) m d L (3 : Fin 4) (5 : Fin 16) (k0_off13 L (Tr 2)) (k0_off13_inb L (Tr 2) (cond2_all _)) (k0_off15 L (Tr 2)) (k0_off15_inb L (Tr 2) (cond3_all _)) (k0_off19 L (Tr 2) 1#32) (k0_off19_inb L (Tr 2) 1) (off13_c L (Tr 2)) (off15_c L (Tr 2)) (off19_c1 L (Tr 2)) _)); iexact HO_5_3
    isplitl [HX_6_0 HX_6_1 HX_6_2 HX_6_3 HP_6 HO_6_0 HO_6_1 HO_6_2 HO_6_3]
    ·
      isplitl [HX_6_0 HX_6_1 HX_6_2 HX_6_3]
      · isplitl [HX_6_0]; · iapply (Entails.of_eq (own_x_of_off (F := F) d L (0 : Fin 4) (6 : Fin 16) (k0_off72 L (Tr 2)) (k0_off72_inb L (Tr 2) (cond5_of _ (by decide))) (off72_c L (Tr 2) (by decide)) (m (xLoc d)))); iexact HX_6_0
        isplitl [HX_6_1]; · iapply (Entails.of_eq (own_x_of_off (F := F) d L (1 : Fin 4) (6 : Fin 16) (k0_off73 L (Tr 2)) (k0_off73_inb L (Tr 2) (cond5_of _ (by decide))) (off73_c L (Tr 2) (by decide)) (m (xLoc d)))); iexact HX_6_1
        isplitl [HX_6_2]; · iapply (Entails.of_eq (own_x_of_off (F := F) d L (2 : Fin 4) (6 : Fin 16) (k0_off74 L (Tr 2)) (k0_off74_inb L (Tr 2) (cond5_of _ (by decide))) (off74_c L (Tr 2) (by decide)) (m (xLoc d)))); iexact HX_6_2
        iapply (Entails.of_eq (own_x_of_off (F := F) d L (3 : Fin 4) (6 : Fin 16) (k0_off75 L (Tr 2)) (k0_off75_inb L (Tr 2) (cond5_of _ (by decide))) (off75_c L (Tr 2) (by decide)) (m (xLoc d)))); iexact HX_6_3
      isplitl [HP_6]
      · iapply (Entails.of_eq (own_p_of_off (F := F) d L (6 : Fin 16) (k0_off76 L (Tr 2)) (k0_off76_inb L (Tr 2) (cond6_of _ (by decide))) (off76_c L (Tr 2) (by decide)) (m (pLoc d)))); iexact HP_6
      isplitl [HO_6_0]; · iapply (Entails.of_eq (own_block_fin_b2 (F := F) m d L (0 : Fin 4) (6 : Fin 16) (k0_off72 L (Tr 2)) (k0_off72_inb L (Tr 2) (cond5_of _ (by decide))) (k0_off76 L (Tr 2)) (k0_off76_inb L (Tr 2) (cond6_of _ (by decide))) (k0_off16 L (Tr 3) 0#32) (k0_off16_inb L (Tr 3) 0) (off72_c L (Tr 2) (by decide)) (off76_c L (Tr 2) (by decide)) (off16_c0 L (Tr 3)) _)); iexact HO_6_0
      isplitl [HO_6_1]; · iapply (Entails.of_eq (own_block_fin_b3 (F := F) m d L (1 : Fin 4) (6 : Fin 16) (k0_off73 L (Tr 2)) (k0_off73_inb L (Tr 2) (cond5_of _ (by decide))) (k0_off76 L (Tr 2)) (k0_off76_inb L (Tr 2) (cond6_of _ (by decide))) (k0_off17 L (Tr 3) 0#32) (k0_off17_inb L (Tr 3) 0) (off73_c L (Tr 2) (by decide)) (off76_c L (Tr 2) (by decide)) (off17_c0 L (Tr 3)) _)); iexact HO_6_1
      isplitl [HO_6_2]; · iapply (Entails.of_eq (own_block_fin_b4 (F := F) m d L (2 : Fin 4) (6 : Fin 16) (k0_off74 L (Tr 2)) (k0_off74_inb L (Tr 2) (cond5_of _ (by decide))) (k0_off76 L (Tr 2)) (k0_off76_inb L (Tr 2) (cond6_of _ (by decide))) (k0_off18 L (Tr 3) 0#32) (k0_off18_inb L (Tr 3) 0) (off74_c L (Tr 2) (by decide)) (off76_c L (Tr 2) (by decide)) (off18_c0 L (Tr 3)) _)); iexact HO_6_2
      iapply (Entails.of_eq (own_block_fin_b5 (F := F) m d L (3 : Fin 4) (6 : Fin 16) (k0_off75 L (Tr 2)) (k0_off75_inb L (Tr 2) (cond5_of _ (by decide))) (k0_off76 L (Tr 2)) (k0_off76_inb L (Tr 2) (cond6_of _ (by decide))) (k0_off19 L (Tr 3) 0#32) (k0_off19_inb L (Tr 3) 0) (off75_c L (Tr 2) (by decide)) (off76_c L (Tr 2) (by decide)) (off19_c0 L (Tr 3)) _)); iexact HO_6_3
    isplitl [HX_7_0 HX_7_1 HX_7_2 HX_7_3 HP_7 HO_7_0 HO_7_1 HO_7_2 HO_7_3]
    ·
      isplitl [HX_7_0 HX_7_1 HX_7_2 HX_7_3]
      · isplitl [HX_7_0]; · iapply (Entails.of_eq (own_x_of_off (F := F) d L (0 : Fin 4) (7 : Fin 16) (k0_off10 L (Tr 3)) (k0_off10_inb L (Tr 3) (cond2_all _)) (off10_c L (Tr 3)) (m (xLoc d)))); iexact HX_7_0
        isplitl [HX_7_1]; · iapply (Entails.of_eq (own_x_of_off (F := F) d L (1 : Fin 4) (7 : Fin 16) (k0_off11 L (Tr 3)) (k0_off11_inb L (Tr 3) (cond2_all _)) (off11_c L (Tr 3)) (m (xLoc d)))); iexact HX_7_1
        isplitl [HX_7_2]; · iapply (Entails.of_eq (own_x_of_off (F := F) d L (2 : Fin 4) (7 : Fin 16) (k0_off12 L (Tr 3)) (k0_off12_inb L (Tr 3) (cond2_all _)) (off12_c L (Tr 3)) (m (xLoc d)))); iexact HX_7_2
        iapply (Entails.of_eq (own_x_of_off (F := F) d L (3 : Fin 4) (7 : Fin 16) (k0_off13 L (Tr 3)) (k0_off13_inb L (Tr 3) (cond2_all _)) (off13_c L (Tr 3)) (m (xLoc d)))); iexact HX_7_3
      isplitl [HP_7]
      · iapply (Entails.of_eq (own_p_of_off (F := F) d L (7 : Fin 16) (k0_off15 L (Tr 3)) (k0_off15_inb L (Tr 3) (cond3_all _)) (off15_c L (Tr 3)) (m (pLoc d)))); iexact HP_7
      isplitl [HO_7_0]; · iapply (Entails.of_eq (own_block_fin_b6 (F := F) m d L (0 : Fin 4) (7 : Fin 16) (k0_off10 L (Tr 3)) (k0_off10_inb L (Tr 3) (cond2_all _)) (k0_off15 L (Tr 3)) (k0_off15_inb L (Tr 3) (cond3_all _)) (k0_off16 L (Tr 3) 1#32) (k0_off16_inb L (Tr 3) 1) (off10_c L (Tr 3)) (off15_c L (Tr 3)) (off16_c1 L (Tr 3)) _)); iexact HO_7_0
      isplitl [HO_7_1]; · iapply (Entails.of_eq (own_block_fin_b7 (F := F) m d L (1 : Fin 4) (7 : Fin 16) (k0_off11 L (Tr 3)) (k0_off11_inb L (Tr 3) (cond2_all _)) (k0_off15 L (Tr 3)) (k0_off15_inb L (Tr 3) (cond3_all _)) (k0_off17 L (Tr 3) 1#32) (k0_off17_inb L (Tr 3) 1) (off11_c L (Tr 3)) (off15_c L (Tr 3)) (off17_c1 L (Tr 3)) _)); iexact HO_7_1
      isplitl [HO_7_2]; · iapply (Entails.of_eq (own_block_fin_b8 (F := F) m d L (2 : Fin 4) (7 : Fin 16) (k0_off12 L (Tr 3)) (k0_off12_inb L (Tr 3) (cond2_all _)) (k0_off15 L (Tr 3)) (k0_off15_inb L (Tr 3) (cond3_all _)) (k0_off18 L (Tr 3) 1#32) (k0_off18_inb L (Tr 3) 1) (off12_c L (Tr 3)) (off15_c L (Tr 3)) (off18_c1 L (Tr 3)) _)); iexact HO_7_2
      iapply (Entails.of_eq (own_block_fin_b9 (F := F) m d L (3 : Fin 4) (7 : Fin 16) (k0_off13 L (Tr 3)) (k0_off13_inb L (Tr 3) (cond2_all _)) (k0_off15 L (Tr 3)) (k0_off15_inb L (Tr 3) (cond3_all _)) (k0_off19 L (Tr 3) 1#32) (k0_off19_inb L (Tr 3) 1) (off13_c L (Tr 3)) (off15_c L (Tr 3)) (off19_c1 L (Tr 3)) _)); iexact HO_7_3
    isplitl [HX_8_0 HX_8_1 HX_8_2 HX_8_3 HP_8 HO_8_0 HO_8_1 HO_8_2 HO_8_3]
    ·
      isplitl [HX_8_0 HX_8_1 HX_8_2 HX_8_3]
      · isplitl [HX_8_0]; · iapply (Entails.of_eq (own_x_of_off (F := F) d L (0 : Fin 4) (8 : Fin 16) (k0_off72 L (Tr 3)) (k0_off72_inb L (Tr 3) (cond5_of _ (by decide))) (off72_c L (Tr 3) (by decide)) (m (xLoc d)))); iexact HX_8_0
        isplitl [HX_8_1]; · iapply (Entails.of_eq (own_x_of_off (F := F) d L (1 : Fin 4) (8 : Fin 16) (k0_off73 L (Tr 3)) (k0_off73_inb L (Tr 3) (cond5_of _ (by decide))) (off73_c L (Tr 3) (by decide)) (m (xLoc d)))); iexact HX_8_1
        isplitl [HX_8_2]; · iapply (Entails.of_eq (own_x_of_off (F := F) d L (2 : Fin 4) (8 : Fin 16) (k0_off74 L (Tr 3)) (k0_off74_inb L (Tr 3) (cond5_of _ (by decide))) (off74_c L (Tr 3) (by decide)) (m (xLoc d)))); iexact HX_8_2
        iapply (Entails.of_eq (own_x_of_off (F := F) d L (3 : Fin 4) (8 : Fin 16) (k0_off75 L (Tr 3)) (k0_off75_inb L (Tr 3) (cond5_of _ (by decide))) (off75_c L (Tr 3) (by decide)) (m (xLoc d)))); iexact HX_8_3
      isplitl [HP_8]
      · iapply (Entails.of_eq (own_p_of_off (F := F) d L (8 : Fin 16) (k0_off76 L (Tr 3)) (k0_off76_inb L (Tr 3) (cond6_of _ (by decide))) (off76_c L (Tr 3) (by decide)) (m (pLoc d)))); iexact HP_8
      isplitl [HO_8_0]; · iapply (Entails.of_eq (own_block_fin_b2 (F := F) m d L (0 : Fin 4) (8 : Fin 16) (k0_off72 L (Tr 3)) (k0_off72_inb L (Tr 3) (cond5_of _ (by decide))) (k0_off76 L (Tr 3)) (k0_off76_inb L (Tr 3) (cond6_of _ (by decide))) (k0_off16 L (Tr 4) 0#32) (k0_off16_inb L (Tr 4) 0) (off72_c L (Tr 3) (by decide)) (off76_c L (Tr 3) (by decide)) (off16_c0 L (Tr 4)) _)); iexact HO_8_0
      isplitl [HO_8_1]; · iapply (Entails.of_eq (own_block_fin_b3 (F := F) m d L (1 : Fin 4) (8 : Fin 16) (k0_off73 L (Tr 3)) (k0_off73_inb L (Tr 3) (cond5_of _ (by decide))) (k0_off76 L (Tr 3)) (k0_off76_inb L (Tr 3) (cond6_of _ (by decide))) (k0_off17 L (Tr 4) 0#32) (k0_off17_inb L (Tr 4) 0) (off73_c L (Tr 3) (by decide)) (off76_c L (Tr 3) (by decide)) (off17_c0 L (Tr 4)) _)); iexact HO_8_1
      isplitl [HO_8_2]; · iapply (Entails.of_eq (own_block_fin_b4 (F := F) m d L (2 : Fin 4) (8 : Fin 16) (k0_off74 L (Tr 3)) (k0_off74_inb L (Tr 3) (cond5_of _ (by decide))) (k0_off76 L (Tr 3)) (k0_off76_inb L (Tr 3) (cond6_of _ (by decide))) (k0_off18 L (Tr 4) 0#32) (k0_off18_inb L (Tr 4) 0) (off74_c L (Tr 3) (by decide)) (off76_c L (Tr 3) (by decide)) (off18_c0 L (Tr 4)) _)); iexact HO_8_2
      iapply (Entails.of_eq (own_block_fin_b5 (F := F) m d L (3 : Fin 4) (8 : Fin 16) (k0_off75 L (Tr 3)) (k0_off75_inb L (Tr 3) (cond5_of _ (by decide))) (k0_off76 L (Tr 3)) (k0_off76_inb L (Tr 3) (cond6_of _ (by decide))) (k0_off19 L (Tr 4) 0#32) (k0_off19_inb L (Tr 4) 0) (off75_c L (Tr 3) (by decide)) (off76_c L (Tr 3) (by decide)) (off19_c0 L (Tr 4)) _)); iexact HO_8_3
    isplitl [HX_9_0 HX_9_1 HX_9_2 HX_9_3 HP_9 HO_9_0 HO_9_1 HO_9_2 HO_9_3]
    ·
      isplitl [HX_9_0 HX_9_1 HX_9_2 HX_9_3]
      · isplitl [HX_9_0]; · iapply (Entails.of_eq (own_x_of_off (F := F) d L (0 : Fin 4) (9 : Fin 16) (k0_off10 L (Tr 4)) (k0_off10_inb L (Tr 4) (cond2_all _)) (off10_c L (Tr 4)) (m (xLoc d)))); iexact HX_9_0
        isplitl [HX_9_1]; · iapply (Entails.of_eq (own_x_of_off (F := F) d L (1 : Fin 4) (9 : Fin 16) (k0_off11 L (Tr 4)) (k0_off11_inb L (Tr 4) (cond2_all _)) (off11_c L (Tr 4)) (m (xLoc d)))); iexact HX_9_1
        isplitl [HX_9_2]; · iapply (Entails.of_eq (own_x_of_off (F := F) d L (2 : Fin 4) (9 : Fin 16) (k0_off12 L (Tr 4)) (k0_off12_inb L (Tr 4) (cond2_all _)) (off12_c L (Tr 4)) (m (xLoc d)))); iexact HX_9_2
        iapply (Entails.of_eq (own_x_of_off (F := F) d L (3 : Fin 4) (9 : Fin 16) (k0_off13 L (Tr 4)) (k0_off13_inb L (Tr 4) (cond2_all _)) (off13_c L (Tr 4)) (m (xLoc d)))); iexact HX_9_3
      isplitl [HP_9]
      · iapply (Entails.of_eq (own_p_of_off (F := F) d L (9 : Fin 16) (k0_off15 L (Tr 4)) (k0_off15_inb L (Tr 4) (cond3_all _)) (off15_c L (Tr 4)) (m (pLoc d)))); iexact HP_9
      isplitl [HO_9_0]; · iapply (Entails.of_eq (own_block_fin_b6 (F := F) m d L (0 : Fin 4) (9 : Fin 16) (k0_off10 L (Tr 4)) (k0_off10_inb L (Tr 4) (cond2_all _)) (k0_off15 L (Tr 4)) (k0_off15_inb L (Tr 4) (cond3_all _)) (k0_off16 L (Tr 4) 1#32) (k0_off16_inb L (Tr 4) 1) (off10_c L (Tr 4)) (off15_c L (Tr 4)) (off16_c1 L (Tr 4)) _)); iexact HO_9_0
      isplitl [HO_9_1]; · iapply (Entails.of_eq (own_block_fin_b7 (F := F) m d L (1 : Fin 4) (9 : Fin 16) (k0_off11 L (Tr 4)) (k0_off11_inb L (Tr 4) (cond2_all _)) (k0_off15 L (Tr 4)) (k0_off15_inb L (Tr 4) (cond3_all _)) (k0_off17 L (Tr 4) 1#32) (k0_off17_inb L (Tr 4) 1) (off11_c L (Tr 4)) (off15_c L (Tr 4)) (off17_c1 L (Tr 4)) _)); iexact HO_9_1
      isplitl [HO_9_2]; · iapply (Entails.of_eq (own_block_fin_b8 (F := F) m d L (2 : Fin 4) (9 : Fin 16) (k0_off12 L (Tr 4)) (k0_off12_inb L (Tr 4) (cond2_all _)) (k0_off15 L (Tr 4)) (k0_off15_inb L (Tr 4) (cond3_all _)) (k0_off18 L (Tr 4) 1#32) (k0_off18_inb L (Tr 4) 1) (off12_c L (Tr 4)) (off15_c L (Tr 4)) (off18_c1 L (Tr 4)) _)); iexact HO_9_2
      iapply (Entails.of_eq (own_block_fin_b9 (F := F) m d L (3 : Fin 4) (9 : Fin 16) (k0_off13 L (Tr 4)) (k0_off13_inb L (Tr 4) (cond2_all _)) (k0_off15 L (Tr 4)) (k0_off15_inb L (Tr 4) (cond3_all _)) (k0_off19 L (Tr 4) 1#32) (k0_off19_inb L (Tr 4) 1) (off13_c L (Tr 4)) (off15_c L (Tr 4)) (off19_c1 L (Tr 4)) _)); iexact HO_9_3
    isplitl [HX_10_0 HX_10_1 HX_10_2 HX_10_3 HP_10 HO_10_0 HO_10_1 HO_10_2 HO_10_3]
    ·
      isplitl [HX_10_0 HX_10_1 HX_10_2 HX_10_3]
      · isplitl [HX_10_0]; · iapply (Entails.of_eq (own_x_of_off (F := F) d L (0 : Fin 4) (10 : Fin 16) (k0_off72 L (Tr 4)) (k0_off72_inb L (Tr 4) (cond5_of _ (by decide))) (off72_c L (Tr 4) (by decide)) (m (xLoc d)))); iexact HX_10_0
        isplitl [HX_10_1]; · iapply (Entails.of_eq (own_x_of_off (F := F) d L (1 : Fin 4) (10 : Fin 16) (k0_off73 L (Tr 4)) (k0_off73_inb L (Tr 4) (cond5_of _ (by decide))) (off73_c L (Tr 4) (by decide)) (m (xLoc d)))); iexact HX_10_1
        isplitl [HX_10_2]; · iapply (Entails.of_eq (own_x_of_off (F := F) d L (2 : Fin 4) (10 : Fin 16) (k0_off74 L (Tr 4)) (k0_off74_inb L (Tr 4) (cond5_of _ (by decide))) (off74_c L (Tr 4) (by decide)) (m (xLoc d)))); iexact HX_10_2
        iapply (Entails.of_eq (own_x_of_off (F := F) d L (3 : Fin 4) (10 : Fin 16) (k0_off75 L (Tr 4)) (k0_off75_inb L (Tr 4) (cond5_of _ (by decide))) (off75_c L (Tr 4) (by decide)) (m (xLoc d)))); iexact HX_10_3
      isplitl [HP_10]
      · iapply (Entails.of_eq (own_p_of_off (F := F) d L (10 : Fin 16) (k0_off76 L (Tr 4)) (k0_off76_inb L (Tr 4) (cond6_of _ (by decide))) (off76_c L (Tr 4) (by decide)) (m (pLoc d)))); iexact HP_10
      isplitl [HO_10_0]; · iapply (Entails.of_eq (own_block_fin_b2 (F := F) m d L (0 : Fin 4) (10 : Fin 16) (k0_off72 L (Tr 4)) (k0_off72_inb L (Tr 4) (cond5_of _ (by decide))) (k0_off76 L (Tr 4)) (k0_off76_inb L (Tr 4) (cond6_of _ (by decide))) (k0_off16 L (Tr 5) 0#32) (k0_off16_inb L (Tr 5) 0) (off72_c L (Tr 4) (by decide)) (off76_c L (Tr 4) (by decide)) (off16_c0 L (Tr 5)) _)); iexact HO_10_0
      isplitl [HO_10_1]; · iapply (Entails.of_eq (own_block_fin_b3 (F := F) m d L (1 : Fin 4) (10 : Fin 16) (k0_off73 L (Tr 4)) (k0_off73_inb L (Tr 4) (cond5_of _ (by decide))) (k0_off76 L (Tr 4)) (k0_off76_inb L (Tr 4) (cond6_of _ (by decide))) (k0_off17 L (Tr 5) 0#32) (k0_off17_inb L (Tr 5) 0) (off73_c L (Tr 4) (by decide)) (off76_c L (Tr 4) (by decide)) (off17_c0 L (Tr 5)) _)); iexact HO_10_1
      isplitl [HO_10_2]; · iapply (Entails.of_eq (own_block_fin_b4 (F := F) m d L (2 : Fin 4) (10 : Fin 16) (k0_off74 L (Tr 4)) (k0_off74_inb L (Tr 4) (cond5_of _ (by decide))) (k0_off76 L (Tr 4)) (k0_off76_inb L (Tr 4) (cond6_of _ (by decide))) (k0_off18 L (Tr 5) 0#32) (k0_off18_inb L (Tr 5) 0) (off74_c L (Tr 4) (by decide)) (off76_c L (Tr 4) (by decide)) (off18_c0 L (Tr 5)) _)); iexact HO_10_2
      iapply (Entails.of_eq (own_block_fin_b5 (F := F) m d L (3 : Fin 4) (10 : Fin 16) (k0_off75 L (Tr 4)) (k0_off75_inb L (Tr 4) (cond5_of _ (by decide))) (k0_off76 L (Tr 4)) (k0_off76_inb L (Tr 4) (cond6_of _ (by decide))) (k0_off19 L (Tr 5) 0#32) (k0_off19_inb L (Tr 5) 0) (off75_c L (Tr 4) (by decide)) (off76_c L (Tr 4) (by decide)) (off19_c0 L (Tr 5)) _)); iexact HO_10_3
    isplitl [HX_11_0 HX_11_1 HX_11_2 HX_11_3 HP_11 HO_11_0 HO_11_1 HO_11_2 HO_11_3]
    ·
      isplitl [HX_11_0 HX_11_1 HX_11_2 HX_11_3]
      · isplitl [HX_11_0]; · iapply (Entails.of_eq (own_x_of_off (F := F) d L (0 : Fin 4) (11 : Fin 16) (k0_off10 L (Tr 5)) (k0_off10_inb L (Tr 5) (cond2_all _)) (off10_c L (Tr 5)) (m (xLoc d)))); iexact HX_11_0
        isplitl [HX_11_1]; · iapply (Entails.of_eq (own_x_of_off (F := F) d L (1 : Fin 4) (11 : Fin 16) (k0_off11 L (Tr 5)) (k0_off11_inb L (Tr 5) (cond2_all _)) (off11_c L (Tr 5)) (m (xLoc d)))); iexact HX_11_1
        isplitl [HX_11_2]; · iapply (Entails.of_eq (own_x_of_off (F := F) d L (2 : Fin 4) (11 : Fin 16) (k0_off12 L (Tr 5)) (k0_off12_inb L (Tr 5) (cond2_all _)) (off12_c L (Tr 5)) (m (xLoc d)))); iexact HX_11_2
        iapply (Entails.of_eq (own_x_of_off (F := F) d L (3 : Fin 4) (11 : Fin 16) (k0_off13 L (Tr 5)) (k0_off13_inb L (Tr 5) (cond2_all _)) (off13_c L (Tr 5)) (m (xLoc d)))); iexact HX_11_3
      isplitl [HP_11]
      · iapply (Entails.of_eq (own_p_of_off (F := F) d L (11 : Fin 16) (k0_off15 L (Tr 5)) (k0_off15_inb L (Tr 5) (cond3_all _)) (off15_c L (Tr 5)) (m (pLoc d)))); iexact HP_11
      isplitl [HO_11_0]; · iapply (Entails.of_eq (own_block_fin_b6 (F := F) m d L (0 : Fin 4) (11 : Fin 16) (k0_off10 L (Tr 5)) (k0_off10_inb L (Tr 5) (cond2_all _)) (k0_off15 L (Tr 5)) (k0_off15_inb L (Tr 5) (cond3_all _)) (k0_off16 L (Tr 5) 1#32) (k0_off16_inb L (Tr 5) 1) (off10_c L (Tr 5)) (off15_c L (Tr 5)) (off16_c1 L (Tr 5)) _)); iexact HO_11_0
      isplitl [HO_11_1]; · iapply (Entails.of_eq (own_block_fin_b7 (F := F) m d L (1 : Fin 4) (11 : Fin 16) (k0_off11 L (Tr 5)) (k0_off11_inb L (Tr 5) (cond2_all _)) (k0_off15 L (Tr 5)) (k0_off15_inb L (Tr 5) (cond3_all _)) (k0_off17 L (Tr 5) 1#32) (k0_off17_inb L (Tr 5) 1) (off11_c L (Tr 5)) (off15_c L (Tr 5)) (off17_c1 L (Tr 5)) _)); iexact HO_11_1
      isplitl [HO_11_2]; · iapply (Entails.of_eq (own_block_fin_b8 (F := F) m d L (2 : Fin 4) (11 : Fin 16) (k0_off12 L (Tr 5)) (k0_off12_inb L (Tr 5) (cond2_all _)) (k0_off15 L (Tr 5)) (k0_off15_inb L (Tr 5) (cond3_all _)) (k0_off18 L (Tr 5) 1#32) (k0_off18_inb L (Tr 5) 1) (off12_c L (Tr 5)) (off15_c L (Tr 5)) (off18_c1 L (Tr 5)) _)); iexact HO_11_2
      iapply (Entails.of_eq (own_block_fin_b9 (F := F) m d L (3 : Fin 4) (11 : Fin 16) (k0_off13 L (Tr 5)) (k0_off13_inb L (Tr 5) (cond2_all _)) (k0_off15 L (Tr 5)) (k0_off15_inb L (Tr 5) (cond3_all _)) (k0_off19 L (Tr 5) 1#32) (k0_off19_inb L (Tr 5) 1) (off13_c L (Tr 5)) (off15_c L (Tr 5)) (off19_c1 L (Tr 5)) _)); iexact HO_11_3
    isplitl [HX_12_0 HX_12_1 HX_12_2 HX_12_3 HP_12 HO_12_0 HO_12_1 HO_12_2 HO_12_3]
    ·
      isplitl [HX_12_0 HX_12_1 HX_12_2 HX_12_3]
      · isplitl [HX_12_0]; · iapply (Entails.of_eq (own_x_of_off (F := F) d L (0 : Fin 4) (12 : Fin 16) (k0_off72 L (Tr 5)) (k0_off72_inb L (Tr 5) (cond5_of _ (by decide))) (off72_c L (Tr 5) (by decide)) (m (xLoc d)))); iexact HX_12_0
        isplitl [HX_12_1]; · iapply (Entails.of_eq (own_x_of_off (F := F) d L (1 : Fin 4) (12 : Fin 16) (k0_off73 L (Tr 5)) (k0_off73_inb L (Tr 5) (cond5_of _ (by decide))) (off73_c L (Tr 5) (by decide)) (m (xLoc d)))); iexact HX_12_1
        isplitl [HX_12_2]; · iapply (Entails.of_eq (own_x_of_off (F := F) d L (2 : Fin 4) (12 : Fin 16) (k0_off74 L (Tr 5)) (k0_off74_inb L (Tr 5) (cond5_of _ (by decide))) (off74_c L (Tr 5) (by decide)) (m (xLoc d)))); iexact HX_12_2
        iapply (Entails.of_eq (own_x_of_off (F := F) d L (3 : Fin 4) (12 : Fin 16) (k0_off75 L (Tr 5)) (k0_off75_inb L (Tr 5) (cond5_of _ (by decide))) (off75_c L (Tr 5) (by decide)) (m (xLoc d)))); iexact HX_12_3
      isplitl [HP_12]
      · iapply (Entails.of_eq (own_p_of_off (F := F) d L (12 : Fin 16) (k0_off76 L (Tr 5)) (k0_off76_inb L (Tr 5) (cond6_of _ (by decide))) (off76_c L (Tr 5) (by decide)) (m (pLoc d)))); iexact HP_12
      isplitl [HO_12_0]; · iapply (Entails.of_eq (own_block_fin_b2 (F := F) m d L (0 : Fin 4) (12 : Fin 16) (k0_off72 L (Tr 5)) (k0_off72_inb L (Tr 5) (cond5_of _ (by decide))) (k0_off76 L (Tr 5)) (k0_off76_inb L (Tr 5) (cond6_of _ (by decide))) (k0_off16 L (Tr 6) 0#32) (k0_off16_inb L (Tr 6) 0) (off72_c L (Tr 5) (by decide)) (off76_c L (Tr 5) (by decide)) (off16_c0 L (Tr 6)) _)); iexact HO_12_0
      isplitl [HO_12_1]; · iapply (Entails.of_eq (own_block_fin_b3 (F := F) m d L (1 : Fin 4) (12 : Fin 16) (k0_off73 L (Tr 5)) (k0_off73_inb L (Tr 5) (cond5_of _ (by decide))) (k0_off76 L (Tr 5)) (k0_off76_inb L (Tr 5) (cond6_of _ (by decide))) (k0_off17 L (Tr 6) 0#32) (k0_off17_inb L (Tr 6) 0) (off73_c L (Tr 5) (by decide)) (off76_c L (Tr 5) (by decide)) (off17_c0 L (Tr 6)) _)); iexact HO_12_1
      isplitl [HO_12_2]; · iapply (Entails.of_eq (own_block_fin_b4 (F := F) m d L (2 : Fin 4) (12 : Fin 16) (k0_off74 L (Tr 5)) (k0_off74_inb L (Tr 5) (cond5_of _ (by decide))) (k0_off76 L (Tr 5)) (k0_off76_inb L (Tr 5) (cond6_of _ (by decide))) (k0_off18 L (Tr 6) 0#32) (k0_off18_inb L (Tr 6) 0) (off74_c L (Tr 5) (by decide)) (off76_c L (Tr 5) (by decide)) (off18_c0 L (Tr 6)) _)); iexact HO_12_2
      iapply (Entails.of_eq (own_block_fin_b5 (F := F) m d L (3 : Fin 4) (12 : Fin 16) (k0_off75 L (Tr 5)) (k0_off75_inb L (Tr 5) (cond5_of _ (by decide))) (k0_off76 L (Tr 5)) (k0_off76_inb L (Tr 5) (cond6_of _ (by decide))) (k0_off19 L (Tr 6) 0#32) (k0_off19_inb L (Tr 6) 0) (off75_c L (Tr 5) (by decide)) (off76_c L (Tr 5) (by decide)) (off19_c0 L (Tr 6)) _)); iexact HO_12_3
    isplitl [HX_13_0 HX_13_1 HX_13_2 HX_13_3 HP_13 HO_13_0 HO_13_1 HO_13_2 HO_13_3]
    ·
      isplitl [HX_13_0 HX_13_1 HX_13_2 HX_13_3]
      · isplitl [HX_13_0]; · iapply (Entails.of_eq (own_x_of_off (F := F) d L (0 : Fin 4) (13 : Fin 16) (k0_off10 L (Tr 6)) (k0_off10_inb L (Tr 6) (cond2_all _)) (off10_c L (Tr 6)) (m (xLoc d)))); iexact HX_13_0
        isplitl [HX_13_1]; · iapply (Entails.of_eq (own_x_of_off (F := F) d L (1 : Fin 4) (13 : Fin 16) (k0_off11 L (Tr 6)) (k0_off11_inb L (Tr 6) (cond2_all _)) (off11_c L (Tr 6)) (m (xLoc d)))); iexact HX_13_1
        isplitl [HX_13_2]; · iapply (Entails.of_eq (own_x_of_off (F := F) d L (2 : Fin 4) (13 : Fin 16) (k0_off12 L (Tr 6)) (k0_off12_inb L (Tr 6) (cond2_all _)) (off12_c L (Tr 6)) (m (xLoc d)))); iexact HX_13_2
        iapply (Entails.of_eq (own_x_of_off (F := F) d L (3 : Fin 4) (13 : Fin 16) (k0_off13 L (Tr 6)) (k0_off13_inb L (Tr 6) (cond2_all _)) (off13_c L (Tr 6)) (m (xLoc d)))); iexact HX_13_3
      isplitl [HP_13]
      · iapply (Entails.of_eq (own_p_of_off (F := F) d L (13 : Fin 16) (k0_off15 L (Tr 6)) (k0_off15_inb L (Tr 6) (cond3_all _)) (off15_c L (Tr 6)) (m (pLoc d)))); iexact HP_13
      isplitl [HO_13_0]; · iapply (Entails.of_eq (own_block_fin_b6 (F := F) m d L (0 : Fin 4) (13 : Fin 16) (k0_off10 L (Tr 6)) (k0_off10_inb L (Tr 6) (cond2_all _)) (k0_off15 L (Tr 6)) (k0_off15_inb L (Tr 6) (cond3_all _)) (k0_off16 L (Tr 6) 1#32) (k0_off16_inb L (Tr 6) 1) (off10_c L (Tr 6)) (off15_c L (Tr 6)) (off16_c1 L (Tr 6)) _)); iexact HO_13_0
      isplitl [HO_13_1]; · iapply (Entails.of_eq (own_block_fin_b7 (F := F) m d L (1 : Fin 4) (13 : Fin 16) (k0_off11 L (Tr 6)) (k0_off11_inb L (Tr 6) (cond2_all _)) (k0_off15 L (Tr 6)) (k0_off15_inb L (Tr 6) (cond3_all _)) (k0_off17 L (Tr 6) 1#32) (k0_off17_inb L (Tr 6) 1) (off11_c L (Tr 6)) (off15_c L (Tr 6)) (off17_c1 L (Tr 6)) _)); iexact HO_13_1
      isplitl [HO_13_2]; · iapply (Entails.of_eq (own_block_fin_b8 (F := F) m d L (2 : Fin 4) (13 : Fin 16) (k0_off12 L (Tr 6)) (k0_off12_inb L (Tr 6) (cond2_all _)) (k0_off15 L (Tr 6)) (k0_off15_inb L (Tr 6) (cond3_all _)) (k0_off18 L (Tr 6) 1#32) (k0_off18_inb L (Tr 6) 1) (off12_c L (Tr 6)) (off15_c L (Tr 6)) (off18_c1 L (Tr 6)) _)); iexact HO_13_2
      iapply (Entails.of_eq (own_block_fin_b9 (F := F) m d L (3 : Fin 4) (13 : Fin 16) (k0_off13 L (Tr 6)) (k0_off13_inb L (Tr 6) (cond2_all _)) (k0_off15 L (Tr 6)) (k0_off15_inb L (Tr 6) (cond3_all _)) (k0_off19 L (Tr 6) 1#32) (k0_off19_inb L (Tr 6) 1) (off13_c L (Tr 6)) (off15_c L (Tr 6)) (off19_c1 L (Tr 6)) _)); iexact HO_13_3
    isplitl [HX_14_0 HX_14_1 HX_14_2 HX_14_3 HP_14 HO_14_0 HO_14_1 HO_14_2 HO_14_3]
    ·
      isplitl [HX_14_0 HX_14_1 HX_14_2 HX_14_3]
      · isplitl [HX_14_0]; · iapply (Entails.of_eq (own_x_of_off (F := F) d L (0 : Fin 4) (14 : Fin 16) (k0_off72 L (Tr 6)) (k0_off72_inb L (Tr 6) (cond5_of _ (by decide))) (off72_c L (Tr 6) (by decide)) (m (xLoc d)))); iexact HX_14_0
        isplitl [HX_14_1]; · iapply (Entails.of_eq (own_x_of_off (F := F) d L (1 : Fin 4) (14 : Fin 16) (k0_off73 L (Tr 6)) (k0_off73_inb L (Tr 6) (cond5_of _ (by decide))) (off73_c L (Tr 6) (by decide)) (m (xLoc d)))); iexact HX_14_1
        isplitl [HX_14_2]; · iapply (Entails.of_eq (own_x_of_off (F := F) d L (2 : Fin 4) (14 : Fin 16) (k0_off74 L (Tr 6)) (k0_off74_inb L (Tr 6) (cond5_of _ (by decide))) (off74_c L (Tr 6) (by decide)) (m (xLoc d)))); iexact HX_14_2
        iapply (Entails.of_eq (own_x_of_off (F := F) d L (3 : Fin 4) (14 : Fin 16) (k0_off75 L (Tr 6)) (k0_off75_inb L (Tr 6) (cond5_of _ (by decide))) (off75_c L (Tr 6) (by decide)) (m (xLoc d)))); iexact HX_14_3
      isplitl [HP_14]
      · iapply (Entails.of_eq (own_p_of_off (F := F) d L (14 : Fin 16) (k0_off76 L (Tr 6)) (k0_off76_inb L (Tr 6) (cond6_of _ (by decide))) (off76_c L (Tr 6) (by decide)) (m (pLoc d)))); iexact HP_14
      isplitl [HO_14_0]; · iapply (Entails.of_eq (own_block_fin_b2 (F := F) m d L (0 : Fin 4) (14 : Fin 16) (k0_off72 L (Tr 6)) (k0_off72_inb L (Tr 6) (cond5_of _ (by decide))) (k0_off76 L (Tr 6)) (k0_off76_inb L (Tr 6) (cond6_of _ (by decide))) (k0_off16 L (Tr 7) 0#32) (k0_off16_inb L (Tr 7) 0) (off72_c L (Tr 6) (by decide)) (off76_c L (Tr 6) (by decide)) (off16_c0 L (Tr 7)) _)); iexact HO_14_0
      isplitl [HO_14_1]; · iapply (Entails.of_eq (own_block_fin_b3 (F := F) m d L (1 : Fin 4) (14 : Fin 16) (k0_off73 L (Tr 6)) (k0_off73_inb L (Tr 6) (cond5_of _ (by decide))) (k0_off76 L (Tr 6)) (k0_off76_inb L (Tr 6) (cond6_of _ (by decide))) (k0_off17 L (Tr 7) 0#32) (k0_off17_inb L (Tr 7) 0) (off73_c L (Tr 6) (by decide)) (off76_c L (Tr 6) (by decide)) (off17_c0 L (Tr 7)) _)); iexact HO_14_1
      isplitl [HO_14_2]; · iapply (Entails.of_eq (own_block_fin_b4 (F := F) m d L (2 : Fin 4) (14 : Fin 16) (k0_off74 L (Tr 6)) (k0_off74_inb L (Tr 6) (cond5_of _ (by decide))) (k0_off76 L (Tr 6)) (k0_off76_inb L (Tr 6) (cond6_of _ (by decide))) (k0_off18 L (Tr 7) 0#32) (k0_off18_inb L (Tr 7) 0) (off74_c L (Tr 6) (by decide)) (off76_c L (Tr 6) (by decide)) (off18_c0 L (Tr 7)) _)); iexact HO_14_2
      iapply (Entails.of_eq (own_block_fin_b5 (F := F) m d L (3 : Fin 4) (14 : Fin 16) (k0_off75 L (Tr 6)) (k0_off75_inb L (Tr 6) (cond5_of _ (by decide))) (k0_off76 L (Tr 6)) (k0_off76_inb L (Tr 6) (cond6_of _ (by decide))) (k0_off19 L (Tr 7) 0#32) (k0_off19_inb L (Tr 7) 0) (off75_c L (Tr 6) (by decide)) (off76_c L (Tr 6) (by decide)) (off19_c0 L (Tr 7)) _)); iexact HO_14_3
    isplitl [HX_15_0 HX_15_1 HX_15_2 HX_15_3]
    · isplitl [HX_15_0]; · iapply (Entails.of_eq (own_x_of_off (F := F) d L (0 : Fin 4) (15 : Fin 16) (k0_off10 L (Tr 7)) (k0_off10_inb L (Tr 7) (cond2_all _)) (off10_c L (Tr 7)) (m (xLoc d)))); iexact HX_15_0
      isplitl [HX_15_1]; · iapply (Entails.of_eq (own_x_of_off (F := F) d L (1 : Fin 4) (15 : Fin 16) (k0_off11 L (Tr 7)) (k0_off11_inb L (Tr 7) (cond2_all _)) (off11_c L (Tr 7)) (m (xLoc d)))); iexact HX_15_1
      isplitl [HX_15_2]; · iapply (Entails.of_eq (own_x_of_off (F := F) d L (2 : Fin 4) (15 : Fin 16) (k0_off12 L (Tr 7)) (k0_off12_inb L (Tr 7) (cond2_all _)) (off12_c L (Tr 7)) (m (xLoc d)))); iexact HX_15_2
      iapply (Entails.of_eq (own_x_of_off (F := F) d L (3 : Fin 4) (15 : Fin 16) (k0_off13 L (Tr 7)) (k0_off13_inb L (Tr 7) (cond2_all _)) (off13_c L (Tr 7)) (m (xLoc d)))); iexact HX_15_3
    isplitl [HP_15]
    · iapply (Entails.of_eq (own_p_of_off (F := F) d L (15 : Fin 16) (k0_off15 L (Tr 7)) (k0_off15_inb L (Tr 7) (cond3_all _)) (off15_c L (Tr 7)) (m (pLoc d)))); iexact HP_15
    isplitl [HO_15_0]; · iapply (Entails.of_eq (own_block_fin_b6 (F := F) m d L (0 : Fin 4) (15 : Fin 16) (k0_off10 L (Tr 7)) (k0_off10_inb L (Tr 7) (cond2_all _)) (k0_off15 L (Tr 7)) (k0_off15_inb L (Tr 7) (cond3_all _)) (k0_off16 L (Tr 7) 1#32) (k0_off16_inb L (Tr 7) 1) (off10_c L (Tr 7)) (off15_c L (Tr 7)) (off16_c1 L (Tr 7)) _)); iexact HO_15_0
    isplitl [HO_15_1]; · iapply (Entails.of_eq (own_block_fin_b7 (F := F) m d L (1 : Fin 4) (15 : Fin 16) (k0_off11 L (Tr 7)) (k0_off11_inb L (Tr 7) (cond2_all _)) (k0_off15 L (Tr 7)) (k0_off15_inb L (Tr 7) (cond3_all _)) (k0_off17 L (Tr 7) 1#32) (k0_off17_inb L (Tr 7) 1) (off11_c L (Tr 7)) (off15_c L (Tr 7)) (off17_c1 L (Tr 7)) _)); iexact HO_15_1
    isplitl [HO_15_2]; · iapply (Entails.of_eq (own_block_fin_b8 (F := F) m d L (2 : Fin 4) (15 : Fin 16) (k0_off12 L (Tr 7)) (k0_off12_inb L (Tr 7) (cond2_all _)) (k0_off15 L (Tr 7)) (k0_off15_inb L (Tr 7) (cond3_all _)) (k0_off18 L (Tr 7) 1#32) (k0_off18_inb L (Tr 7) 1) (off12_c L (Tr 7)) (off15_c L (Tr 7)) (off18_c1 L (Tr 7)) _)); iexact HO_15_2
    iapply (Entails.of_eq (own_block_fin_b9 (F := F) m d L (3 : Fin 4) (15 : Fin 16) (k0_off13 L (Tr 7)) (k0_off13_inb L (Tr 7) (cond2_all _)) (k0_off15 L (Tr 7)) (k0_off15_inb L (Tr 7) (cond3_all _)) (k0_off19 L (Tr 7) 1#32) (k0_off19_inb L (Tr 7) 1) (off13_c L (Tr 7)) (off15_c L (Tr 7)) (off19_c1 L (Tr 7)) _)); iexact HO_15_3
  -- its buffers and semaphores
  isplitl [Hb0 Hb1 Hb2 Hb3 Hb4 Hb5 Hb6 Hb7 Hb8 Hb9 Hbufs]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs10 Hs11 Hs12 Hs13 Hs14 Hs15 Hsems]
  · isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    iexact Hsems
  -- what it owes, and the waits it recorded
  iexists _
  isplitr
  rotate_left
  · iexact HO
  · ipureintro
    repeat' apply ins_ok
    exact fun p hp => Or.inl hp

end Cert.KernelIdeal.Hand

end
-- ==== Proof.OwnK.lean ====
/-
  A tile's own buffers and semaphores, by name. Of everything a vector subcore owns, the ten row buffers and the six
  DMA semaphores the kernel's function is handed are split off one by one: each buffer whole at some contents, each
  semaphore at zero, beside the rest of what the subcore owns.
-/
import proofs.«210086_g67980742361152_cont_9to1c4b_184_18_alg».proof.Proof.SetupK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-! ## Telling the cells and the buffers apart -/

/-- Two cells of one thread at different semaphores are different cells. -/
private theorem cell_ne (thr : Thread nD τ) {a b : SemLoc sig} (h : a ≠ b) : ((thr, a) : GSem nD τ sig) ≠ (thr, b) :=
  fun e => h (Prod.ext_iff.mp e).2

/-- A scoped semaphore of the tile's kind is one of the tile's own cells. -/
private theorem cell_own (s : SemLoc sig) (h : s.isScoped .scVector = true) : ((thrV d L, s) : GSem nD τ sig) ∈ ownCells (thrV d L) :=
  mem_ownCells.mpr ⟨rfl, h⟩

/-- Different names of one vector subcore are different buffers of the device. -/
private theorem ref_ne (c : Fin τ.nSC) (j : Fin τ.nSub) {a b : Ref sig .scVector} (h : a ≠ b) :
    ((Proc.scVector c j).devRef a : DevRef τ sig) ≠ (Proc.scVector c j).devRef b :=
  fun e => h (Proc.devRef_injective _ e)

/-- The tile's own cells other than the six semaphores, and its own buffers other than the ten row buffers. -/
abbrev restCells : Finset (GSem nD τ sig) :=
  ((((((ownCells (thrV d L)).erase ((thrV d L, SemLoc.dma cc0_scratch10.sem) : GSem nD τ sig)).erase ((thrV d L, SemLoc.dma cc0_scratch11.sem) : GSem nD τ sig)).erase ((thrV d L, SemLoc.dma cc0_scratch12.sem) : GSem nD τ sig)).erase ((thrV d L, SemLoc.dma cc0_scratch13.sem) : GSem nD τ sig)).erase ((thrV d L, SemLoc.dma cc0_scratch14.sem) : GSem nD τ sig)).erase ((thrV d L, SemLoc.dma cc0_scratch15.sem) : GSem nD τ sig)
abbrev restRefs : Finset (DevRef τ sig) :=
  ((((((((((ownRefs (τ := τ) (sig := sig) (.scVector (cV L) (jV L))).erase ((Proc.scVector (cV L) (jV L)).devRef cc0_scratch0 : DevRef τ sig)).erase ((Proc.scVector (cV L) (jV L)).devRef cc0_scratch1 : DevRef τ sig)).erase ((Proc.scVector (cV L) (jV L)).devRef cc0_scratch2 : DevRef τ sig)).erase ((Proc.scVector (cV L) (jV L)).devRef cc0_scratch3 : DevRef τ sig)).erase ((Proc.scVector (cV L) (jV L)).devRef cc0_scratch4 : DevRef τ sig)).erase ((Proc.scVector (cV L) (jV L)).devRef cc0_scratch5 : DevRef τ sig)).erase ((Proc.scVector (cV L) (jV L)).devRef cc0_scratch6 : DevRef τ sig)).erase ((Proc.scVector (cV L) (jV L)).devRef cc0_scratch7 : DevRef τ sig)).erase ((Proc.scVector (cV L) (jV L)).devRef cc0_scratch8 : DevRef τ sig)).erase ((Proc.scVector (cV L) (jV L)).devRef cc0_scratch9 : DevRef τ sig)

/-! ## The semaphores -/

/-- The six DMA semaphores are among the tile's own cells: each of them at zero, and the rest at zero. -/
theorem ownSems0_V :
    (ownSems0 (thrV d L) : sProp 𝕄)
      = iprop(semVal (thrV d L, SemLoc.dma cc0_scratch10.sem) 0
        ∗ semVal (thrV d L, SemLoc.dma cc0_scratch11.sem) 0
        ∗ semVal (thrV d L, SemLoc.dma cc0_scratch12.sem) 0
        ∗ semVal (thrV d L, SemLoc.dma cc0_scratch13.sem) 0
        ∗ semVal (thrV d L, SemLoc.dma cc0_scratch14.sem) 0
        ∗ semVal (thrV d L, SemLoc.dma cc0_scratch15.sem) 0
        ∗ bigSep (restCells d L) fun g => semVal g 0) := by
  unfold SparseCore.Cfg.ownSems0
  rw [SparseCore.bigSep_erase' (cell_own d L _ (show (SemLoc.dma cc0_scratch10.sem : SemLoc sig).isScoped .scVector = true by decide)),
    SparseCore.bigSep_erase' (Finset.mem_erase.mpr ⟨cell_ne _ (show (SemLoc.dma cc0_scratch11.sem : SemLoc sig) ≠ SemLoc.dma cc0_scratch10.sem by decide), cell_own d L _ (show (SemLoc.dma cc0_scratch11.sem : SemLoc sig).isScoped .scVector = true by decide)⟩),
    SparseCore.bigSep_erase' (Finset.mem_erase.mpr ⟨cell_ne _ (show (SemLoc.dma cc0_scratch12.sem : SemLoc sig) ≠ SemLoc.dma cc0_scratch11.sem by decide), Finset.mem_erase.mpr ⟨cell_ne _ (show (SemLoc.dma cc0_scratch12.sem : SemLoc sig) ≠ SemLoc.dma cc0_scratch10.sem by decide), cell_own d L _ (show (SemLoc.dma cc0_scratch12.sem : SemLoc sig).isScoped .scVector = true by decide)⟩⟩),
    SparseCore.bigSep_erase' (Finset.mem_erase.mpr ⟨cell_ne _ (show (SemLoc.dma cc0_scratch13.sem : SemLoc sig) ≠ SemLoc.dma cc0_scratch12.sem by decide), Finset.mem_erase.mpr ⟨cell_ne _ (show (SemLoc.dma cc0_scratch13.sem : SemLoc sig) ≠ SemLoc.dma cc0_scratch11.sem by decide), Finset.mem_erase.mpr ⟨cell_ne _ (show (SemLoc.dma cc0_scratch13.sem : SemLoc sig) ≠ SemLoc.dma cc0_scratch10.sem by decide), cell_own d L _ (show (SemLoc.dma cc0_scratch13.sem : SemLoc sig).isScoped .scVector = true by decide)⟩⟩⟩),
    SparseCore.bigSep_erase' (Finset.mem_erase.mpr ⟨cell_ne _ (show (SemLoc.dma cc0_scratch14.sem : SemLoc sig) ≠ SemLoc.dma cc0_scratch13.sem by decide), Finset.mem_erase.mpr ⟨cell_ne _ (show (SemLoc.dma cc0_scratch14.sem : SemLoc sig) ≠ SemLoc.dma cc0_scratch12.sem by decide), Finset.mem_erase.mpr ⟨cell_ne _ (show (SemLoc.dma cc0_scratch14.sem : SemLoc sig) ≠ SemLoc.dma cc0_scratch11.sem by decide), Finset.mem_erase.mpr ⟨cell_ne _ (show (SemLoc.dma cc0_scratch14.sem : SemLoc sig) ≠ SemLoc.dma cc0_scratch10.sem by decide), cell_own d L _ (show (SemLoc.dma cc0_scratch14.sem : SemLoc sig).isScoped .scVector = true by decide)⟩⟩⟩⟩),
    SparseCore.bigSep_erase' (Finset.mem_erase.mpr ⟨cell_ne _ (show (SemLoc.dma cc0_scratch15.sem : SemLoc sig) ≠ SemLoc.dma cc0_scratch14.sem by decide), Finset.mem_erase.mpr ⟨cell_ne _ (show (SemLoc.dma cc0_scratch15.sem : SemLoc sig) ≠ SemLoc.dma cc0_scratch13.sem by decide), Finset.mem_erase.mpr ⟨cell_ne _ (show (SemLoc.dma cc0_scratch15.sem : SemLoc sig) ≠ SemLoc.dma cc0_scratch12.sem by decide), Finset.mem_erase.mpr ⟨cell_ne _ (show (SemLoc.dma cc0_scratch15.sem : SemLoc sig) ≠ SemLoc.dma cc0_scratch11.sem by decide), Finset.mem_erase.mpr ⟨cell_ne _ (show (SemLoc.dma cc0_scratch15.sem : SemLoc sig) ≠ SemLoc.dma cc0_scratch10.sem by decide), cell_own d L _ (show (SemLoc.dma cc0_scratch15.sem : SemLoc sig).isScoped .scVector = true by decide)⟩⟩⟩⟩⟩)]

/-! ## The buffers -/

/-- The ten row buffers are among the subcore's own: each of them whole at some contents, and the rest. -/
theorem ownBufs_V :
    (ownBufs (thrV d L) : sProp 𝕄)
      = iprop((∃ f, (thrV d L).loc cc0_scratch0 ↦{fullShare} f)
        ∗ (∃ f, (thrV d L).loc cc0_scratch1 ↦{fullShare} f)
        ∗ (∃ f, (thrV d L).loc cc0_scratch2 ↦{fullShare} f)
        ∗ (∃ f, (thrV d L).loc cc0_scratch3 ↦{fullShare} f)
        ∗ (∃ f, (thrV d L).loc cc0_scratch4 ↦{fullShare} f)
        ∗ (∃ f, (thrV d L).loc cc0_scratch5 ↦{fullShare} f)
        ∗ (∃ f, (thrV d L).loc cc0_scratch6 ↦{fullShare} f)
        ∗ (∃ f, (thrV d L).loc cc0_scratch7 ↦{fullShare} f)
        ∗ (∃ f, (thrV d L).loc cc0_scratch8 ↦{fullShare} f)
        ∗ (∃ f, (thrV d L).loc cc0_scratch9 ↦{fullShare} f)
        ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨ref_ne _ _ (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨ref_ne _ _ (show (cc0_scratch2 : Ref sig .scVector) ≠ cc0_scratch1 by decide), Finset.mem_erase.mpr ⟨ref_ne _ _ (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨ref_ne _ _ (show (cc0_scratch3 : Ref sig .scVector) ≠ cc0_scratch2 by decide), Finset.mem_erase.mpr ⟨ref_ne _ _ (show (cc0_scratch3 : Ref sig .scVector) ≠ cc0_scratch1 by decide), Finset.mem_erase.mpr ⟨ref_ne _ _ (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨ref_ne _ _ (show (cc0_scratch4 : Ref sig .scVector) ≠ cc0_scratch3 by decide), Finset.mem_erase.mpr ⟨ref_ne _ _ (show (cc0_scratch4 : Ref sig .scVector) ≠ cc0_scratch2 by decide), Finset.mem_erase.mpr ⟨ref_ne _ _ (show (cc0_scratch4 : Ref sig .scVector) ≠ cc0_scratch1 by decide), Finset.mem_erase.mpr ⟨ref_ne _ _ (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨ref_ne _ _ (show (cc0_scratch5 : Ref sig .scVector) ≠ cc0_scratch4 by decide), Finset.mem_erase.mpr ⟨ref_ne _ _ (show (cc0_scratch5 : Ref sig .scVector) ≠ cc0_scratch3 by decide), Finset.mem_erase.mpr ⟨ref_ne _ _ (show (cc0_scratch5 : Ref sig .scVector) ≠ cc0_scratch2 by decide), Finset.mem_erase.mpr ⟨ref_ne _ _ (show (cc0_scratch5 : Ref sig .scVector) ≠ cc0_scratch1 by decide), Finset.mem_erase.mpr ⟨ref_ne _ _ (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨ref_ne _ _ (show (cc0_scratch6 : Ref sig .scVector) ≠ cc0_scratch5 by decide), Finset.mem_erase.mpr ⟨ref_ne _ _ (show (cc0_scratch6 : Ref sig .scVector) ≠ cc0_scratch4 by decide), Finset.mem_erase.mpr ⟨ref_ne _ _ (show (cc0_scratch6 : Ref sig .scVector) ≠ cc0_scratch3 by decide), Finset.mem_erase.mpr ⟨ref_ne _ _ (show (cc0_scratch6 : Ref sig .scVector) ≠ cc0_scratch2 by decide), Finset.mem_erase.mpr ⟨ref_ne _ _ (show (cc0_scratch6 : Ref sig .scVector) ≠ cc0_scratch1 by decide), Finset.mem_erase.mpr ⟨ref_ne _ _ (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨ref_ne _ _ (show (cc0_scratch7 : Ref sig .scVector) ≠ cc0_scratch6 by decide), Finset.mem_erase.mpr ⟨ref_ne _ _ (show (cc0_scratch7 : Ref sig .scVector) ≠ cc0_scratch5 by decide), Finset.mem_erase.mpr ⟨ref_ne _ _ (show (cc0_scratch7 : Ref sig .scVector) ≠ cc0_scratch4 by decide), Finset.mem_erase.mpr ⟨ref_ne _ _ (show (cc0_scratch7 : Ref sig .scVector) ≠ cc0_scratch3 by decide), Finset.mem_erase.mpr ⟨ref_ne _ _ (show (cc0_scratch7 : Ref sig .scVector) ≠ cc0_scratch2 by decide), Finset.mem_erase.mpr ⟨ref_ne _ _ (show (cc0_scratch7 : Ref sig .scVector) ≠ cc0_scratch1 by decide), Finset.mem_erase.mpr ⟨ref_ne _ _ (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨ref_ne _ _ (show (cc0_scratch8 : Ref sig .scVector) ≠ cc0_scratch7 by decide), Finset.mem_erase.mpr ⟨ref_ne _ _ (show (cc0_scratch8 : Ref sig .scVector) ≠ cc0_scratch6 by decide), Finset.mem_erase.mpr ⟨ref_ne _ _ (show (cc0_scratch8 : Ref sig .scVector) ≠ cc0_scratch5 by decide), Finset.mem_erase.mpr ⟨ref_ne _ _ (show (cc0_scratch8 : Ref sig .scVector) ≠ cc0_scratch4 by decide), Finset.mem_erase.mpr ⟨ref_ne _ _ (show (cc0_scratch8 : Ref sig .scVector) ≠ cc0_scratch3 by decide), Finset.mem_erase.mpr ⟨ref_ne _ _ (show (cc0_scratch8 : Ref sig .scVector) ≠ cc0_scratch2 by decide), Finset.mem_erase.mpr ⟨ref_ne _ _ (show (cc0_scratch8 : Ref sig .scVector) ≠ cc0_scratch1 by decide), Finset.mem_erase.mpr ⟨ref_ne _ _ (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩),
    SparseCore.bigSep_erase' (Finset.mem_erase.mpr ⟨ref_ne _ _ (show (cc0_scratch9 : Ref sig .scVector) ≠ cc0_scratch8 by decide), Finset.mem_erase.mpr ⟨ref_ne _ _ (show (cc0_scratch9 : Ref sig .scVector) ≠ cc0_scratch7 by decide), Finset.mem_erase.mpr ⟨ref_ne _ _ (show (cc0_scratch9 : Ref sig .scVector) ≠ cc0_scratch6 by decide), Finset.mem_erase.mpr ⟨ref_ne _ _ (show (cc0_scratch9 : Ref sig .scVector) ≠ cc0_scratch5 by decide), Finset.mem_erase.mpr ⟨ref_ne _ _ (show (cc0_scratch9 : Ref sig .scVector) ≠ cc0_scratch4 by decide), Finset.mem_erase.mpr ⟨ref_ne _ _ (show (cc0_scratch9 : Ref sig .scVector) ≠ cc0_scratch3 by decide), Finset.mem_erase.mpr ⟨ref_ne _ _ (show (cc0_scratch9 : Ref sig .scVector) ≠ cc0_scratch2 by decide), Finset.mem_erase.mpr ⟨ref_ne _ _ (show (cc0_scratch9 : Ref sig .scVector) ≠ cc0_scratch1 by decide), Finset.mem_erase.mpr ⟨ref_ne _ _ (show (cc0_scratch9 : Ref sig .scVector) ≠ cc0_scratch0 by decide), SparseCore.Cfg.mem_ownRefs_of_owner (p := Proc.scVector (cV L) (jV L)) (b := (Proc.scVector (cV L) (jV L)).devRef cc0_scratch9) rfl⟩⟩⟩⟩⟩⟩⟩⟩⟩)]

/-! ## What the launch hands the tile, opened -/

/-- The tile's scoped buffers are its ten row buffers and the rest of its own. -/
theorem scopedBufs_open (hF : (K (F := F)).Facts) :
    (scopedBufs (thrV d L) : sProp 𝕄)
      = iprop((∃ f, (thrV d L).loc cc0_scratch0 ↦{fullShare} f)
        ∗ (∃ f, (thrV d L).loc cc0_scratch1 ↦{fullShare} f)
        ∗ (∃ f, (thrV d L).loc cc0_scratch2 ↦{fullShare} f)
        ∗ (∃ f, (thrV d L).loc cc0_scratch3 ↦{fullShare} f)
        ∗ (∃ f, (thrV d L).loc cc0_scratch4 ↦{fullShare} f)
        ∗ (∃ f, (thrV d L).loc cc0_scratch5 ↦{fullShare} f)
        ∗ (∃ f, (thrV d L).loc cc0_scratch6 ↦{fullShare} f)
        ∗ (∃ f, (thrV d L).loc cc0_scratch7 ↦{fullShare} f)
        ∗ (∃ f, (thrV d L).loc cc0_scratch8 ↦{fullShare} f)
        ∗ (∃ f, (thrV d L).loc cc0_scratch9 ↦{fullShare} f)
        ∗ bigSep (restRefs L) fun b => iprop(∃ f, ((d, b) : Loc nD τ sig) ↦{fullShare} f)) := by
  rw [(K (F := F)).scopedBufs_V hF d (cV L) (jV L), ownBufs_V]

/-- The tile's scoped semaphores at zero are its six DMA semaphores and the rest of its own cells. -/
theorem scopedSems0_open :
    (scopedSems0 (thrV d L) : sProp 𝕄)
      = iprop(semVal (thrV d L, SemLoc.dma cc0_scratch10.sem) 0
        ∗ semVal (thrV d L, SemLoc.dma cc0_scratch11.sem) 0
        ∗ semVal (thrV d L, SemLoc.dma cc0_scratch12.sem) 0
        ∗ semVal (thrV d L, SemLoc.dma cc0_scratch13.sem) 0
        ∗ semVal (thrV d L, SemLoc.dma cc0_scratch14.sem) 0
        ∗ semVal (thrV d L, SemLoc.dma cc0_scratch15.sem) 0
        ∗ bigSep (restCells d L) fun g => semVal g 0) := by
  rw [SparseCore.Cfg.scopedSems0_V (Val := Elt F) d (cV L) (jV L), ownSems0_V]

/-- Both at once. -/
theorem scoped_open (hF : (K (F := F)).Facts) :
    (iprop(scopedBufs (thrV d L) ∗ scopedSems0 (thrV d L)) : sProp 𝕄)
      = iprop(((∃ f, (thrV d L).loc cc0_scratch0 ↦{fullShare} f)
        ∗ (∃ f, (thrV d L).loc cc0_scratch1 ↦{fullShare} f)
        ∗ (∃ f, (thrV d L).loc cc0_scratch2 ↦{fullShare} f)
        ∗ (∃ f, (thrV d L).loc cc0_scratch3 ↦{fullShare} f)
        ∗ (∃ f, (thrV d L).loc cc0_scratch4 ↦{fullShare} f)
        ∗ (∃ f, (thrV d L).loc cc0_scratch5 ↦{fullShare} f)
        ∗ (∃ f, (thrV d L).loc cc0_scratch6 ↦{fullShare} f)
        ∗ (∃ f, (thrV d L).loc cc0_scratch7 ↦{fullShare} f)
        ∗ (∃ f, (thrV d L).loc cc0_scratch8 ↦{fullShare} f)
        ∗ (∃ f, (thrV d L).loc cc0_scratch9 ↦{fullShare} f)
        ∗ bigSep (restRefs L) fun b => iprop(∃ f, ((d, b) : Loc nD τ sig) ↦{fullShare} f))
        ∗ semVal (thrV d L, SemLoc.dma cc0_scratch10.sem) 0
        ∗ semVal (thrV d L, SemLoc.dma cc0_scratch11.sem) 0
        ∗ semVal (thrV d L, SemLoc.dma cc0_scratch12.sem) 0
        ∗ semVal (thrV d L, SemLoc.dma cc0_scratch13.sem) 0
        ∗ semVal (thrV d L, SemLoc.dma cc0_scratch14.sem) 0
        ∗ semVal (thrV d L, SemLoc.dma cc0_scratch15.sem) 0
        ∗ bigSep (restCells d L) fun g => semVal g 0) := by
  rw [scopedBufs_open d L hF, scopedSems0_open d L]

end Cert.Kernel.Hand

end
-- ==== Proof.SpellK.lean ====
/-
  The blocks as the body slices them. Every transfer of the body names its block of an array by offsets it computes
  from the tile's coordinates and the trip of the chunk-pair loop; each is the block of one chunk: the first fetches
  take chunk 0, the first half of trip `t` fetches chunk `2 t + 1` and writes out chunk `2 t`, the second half fetches
  chunk `2 t + 2` and writes out chunk `2 t + 1`.
-/
import proofs.«210086_g67980742361152_cont_9to1c4b_184_18_alg».proof.Proof.PiecesK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem trips1_le : k0_t1_loop.trips ≤ 8 := k0_t1_abs.2.1
theorem odd_lt (t : Fin k0_t1_loop.trips) : 2 * t.val + 1 < 16 := by have := t.isLt; have := trips1_le; omega
theorem even_lt (t : Fin k0_t1_loop.trips) : 2 * t.val < 16 := by have := t.isLt; have := trips1_le; omega
/-- Chunk `2 t` and chunk `2 t + 1` of trip `t`. -/
abbrev kEven (t : Fin k0_t1_loop.trips) : Fin 16 := ⟨2 * t.val, even_lt t⟩
abbrev kOdd (t : Fin k0_t1_loop.trips) : Fin 16 := ⟨2 * t.val + 1, odd_lt t⟩
/-- Chunk `2 t + 2`, for a trip that is not the last. -/
abbrev kNext (t : Fin k0_t1_loop.trips) (h : t.val + 1 < 8) : Fin 16 := ⟨2 * t.val + 2, by omega⟩

/-- A memref sliced at offsets that are a chunk's is that chunk's block. -/
theorem xM_of_off (L : grid0.Coords) (b : Fin 4) (k : Fin 16) (o : Fin 3 → ℕ) (hbo : ∀ a, o a + S1x16x768.size a ≤ S4x8192x768.size a)
    (ho : o = ![b.val, rowOf L k, 0]) :
    ((xV).slice (Rect.unit o S1x16x768.size hbo) (fun _ => rfl)).squeeze S16x768 squeezes_S1x16x768_S16x768 = xM L b k := by
  subst ho; rfl
theorem oM_of_off (L : grid0.Coords) (b : Fin 4) (k : Fin 16) (o : Fin 3 → ℕ) (hbo : ∀ a, o a + S1x16x768.size a ≤ S4x8192x768.size a)
    (ho : o = ![b.val, rowOf L k, 0]) :
    ((oV).slice (Rect.unit o S1x16x768.size hbo) (fun _ => rfl)).squeeze S16x768 squeezes_S1x16x768_S16x768 = oM L b k := by
  subst ho; rfl
theorem pM_of_off (L : grid0.Coords) (k : Fin 16) (o : Fin 2 → ℕ) (hbo : ∀ a, o a + S16x768.size a ≤ S8192x768.size a)
    (ho : o = ![rowOf L k, 0]) :
    (pV).slice (Rect.unit o S16x768.size hbo) (fun _ => rfl) = pM L k := by
  subst ho; rfl

local notation "𝕄" => MT nD τ sig (HIx 1) (Elt F) ℕ UU ℕ

/-- A block held through a memref sliced at a chunk's offsets is that chunk's block held. -/
theorem own_x_of_off (d : Dev nD) (L : grid0.Coords) (b : Fin 4) (k : Fin 16) (o : Fin 3 → ℕ)
    (hbo : ∀ a, o a + S1x16x768.size a ≤ S4x8192x768.size a) (ho : o = ![b.val, rowOf L k, 0]) (f : Buf (Elt F) (xLoc d)) :
    (own d L (((xV).slice (Rect.unit o S1x16x768.size hbo) (fun _ => rfl)).squeeze S16x768 squeezes_S1x16x768_S16x768) f : sProp 𝕄)
      = own d L (xM L b k) f := by
  subst ho; rfl
theorem own_o_of_off (d : Dev nD) (L : grid0.Coords) (b : Fin 4) (k : Fin 16) (o : Fin 3 → ℕ)
    (hbo : ∀ a, o a + S1x16x768.size a ≤ S4x8192x768.size a) (ho : o = ![b.val, rowOf L k, 0]) (f : Buf (Elt F) (oLoc d)) :
    (own d L (((oV).slice (Rect.unit o S1x16x768.size hbo) (fun _ => rfl)).squeeze S16x768 squeezes_S1x16x768_S16x768) f : sProp 𝕄)
      = own d L (oM L b k) f := by
  subst ho; rfl
theorem own_p_of_off (d : Dev nD) (L : grid0.Coords) (k : Fin 16) (o : Fin 2 → ℕ)
    (hbo : ∀ a, o a + S16x768.size a ≤ S8192x768.size a) (ho : o = ![rowOf L k, 0]) (f : Buf (Elt F) (pLoc d)) :
    (own d L ((pV).slice (Rect.unit o S16x768.size hbo) (fun _ => rfl)) f : sProp 𝕄) = own d L (pM L k) f := by
  subst ho; rfl

/-! ## The first fetches: chunk 0 -/

theorem off1_c (L : grid0.Coords) : k0_off1 L = ![rowOf L 0, 0] := by
  rw [k0_off1_eq]; unfold rowOf; simp
theorem off2_c0 : ∀ L : grid0.Coords, k0_off2 L 0#32 = ![0, 512 * (L 1).val + 256 * (L 0).val, 0] := by decide +kernel
theorem off2_c (L : grid0.Coords) : k0_off2 L 0#32 = ![(0 : Fin 4).val, rowOf L 0, 0] := by
  rw [off2_c0]; unfold rowOf; simp
theorem off3_c0 : ∀ L : grid0.Coords, k0_off3 L 0#32 = ![1, 512 * (L 1).val + 256 * (L 0).val, 0] := by decide +kernel
theorem off3_c (L : grid0.Coords) : k0_off3 L 0#32 = ![(1 : Fin 4).val, rowOf L 0, 0] := by
  rw [off3_c0]; unfold rowOf; simp
theorem off4_c0 : ∀ L : grid0.Coords, k0_off4 L 0#32 = ![2, 512 * (L 1).val + 256 * (L 0).val, 0] := by decide +kernel
theorem off4_c (L : grid0.Coords) : k0_off4 L 0#32 = ![(2 : Fin 4).val, rowOf L 0, 0] := by
  rw [off4_c0]; unfold rowOf; simp
theorem off5_c0 : ∀ L : grid0.Coords, k0_off5 L 0#32 = ![3, 512 * (L 1).val + 256 * (L 0).val, 0] := by decide +kernel
theorem off5_c (L : grid0.Coords) : k0_off5 L 0#32 = ![(3 : Fin 4).val, rowOf L 0, 0] := by
  rw [off5_c0]; unfold rowOf; simp

/-! ## Trip `t`, first half: fetch chunk `2 t + 1`, write out chunk `2 t` -/

theorem off10_c (L : grid0.Coords) (t : Fin k0_t1_loop.trips) : k0_off10 L t = ![(0 : Fin 4).val, rowOf L (kOdd t), 0] := by
  rw [k0_off10_eq]
  have e : 512 * (L 1).val + 256 * (L 0).val + 32 * t.val + 16 = rowOf L (kOdd t) := by
    show _ = 512 * (L 1).val + 256 * (L 0).val + 16 * (2 * t.val + 1); omega
  rw [e]; rfl
theorem off11_c (L : grid0.Coords) (t : Fin k0_t1_loop.trips) : k0_off11 L t = ![(1 : Fin 4).val, rowOf L (kOdd t), 0] := by
  rw [k0_off11_eq]
  have e : 512 * (L 1).val + 256 * (L 0).val + 32 * t.val + 16 = rowOf L (kOdd t) := by
    show _ = 512 * (L 1).val + 256 * (L 0).val + 16 * (2 * t.val + 1); omega
  rw [e]; rfl
theorem off12_c (L : grid0.Coords) (t : Fin k0_t1_loop.trips) : k0_off12 L t = ![(2 : Fin 4).val, rowOf L (kOdd t), 0] := by
  rw [k0_off12_eq]
  have e : 512 * (L 1).val + 256 * (L 0).val + 32 * t.val + 16 = rowOf L (kOdd t) := by
    show _ = 512 * (L 1).val + 256 * (L 0).val + 16 * (2 * t.val + 1); omega
  rw [e]; rfl
theorem off13_c (L : grid0.Coords) (t : Fin k0_t1_loop.trips) : k0_off13 L t = ![(3 : Fin 4).val, rowOf L (kOdd t), 0] := by
  rw [k0_off13_eq]
  have e : 512 * (L 1).val + 256 * (L 0).val + 32 * t.val + 16 = rowOf L (kOdd t) := by
    show _ = 512 * (L 1).val + 256 * (L 0).val + 16 * (2 * t.val + 1); omega
  rw [e]; rfl
theorem off15_c (L : grid0.Coords) (t : Fin k0_t1_loop.trips) : k0_off15 L t = ![rowOf L (kOdd t), 0] := by
  rw [k0_off15_eq]
  have e : 512 * (L 1).val + 256 * (L 0).val + 32 * t.val + 16 = rowOf L (kOdd t) := by
    show _ = 512 * (L 1).val + 256 * (L 0).val + 16 * (2 * t.val + 1); omega
  rw [e]
theorem off16_c0 (L : grid0.Coords) (t : Fin k0_t1_loop.trips) : k0_off16 L t 0#32 = ![(0 : Fin 4).val, rowOf L (kEven t), 0] := by
  have h := k0_off16_eq L t (0 : Fin 2)
  have e : 512 * (L 1).val + 256 * (L 0).val + 32 * t.val + 16 * (0 : Fin 2).val = rowOf L (kEven t) := by
    show 512 * (L 1).val + 256 * (L 0).val + 32 * t.val + 16 * 0 = 512 * (L 1).val + 256 * (L 0).val + 16 * (2 * t.val); omega
  rw [e] at h; exact h
theorem off16_c1 (L : grid0.Coords) (t : Fin k0_t1_loop.trips) : k0_off16 L t 1#32 = ![(0 : Fin 4).val, rowOf L (kOdd t), 0] := by
  have h := k0_off16_eq L t (1 : Fin 2)
  have e : 512 * (L 1).val + 256 * (L 0).val + 32 * t.val + 16 * (1 : Fin 2).val = rowOf L (kOdd t) := by
    show 512 * (L 1).val + 256 * (L 0).val + 32 * t.val + 16 * 1 = 512 * (L 1).val + 256 * (L 0).val + 16 * (2 * t.val + 1); omega
  rw [e] at h; exact h
theorem off17_c0 (L : grid0.Coords) (t : Fin k0_t1_loop.trips) : k0_off17 L t 0#32 = ![(1 : Fin 4).val, rowOf L (kEven t), 0] := by
  have h := k0_off17_eq L t (0 : Fin 2)
  have e : 512 * (L 1).val + 256 * (L 0).val + 32 * t.val + 16 * (0 : Fin 2).val = rowOf L (kEven t) := by
    show 512 * (L 1).val + 256 * (L 0).val + 32 * t.val + 16 * 0 = 512 * (L 1).val + 256 * (L 0).val + 16 * (2 * t.val); omega
  rw [e] at h; exact h
theorem off17_c1 (L : grid0.Coords) (t : Fin k0_t1_loop.trips) : k0_off17 L t 1#32 = ![(1 : Fin 4).val, rowOf L (kOdd t), 0] := by
  have h := k0_off17_eq L t (1 : Fin 2)
  have e : 512 * (L 1).val + 256 * (L 0).val + 32 * t.val + 16 * (1 : Fin 2).val = rowOf L (kOdd t) := by
    show 512 * (L 1).val + 256 * (L 0).val + 32 * t.val + 16 * 1 = 512 * (L 1).val + 256 * (L 0).val + 16 * (2 * t.val + 1); omega
  rw [e] at h; exact h
theorem off18_c0 (L : grid0.Coords) (t : Fin k0_t1_loop.trips) : k0_off18 L t 0#32 = ![(2 : Fin 4).val, rowOf L (kEven t), 0] := by
  have h := k0_off18_eq L t (0 : Fin 2)
  have e : 512 * (L 1).val + 256 * (L 0).val + 32 * t.val + 16 * (0 : Fin 2).val = rowOf L (kEven t) := by
    show 512 * (L 1).val + 256 * (L 0).val + 32 * t.val + 16 * 0 = 512 * (L 1).val + 256 * (L 0).val + 16 * (2 * t.val); omega
  rw [e] at h; exact h
theorem off18_c1 (L : grid0.Coords) (t : Fin k0_t1_loop.trips) : k0_off18 L t 1#32 = ![(2 : Fin 4).val, rowOf L (kOdd t), 0] := by
  have h := k0_off18_eq L t (1 : Fin 2)
  have e : 512 * (L 1).val + 256 * (L 0).val + 32 * t.val + 16 * (1 : Fin 2).val = rowOf L (kOdd t) := by
    show 512 * (L 1).val + 256 * (L 0).val + 32 * t.val + 16 * 1 = 512 * (L 1).val + 256 * (L 0).val + 16 * (2 * t.val + 1); omega
  rw [e] at h; exact h
theorem off19_c0 (L : grid0.Coords) (t : Fin k0_t1_loop.trips) : k0_off19 L t 0#32 = ![(3 : Fin 4).val, rowOf L (kEven t), 0] := by
  have h := k0_off19_eq L t (0 : Fin 2)
  have e : 512 * (L 1).val + 256 * (L 0).val + 32 * t.val + 16 * (0 : Fin 2).val = rowOf L (kEven t) := by
    show 512 * (L 1).val + 256 * (L 0).val + 32 * t.val + 16 * 0 = 512 * (L 1).val + 256 * (L 0).val + 16 * (2 * t.val); omega
  rw [e] at h; exact h
theorem off19_c1 (L : grid0.Coords) (t : Fin k0_t1_loop.trips) : k0_off19 L t 1#32 = ![(3 : Fin 4).val, rowOf L (kOdd t), 0] := by
  have h := k0_off19_eq L t (1 : Fin 2)
  have e : 512 * (L 1).val + 256 * (L 0).val + 32 * t.val + 16 * (1 : Fin 2).val = rowOf L (kOdd t) := by
    show 512 * (L 1).val + 256 * (L 0).val + 32 * t.val + 16 * 1 = 512 * (L 1).val + 256 * (L 0).val + 16 * (2 * t.val + 1); omega
  rw [e] at h; exact h

/-! ## Trip `t`, second half: fetch chunk `2 t + 2` -/

theorem off72_c (L : grid0.Coords) (t : Fin k0_t1_loop.trips) (h : t.val + 1 < 8) : k0_off72 L t = ![(0 : Fin 4).val, rowOf L (kNext t h), 0] := by
  rw [k0_off72_eq]
  have e : 512 * (L 1).val + 256 * (L 0).val + 32 * t.val + 32 = rowOf L (kNext t h) := by
    show _ = 512 * (L 1).val + 256 * (L 0).val + 16 * (2 * t.val + 2); omega
  rw [e]; rfl
theorem off73_c (L : grid0.Coords) (t : Fin k0_t1_loop.trips) (h : t.val + 1 < 8) : k0_off73 L t = ![(1 : Fin 4).val, rowOf L (kNext t h), 0] := by
  rw [k0_off73_eq]
  have e : 512 * (L 1).val + 256 * (L 0).val + 32 * t.val + 32 = rowOf L (kNext t h) := by
    show _ = 512 * (L 1).val + 256 * (L 0).val + 16 * (2 * t.val + 2); omega
  rw [e]; rfl
theorem off74_c (L : grid0.Coords) (t : Fin k0_t1_loop.trips) (h : t.val + 1 < 8) : k0_off74 L t = ![(2 : Fin 4).val, rowOf L (kNext t h), 0] := by
  rw [k0_off74_eq]
  have e : 512 * (L 1).val + 256 * (L 0).val + 32 * t.val + 32 = rowOf L (kNext t h) := by
    show _ = 512 * (L 1).val + 256 * (L 0).val + 16 * (2 * t.val + 2); omega
  rw [e]; rfl
theorem off75_c (L : grid0.Coords) (t : Fin k0_t1_loop.trips) (h : t.val + 1 < 8) : k0_off75 L t = ![(3 : Fin 4).val, rowOf L (kNext t h), 0] := by
  rw [k0_off75_eq]
  have e : 512 * (L 1).val + 256 * (L 0).val + 32 * t.val + 32 = rowOf L (kNext t h) := by
    show _ = 512 * (L 1).val + 256 * (L 0).val + 16 * (2 * t.val + 2); omega
  rw [e]; rfl
theorem off76_c (L : grid0.Coords) (t : Fin k0_t1_loop.trips) (h : t.val + 1 < 8) : k0_off76 L t = ![rowOf L (kNext t h), 0] := by
  rw [k0_off76_eq]
  have e : 512 * (L 1).val + 256 * (L 0).val + 32 * t.val + 32 = rowOf L (kNext t h) := by
    show _ = 512 * (L 1).val + 256 * (L 0).val + 16 * (2 * t.val + 2); omega
  rw [e]

end Cert.Kernel.Hand

end
-- ==== Proof.RowLoopK.lean ====
/-
  One chunk's work on a tile: sixteen rows, each row forty-eight lane slices of sixteen entries. A trip of the row
  loop reads, for each lane slice of its row, the table's slice and then each of the four batch entries' slices, and
  stores back the slice with the table's entries added wherever the input's entry is not zero. The slices of one row
  tile that row, no slice of a row is read after it is written, and nothing of another row is touched: after the
  trip the row is done, and after sixteen trips the block is.
-/
import proofs.«210086_g67980742361152_cont_9to1c4b_184_18_alg».proof.Proof.PiecesK
import Idealize.ShloMosaic.Lib.Writes
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

variable [FloatOps F]

/-! ## One entry, one lane slice -/

/-- One entry: kept if it is exactly zero, else the table's entry added. -/
def gS (xe pe : F .f32) : F .f32 :=
  Scalar.select (FloatOps.cmpf .oeq xe (Scalar.ofBits .f32 0x00000000#32)) xe (FloatOps.addf xe pe)

theorem Gblk_apply (pe x : FVec F S16x768 .f32) (i : S16x768.Idx) : Gblk pe x i = gS (x i) (pe i) := rfl

/-- A lane slice's stored value of the table's slice `pv` and the input's slice `xv`, as the body computes it:
    both slices flattened to sixteen lanes, compared, added, selected, and laid out as a `[1, 16]` slice again. -/
def payG (pv xv : Vec F S1x16 .f32) : FVec F S1x16 .f32 :=
  shapeCast S1x16 (select (cmpf .oeq (shapeCast S16 xv shapeCasts_S1x16_S16) (broadcast S16 (Scalar.ofBits .f32 0x00000000#32)))
    (shapeCast S16 xv shapeCasts_S1x16_S16) (addf (shapeCast S16 xv shapeCasts_S1x16_S16) (shapeCast S16 pv shapeCasts_S1x16_S16)))
    shapeCasts_S16_S1x16

/-- Flattening and laying out again is the identity, and the three operations act entry by entry. -/
theorem payG_apply (pv xv : Vec F S1x16 .f32) (i : S1x16.Idx) : payG pv xv i = gS (xv i) (pv i) := by
  have hx := congrFun (shapeCast_shapeCast xv shapeCasts_S1x16_S16 shapeCasts_S16_S1x16) i
  have hp := congrFun (shapeCast_shapeCast pv shapeCasts_S1x16_S16 shapeCasts_S16_S1x16) i
  show gS (shapeCast S1x16 (shapeCast S16 xv shapeCasts_S1x16_S16) shapeCasts_S16_S1x16 i)
    (shapeCast S1x16 (shapeCast S16 pv shapeCasts_S1x16_S16) shapeCasts_S16_S1x16 i) = _
  rw [hx, hp]

/-! ## The lane slices of one row -/

/-- A `[1, 16]` slice at offsets `(r, c)` of a `[16, 768]` block holds the entries of row `r` in columns `c … c + 15`. -/
theorem mem_rowslice {o : Fin 2 → ℕ} {hbo : ∀ a, o a + S1x16.size a ≤ S16x768.size a} {r c : ℕ} (ho : o = ![r, c]) {y : S16x768.Idx} :
    y ∈ (Rect.unit (s := S16x768) o S1x16.size hbo).set ↔ (y 0).val = r ∧ c ≤ (y 1).val ∧ (y 1).val < c + 16 := by
  subst ho
  rw [Rect.mem_set_unit]
  constructor
  · intro h
    have h0 := h 0; have h1 := h 1
    have e0 : (![r, c] : Fin 2 → ℕ) 0 = r := rfl
    have e1 : (![r, c] : Fin 2 → ℕ) 1 = c := rfl
    have s0 : S1x16.size 0 = 1 := rfl
    have s1 : S1x16.size 1 = 16 := rfl
    rw [e0, s0] at h0; rw [e1, s1] at h1
    omega
  · rintro ⟨h0, h1, h2⟩ a
    fin_cases a
    · show r ≤ (y 0).val ∧ (y 0).val < r + 1; omega
    · show c ≤ (y 1).val ∧ (y 1).val < c + 16; omega

section Row

variable {κ : Kind} {sp sp' : Space} (vp : View sig κ sp S16x768 .f32) (vx : View sig κ sp' S16x768 .f32)
variable (off : Fin 48 → Fin 2 → ℕ) (hb : ∀ j a, off j a + S1x16.size a ≤ S16x768.size a)

/-- What a trip stores through its `j`-th lane slice (at offsets `off j`): the slice's value of the table's slice and of
    the slice of the block as the trip found it. -/
def rowPiece (pe : vp.ty.Contents (Elt F)) (f : vx.ty.Contents (Elt F)) (j : Fin 48) : View.Piece (Elt F) S16x768 .f32 :=
  ⟨Rect.unit (s := S16x768) (off j) S1x16.size (hb j), payG (vp.readAt (Elt F) (Rect.unit (s := S16x768) (off j) S1x16.size (hb j)).toLoadRect pe)
    (vx.readAt (Elt F) (Rect.unit (s := S16x768) (off j) S1x16.size (hb j)).toLoadRect f)⟩

/-- The trip's forty-eight stores, the last first. -/
def rowPieces (pe : vp.ty.Contents (Elt F)) (f : vx.ty.Contents (Elt F)) : List (View.Piece (Elt F) S16x768 .f32) :=
  ((List.finRange 48).map (rowPiece (F := F) vp vx off hb pe f)).reverse

/-- When slice `j` sits at `(r, 16 j)`: after the trip's stores an entry of row `r` is the entry of the input, the
    table's added unless it is zero, and every other entry is as it was — the slices lie in row `r`, tile it, and each
    holds that value. -/
theorem read_rowWrites (pe : vp.ty.Contents (Elt F)) (f : vx.ty.Contents (Elt F)) (r : ℕ) (hoff : ∀ j, off j = ![r, 16 * j.val]) (y : S16x768.Idx) :
    vx.read (Elt F) (vx.writes (Elt F) f (rowPieces (F := F) vp vx off hb pe f)) y
      = if (y 0).val = r then gS (vx.read (Elt F) f y) (vp.read (Elt F) pe y) else vx.read (Elt F) f y := by
  have hmem : ∀ p ∈ rowPieces (F := F) vp vx off hb pe f, ∃ j, p = rowPiece (F := F) vp vx off hb pe f j := by
    intro p hp
    obtain ⟨j, -, rfl⟩ := List.mem_map.mp (List.mem_reverse.mp hp)
    exact ⟨j, rfl⟩
  by_cases h : (y 0).val = r
  · rw [if_pos h]
    refine View.read_writes_apply_of_pieces vx f (fun y => gS (vx.read (Elt F) f y) (vp.read (Elt F) pe y)) _ ?_ y ?_
    · intro p hp x'
      obtain ⟨j, rfl⟩ := hmem p hp
      exact payG_apply _ _ x'
    · have hy1 : (y 1).val < 768 := (y 1).isLt
      have hjlt : (y 1).val / 16 < 48 := by omega
      refine ⟨rowPiece (F := F) vp vx off hb pe f ⟨(y 1).val / 16, hjlt⟩,
        List.mem_reverse.mpr (List.mem_map.mpr ⟨_, List.mem_finRange _, rfl⟩), ?_⟩
      have key := (mem_rowslice (hbo := hb ⟨(y 1).val / 16, hjlt⟩) (hoff ⟨(y 1).val / 16, hjlt⟩) (y := y)).mpr
        ⟨h, by show 16 * ((y 1).val / 16) ≤ (y 1).val; omega, by show (y 1).val < 16 * ((y 1).val / 16) + 16; omega⟩
      exact key
  · rw [if_neg h]
    refine View.read_writes_apply_of_forall_not_mem vx f y _ ?_
    intro p hp hy
    obtain ⟨j, rfl⟩ := hmem p hp
    exact h ((mem_rowslice (hbo := hb j) (hoff j)).mp hy).1

end Row

/-! ## The printed offsets of the two row loops' lane slices -/

/-- Trip `k` of the first row loop: the offsets of its forty-eight lane slices, as the body computes them. -/
def off2 (k : Fin k0_t2_loop.trips) : Fin 48 → Fin 2 → ℕ := ![k0_off20 k, k0_off21 k, k0_off22 k, k0_off23 k, k0_off24 k, k0_off25 k, k0_off26 k, k0_off27 k, k0_off28 k, k0_off29 k, k0_off30 k, k0_off31 k, k0_off32 k, k0_off33 k, k0_off34 k, k0_off35 k, k0_off36 k, k0_off37 k, k0_off38 k, k0_off39 k, k0_off40 k, k0_off41 k, k0_off42 k, k0_off43 k, k0_off44 k, k0_off45 k, k0_off46 k, k0_off47 k, k0_off48 k, k0_off49 k, k0_off50 k, k0_off51 k, k0_off52 k, k0_off53 k, k0_off54 k, k0_off55 k, k0_off56 k, k0_off57 k, k0_off58 k, k0_off59 k, k0_off60 k, k0_off61 k, k0_off62 k, k0_off63 k, k0_off64 k, k0_off65 k, k0_off66 k, k0_off67 k]
/-- They are row `k`, columns `16 j`. -/
theorem off2_eq (k : Fin k0_t2_loop.trips) : ∀ j : Fin 48, off2 k j = ![k.val, 16 * j.val] := by
  intro j; fin_cases j
  exacts [k0_off20_eq k, k0_off21_eq k, k0_off22_eq k, k0_off23_eq k, k0_off24_eq k, k0_off25_eq k, k0_off26_eq k, k0_off27_eq k, k0_off28_eq k, k0_off29_eq k, k0_off30_eq k, k0_off31_eq k, k0_off32_eq k, k0_off33_eq k, k0_off34_eq k, k0_off35_eq k, k0_off36_eq k, k0_off37_eq k, k0_off38_eq k, k0_off39_eq k, k0_off40_eq k, k0_off41_eq k, k0_off42_eq k, k0_off43_eq k, k0_off44_eq k, k0_off45_eq k, k0_off46_eq k, k0_off47_eq k, k0_off48_eq k, k0_off49_eq k, k0_off50_eq k, k0_off51_eq k, k0_off52_eq k, k0_off53_eq k, k0_off54_eq k, k0_off55_eq k, k0_off56_eq k, k0_off57_eq k, k0_off58_eq k, k0_off59_eq k, k0_off60_eq k, k0_off61_eq k, k0_off62_eq k, k0_off63_eq k, k0_off64_eq k, k0_off65_eq k, k0_off66_eq k, k0_off67_eq k]
theorem off2_inb (k : Fin k0_t2_loop.trips) : ∀ j a, off2 k j a + S1x16.size a ≤ S16x768.size a := by
  have hk : k.val < 16 := lt_of_lt_of_le k.isLt k0_t2_abs.2.1
  intro j a; rw [off2_eq k j]; have := j.isLt
  fin_cases a
  · show k.val + 1 ≤ 16; omega
  · show 16 * j.val + 16 ≤ 768; omega

/-- Trip `k` of the second row loop, likewise. -/
def off3 (k : Fin k0_t3_loop.trips) : Fin 48 → Fin 2 → ℕ := ![k0_off77 k, k0_off78 k, k0_off79 k, k0_off80 k, k0_off81 k, k0_off82 k, k0_off83 k, k0_off84 k, k0_off85 k, k0_off86 k, k0_off87 k, k0_off88 k, k0_off89 k, k0_off90 k, k0_off91 k, k0_off92 k, k0_off93 k, k0_off94 k, k0_off95 k, k0_off96 k, k0_off97 k, k0_off98 k, k0_off99 k, k0_off100 k, k0_off101 k, k0_off102 k, k0_off103 k, k0_off104 k, k0_off105 k, k0_off106 k, k0_off107 k, k0_off108 k, k0_off109 k, k0_off110 k, k0_off111 k, k0_off112 k, k0_off113 k, k0_off114 k, k0_off115 k, k0_off116 k, k0_off117 k, k0_off118 k, k0_off119 k, k0_off120 k, k0_off121 k, k0_off122 k, k0_off123 k, k0_off124 k]
theorem off3_eq (k : Fin k0_t3_loop.trips) : ∀ j : Fin 48, off3 k j = ![k.val, 16 * j.val] := by
  intro j; fin_cases j
  exacts [k0_off77_eq k, k0_off78_eq k, k0_off79_eq k, k0_off80_eq k, k0_off81_eq k, k0_off82_eq k, k0_off83_eq k, k0_off84_eq k, k0_off85_eq k, k0_off86_eq k, k0_off87_eq k, k0_off88_eq k, k0_off89_eq k, k0_off90_eq k, k0_off91_eq k, k0_off92_eq k, k0_off93_eq k, k0_off94_eq k, k0_off95_eq k, k0_off96_eq k, k0_off97_eq k, k0_off98_eq k, k0_off99_eq k, k0_off100_eq k, k0_off101_eq k, k0_off102_eq k, k0_off103_eq k, k0_off104_eq k, k0_off105_eq k, k0_off106_eq k, k0_off107_eq k, k0_off108_eq k, k0_off109_eq k, k0_off110_eq k, k0_off111_eq k, k0_off112_eq k, k0_off113_eq k, k0_off114_eq k, k0_off115_eq k, k0_off116_eq k, k0_off117_eq k, k0_off118_eq k, k0_off119_eq k, k0_off120_eq k, k0_off121_eq k, k0_off122_eq k, k0_off123_eq k, k0_off124_eq k]
theorem off3_inb (k : Fin k0_t3_loop.trips) : ∀ j a, off3 k j a + S1x16.size a ≤ S16x768.size a := by
  have hk : k.val < 16 := lt_of_lt_of_le k.isLt k0_t3_abs.2.1
  intro j a; rw [off3_eq k j]; have := j.isLt
  fin_cases a
  · show k.val + 1 ≤ 16; omega
  · show 16 * j.val + 16 ≤ 768; omega

/-- A row done on top of the rows below it done is the rows up to it done. -/
theorem Grows_step (pe x : FVec F S16x768 .f32) (r : ℕ) (y : S16x768.Idx) :
    (if (y 0).val = r then gS (Grows pe x r y) (pe y) else Grows pe x r y) = Grows pe x (r + 1) y := by
  unfold Grows
  by_cases h : (y 0).val = r
  · rw [if_pos h, if_neg (by omega), if_pos (by omega)]; rfl
  · rw [if_neg h]
    by_cases h' : (y 0).val < r
    · rw [if_pos h', if_pos (by omega)]
    · rw [if_neg h', if_neg (by omega)]

/-! ## The trips' stores, buffer by buffer -/

theorem trip_b0_b2 (pe x : FVec F S16x768 .f32) (k : Fin k0_t2_loop.trips) :
    (b2).view.writes (Elt F) (Grows pe x k.val) (rowPieces (F := F) (b0).view (b2).view (off2 k) (off2_inb k) pe (Grows pe x k.val))
      = Grows pe x (k.val + 1) := by
  funext y
  refine (read_rowWrites (F := F) (b0).view (b2).view (off2 k) (off2_inb k) pe (Grows pe x k.val) k.val (off2_eq k) y).trans ?_
  exact Grows_step pe x k.val y

theorem trip_b0_b3 (pe x : FVec F S16x768 .f32) (k : Fin k0_t2_loop.trips) :
    (b3).view.writes (Elt F) (Grows pe x k.val) (rowPieces (F := F) (b0).view (b3).view (off2 k) (off2_inb k) pe (Grows pe x k.val))
      = Grows pe x (k.val + 1) := by
  funext y
  refine (read_rowWrites (F := F) (b0).view (b3).view (off2 k) (off2_inb k) pe (Grows pe x k.val) k.val (off2_eq k) y).trans ?_
  exact Grows_step pe x k.val y

theorem trip_b0_b4 (pe x : FVec F S16x768 .f32) (k : Fin k0_t2_loop.trips) :
    (b4).view.writes (Elt F) (Grows pe x k.val) (rowPieces (F := F) (b0).view (b4).view (off2 k) (off2_inb k) pe (Grows pe x k.val))
      = Grows pe x (k.val + 1) := by
  funext y
  refine (read_rowWrites (F := F) (b0).view (b4).view (off2 k) (off2_inb k) pe (Grows pe x k.val) k.val (off2_eq k) y).trans ?_
  exact Grows_step pe x k.val y

theorem trip_b0_b5 (pe x : FVec F S16x768 .f32) (k : Fin k0_t2_loop.trips) :
    (b5).view.writes (Elt F) (Grows pe x k.val) (rowPieces (F := F) (b0).view (b5).view (off2 k) (off2_inb k) pe (Grows pe x k.val))
      = Grows pe x (k.val + 1) := by
  funext y
  refine (read_rowWrites (F := F) (b0).view (b5).view (off2 k) (off2_inb k) pe (Grows pe x k.val) k.val (off2_eq k) y).trans ?_
  exact Grows_step pe x k.val y

theorem trip_b1_b6 (pe x : FVec F S16x768 .f32) (k : Fin k0_t3_loop.trips) :
    (b6).view.writes (Elt F) (Grows pe x k.val) (rowPieces (F := F) (b1).view (b6).view (off3 k) (off3_inb k) pe (Grows pe x k.val))
      = Grows pe x (k.val + 1) := by
  funext y
  refine (read_rowWrites (F := F) (b1).view (b6).view (off3 k) (off3_inb k) pe (Grows pe x k.val) k.val (off3_eq k) y).trans ?_
  exact Grows_step pe x k.val y

theorem trip_b1_b7 (pe x : FVec F S16x768 .f32) (k : Fin k0_t3_loop.trips) :
    (b7).view.writes (Elt F) (Grows pe x k.val) (rowPieces (F := F) (b1).view (b7).view (off3 k) (off3_inb k) pe (Grows pe x k.val))
      = Grows pe x (k.val + 1) := by
  funext y
  refine (read_rowWrites (F := F) (b1).view (b7).view (off3 k) (off3_inb k) pe (Grows pe x k.val) k.val (off3_eq k) y).trans ?_
  exact Grows_step pe x k.val y

theorem trip_b1_b8 (pe x : FVec F S16x768 .f32) (k : Fin k0_t3_loop.trips) :
    (b8).view.writes (Elt F) (Grows pe x k.val) (rowPieces (F := F) (b1).view (b8).view (off3 k) (off3_inb k) pe (Grows pe x k.val))
      = Grows pe x (k.val + 1) := by
  funext y
  refine (read_rowWrites (F := F) (b1).view (b8).view (off3 k) (off3_inb k) pe (Grows pe x k.val) k.val (off3_eq k) y).trans ?_
  exact Grows_step pe x k.val y

theorem trip_b1_b9 (pe x : FVec F S16x768 .f32) (k : Fin k0_t3_loop.trips) :
    (b9).view.writes (Elt F) (Grows pe x k.val) (rowPieces (F := F) (b1).view (b9).view (off3 k) (off3_inb k) pe (Grows pe x k.val))
      = Grows pe x (k.val + 1) := by
  funext y
  refine (read_rowWrites (F := F) (b1).view (b9).view (off3 k) (off3_inb k) pe (Grows pe x k.val) k.val (off3_eq k) y).trans ?_
  exact Grows_step pe x k.val y

end Cert.Kernel.Hand

end
-- ==== Proof.RowRunK.lean ====
/-
  The two row loops of the kernel's body, each run once at a symbolic chunk: the first over the first table buffer
  and the first set of four input buffers, the second over the second ones. The invariant of either: the rows below
  the trip are done.
-/
import proofs.«210086_g67980742361152_cont_9to1c4b_184_18_alg».proof.Proof.RowLoopK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

variable [FloatOps F] [∀ e, Nonempty (Elt F e)]

theorem trips2 : k0_t2_loop.trips = 16 := by decide
theorem trips3 : k0_t3_loop.trips = 16 := by decide

/-- Before trip `k` of the row loop: the table's block as fetched, and in each of the four buffers the rows below `k`
    done and the others as fetched. -/
def rowInv0 (d : Dev nD) (L : grid0.Coords) (pe x0 x1 x2 x3 : FVec F S16x768 .f32) (k : ℕ) (_ : BitVec 32) : sProp 𝕄 :=
  iprop(∃ f0 f1 f2 f3 : FVec F S16x768 .f32, ((b0).view.loc (thrV d L) ↦{fullShare} pe) ∗ ((b2).view.loc (thrV d L) ↦{fullShare} f0) ∗ ((b3).view.loc (thrV d L) ↦{fullShare} f1)
    ∗ ((b4).view.loc (thrV d L) ↦{fullShare} f2) ∗ ((b5).view.loc (thrV d L) ↦{fullShare} f3)
    ∗ ⌜f0 = Grows pe x0 k ∧ f1 = Grows pe x1 k ∧ f2 = Grows pe x2 k ∧ f3 = Grows pe x3 k⌝)

set_option maxHeartbeats 4000000 in
/-- The row loop over a fetched chunk: sixteen trips leave the four blocks done. -/
theorem rowLoop0 (d : Dev nD) (L : grid0.Coords) (v2 v69 : BitVec 32) (t1 : Fin k0_t1_loop.trips) (pe x0 x1 x2 x3 : FVec F S16x768 .f32) :
    (iprop(((b0).view.loc (thrV d L) ↦{fullShare} pe) ∗ ((b2).view.loc (thrV d L) ↦{fullShare} x0) ∗ ((b3).view.loc (thrV d L) ↦{fullShare} x1) ∗ ((b4).view.loc (thrV d L) ↦{fullShare} x2) ∗ ((b5).view.loc (thrV d L) ↦{fullShare} x3)) : sProp 𝕄)
      ⊢ wp frame (wpE (defs₀ (F := F)) 𝒱₀ (thrV d L) none) Set.univ
          (Scf.Loop.for k0_t2_loop k0_t2_ok 0#32 (k0_t2_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15 v2 t1 v69))
          fun _ => iprop(((b0).view.loc (thrV d L) ↦{fullShare} pe) ∗ ((b2).view.loc (thrV d L) ↦{fullShare} Gblk pe x0) ∗ ((b3).view.loc (thrV d L) ↦{fullShare} Gblk pe x1)
            ∗ ((b4).view.loc (thrV d L) ↦{fullShare} Gblk pe x2) ∗ ((b5).view.loc (thrV d L) ↦{fullShare} Gblk pe x3)) := by
  iintro ⟨Hp, H0, H1, H2, H3⟩
  sl_for (rowInv0 (F := F) d L pe x0 x1 x2 x3) $$ [Hp H0 H1 H2 H3]
  case region =>
    intro k acc
    unfold rowInv0
    iintro ⟨%f0, %f1, %f2, %f3, Hp, H0, H1, H2, H3, %hf⟩
    obtain ⟨rfl, rfl, rfl, rfl⟩ := hf
    sl_exec_parts
    sl_step
    iexists _, _, _, _
    isplitl [Hp]; · iexact Hp
    isplitl [H0]; · iexact H0
    isplitl [H1]; · iexact H1
    isplitl [H2]; · iexact H2
    isplitl [H3]; · iexact H3
    ipureintro
    refine ⟨?_, ?_, ?_, ?_⟩
    · sl_unfold_run_names
      exact trip_b0_b2 pe x0 k
    · sl_unfold_run_names
      exact trip_b0_b3 pe x1 k
    · sl_unfold_run_names
      exact trip_b0_b4 pe x2 k
    · sl_unfold_run_names
      exact trip_b0_b5 pe x3 k
  isplitl [Hp H0 H1 H2 H3]
  · unfold rowInv0
    iexists x0, x1, x2, x3
    isplitl [Hp]; · iexact Hp
    isplitl [H0]; · iexact H0
    isplitl [H1]; · iexact H1
    isplitl [H2]; · iexact H2
    isplitl [H3]; · iexact H3
    ipureintro
    exact ⟨(Grows_zero pe x0).symm, (Grows_zero pe x1).symm, (Grows_zero pe x2).symm, (Grows_zero pe x3).symm⟩
  · iintro %acc HI
    unfold rowInv0
    icases HI with ⟨%f0, %f1, %f2, %f3, Hp, H0, H1, H2, H3, %hf⟩
    have e : Scf.trips k0_t2_loop.lb k0_t2_loop.ub k0_t2_loop.st = 16 := trips2
    obtain ⟨h0, h1, h2, h3⟩ := hf
    rw [e, Grows_all] at h0 h1 h2 h3
    subst h0 h1 h2 h3
    isplitl [Hp]; · iexact Hp
    isplitl [H0]; · iexact H0
    isplitl [H1]; · iexact H1
    isplitl [H2]; · iexact H2
    iexact H3

/-- Before trip `k` of the row loop: the table's block as fetched, and in each of the four buffers the rows below `k`
    done and the others as fetched. -/
def rowInv1 (d : Dev nD) (L : grid0.Coords) (pe x0 x1 x2 x3 : FVec F S16x768 .f32) (k : ℕ) (_ : BitVec 32) : sProp 𝕄 :=
  iprop(∃ f0 f1 f2 f3 : FVec F S16x768 .f32, ((b1).view.loc (thrV d L) ↦{fullShare} pe) ∗ ((b6).view.loc (thrV d L) ↦{fullShare} f0) ∗ ((b7).view.loc (thrV d L) ↦{fullShare} f1)
    ∗ ((b8).view.loc (thrV d L) ↦{fullShare} f2) ∗ ((b9).view.loc (thrV d L) ↦{fullShare} f3)
    ∗ ⌜f0 = Grows pe x0 k ∧ f1 = Grows pe x1 k ∧ f2 = Grows pe x2 k ∧ f3 = Grows pe x3 k⌝)

set_option maxHeartbeats 4000000 in
/-- The row loop over a fetched chunk: sixteen trips leave the four blocks done. -/
theorem rowLoop1 (d : Dev nD) (L : grid0.Coords) (v2 v69 : BitVec 32) (t1 : Fin k0_t1_loop.trips) (pe x0 x1 x2 x3 : FVec F S16x768 .f32) :
    (iprop(((b1).view.loc (thrV d L) ↦{fullShare} pe) ∗ ((b6).view.loc (thrV d L) ↦{fullShare} x0) ∗ ((b7).view.loc (thrV d L) ↦{fullShare} x1) ∗ ((b8).view.loc (thrV d L) ↦{fullShare} x2) ∗ ((b9).view.loc (thrV d L) ↦{fullShare} x3)) : sProp 𝕄)
      ⊢ wp frame (wpE (defs₀ (F := F)) 𝒱₀ (thrV d L) none) Set.univ
          (Scf.Loop.for k0_t3_loop k0_t3_ok 0#32 (k0_t3_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15 v2 t1 v69))
          fun _ => iprop(((b1).view.loc (thrV d L) ↦{fullShare} pe) ∗ ((b6).view.loc (thrV d L) ↦{fullShare} Gblk pe x0) ∗ ((b7).view.loc (thrV d L) ↦{fullShare} Gblk pe x1)
            ∗ ((b8).view.loc (thrV d L) ↦{fullShare} Gblk pe x2) ∗ ((b9).view.loc (thrV d L) ↦{fullShare} Gblk pe x3)) := by
  iintro ⟨Hp, H0, H1, H2, H3⟩
  sl_for (rowInv1 (F := F) d L pe x0 x1 x2 x3) $$ [Hp H0 H1 H2 H3]
  case region =>
    intro k acc
    unfold rowInv1
    iintro ⟨%f0, %f1, %f2, %f3, Hp, H0, H1, H2, H3, %hf⟩
    obtain ⟨rfl, rfl, rfl, rfl⟩ := hf
    sl_exec_parts
    sl_step
    iexists _, _, _, _
    isplitl [Hp]; · iexact Hp
    isplitl [H0]; · iexact H0
    isplitl [H1]; · iexact H1
    isplitl [H2]; · iexact H2
    isplitl [H3]; · iexact H3
    ipureintro
    refine ⟨?_, ?_, ?_, ?_⟩
    · sl_unfold_run_names
      exact trip_b1_b6 pe x0 k
    · sl_unfold_run_names
      exact trip_b1_b7 pe x1 k
    · sl_unfold_run_names
      exact trip_b1_b8 pe x2 k
    · sl_unfold_run_names
      exact trip_b1_b9 pe x3 k
  isplitl [Hp H0 H1 H2 H3]
  · unfold rowInv1
    iexists x0, x1, x2, x3
    isplitl [Hp]; · iexact Hp
    isplitl [H0]; · iexact H0
    isplitl [H1]; · iexact H1
    isplitl [H2]; · iexact H2
    isplitl [H3]; · iexact H3
    ipureintro
    exact ⟨(Grows_zero pe x0).symm, (Grows_zero pe x1).symm, (Grows_zero pe x2).symm, (Grows_zero pe x3).symm⟩
  · iintro %acc HI
    unfold rowInv1
    icases HI with ⟨%f0, %f1, %f2, %f3, Hp, H0, H1, H2, H3, %hf⟩
    have e : Scf.trips k0_t3_loop.lb k0_t3_loop.ub k0_t3_loop.st = 16 := trips3
    obtain ⟨h0, h1, h2, h3⟩ := hf
    rw [e, Grows_all] at h0 h1 h2 h3
    subst h0 h1 h2 h3
    isplitl [Hp]; · iexact Hp
    isplitl [H0]; · iexact H0
    isplitl [H1]; · iexact H1
    isplitl [H2]; · iexact H2
    iexact H3

end Cert.Kernel.Hand

end
-- ==== Proof.GlueK.lean ====
/-
  Small facts the tile's run is assembled from: a row loop followed by the rest of the body, and a block fetched whole
  into a buffer being just the block.
-/
import proofs.«210086_g67980742361152_cont_9to1c4b_184_18_alg».proof.Proof.RowRunK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

/-- A write of a whole buffer through its whole rectangle leaves the payload. -/
theorem writes_whole_buf {κ : Kind} (b : Ref sig κ) (fd : b.ty.Contents (Elt F)) (w : (Rect.whole b.ty.shape).shape.Idx → Elt F b.ty.elt) (i : b.ty.shape.Idx) :
    (View.whole b).writes (Elt F) fd [⟨Rect.whole b.ty.shape, w⟩] i = w i := by
  have h := View.read_writes_cons_emb (View.whole b) fd (Rect.whole b.ty.shape) w [] i
  rwa [Rect.emb_whole_apply] at h

variable [FloatOps F] [∀ e, Nonempty (Elt F e)]

/-- The row loop followed by the rest of the body: from the fetched blocks, and the rest run from the blocks done. -/
theorem rowLoop0_bind {β : Type} (d : Dev nD) (L : grid0.Coords) (v2 v69 : BitVec 32) (t1 : Fin k0_t1_loop.trips) (pe x0 x1 x2 x3 : FVec F S16x768 .f32)
    (kk : BitVec 32 → Prog (TpuEff nD τ sig (Elt F) Λ₀ (.scVector (cV L) (jV L))) β) (Q : β → sProp 𝕄) :
    (iprop((((b0).view.loc (thrV d L) ↦{fullShare} pe) ∗ ((b2).view.loc (thrV d L) ↦{fullShare} x0) ∗ ((b3).view.loc (thrV d L) ↦{fullShare} x1) ∗ ((b4).view.loc (thrV d L) ↦{fullShare} x2) ∗ ((b5).view.loc (thrV d L) ↦{fullShare} x3))
        ∗ (∀ a : BitVec 32, (((b0).view.loc (thrV d L) ↦{fullShare} pe) ∗ ((b2).view.loc (thrV d L) ↦{fullShare} Gblk pe x0) ∗ ((b3).view.loc (thrV d L) ↦{fullShare} Gblk pe x1)
            ∗ ((b4).view.loc (thrV d L) ↦{fullShare} Gblk pe x2) ∗ ((b5).view.loc (thrV d L) ↦{fullShare} Gblk pe x3))
          -∗ wp frame (wpE (defs₀ (F := F)) 𝒱₀ (thrV d L) none) Set.univ (kk a) Q)) : sProp 𝕄)
      ⊢ wp frame (wpE (defs₀ (F := F)) 𝒱₀ (thrV d L) none) Set.univ
          (Scf.Loop.for k0_t2_loop k0_t2_ok 0#32 (k0_t2_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15 v2 t1 v69) >>= kk) Q := by
  rw [wp_bind]
  exact (sep_mono (rowLoop0 (F := F) d L v2 v69 t1 pe x0 x1 x2 x3) .rfl).trans (wp_wand_r frame _ _)

/-- The row loop followed by the rest of the body: from the fetched blocks, and the rest run from the blocks done. -/
theorem rowLoop1_bind {β : Type} (d : Dev nD) (L : grid0.Coords) (v2 v69 : BitVec 32) (t1 : Fin k0_t1_loop.trips) (pe x0 x1 x2 x3 : FVec F S16x768 .f32)
    (kk : BitVec 32 → Prog (TpuEff nD τ sig (Elt F) Λ₀ (.scVector (cV L) (jV L))) β) (Q : β → sProp 𝕄) :
    (iprop((((b1).view.loc (thrV d L) ↦{fullShare} pe) ∗ ((b6).view.loc (thrV d L) ↦{fullShare} x0) ∗ ((b7).view.loc (thrV d L) ↦{fullShare} x1) ∗ ((b8).view.loc (thrV d L) ↦{fullShare} x2) ∗ ((b9).view.loc (thrV d L) ↦{fullShare} x3))
        ∗ (∀ a : BitVec 32, (((b1).view.loc (thrV d L) ↦{fullShare} pe) ∗ ((b6).view.loc (thrV d L) ↦{fullShare} Gblk pe x0) ∗ ((b7).view.loc (thrV d L) ↦{fullShare} Gblk pe x1)
            ∗ ((b8).view.loc (thrV d L) ↦{fullShare} Gblk pe x2) ∗ ((b9).view.loc (thrV d L) ↦{fullShare} Gblk pe x3))
          -∗ wp frame (wpE (defs₀ (F := F)) 𝒱₀ (thrV d L) none) Set.univ (kk a) Q)) : sProp 𝕄)
      ⊢ wp frame (wpE (defs₀ (F := F)) 𝒱₀ (thrV d L) none) Set.univ
          (Scf.Loop.for k0_t3_loop k0_t3_ok 0#32 (k0_t3_body L xV (Memref.isWhole_whole _) pV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) b6 (Memref.isWhole_whole _) b7 (Memref.isWhole_whole _)
            b8 (Memref.isWhole_whole _) b9 (Memref.isWhole_whole _)
            cc0_scratch10 cc0_scratch11 cc0_scratch12 cc0_scratch13 cc0_scratch14 cc0_scratch15 v2 t1 v69) >>= kk) Q := by
  rw [wp_bind]
  exact (sep_mono (rowLoop1 (F := F) d L v2 v69 t1 pe x0 x1 x2 x3) .rfl).trans (wp_wand_r frame _ _)

end Cert.Kernel.Hand

end
-- ==== Proof.BlockValK.lean ====
/-
  The value of one written-out block. A tile computes, on chunk `k`'s block of batch entry `b` of the input and the
  table's block, the function `Gblk`, and copies the result into the same block of the result array. Entry `(r, c)` of
  the block sits at `(b, rowOf L k + r, c)` of the input and of the result, and at `(rowOf L k + r, c)` of the table,
  so what the copy leaves on the block is the result array `Gout` there.
-/
import proofs.«210086_g67980742361152_cont_9to1c4b_184_18_alg».proof.Proof.PiecesK
import Idealize.ShloMosaic.Lib.Writes
import Idealize.ShloMosaic.Lib.ValueLayout

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Where a block's entries sit -/

/-- An index `(r, c)` of a block, matched with the block as a `[1, 16, 768]` array, is `(0, r, c)`. -/
private theorem squeeze_idx (j : S16x768.Idx) :
    Shape.reshapeEquiv squeezes_S1x16x768_S16x768.numel_eq j = ValueIdx.ix3 (⟨0, Nat.one_pos⟩ : Fin 1) (j 0) (j 1) := by
  have h := ValueIdx.reshapeEquiv_ix2_1ab (a := 16) (b := 768) squeezes_S1x16x768_S16x768.numel_eq (j 0) (j 1)
  exact (congrArg (Shape.reshapeEquiv squeezes_S1x16x768_S16x768.numel_eq) (ValueIdx.eq_ix2 j)).trans h

variable (m : (ℓ : Loc nD τ sig) → Buf (Elt F) ℓ) (d : Dev nD) (L : grid0.Coords) (b : Fin 4) (k : Fin 16)

/-- The input's block and the result's block are the same entries of a `[4, 8192, 768]` array. -/
theorem xM_emb (j : S16x768.Idx) : ((xM L b k).view.emb j : S4x8192x768.Idx) = (oM L b k).view.emb j := rfl

/-- The table's block is read at the last two coordinates of the result's entry. -/
theorem pM_emb (j : S16x768.Idx) :
    ((pM L k).view.emb j : S8192x768.Idx)
      = ValueIdx.ix2 (((oM L b k).view.emb j : S4x8192x768.Idx) 1) (((oM L b k).view.emb j : S4x8192x768.Idx) 2) := by
  funext a
  match a with
  | ⟨0, _⟩ =>
    apply Fin.ext
    show rowOf L k + 1 * (j 0).val = rowOf L k + 1 * ((Shape.reshapeEquiv squeezes_S1x16x768_S16x768.numel_eq j) 1).val
    rw [squeeze_idx]
  | ⟨1, _⟩ =>
    apply Fin.ext
    show 0 + 1 * (j 1).val = 0 + 1 * ((Shape.reshapeEquiv squeezes_S1x16x768_S16x768.numel_eq j) 2).val
    rw [squeeze_idx]

/-! ## The block as written -/

variable [FloatOps F]

/-- On the block, the copy of `Gblk` of the fetched blocks leaves the result array. -/
theorem block_val (fo : Buf (Elt F) (oLoc d)) :
    ∀ i ∈ (oM L b k).view.set,
      ((oM L b k).view.writes (Elt F) fo [⟨Rect.whole S16x768, ReadAs.same.apply (Gblk ((pM L k).view.read (Elt F) (m (pLoc d))) ((xM L b k).view.read (Elt F) (m (xLoc d))))⟩]) i = Gout m d i := by
  intro i hi
  obtain ⟨j, -, rfl⟩ := Finset.mem_map.mp hi
  have hw := View.read_writes_cons_emb (oM L b k).view fo (Rect.whole S16x768) (ReadAs.same.apply (Gblk ((pM L k).view.read (Elt F) (m (pLoc d))) ((xM L b k).view.read (Elt F) (m (xLoc d))))) [] j
  rw [Rect.emb_whole_apply, View.read_apply, cast_eq] at hw
  rw [hw]
  show Gblk _ _ j = Gfun (m (xLoc d)) (m (pLoc d)) ((oM L b k).view.emb j)
  simp only [Gblk, Gfun, select, cmpf, addf, broadcast, View.read_apply, cast_eq]
  rw [xM_emb, pM_emb L b k]
  rfl

/-- So the block held at what the copy leaves is the block held at the result array. -/
theorem own_block_val (fo : Buf (Elt F) (oLoc d)) :
    (own d L (oM L b k) ((oM L b k).view.writes (Elt F) fo [⟨Rect.whole S16x768, ReadAs.same.apply (Gblk ((pM L k).view.read (Elt F) (m (pLoc d))) ((xM L b k).view.read (Elt F) (m (xLoc d))))⟩]) : sProp 𝕄)
      = own d L (oM L b k) (Gout m d) :=
  pointsTo_congr (block_val m d L b k fo)

end Cert.Kernel.Hand

end
-- ==== Proof.CloseK.lean ====
/-
  What is left when the tile's run ends. A result block written out from a buffer holds the block of the result
  array: the buffer held the done block of the fetched input block and table block, each fetched whole. And the
  waits a tile records are all on its own semaphores.
-/
import proofs.«210086_g67980742361152_cont_9to1c4b_184_18_alg».proof.Proof.TileSpecK
import proofs.«210086_g67980742361152_cont_9to1c4b_184_18_alg».proof.Proof.OwnK
import proofs.«210086_g67980742361152_cont_9to1c4b_184_18_alg».proof.Proof.SpellK
import proofs.«210086_g67980742361152_cont_9to1c4b_184_18_alg».proof.Proof.GlueK
import proofs.«210086_g67980742361152_cont_9to1c4b_184_18_alg».proof.Proof.BlockValK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

variable [FloatOps F]

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide), SparseCore.bigSep_insert' (by decide), bigSep_singleton]
omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem trips1 : k0_t1_loop.trips = 8 := by decide
theorem lt_trips (n : ℕ) (h : n < 8) : n < k0_t1_loop.trips := by rw [trips1]; exact h
/-- Trip `n` of the chunk-pair loop. -/
abbrev Tr (n : ℕ) (h : n < 8 := by decide) : Fin k0_t1_loop.trips := ⟨n, lt_trips n h⟩
/-- Every trip fetches its second chunk; every trip but the last fetches the next trip's first. -/
theorem cond2_all : ∀ t : Fin k0_t1_loop.trips, k0_cond2 t = 1#1 := by decide +kernel
theorem cond3_all : ∀ t : Fin k0_t1_loop.trips, k0_cond3 t = 1#1 := by decide +kernel
theorem cond5_of : ∀ t : Fin k0_t1_loop.trips, t.val + 1 < 8 → k0_cond5 t = 1#1 := by decide +kernel
theorem cond6_of : ∀ t : Fin k0_t1_loop.trips, t.val + 1 < 8 → k0_cond6 t = 1#1 := by decide +kernel

/-- The blocks as the body slices them, at any offsets. -/
abbrev xSp (o : Fin 3 → ℕ) (hb : ∀ a, o a + S1x16x768.size a ≤ S4x8192x768.size a) : Memref sig .scVector .hbm S16x768 .f32 :=
  ((xV).slice (Rect.unit o S1x16x768.size hb) (fun _ => rfl)).squeeze S16x768 squeezes_S1x16x768_S16x768
abbrev oSp (o : Fin 3 → ℕ) (hb : ∀ a, o a + S1x16x768.size a ≤ S4x8192x768.size a) : Memref sig .scVector .hbm S16x768 .f32 :=
  ((oV).slice (Rect.unit o S1x16x768.size hb) (fun _ => rfl)).squeeze S16x768 squeezes_S1x16x768_S16x768
abbrev pSp (o : Fin 2 → ℕ) (hb : ∀ a, o a + S16x768.size a ≤ S8192x768.size a) : Memref sig .scVector .hbm S16x768 .f32 :=
  (pV).slice (Rect.unit o S16x768.size hb) (fun _ => rfl)

omit [FloatOps F] in
/-- One more wait on a semaphore of the tile's own keeps the recorded waits of the allowed kind. -/
theorem ins_ok {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

variable [∀ e, Nonempty (Elt F e)]

/-! ## A block fetched whole into a buffer is the block -/

omit [FloatOps F] in
theorem land_b0 (d : Dev nD) (L : grid0.Coords) (f w : Buf (Elt F) ((thrV d L).loc cc0_scratch0)) :
    ((b0).view.loc (thrV d L) ↦{fullShare} View.write (Elt F) (b0).view f w Finset.univ : sProp 𝕄) = ((b0).view.loc (thrV d L) ↦{fullShare} w) := by
  rw [show View.write (Elt F) (b0).view f w Finset.univ = w from View.write_whole_univ cc0_scratch0 f w]

omit [FloatOps F] in
theorem land_b1 (d : Dev nD) (L : grid0.Coords) (f w : Buf (Elt F) ((thrV d L).loc cc0_scratch1)) :
    ((b1).view.loc (thrV d L) ↦{fullShare} View.write (Elt F) (b1).view f w Finset.univ : sProp 𝕄) = ((b1).view.loc (thrV d L) ↦{fullShare} w) := by
  rw [show View.write (Elt F) (b1).view f w Finset.univ = w from View.write_whole_univ cc0_scratch1 f w]

omit [FloatOps F] in
theorem land_b2 (d : Dev nD) (L : grid0.Coords) (f w : Buf (Elt F) ((thrV d L).loc cc0_scratch2)) :
    ((b2).view.loc (thrV d L) ↦{fullShare} View.write (Elt F) (b2).view f w Finset.univ : sProp 𝕄) = ((b2).view.loc (thrV d L) ↦{fullShare} w) := by
  rw [show View.write (Elt F) (b2).view f w Finset.univ = w from View.write_whole_univ cc0_scratch2 f w]

omit [FloatOps F] in
theorem land_b3 (d : Dev nD) (L : grid0.Coords) (f w : Buf (Elt F) ((thrV d L).loc cc0_scratch3)) :
    ((b3).view.loc (thrV d L) ↦{fullShare} View.write (Elt F) (b3).view f w Finset.univ : sProp 𝕄) = ((b3).view.loc (thrV d L) ↦{fullShare} w) := by
  rw [show View.write (Elt F) (b3).view f w Finset.univ = w from View.write_whole_univ cc0_scratch3 f w]

omit [FloatOps F] in
theorem land_b4 (d : Dev nD) (L : grid0.Coords) (f w : Buf (Elt F) ((thrV d L).loc cc0_scratch4)) :
    ((b4).view.loc (thrV d L) ↦{fullShare} View.write (Elt F) (b4).view f w Finset.univ : sProp 𝕄) = ((b4).view.loc (thrV d L) ↦{fullShare} w) := by
  rw [show View.write (Elt F) (b4).view f w Finset.univ = w from View.write_whole_univ cc0_scratch4 f w]

omit [FloatOps F] in
theorem land_b5 (d : Dev nD) (L : grid0.Coords) (f w : Buf (Elt F) ((thrV d L).loc cc0_scratch5)) :
    ((b5).view.loc (thrV d L) ↦{fullShare} View.write (Elt F) (b5).view f w Finset.univ : sProp 𝕄) = ((b5).view.loc (thrV d L) ↦{fullShare} w) := by
  rw [show View.write (Elt F) (b5).view f w Finset.univ = w from View.write_whole_univ cc0_scratch5 f w]

omit [FloatOps F] in
theorem land_b6 (d : Dev nD) (L : grid0.Coords) (f w : Buf (Elt F) ((thrV d L).loc cc0_scratch6)) :
    ((b6).view.loc (thrV d L) ↦{fullShare} View.write (Elt F) (b6).view f w Finset.univ : sProp 𝕄) = ((b6).view.loc (thrV d L) ↦{fullShare} w) := by
  rw [show View.write (Elt F) (b6).view f w Finset.univ = w from View.write_whole_univ cc0_scratch6 f w]

omit [FloatOps F] in
theorem land_b7 (d : Dev nD) (L : grid0.Coords) (f w : Buf (Elt F) ((thrV d L).loc cc0_scratch7)) :
    ((b7).view.loc (thrV d L) ↦{fullShare} View.write (Elt F) (b7).view f w Finset.univ : sProp 𝕄) = ((b7).view.loc (thrV d L) ↦{fullShare} w) := by
  rw [show View.write (Elt F) (b7).view f w Finset.univ = w from View.write_whole_univ cc0_scratch7 f w]

omit [FloatOps F] in
theorem land_b8 (d : Dev nD) (L : grid0.Coords) (f w : Buf (Elt F) ((thrV d L).loc cc0_scratch8)) :
    ((b8).view.loc (thrV d L) ↦{fullShare} View.write (Elt F) (b8).view f w Finset.univ : sProp 𝕄) = ((b8).view.loc (thrV d L) ↦{fullShare} w) := by
  rw [show View.write (Elt F) (b8).view f w Finset.univ = w from View.write_whole_univ cc0_scratch8 f w]

omit [FloatOps F] in
theorem land_b9 (d : Dev nD) (L : grid0.Coords) (f w : Buf (Elt F) ((thrV d L).loc cc0_scratch9)) :
    ((b9).view.loc (thrV d L) ↦{fullShare} View.write (Elt F) (b9).view f w Finset.univ : sProp 𝕄) = ((b9).view.loc (thrV d L) ↦{fullShare} w) := by
  rw [show View.write (Elt F) (b9).view f w Finset.univ = w from View.write_whole_univ cc0_scratch9 f w]

/-! ## A result block written out -/

/-- A result block written whole — over whatever it held — with the done block of the fetched table block and input block — the three blocks
    named by offsets that are chunk `k`'s, batch entry `b`'s — holds the result array's entries. -/
theorem own_block_off (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (w : S16x768.Idx → Elt F .f32)
    (hw : w = ReadAs.same.apply (Gblk (View.read (Elt F) (pSp op hbp).view (m (pLoc d))) (View.read (Elt F) (xSp ox hbx).view (m (xLoc d)))))
    (fo : Buf (Elt F) (oLoc d)) :
    (own d L (oSp oo hbo) ((oSp oo hbo).view.writes (Elt F) fo [⟨Rect.whole S16x768, w⟩]) : sProp 𝕄)
      = own d L (oM L b k) (Gout m d) := by
  subst hx hp ho hw
  exact own_block_val m d L b k fo

/-- The same with the written block spelt out: what was read back from the buffer of the done block. -/
theorem own_block_fin_b2 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b2).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b3 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b3).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b4 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b4).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b5 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b5).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b6 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b6).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b7 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b7).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b8 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b8).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

theorem own_block_fin_b9 (m : (ℓ : Loc nD τ sig) → Buf (Elt F) ℓ) (d : Dev nD) (L : grid0.Coords) (b : Fin 4) (k : Fin 16)
    (ox : Fin 3 → ℕ) (hbx : ∀ a, ox a + S1x16x768.size a ≤ S4x8192x768.size a)
    (op : Fin 2 → ℕ) (hbp : ∀ a, op a + S16x768.size a ≤ S8192x768.size a)
    (oo : Fin 3 → ℕ) (hbo : ∀ a, oo a + S1x16x768.size a ≤ S4x8192x768.size a)
    (hx : ox = ![b.val, rowOf L k, 0]) (hp : op = ![rowOf L k, 0]) (ho : oo = ![b.val, rowOf L k, 0])
    (fo : Buf (Elt F) (oLoc d)) :
    (own d L (oSp oo hbo) ((oSp oo hbo).view.writes (Elt F) fo
      [⟨Rect.whole S16x768, ReadAs.same.apply (View.read (Elt F) (b9).view
        (Gblk (ReadAs.same.apply (View.read (Elt F) (pSp op hbp).view (m (pLoc d))))
          (ReadAs.same.apply (View.read (Elt F) (xSp ox hbx).view (m (xLoc d))))))⟩]) : sProp 𝕄)
      = own d L (oM L b k) (Gout m d) :=
  own_block_off m d L b k ox hbx op hbp oo hbo hx hp ho _ rfl fo

end Cert.Kernel.Hand

end
-- ==== Proof.TileBodyK.lean ====
/-
  One tile's run. The tile fetches its sixteen chunks in turn — the table's block and the four batch entries' blocks
  of the input — into two sets of buffers used alternately, works each fetched chunk row by row, and writes the four
  done blocks out to the result; a chunk's fetches are started while the chunk before it is worked on, and its
  write-outs are waited for before its buffers are fetched into again. Every transfer names its block by offsets the
  body computes; each is the block of one chunk, so the tile holds, at every moment, exactly the blocks no transfer
  in flight has been lent. At the end every block of the input and of the table is back unchanged, and every block of
  the result holds the result array's entries.
-/
import proofs.«210086_g67980742361152_cont_9to1c4b_184_18_alg».proof.Proof.CloseK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Tactic
local notation "𝕄" => MT nD τ sig (HIx 1) (Elt F) ℕ UU ℕ

variable [FloatOps F] [∀ e, Nonempty (Elt F e)]

set_option maxHeartbeats 8000000 in
/-- The tile at any grid coordinates: the launch theorem's obligation for the kernel's one task. -/
theorem tile_body (m : (ℓ : Loc nD τ sig) → Buf (Elt F) ℓ) : TileRun (F := F) m := by
  intro d L O W hO
  -- four transfers share each of the four load and store semaphores
  have p12 : Transfers.BatchOf (thrV d L) (SemLoc.dma (sig := sig) cc0_scratch12.sem) 4 := trivial
  have p13 : Transfers.BatchOf (thrV d L) (SemLoc.dma (sig := sig) cc0_scratch13.sem) 4 := trivial
  have p14 : Transfers.BatchOf (thrV d L) (SemLoc.dma (sig := sig) cc0_scratch14.sem) 4 := trivial
  have p15 : Transfers.BatchOf (thrV d L) (SemLoc.dma (sig := sig) cc0_scratch15.sem) 4 := trivial
  rw [scopedBufs_open d L facts, scopedSems0_open d L]
  simp only [cc0__sc_kernel_body_eq_skeleton]; unfold cc0__sc_kernel_body_skel
  unfold tilePre
  rw [bigSep_fin16]
  unfold chunkPre
  simp only [bigSep_fin4]
  iintro ⟨#Hlv, -, ⟨⟨⟨HX_0_0, HX_0_1, HX_0_2, HX_0_3⟩, HP_0, ⟨HO_0_0, HO_0_1, HO_0_2, HO_0_3⟩⟩, ⟨⟨HX_1_0, HX_1_1, HX_1_2, HX_1_3⟩, HP_1, ⟨HO_1_0, HO_1_1, HO_1_2, HO_1_3⟩⟩, ⟨⟨HX_2_0, HX_2_1, HX_2_2, HX_2_3⟩, HP_2, ⟨HO_2_0, HO_2_1, HO_2_2, HO_2_3⟩⟩, ⟨⟨HX_3_0, HX_3_1, HX_3_2, HX_3_3⟩, HP_3, ⟨HO_3_0, HO_3_1, HO_3_2, HO_3_3⟩⟩, ⟨⟨HX_4_0, HX_4_1, HX_4_2, HX_4_3⟩, HP_4, ⟨HO_4_0, HO_4_1, HO_4_2, HO_4_3⟩⟩, ⟨⟨HX_5_0, HX_5_1, HX_5_2, HX_5_3⟩, HP_5, ⟨HO_5_0, HO_5_1, HO_5_2, HO_5_3⟩⟩, ⟨⟨HX_6_0, HX_6_1, HX_6_2, HX_6_3⟩, HP_6, ⟨HO_6_0, HO_6_1, HO_6_2, HO_6_3⟩⟩, ⟨⟨HX_7_0, HX_7_1, HX_7_2, HX_7_3⟩, HP_7, ⟨HO_7_0, HO_7_1, HO_7_2, HO_7_3⟩⟩, ⟨⟨HX_8_0, HX_8_1, HX_8_2, HX_8_3⟩, HP_8, ⟨HO_8_0, HO_8_1, HO_8_2, HO_8_3⟩⟩, ⟨⟨HX_9_0, HX_9_1, HX_9_2, HX_9_3⟩, HP_9, ⟨HO_9_0, HO_9_1, HO_9_2, HO_9_3⟩⟩, ⟨⟨HX_10_0, HX_10_1, HX_10_2, HX_10_3⟩, HP_10, ⟨HO_10_0, HO_10_1, HO_10_2, HO_10_3⟩⟩, ⟨⟨HX_11_0, HX_11_1, HX_11_2, HX_11_3⟩, HP_11, ⟨HO_11_0, HO_11_1, HO_11_2, HO_11_3⟩⟩, ⟨⟨HX_12_0, HX_12_1, HX_12_2, HX_12_3⟩, HP_12, ⟨HO_12_0, HO_12_1, HO_12_2, HO_12_3⟩⟩, ⟨⟨HX_13_0, HX_13_1, HX_13_2, HX_13_3⟩, HP_13, ⟨HO_13_0, HO_13_1, HO_13_2, HO_13_3⟩⟩, ⟨⟨HX_14_0, HX_14_1, HX_14_2, HX_14_3⟩, HP_14, ⟨HO_14_0, HO_14_1, HO_14_2, HO_14_3⟩⟩, ⟨⟨HX_15_0, HX_15_1, HX_15_2, HX_15_3⟩, HP_15, ⟨HO_15_0, HO_15_1, HO_15_2, HO_15_3⟩⟩⟩, ⟨⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, ⟨%fb8, Hb8⟩, ⟨%fb9, Hb9⟩, Hbufs⟩, ⟨Hs10, Hs11, Hs12, Hs13, Hs14, Hs15, Hsems⟩, HO⟩
  ihave Hmw := ((K (F := F)).mayWaits_none (thr := thrV d L) hO) $$ Hlv
  -- every block, named as the body slices it
  ihave HX_0_0 := (Entails.of_eq (own_x_of_off (F := F) d L (0 : Fin 4) (0 : Fin 16) (k0_off2 L 0#32) (k0_off2_inb L 0) (off2_c L) (m (xLoc d))).symm) $$ HX_0_0
  ihave HX_0_1 := (Entails.of_eq (own_x_of_off (F := F) d L (1 : Fin 4) (0 : Fin 16) (k0_off3 L 0#32) (k0_off3_inb L 0) (off3_c L) (m (xLoc d))).symm) $$ HX_0_1
  ihave HX_0_2 := (Entails.of_eq (own_x_of_off (F := F) d L (2 : Fin 4) (0 : Fin 16) (k0_off4 L 0#32) (k0_off4_inb L 0) (off4_c L) (m (xLoc d))).symm) $$ HX_0_2
  ihave HX_0_3 := (Entails.of_eq (own_x_of_off (F := F) d L (3 : Fin 4) (0 : Fin 16) (k0_off5 L 0#32) (k0_off5_inb L 0) (off5_c L) (m (xLoc d))).symm) $$ HX_0_3
  ihave HP_0 := (Entails.of_eq (own_p_of_off (F := F) d L (0 : Fin 16) (k0_off1 L) (k0_off1_inb L) (off1_c L) (m (pLoc d))).symm) $$ HP_0
  ihave HO_0_0 := (Entails.of_eq (own_o_of_off (F := F) d L (0 : Fin 4) (0 : Fin 16) (k0_off16 L (Tr 0) 0#32) (k0_off16_inb L (Tr 0) 0) (off16_c0 L (Tr 0)) (m (oLoc d))).symm) $$ HO_0_0
  ihave HO_0_1 := (Entails.of_eq (own_o_of_off (F := F) d L (1 : Fin 4) (0 : Fin 16) (k0_off17 L (Tr 0) 0#32) (k0_off17_inb L (Tr 0) 0) (off17_c0 L (Tr 0)) (m (oLoc d))).symm) $$ HO_0_1
  ihave HO_0_2 := (Entails.of_eq (own_o_of_off (F := F) d L (2 : Fin 4) (0 : Fin 16) (k0_off18 L (Tr 0) 0#32) (k0_off18_inb L (Tr 0) 0) (off18_c0 L (Tr 0)) (m (oLoc d))).symm) $$ HO_0_2
  ihave HO_0_3 := (Entails.of_eq (own_o_of_off (F := F) d L (3 : Fin 4) (0 : Fin 16) (k0_off19 L (Tr 0) 0#32) (k0_off19_inb L (Tr 0) 0) (off19_c0 L (Tr 0)) (m (oLoc d))).symm) $$ HO_0_3
  ihave HX_1_0 := (Entails.of_eq (own_x_of_off (F := F) d L (0 : Fin 4) (1 : Fin 16) (k0_off10 L (Tr 0)) (k0_off10_inb L (Tr 0) (cond2_all _)) (off10_c L (Tr 0)) (m (xLoc d))).symm) $$ HX_1_0
  ihave HX_1_1 := (Entails.of_eq (own_x_of_off (F := F) d L (1 : Fin 4) (1 : Fin 16) (k0_off11 L (Tr 0)) (k0_off11_inb L (Tr 0) (cond2_all _)) (off11_c L (Tr 0)) (m (xLoc d))).symm) $$ HX_1_1
  ihave HX_1_2 := (Entails.of_eq (own_x_of_off (F := F) d L (2 : Fin 4) (1 : Fin 16) (k0_off12 L (Tr 0)) (k0_off12_inb L (Tr 0) (cond2_all _)) (off12_c L (Tr 0)) (m (xLoc d))).symm) $$ HX_1_2
  ihave HX_1_3 := (Entails.of_eq (own_x_of_off (F := F) d L (3 : Fin 4) (1 : Fin 16) (k0_off13 L (Tr 0)) (k0_off13_inb L (Tr 0) (cond2_all _)) (off13_c L (Tr 0)) (m (xLoc d))).symm) $$ HX_1_3
  ihave HP_1 := (Entails.of_eq (own_p_of_off (F := F) d L (1 : Fin 16) (k0_off15 L (Tr 0)) (k0_off15_inb L (Tr 0) (cond3_all _)) (off15_c L (Tr 0)) (m (pLoc d))).symm) $$ HP_1
  ihave HO_1_0 := (Entails.of_eq (own_o_of_off (F := F) d L (0 : Fin 4) (1 : Fin 16) (k0_off16 L (Tr 0) 1#32) (k0_off16_inb L (Tr 0) 1) (off16_c1 L (Tr 0)) (m (oLoc d))).symm) $$ HO_1_0
  ihave HO_1_1 := (Entails.of_eq (own_o_of_off (F := F) d L (1 : Fin 4) (1 : Fin 16) (k0_off17 L (Tr 0) 1#32) (k0_off17_inb L (Tr 0) 1) (off17_c1 L (Tr 0)) (m (oLoc d))).symm) $$ HO_1_1
  ihave HO_1_2 := (Entails.of_eq (own_o_of_off (F := F) d L (2 : Fin 4) (1 : Fin 16) (k0_off18 L (Tr 0) 1#32) (k0_off18_inb L (Tr 0) 1) (off18_c1 L (Tr 0)) (m (oLoc d))).symm) $$ HO_1_2
  ihave HO_1_3 := (Entails.of_eq (own_o_of_off (F := F) d L (3 : Fin 4) (1 : Fin 16) (k0_off19 L (Tr 0) 1#32) (k0_off19_inb L (Tr 0) 1) (off19_c1 L (Tr 0)) (m (oLoc d))).symm) $$ HO_1_3
  ihave HX_2_0 := (Entails.of_eq (own_x_of_off (F := F) d L (0 : Fin 4) (2 : Fin 16) (k0_off72 L (Tr 0)) (k0_off72_inb L (Tr 0) (cond5_of _ (by decide))) (off72_c L (Tr 0) (by decide)) (m (xLoc d))).symm) $$ HX_2_0
  ihave HX_2_1 := (Entails.of_eq (own_x_of_off (F := F) d L (1 : Fin 4) (2 : Fin 16) (k0_off73 L (Tr 0)) (k0_off73_inb L (Tr 0) (cond5_of _ (by decide))) (off73_c L (Tr 0) (by decide)) (m (xLoc d))).symm) $$ HX_2_1
  ihave HX_2_2 := (Entails.of_eq (own_x_of_off (F := F) d L (2 : Fin 4) (2 : Fin 16) (k0_off74 L (Tr 0)) (k0_off74_inb L (Tr 0) (cond5_of _ (by decide))) (off74_c L (Tr 0) (by decide)) (m (xLoc d))).symm) $$ HX_2_2
  ihave HX_2_3 := (Entails.of_eq (own_x_of_off (F := F) d L (3 : Fin 4) (2 : Fin 16) (k0_off75 L (Tr 0)) (k0_off75_inb L (Tr 0) (cond5_of _ (by decide))) (off75_c L (Tr 0) (by decide)) (m (xLoc d))).symm) $$ HX_2_3
  ihave HP_2 := (Entails.of_eq (own_p_of_off (F := F) d L (2 : Fin 16) (k0_off76 L (Tr 0)) (k0_off76_inb L (Tr 0) (cond6_of _ (by decide))) (off76_c L (Tr 0) (by decide)) (m (pLoc d))).symm) $$ HP_2
  ihave HO_2_0 := (Entails.of_eq (own_o_of_off (F := F) d L (0 : Fin 4) (2 : Fin 16) (k0_off16 L (Tr 1) 0#32) (k0_off16_inb L (Tr 1) 0) (off16_c0 L (Tr 1)) (m (oLoc d))).symm) $$ HO_2_0
  ihave HO_2_1 := (Entails.of_eq (own_o_of_off (F := F) d L (1 : Fin 4) (2 : Fin 16) (k0_off17 L (Tr 1) 0#32) (k0_off17_inb L (Tr 1) 0) (off17_c0 L (Tr 1)) (m (oLoc d))).symm) $$ HO_2_1
  ihave HO_2_2 := (Entails.of_eq (own_o_of_off (F := F) d L (2 : Fin 4) (2 : Fin 16) (k0_off18 L (Tr 1) 0#32) (k0_off18_inb L (Tr 1) 0) (off18_c0 L (Tr 1)) (m (oLoc d))).symm) $$ HO_2_2
  ihave HO_2_3 := (Entails.of_eq (own_o_of_off (F := F) d L (3 : Fin 4) (2 : Fin 16) (k0_off19 L (Tr 1) 0#32) (k0_off19_inb L (Tr 1) 0) (off19_c0 L (Tr 1)) (m (oLoc d))).symm) $$ HO_2_3
  ihave HX_3_0 := (Entails.of_eq (own_x_of_off (F := F) d L (0 : Fin 4) (3 : Fin 16) (k0_off10 L (Tr 1)) (k0_off10_inb L (Tr 1) (cond2_all _)) (off10_c L (Tr 1)) (m (xLoc d))).symm) $$ HX_3_0
  ihave HX_3_1 := (Entails.of_eq (own_x_of_off (F := F) d L (1 : Fin 4) (3 : Fin 16) (k0_off11 L (Tr 1)) (k0_off11_inb L (Tr 1) (cond2_all _)) (off11_c L (Tr 1)) (m (xLoc d))).symm) $$ HX_3_1
  ihave HX_3_2 := (Entails.of_eq (own_x_of_off (F := F) d L (2 : Fin 4) (3 : Fin 16) (k0_off12 L (Tr 1)) (k0_off12_inb L (Tr 1) (cond2_all _)) (off12_c L (Tr 1)) (m (xLoc d))).symm) $$ HX_3_2
  ihave HX_3_3 := (Entails.of_eq (own_x_of_off (F := F) d L (3 : Fin 4) (3 : Fin 16) (k0_off13 L (Tr 1)) (k0_off13_inb L (Tr 1) (cond2_all _)) (off13_c L (Tr 1)) (m (xLoc d))).symm) $$ HX_3_3
  ihave HP_3 := (Entails.of_eq (own_p_of_off (F := F) d L (3 : Fin 16) (k0_off15 L (Tr 1)) (k0_off15_inb L (Tr 1) (cond3_all _)) (off15_c L (Tr 1)) (m (pLoc d))).symm) $$ HP_3
  ihave HO_3_0 := (Entails.of_eq (own_o_of_off (F := F) d L (0 : Fin 4) (3 : Fin 16) (k0_off16 L (Tr 1) 1#32) (k0_off16_inb L (Tr 1) 1) (off16_c1 L (Tr 1)) (m (oLoc d))).symm) $$ HO_3_0
  ihave HO_3_1 := (Entails.of_eq (own_o_of_off (F := F) d L (1 : Fin 4) (3 : Fin 16) (k0_off17 L (Tr 1) 1#32) (k0_off17_inb L (Tr 1) 1) (off17_c1 L (Tr 1)) (m (oLoc d))).symm) $$ HO_3_1
  ihave HO_3_2 := (Entails.of_eq (own_o_of_off (F := F) d L (2 : Fin 4) (3 : Fin 16) (k0_off18 L (Tr 1) 1#32) (k0_off18_inb L (Tr 1) 1) (off18_c1 L (Tr 1)) (m (oLoc d))).symm) $$ HO_3_2
  ihave HO_3_3 := (Entails.of_eq (own_o_of_off (F := F) d L (3 : Fin 4) (3 : Fin 16) (k0_off19 L (Tr 1) 1#32) (k0_off19_inb L (Tr 1) 1) (off19_c1 L (Tr 1)) (m (oLoc d))).symm) $$ HO_3_3
  ihave HX_4_0 := (Entails.of_eq (own_x_of_off (F := F) d L (0 : Fin 4) (4 : Fin 16) (k0_off72 L (Tr 1)) (k0_off72_inb L (Tr 1) (cond5_of _ (by decide))) (off72_c L (Tr 1) (by decide)) (m (xLoc d))).symm) $$ HX_4_0
  ihave HX_4_1 := (Entails.of_eq (own_x_of_off (F := F) d L (1 : Fin 4) (4 : Fin 16) (k0_off73 L (Tr 1)) (k0_off73_inb L (Tr 1) (cond5_of _ (by decide))) (off73_c L (Tr 1) (by decide)) (m (xLoc d))).symm) $$ HX_4_1
  ihave HX_4_2 := (Entails.of_eq (own_x_of_off (F := F) d L (2 : Fin 4) (4 : Fin 16) (k0_off74 L (Tr 1)) (k0_off74_inb L (Tr 1) (cond5_of _ (by decide))) (off74_c L (Tr 1) (by decide)) (m (xLoc d))).symm) $$ HX_4_2
  ihave HX_4_3 := (Entails.of_eq (own_x_of_off (F := F) d L (3 : Fin 4) (4 : Fin 16) (k0_off75 L (Tr 1)) (k0_off75_inb L (Tr 1) (cond5_of _ (by decide))) (off75_c L (Tr 1) (by decide)) (m (xLoc d))).symm) $$ HX_4_3
  ihave HP_4 := (Entails.of_eq (own_p_of_off (F := F) d L (4 : Fin 16) (k0_off76 L (Tr 1)) (k0_off76_inb L (Tr 1) (cond6_of _ (by decide))) (off76_c L (Tr 1) (by decide)) (m (pLoc d))).symm) $$ HP_4
  ihave HO_4_0 := (Entails.of_eq (own_o_of_off (F := F) d L (0 : Fin 4) (4 : Fin 16) (k0_off16 L (Tr 2) 0#32) (k0_off16_inb L (Tr 2) 0) (off16_c0 L (Tr 2)) (m (oLoc d))).symm) $$ HO_4_0
  ihave HO_4_1 := (Entails.of_eq (own_o_of_off (F := F) d L (1 : Fin 4) (4 : Fin 16) (k0_off17 L (Tr 2) 0#32) (k0_off17_inb L (Tr 2) 0) (off17_c0 L (Tr 2)) (m (oLoc d))).symm) $$ HO_4_1
  ihave HO_4_2 := (Entails.of_eq (own_o_of_off (F := F) d L (2 : Fin 4) (4 : Fin 16) (k0_off18 L (Tr 2) 0#32) (k0_off18_inb L (Tr 2) 0) (off18_c0 L (Tr 2)) (m (oLoc d))).symm) $$ HO_4_2
  ihave HO_4_3 := (Entails.of_eq (own_o_of_off (F := F) d L (3 : Fin 4) (4 : Fin 16) (k0_off19 L (Tr 2) 0#32) (k0_off19_inb L (Tr 2) 0) (off19_c0 L (Tr 2)) (m (oLoc d))).symm) $$ HO_4_3
  ihave HX_5_0 := (Entails.of_eq (own_x_of_off (F := F) d L (0 : Fin 4) (5 : Fin 16) (k0_off10 L (Tr 2)) (k0_off10_inb L (Tr 2) (cond2_all _)) (off10_c L (Tr 2)) (m (xLoc d))).symm) $$ HX_5_0
  ihave HX_5_1 := (Entails.of_eq (own_x_of_off (F := F) d L (1 : Fin 4) (5 : Fin 16) (k0_off11 L (Tr 2)) (k0_off11_inb L (Tr 2) (cond2_all _)) (off11_c L (Tr 2)) (m (xLoc d))).symm) $$ HX_5_1
  ihave HX_5_2 := (Entails.of_eq (own_x_of_off (F := F) d L (2 : Fin 4) (5 : Fin 16) (k0_off12 L (Tr 2)) (k0_off12_inb L (Tr 2) (cond2_all _)) (off12_c L (Tr 2)) (m (xLoc d))).symm) $$ HX_5_2
  ihave HX_5_3 := (Entails.of_eq (own_x_of_off (F := F) d L (3 : Fin 4) (5 : Fin 16) (k0_off13 L (Tr 2)) (k0_off13_inb L (Tr 2) (cond2_all _)) (off13_c L (Tr 2)) (m (xLoc d))).symm) $$ HX_5_3
  ihave HP_5 := (Entails.of_eq (own_p_of_off (F := F) d L (5 : Fin 16) (k0_off15 L (Tr 2)) (k0_off15_inb L (Tr 2) (cond3_all _)) (off15_c L (Tr 2)) (m (pLoc d))).symm) $$ HP_5
  ihave HO_5_0 := (Entails.of_eq (own_o_of_off (F := F) d L (0 : Fin 4) (5 : Fin 16) (k0_off16 L (Tr 2) 1#32) (k0_off16_inb L (Tr 2) 1) (off16_c1 L (Tr 2)) (m (oLoc d))).symm) $$ HO_5_0
  ihave HO_5_1 := (Entails.of_eq (own_o_of_off (F := F) d L (1 : Fin 4) (5 : Fin 16) (k0_off17 L (Tr 2) 1#32) (k0_off17_inb L (Tr 2) 1) (off17_c1 L (Tr 2)) (m (oLoc d))).symm) $$ HO_5_1
  ihave HO_5_2 := (Entails.of_eq (own_o_of_off (F := F) d L (2 : Fin 4) (5 : Fin 16) (k0_off18 L (Tr 2) 1#32) (k0_off18_inb L (Tr 2) 1) (off18_c1 L (Tr 2)) (m (oLoc d))).symm) $$ HO_5_2
  ihave HO_5_3 := (Entails.of_eq (own_o_of_off (F := F) d L (3 : Fin 4) (5 : Fin 16) (k0_off19 L (Tr 2) 1#32) (k0_off19_inb L (Tr 2) 1) (off19_c1 L (Tr 2)) (m (oLoc d))).symm) $$ HO_5_3
  ihave HX_6_0 := (Entails.of_eq (own_x_of_off (F := F) d L (0 : Fin 4) (6 : Fin 16) (k0_off72 L (Tr 2)) (k0_off72_inb L (Tr 2) (cond5_of _ (by decide))) (off72_c L (Tr 2) (by decide)) (m (xLoc d))).symm) $$ HX_6_0
  ihave HX_6_1 := (Entails.of_eq (own_x_of_off (F := F) d L (1 : Fin 4) (6 : Fin 16) (k0_off73 L (Tr 2)) (k0_off73_inb L (Tr 2) (cond5_of _ (by decide))) (off73_c L (Tr 2) (by decide)) (m (xLoc d))).symm) $$ HX_6_1
  ihave HX_6_2 := (Entails.of_eq (own_x_of_off (F := F) d L (2 : Fin 4) (6 : Fin 16) (k0_off74 L (Tr 2)) (k0_off74_inb L (Tr 2) (cond5_of _ (by decide))) (off74_c L (Tr 2) (by decide)) (m (xLoc d))).symm) $$ HX_6_2
  ihave HX_6_3 := (Entails.of_eq (own_x_of_off (F := F) d L (3 : Fin 4) (6 : Fin 16) (k0_off75 L (Tr 2)) (k0_off75_inb L (Tr 2) (cond5_of _ (by decide))) (off75_c L (Tr 2) (by decide)) (m (xLoc d))).symm) $$ HX_6_3
  ihave HP_6 := (Entails.of_eq (own_p_of_off (F := F) d L (6 : Fin 16) (k0_off76 L (Tr 2)) (k0_off76_inb L (Tr 2) (cond6_of _ (by decide))) (off76_c L (Tr 2) (by decide)) (m (pLoc d))).symm) $$ HP_6
  ihave HO_6_0 := (Entails.of_eq (own_o_of_off (F := F) d L (0 : Fin 4) (6 : Fin 16) (k0_off16 L (Tr 3) 0#32) (k0_off16_inb L (Tr 3) 0) (off16_c0 L (Tr 3)) (m (oLoc d))).symm) $$ HO_6_0
  ihave HO_6_1 := (Entails.of_eq (own_o_of_off (F := F) d L (1 : Fin 4) (6 : Fin 16) (k0_off17 L (Tr 3) 0#32) (k0_off17_inb L (Tr 3) 0) (off17_c0 L (Tr 3)) (m (oLoc d))).symm) $$ HO_6_1
  ihave HO_6_2 := (Entails.of_eq (own_o_of_off (F := F) d L (2 : Fin 4) (6 : Fin 16) (k0_off18 L (Tr 3) 0#32) (k0_off18_inb L (Tr 3) 0) (off18_c0 L (Tr 3)) (m (oLoc d))).symm) $$ HO_6_2
  ihave HO_6_3 := (Entails.of_eq (own_o_of_off (F := F) d L (3 : Fin 4) (6 : Fin 16) (k0_off19 L (Tr 3) 0#32) (k0_off19_inb L (Tr 3) 0) (off19_c0 L (Tr 3)) (m (oLoc d))).symm) $$ HO_6_3
  ihave HX_7_0 := (Entails.of_eq (own_x_of_off (F := F) d L (0 : Fin 4) (7 : Fin 16) (k0_off10 L (Tr 3)) (k0_off10_inb L (Tr 3) (cond2_all _)) (off10_c L (Tr 3)) (m (xLoc d))).symm) $$ HX_7_0
  ihave HX_7_1 := (Entails.of_eq (own_x_of_off (F := F) d L (1 : Fin 4) (7 : Fin 16) (k0_off11 L (Tr 3)) (k0_off11_inb L (Tr 3) (cond2_all _)) (off11_c L (Tr 3)) (m (xLoc d))).symm) $$ HX_7_1
  ihave HX_7_2 := (Entails.of_eq (own_x_of_off (F := F) d L (2 : Fin 4) (7 : Fin 16) (k0_off12 L (Tr 3)) (k0_off12_inb L (Tr 3) (cond2_all _)) (off12_c L (Tr 3)) (m (xLoc d))).symm) $$ HX_7_2
  ihave HX_7_3 := (Entails.of_eq (own_x_of_off (F := F) d L (3 : Fin 4) (7 : Fin 16) (k0_off13 L (Tr 3)) (k0_off13_inb L (Tr 3) (cond2_all _)) (off13_c L (Tr 3)) (m (xLoc d))).symm) $$ HX_7_3
  ihave HP_7 := (Entails.of_eq (own_p_of_off (F := F) d L (7 : Fin 16) (k0_off15 L (Tr 3)) (k0_off15_inb L (Tr 3) (cond3_all _)) (off15_c L (Tr 3)) (m (pLoc d))).symm) $$ HP_7
  ihave HO_7_0 := (Entails.of_eq (own_o_of_off (F := F) d L (0 : Fin 4) (7 : Fin 16) (k0_off16 L (Tr 3) 1#32) (k0_off16_inb L (Tr 3) 1) (off16_c1 L (Tr 3)) (m (oLoc d))).symm) $$ HO_7_0
  ihave HO_7_1 := (Entails.of_eq (own_o_of_off (F := F) d L (1 : Fin 4) (7 : Fin 16) (k0_off17 L (Tr 3) 1#32) (k0_off17_inb L (Tr 3) 1) (off17_c1 L (Tr 3)) (m (oLoc d))).symm) $$ HO_7_1
  ihave HO_7_2 := (Entails.of_eq (own_o_of_off (F := F) d L (2 : Fin 4) (7 : Fin 16) (k0_off18 L (Tr 3) 1#32) (k0_off18_inb L (Tr 3) 1) (off18_c1 L (Tr 3)) (m (oLoc d))).symm) $$ HO_7_2
  ihave HO_7_3 := (Entails.of_eq (own_o_of_off (F := F) d L (3 : Fin 4) (7 : Fin 16) (k0_off19 L (Tr 3) 1#32) (k0_off19_inb L (Tr 3) 1) (off19_c1 L (Tr 3)) (m (oLoc d))).symm) $$ HO_7_3
  ihave HX_8_0 := (Entails.of_eq (own_x_of_off (F := F) d L (0 : Fin 4) (8 : Fin 16) (k0_off72 L (Tr 3)) (k0_off72_inb L (Tr 3) (cond5_of _ (by decide))) (off72_c L (Tr 3) (by decide)) (m (xLoc d))).symm) $$ HX_8_0
  ihave HX_8_1 := (Entails.of_eq (own_x_of_off (F := F) d L (1 : Fin 4) (8 : Fin 16) (k0_off73 L (Tr 3)) (k0_off73_inb L (Tr 3) (cond5_of _ (by decide))) (off73_c L (Tr 3) (by decide)) (m (xLoc d))).symm) $$ HX_8_1
  ihave HX_8_2 := (Entails.of_eq (own_x_of_off (F := F) d L (2 : Fin 4) (8 : Fin 16) (k0_off74 L (Tr 3)) (k0_off74_inb L (Tr 3) (cond5_of _ (by decide))) (off74_c L (Tr 3) (by decide)) (m (xLoc d))).symm) $$ HX_8_2
  ihave HX_8_3 := (Entails.of_eq (own_x_of_off (F := F) d L (3 : Fin 4) (8 : Fin 16) (k0_off75 L (Tr 3)) (k0_off75_inb L (Tr 3) (cond5_of _ (by decide))) (off75_c L (Tr 3) (by decide)) (m (xLoc d))).symm) $$ HX_8_3
  ihave HP_8 := (Entails.of_eq (own_p_of_off (F := F) d L (8 : Fin 16) (k0_off76 L (Tr 3)) (k0_off76_inb L (Tr 3) (cond6_of _ (by decide))) (off76_c L (Tr 3) (by decide)) (m (pLoc d))).symm) $$ HP_8
  ihave HO_8_0 := (Entails.of_eq (own_o_of_off (F := F) d L (0 : Fin 4) (8 : Fin 16) (k0_off16 L (Tr 4) 0#32) (k0_off16_inb L (Tr 4) 0) (off16_c0 L (Tr 4)) (m (oLoc d))).symm) $$ HO_8_0
  ihave HO_8_1 := (Entails.of_eq (own_o_of_off (F := F) d L (1 : Fin 4) (8 : Fin 16) (k0_off17 L (Tr 4) 0#32) (k0_off17_inb L (Tr 4) 0) (off17_c0 L (Tr 4)) (m (oLoc d))).symm) $$ HO_8_1
  ihave HO_8_2 := (Entails.of_eq (own_o_of_off (F := F) d L (2 : Fin 4) (8 : Fin 16) (k0_off18 L (Tr 4) 0#32) (k0_off18_inb L (Tr 4) 0) (off18_c0 L (Tr 4)) (m (oLoc d))).symm) $$ HO_8_2
  ihave HO_8_3 := (Entails.of_eq (own_o_of_off (F := F) d L (3 : Fin 4) (8 : Fin 16) (k0_off19 L (Tr 4) 0#32) (k0_off19_inb L (Tr 4) 0) (off19_c0 L (Tr 4)) (m (oLoc d))).symm) $$ HO_8_3
  ihave HX_9_0 := (Entails.of_eq (own_x_of_off (F := F) d L (0 : Fin 4) (9 : Fin 16) (k0_off10 L (Tr 4)) (k0_off10_inb L (Tr 4) (cond2_all _)) (off10_c L (Tr 4)) (m (xLoc d))).symm) $$ HX_9_0
  ihave HX_9_1 := (Entails.of_eq (own_x_of_off (F := F) d L (1 : Fin 4) (9 : Fin 16) (k0_off11 L (Tr 4)) (k0_off11_inb L (Tr 4) (cond2_all _)) (off11_c L (Tr 4)) (m (xLoc d))).symm) $$ HX_9_1
  ihave HX_9_2 := (Entails.of_eq (own_x_of_off (F := F) d L (2 : Fin 4) (9 : Fin 16) (k0_off12 L (Tr 4)) (k0_off12_inb L (Tr 4) (cond2_all _)) (off12_c L (Tr 4)) (m (xLoc d))).symm) $$ HX_9_2
  ihave HX_9_3 := (Entails.of_eq (own_x_of_off (F := F) d L (3 : Fin 4) (9 : Fin 16) (k0_off13 L (Tr 4)) (k0_off13_inb L (Tr 4) (cond2_all _)) (off13_c L (Tr 4)) (m (xLoc d))).symm) $$ HX_9_3
  ihave HP_9 := (Entails.of_eq (own_p_of_off (F := F) d L (9 : Fin 16) (k0_off15 L (Tr 4)) (k0_off15_inb L (Tr 4) (cond3_all _)) (off15_c L (Tr 4)) (m (pLoc d))).symm) $$ HP_9
  ihave HO_9_0 := (Entails.of_eq (own_o_of_off (F := F) d L (0 : Fin 4) (9 : Fin 16) (k0_off16 L (Tr 4) 1#32) (k0_off16_inb L (Tr 4) 1) (off16_c1 L (Tr 4)) (m (oLoc d))).symm) $$ HO_9_0
  ihave HO_9_1 := (Entails.of_eq (own_o_of_off (F := F) d L (1 : Fin 4) (9 : Fin 16) (k0_off17 L (Tr 4) 1#32) (k0_off17_inb L (Tr 4) 1) (off17_c1 L (Tr 4)) (m (oLoc d))).symm) $$ HO_9_1
  ihave HO_9_2 := (Entails.of_eq (own_o_of_off (F := F) d L (2 : Fin 4) (9 : Fin 16) (k0_off18 L (Tr 4) 1#32) (k0_off18_inb L (Tr 4) 1) (off18_c1 L (Tr 4)) (m (oLoc d))).symm) $$ HO_9_2
  ihave HO_9_3 := (Entails.of_eq (own_o_of_off (F := F) d L (3 : Fin 4) (9 : Fin 16) (k0_off19 L (Tr 4) 1#32) (k0_off19_inb L (Tr 4) 1) (off19_c1 L (Tr 4)) (m (oLoc d))).symm) $$ HO_9_3
  ihave HX_10_0 := (Entails.of_eq (own_x_of_off (F := F) d L (0 : Fin 4) (10 : Fin 16) (k0_off72 L (Tr 4)) (k0_off72_inb L (Tr 4) (cond5_of _ (by decide))) (off72_c L (Tr 4) (by decide)) (m (xLoc d))).symm) $$ HX_10_0
  ihave HX_10_1 := (Entails.of_eq (own_x_of_off (F := F) d L (1 : Fin 4) (10 : Fin 16) (k0_off73 L (Tr 4)) (k0_off73_inb L (Tr 4) (cond5_of _ (by decide))) (off73_c L (Tr 4) (by decide)) (m (xLoc d))).symm) $$ HX_10_1
  ihave HX_10_2 := (Entails.of_eq (own_x_of_off (F := F) d L (2 : Fin 4) (10 : Fin 16) (k0_off74 L (Tr 4)) (k0_off74_inb L (Tr 4) (cond5_of _ (by decide))) (off74_c L (Tr 4) (by decide)) (m (xLoc d))).symm) $$ HX_10_2
  ihave HX_10_3 := (Entails.of_eq (own_x_of_off (F := F) d L (3 : Fin 4) (10 : Fin 16) (k0_off75 L (Tr 4)) (k0_off75_inb L (Tr 4) (cond5_of _ (by decide))) (off75_c L (Tr 4) (by decide)) (m (xLoc d))).symm) $$ HX_10_3
  ihave HP_10 := (Entails.of_eq (own_p_of_off (F := F) d L (10 : Fin 16) (k0_off76 L (Tr 4)) (k0_off76_inb L (Tr 4) (cond6_of _ (by decide))) (off76_c L (Tr 4) (by decide)) (m (pLoc d))).symm) $$ HP_10
  ihave HO_10_0 := (Entails.of_eq (own_o_of_off (F := F) d L (0 : Fin 4) (10 : Fin 16) (k0_off16 L (Tr 5) 0#32) (k0_off16_inb L (Tr 5) 0) (off16_c0 L (Tr 5)) (m (oLoc d))).symm) $$ HO_10_0
  ihave HO_10_1 := (Entails.of_eq (own_o_of_off (F := F) d L (1 : Fin 4) (10 : Fin 16) (k0_off17 L (Tr 5) 0#32) (k0_off17_inb L (Tr 5) 0) (off17_c0 L (Tr 5)) (m (oLoc d))).symm) $$ HO_10_1
  ihave HO_10_2 := (Entails.of_eq (own_o_of_off (F := F) d L (2 : Fin 4) (10 : Fin 16) (k0_off18 L (Tr 5) 0#32) (k0_off18_inb L (Tr 5) 0) (off18_c0 L (Tr 5)) (m (oLoc d))).symm) $$ HO_10_2
  ihave HO_10_3 := (Entails.of_eq (own_o_of_off (F := F) d L (3 : Fin 4) (10 : Fin 16) (k0_off19 L (Tr 5) 0#32) (k0_off19_inb L (Tr 5) 0) (off19_c0 L (Tr 5)) (m (oLoc d))).symm) $$ HO_10_3
  ihave HX_11_0 := (Entails.of_eq (own_x_of_off (F := F) d L (0 : Fin 4) (11 : Fin 16) (k0_off10 L (Tr 5)) (k0_off10_inb L (Tr 5) (cond2_all _)) (off10_c L (Tr 5)) (m (xLoc d))).symm) $$ HX_11_0
  ihave HX_11_1 := (Entails.of_eq (own_x_of_off (F := F) d L (1 : Fin 4) (11 : Fin 16) (k0_off11 L (Tr 5)) (k0_off11_inb L (Tr 5) (cond2_all _)) (off11_c L (Tr 5)) (m (xLoc d))).symm) $$ HX_11_1
  ihave HX_11_2 := (Entails.of_eq (own_x_of_off (F := F) d L (2 : Fin 4) (11 : Fin 16) (k0_off12 L (Tr 5)) (k0_off12_inb L (Tr 5) (cond2_all _)) (off12_c L (Tr 5)) (m (xLoc d))).symm) $$ HX_11_2
  ihave HX_11_3 := (Entails.of_eq (own_x_of_off (F := F) d L (3 : Fin 4) (11 : Fin 16) (k0_off13 L (Tr 5)) (k0_off13_inb L (Tr 5) (cond2_all _)) (off13_c L (Tr 5)) (m (xLoc d))).symm) $$ HX_11_3
  ihave HP_11 := (Entails.of_eq (own_p_of_off (F := F) d L (11 : Fin 16) (k0_off15 L (Tr 5)) (k0_off15_inb L (Tr 5) (cond3_all _)) (off15_c L (Tr 5)) (m (pLoc d))).symm) $$ HP_11
  ihave HO_11_0 := (Entails.of_eq (own_o_of_off (F := F) d L (0 : Fin 4) (11 : Fin 16) (k0_off16 L (Tr 5) 1#32) (k0_off16_inb L (Tr 5) 1) (off16_c1 L (Tr 5)) (m (oLoc d))).symm) $$ HO_11_0
  ihave HO_11_1 := (Entails.of_eq (own_o_of_off (F := F) d L (1 : Fin 4) (11 : Fin 16) (k0_off17 L (Tr 5) 1#32) (k0_off17_inb L (Tr 5) 1) (off17_c1 L (Tr 5)) (m (oLoc d))).symm) $$ HO_11_1
  ihave HO_11_2 := (Entails.of_eq (own_o_of_off (F := F) d L (2 : Fin 4) (11 : Fin 16) (k0_off18 L (Tr 5) 1#32) (k0_off18_inb L (Tr 5) 1) (off18_c1 L (Tr 5)) (m (oLoc d))).symm) $$ HO_11_2
  ihave HO_11_3 := (Entails.of_eq (own_o_of_off (F := F) d L (3 : Fin 4) (11 : Fin 16) (k0_off19 L (Tr 5) 1#32) (k0_off19_inb L (Tr 5) 1) (off19_c1 L (Tr 5)) (m (oLoc d))).symm) $$ HO_11_3
  ihave HX_12_0 := (Entails.of_eq (own_x_of_off (F := F) d L (0 : Fin 4) (12 : Fin 16) (k0_off72 L (Tr 5)) (k0_off72_inb L (Tr 5) (cond5_of _ (by decide))) (off72_c L (Tr 5) (by decide)) (m (xLoc d))).symm) $$ HX_12_0
  ihave HX_12_1 := (Entails.of_eq (own_x_of_off (F := F) d L (1 : Fin 4) (12 : Fin 16) (k0_off73 L (Tr 5)) (k0_off73_inb L (Tr 5) (cond5_of _ (by decide))) (off73_c L (Tr 5) (by decide)) (m (xLoc d))).symm) $$ HX_12_1
  ihave HX_12_2 := (Entails.of_eq (own_x_of_off (F := F) d L (2 : Fin 4) (12 : Fin 16) (k0_off74 L (Tr 5)) (k0_off74_inb L (Tr 5) (cond5_of _ (by decide))) (off74_c L (Tr 5) (by decide)) (m (xLoc d))).symm) $$ HX_12_2
  ihave HX_12_3 := (Entails.of_eq (own_x_of_off (F := F) d L (3 : Fin 4) (12 : Fin 16) (k0_off75 L (Tr 5)) (k0_off75_inb L (Tr 5) (cond5_of _ (by decide))) (off75_c L (Tr 5) (by decide)) (m (xLoc d))).symm) $$ HX_12_3
  ihave HP_12 := (Entails.of_eq (own_p_of_off (F := F) d L (12 : Fin 16) (k0_off76 L (Tr 5)) (k0_off76_inb L (Tr 5) (cond6_of _ (by decide))) (off76_c L (Tr 5) (by decide)) (m (pLoc d))).symm) $$ HP_12
  ihave HO_12_0 := (Entails.of_eq (own_o_of_off (F := F) d L (0 : Fin 4) (12 : Fin 16) (k0_off16 L (Tr 6) 0#32) (k0_off16_inb L (Tr 6) 0) (off16_c0 L (Tr 6)) (m (oLoc d))).symm) $$ HO_12_0
  ihave HO_12_1 := (Entails.of_eq (own_o_of_off (F := F) d L (1 : Fin 4) (12 : Fin 16) (k0_off17 L (Tr 6) 0#32) (k0_off17_inb L (Tr 6) 0) (off17_c0 L (Tr 6)) (m (oLoc d))).symm) $$ HO_12_1
  ihave HO_12_2 := (Entails.of_eq (own_o_of_off (F := F) d L (2 : Fin 4) (12 : Fin 16) (k0_off18 L (Tr 6) 0#32) (k0_off18_inb L (Tr 6) 0) (off18_c0 L (Tr 6)) (m (oLoc d))).symm) $$ HO_12_2
  ihave HO_12_3 := (Entails.of_eq (own_o_of_off (F := F) d L (3 : Fin 4) (12 : Fin 16) (k0_off19 L (Tr 6) 0#32) (k0_off19_inb L (Tr 6) 0) (off19_c0 L (Tr 6)) (m (oLoc d))).symm) $$ HO_12_3
  ihave HX_13_0 := (Entails.of_eq (own_x_of_off (F := F) d L (0 : Fin 4) (13 : Fin 16) (k0_off10 L (Tr 6)) (k0_off10_inb L (Tr 6) (cond2_all _)) (off10_c L (Tr 6)) (m (xLoc d))).symm) $$ HX_13_0
  ihave HX_13_1 := (Entails.of_eq (own_x_of_off (F := F) d L (1 : Fin 4) (13 : Fin 16) (k0_off11 L (Tr 6)) (k0_off11_inb L (Tr 6) (cond2_all _)) (off11_c L (Tr 6)) (m (xLoc d))).symm) $$ HX_13_1
  ihave HX_13_2 := (Entails.of_eq (own_x_of_off (F := F) d L (2 : Fin 4) (13 : Fin 16) (k0_off12 L (Tr 6)) (k0_off12_inb L (Tr 6) (cond2_all _)) (off12_c L (Tr 6)) (m (xLoc d))).symm) $$ HX_13_2
  ihave HX_13_3 := (Entails.of_eq (own_x_of_off (F := F) d L (3 : Fin 4) (13 : Fin 16) (k0_off13 L (Tr 6)) (k0_off13_inb L (Tr 6) (cond2_all _)) (off13_c L (Tr 6)) (m (xLoc d))).symm) $$ HX_13_3
  ihave HP_13 := (Entails.of_eq (own_p_of_off (F := F) d L (13 : Fin 16) (k0_off15 L (Tr 6)) (k0_off15_inb L (Tr 6) (cond3_all _)) (off15_c L (Tr 6)) (m (pLoc d))).symm) $$ HP_13
  ihave HO_13_0 := (Entails.of_eq (own_o_of_off (F := F) d L (0 : Fin 4) (13 : Fin 16) (k0_off16 L (Tr 6) 1#32) (k0_off16_inb L (Tr 6) 1) (off16_c1 L (Tr 6)) (m (oLoc d))).symm) $$ HO_13_0
  ihave HO_13_1 := (Entails.of_eq (own_o_of_off (F := F) d L (1 : Fin 4) (13 : Fin 16) (k0_off17 L (Tr 6) 1#32) (k0_off17_inb L (Tr 6) 1) (off17_c1 L (Tr 6)) (m (oLoc d))).symm) $$ HO_13_1
  ihave HO_13_2 := (Entails.of_eq (own_o_of_off (F := F) d L (2 : Fin 4) (13 : Fin 16) (k0_off18 L (Tr 6) 1#32) (k0_off18_inb L (Tr 6) 1) (off18_c1 L (Tr 6)) (m (oLoc d))).symm) $$ HO_13_2
  ihave HO_13_3 := (Entails.of_eq (own_o_of_off (F := F) d L (3 : Fin 4) (13 : Fin 16) (k0_off19 L (Tr 6) 1#32) (k0_off19_inb L (Tr 6) 1) (off19_c1 L (Tr 6)) (m (oLoc d))).symm) $$ HO_13_3
  ihave HX_14_0 := (Entails.of_eq (own_x_of_off (F := F) d L (0 : Fin 4) (14 : Fin 16) (k0_off72 L (Tr 6)) (k0_off72_inb L (Tr 6) (cond5_of _ (by decide))) (off72_c L (Tr 6) (by decide)) (m (xLoc d))).symm) $$ HX_14_0
  ihave HX_14_1 := (Entails.of_eq (own_x_of_off (F := F) d L (1 : Fin 4) (14 : Fin 16) (k0_off73 L (Tr 6)) (k0_off73_inb L (Tr 6) (cond5_of _ (by decide))) (off73_c L (Tr 6) (by decide)) (m (xLoc d))).symm) $$ HX_14_1
  ihave HX_14_2 := (Entails.of_eq (own_x_of_off (F := F) d L (2 : Fin 4) (14 : Fin 16) (k0_off74 L (Tr 6)) (k0_off74_inb L (Tr 6) (cond5_of _ (by decide))) (off74_c L (Tr 6) (by decide)) (m (xLoc d))).symm) $$ HX_14_2
  ihave HX_14_3 := (Entails.of_eq (own_x_of_off (F := F) d L (3 : Fin 4) (14 : Fin 16) (k0_off75 L (Tr 6)) (k0_off75_inb L (Tr 6) (cond5_of _ (by decide))) (off75_c L (Tr 6) (by decide)) (m (xLoc d))).symm) $$ HX_14_3
  ihave HP_14 := (Entails.of_eq (own_p_of_off (F := F) d L (14 : Fin 16) (k0_off76 L (Tr 6)) (k0_off76_inb L (Tr 6) (cond6_of _ (by decide))) (off76_c L (Tr 6) (by decide)) (m (pLoc d))).symm) $$ HP_14
  ihave HO_14_0 := (Entails.of_eq (own_o_of_off (F := F) d L (0 : Fin 4) (14 : Fin 16) (k0_off16 L (Tr 7) 0#32) (k0_off16_inb L (Tr 7) 0) (off16_c0 L (Tr 7)) (m (oLoc d))).symm) $$ HO_14_0
  ihave HO_14_1 := (Entails.of_eq (own_o_of_off (F := F) d L (1 : Fin 4) (14 : Fin 16) (k0_off17 L (Tr 7) 0#32) (k0_off17_inb L (Tr 7) 0) (off17_c0 L (Tr 7)) (m (oLoc d))).symm) $$ HO_14_1
  ihave HO_14_2 := (Entails.of_eq (own_o_of_off (F := F) d L (2 : Fin 4) (14 : Fin 16) (k0_off18 L (Tr 7) 0#32) (k0_off18_inb L (Tr 7) 0) (off18_c0 L (Tr 7)) (m (oLoc d))).symm) $$ HO_14_2
  ihave HO_14_3 := (Entails.of_eq (own_o_of_off (F := F) d L (3 : Fin 4) (14 : Fin 16) (k0_off19 L (Tr 7) 0#32) (k0_off19_inb L (Tr 7) 0) (off19_c0 L (Tr 7)) (m (oLoc d))).symm) $$ HO_14_3
  ihave HX_15_0 := (Entails.of_eq (own_x_of_off (F := F) d L (0 : Fin 4) (15 : Fin 16) (k0_off10 L (Tr 7)) (k0_off10_inb L (Tr 7) (cond2_all _)) (off10_c L (Tr 7)) (m (xLoc d))).symm) $$ HX_15_0
  ihave HX_15_1 := (Entails.of_eq (own_x_of_off (F := F) d L (1 : Fin 4) (15 : Fin 16) (k0_off11 L (Tr 7)) (k0_off11_inb L (Tr 7) (cond2_all _)) (off11_c L (Tr 7)) (m (xLoc d))).symm) $$ HX_15_1
  ihave HX_15_2 := (Entails.of_eq (own_x_of_off (F := F) d L (2 : Fin 4) (15 : Fin 16) (k0_off12 L (Tr 7)) (k0_off12_inb L (Tr 7) (cond2_all _)) (off12_c L (Tr 7)) (m (xLoc d))).symm) $$ HX_15_2
  ihave HX_15_3 := (Entails.of_eq (own_x_of_off (F := F) d L (3 : Fin 4) (15 : Fin 16) (k0_off13 L (Tr 7)) (k0_off13_inb L (Tr 7) (cond2_all _)) (off13_c L (Tr 7)) (m (xLoc d))).symm) $$ HX_15_3
  ihave HP_15 := (Entails.of_eq (own_p_of_off (F := F) d L (15 : Fin 16) (k0_off15 L (Tr 7)) (k0_off15_inb L (Tr 7) (cond3_all _)) (off15_c L (Tr 7)) (m (pLoc d))).symm) $$ HP_15
  ihave HO_15_0 := (Entails.of_eq (own_o_of_off (F := F) d L (0 : Fin 4) (15 : Fin 16) (k0_off16 L (Tr 7) 1#32) (k0_off16_inb L (Tr 7) 1) (off16_c1 L (Tr 7)) (m (oLoc d))).symm) $$ HO_15_0
  ihave HO_15_1 := (Entails.of_eq (own_o_of_off (F := F) d L (1 : Fin 4) (15 : Fin 16) (k0_off17 L (Tr 7) 1#32) (k0_off17_inb L (Tr 7) 1) (off17_c1 L (Tr 7)) (m (oLoc d))).symm) $$ HO_15_1
  ihave HO_15_2 := (Entails.of_eq (own_o_of_off (F := F) d L (2 : Fin 4) (15 : Fin 16) (k0_off18 L (Tr 7) 1#32) (k0_off18_inb L (Tr 7) 1) (off18_c1 L (Tr 7)) (m (oLoc d))).symm) $$ HO_15_2
  ihave HO_15_3 := (Entails.of_eq (own_o_of_off (F := F) d L (3 : Fin 4) (15 : Fin 16) (k0_off19 L (Tr 7) 1#32) (k0_off19_inb L (Tr 7) 1) (off19_c1 L (Tr 7)) (m (oLoc d))).symm) $$ HO_15_3
  ihave Hb0 := (Entails.of_eq (show ((thrV d L).loc cc0_scratch0 ↦{fullShare} fb0 : sProp 𝕄) = ((b0).view.loc (thrV d L) ↦{fullShare} fb0) from rfl)) $$ Hb0
  ihave Hb1 := (Entails.of_eq (show ((thrV d L).loc cc0_scratch1 ↦{fullShare} fb1 : sProp 𝕄) = ((b1).view.loc (thrV d L) ↦{fullShare} fb1) from rfl)) $$ Hb1
  ihave Hb2 := (Entails.of_eq (show ((thrV d L).loc cc0_scratch2 ↦{fullShare} fb2 : sProp 𝕄) = ((b2).view.loc (thrV d L) ↦{fullShare} fb2) from rfl)) $$ Hb2
  ihave Hb3 := (Entails.of_eq (show ((thrV d L).loc cc0_scratch3 ↦{fullShare} fb3 : sProp 𝕄) = ((b3).view.loc (thrV d L) ↦{fullShare} fb3) from rfl)) $$ Hb3
  ihave Hb4 := (Entails.of_eq (show ((thrV d L).loc cc0_scratch4 ↦{fullShare} fb4 : sProp 𝕄) = ((b4).view.loc (thrV d L) ↦{fullShare} fb4) from rfl)) $$ Hb4
  ihave Hb5 := (Entails.of_eq (show ((thrV d L).loc cc0_scratch5 ↦{fullShare} fb5 : sProp 𝕄) = ((b5).view.loc (thrV d L) ↦{fullShare} fb5) from rfl)) $$ Hb5
  ihave Hb6 := (Entails.of_eq (show ((thrV d L).loc cc0_scratch6 ↦{fullShare} fb6 : sProp 𝕄) = ((b6).view.loc (thrV d L) ↦{fullShare} fb6) from rfl)) $$ Hb6
  ihave Hb7 := (Entails.of_eq (show ((thrV d L).loc cc0_scratch7 ↦{fullShare} fb7 : sProp 𝕄) = ((b7).view.loc (thrV d L) ↦{fullShare} fb7) from rfl)) $$ Hb7
  ihave Hb8 := (Entails.of_eq (show ((thrV d L).loc cc0_scratch8 ↦{fullShare} fb8 : sProp 𝕄) = ((b8).view.loc (thrV d L) ↦{fullShare} fb8) from rfl)) $$ Hb8
  ihave Hb9 := (Entails.of_eq (show ((thrV d L).loc cc0_scratch9 ↦{fullShare} fb9 : sProp 𝕄) = ((b9).view.loc (thrV d L) ↦{fullShare} fb9) from rfl)) $$ Hb9
  -- the first fetches, then the eight trips of the chunk-pair loop laid out in sequence
  sl_exec_parts
  sl_unroll
  -- trip 0: chunk 0 in the first set of buffers, chunk 1 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra0 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra1 ⟨Hb1, Hb6, Hb7, Hb8, Hb9⟩
  -- trip 1: chunk 2 in the first set of buffers, chunk 3 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra2 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra3 ⟨Hb1, Hb6, Hb7, Hb8, Hb9⟩
  -- trip 2: chunk 4 in the first set of buffers, chunk 5 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra4 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra5 ⟨Hb1, Hb6, Hb7, Hb8, Hb9⟩
  -- trip 3: chunk 6 in the first set of buffers, chunk 7 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra6 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra7 ⟨Hb1, Hb6, Hb7, Hb8, Hb9⟩
  -- trip 4: chunk 8 in the first set of buffers, chunk 9 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra8 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra9 ⟨Hb1, Hb6, Hb7, Hb8, Hb9⟩
  -- trip 5: chunk 10 in the first set of buffers, chunk 11 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra10 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra11 ⟨Hb1, Hb6, Hb7, Hb8, Hb9⟩
  -- trip 6: chunk 12 in the first set of buffers, chunk 13 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra12 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra13 ⟨Hb1, Hb6, Hb7, Hb8, Hb9⟩
  -- trip 7: chunk 14 in the first set of buffers, chunk 15 in the second
  sl_exec_parts
  ihave Hb0 := (Entails.of_eq (land_b0 (F := F) d L _ _)) $$ Hb0
  ihave Hb2 := (Entails.of_eq (land_b2 (F := F) d L _ _)) $$ Hb2
  ihave Hb3 := (Entails.of_eq (land_b3 (F := F) d L _ _)) $$ Hb3
  ihave Hb4 := (Entails.of_eq (land_b4 (F := F) d L _ _)) $$ Hb4
  ihave Hb5 := (Entails.of_eq (land_b5 (F := F) d L _ _)) $$ Hb5
  iapply (rowLoop0_bind (F := F) d L _ _ _ _ _ _ _ _ _ _)
  isplitl [Hb0 Hb2 Hb3 Hb4 Hb5]
  · isplitl [Hb0]; · iexact Hb0
    isplitl [Hb2]; · iexact Hb2
    isplitl [Hb3]; · iexact Hb3
    isplitl [Hb4]; · iexact Hb4
    iexact Hb5
  iintro %ra14 ⟨Hb0, Hb2, Hb3, Hb4, Hb5⟩
  sl_exec_parts
  ihave Hb1 := (Entails.of_eq (land_b1 (F := F) d L _ _)) $$ Hb1
  ihave Hb6 := (Entails.of_eq (land_b6 (F := F) d L _ _)) $$ Hb6
  ihave Hb7 := (Entails.of_eq (land_b7 (F := F) d L _ _)) $$ Hb7
  ihave Hb8 := (Entails.of_eq (land_b8 (F := F) d L _ _)) $$ Hb8
  ihave Hb9 := (Entails.of_eq (land_b9 (F := F) d L _ _)) $$ Hb9
  iapply (rowLoop1_bind (F := F) d L _ _ _ _ _ _ _ _ _ _)
  isplitl [Hb1 Hb6 Hb7 Hb8 Hb9]
  · isplitl [Hb1]; · iexact Hb1
    isplitl [Hb6]; · iexact Hb6
    isplitl [Hb7]; · iexact Hb7
    isplitl [Hb8]; · iexact Hb8
    iexact Hb9
  iintro %ra15 ⟨Hb1, Hb6, Hb7, Hb8, Hb9⟩
  -- the last write-outs and their waits
  sl_exec_parts
  sl_step
  -- the tile's share of the arrays, handed back
  isplitl [HX_0_0 HX_0_1 HX_0_2 HX_0_3 HP_0 HO_0_0 HO_0_1 HO_0_2 HO_0_3 HX_1_0 HX_1_1 HX_1_2 HX_1_3 HP_1 HO_1_0 HO_1_1 HO_1_2 HO_1_3 HX_2_0 HX_2_1 HX_2_2 HX_2_3 HP_2 HO_2_0 HO_2_1 HO_2_2 HO_2_3 HX_3_0 HX_3_1 HX_3_2 HX_3_3 HP_3 HO_3_0 HO_3_1 HO_3_2 HO_3_3 HX_4_0 HX_4_1 HX_4_2 HX_4_3 HP_4 HO_4_0 HO_4_1 HO_4_2 HO_4_3 HX_5_0 HX_5_1 HX_5_2 HX_5_3 HP_5 HO_5_0 HO_5_1 HO_5_2 HO_5_3 HX_6_0 HX_6_1 HX_6_2 HX_6_3 HP_6 HO_6_0 HO_6_1 HO_6_2 HO_6_3 HX_7_0 HX_7_1 HX_7_2 HX_7_3 HP_7 HO_7_0 HO_7_1 HO_7_2 HO_7_3 HX_8_0 HX_8_1 HX_8_2 HX_8_3 HP_8 HO_8_0 HO_8_1 HO_8_2 HO_8_3 HX_9_0 HX_9_1 HX_9_2 HX_9_3 HP_9 HO_9_0 HO_9_1 HO_9_2 HO_9_3 HX_10_0 HX_10_1 HX_10_2 HX_10_3 HP_10 HO_10_0 HO_10_1 HO_10_2 HO_10_3 HX_11_0 HX_11_1 HX_11_2 HX_11_3 HP_11 HO_11_0 HO_11_1 HO_11_2 HO_11_3 HX_12_0 HX_12_1 HX_12_2 HX_12_3 HP_12 HO_12_0 HO_12_1 HO_12_2 HO_12_3 HX_13_0 HX_13_1 HX_13_2 HX_13_3 HP_13 HO_13_0 HO_13_1 HO_13_2 HO_13_3 HX_14_0 HX_14_1 HX_14_2 HX_14_3 HP_14 HO_14_0 HO_14_1 HO_14_2 HO_14_3 HX_15_0 HX_15_1 HX_15_2 HX_15_3 HP_15 HO_15_0 HO_15_1 HO_15_2 HO_15_3]
  · unfold tilePost
    rw [bigSep_fin16]
    unfold chunkPost
    simp only [bigSep_fin4]
    isplitl [HX_0_0 HX_0_1 HX_0_2 HX_0_3 HP_0 HO_0_0 HO_0_1 HO_0_2 HO_0_3]
    ·
      isplitl [HX_0_0 HX_0_1 HX_0_2 HX_0_3]
      · isplitl [HX_0_0]; · iapply (Entails.of_eq (own_x_of_off (F := F) d L (0 : Fin 4) (0 : Fin 16) (k0_off2 L 0#32) (k0_off2_inb L 0) (off2_c L) (m (xLoc d)))); iexact HX_0_0
        isplitl [HX_0_1]; · iapply (Entails.of_eq (own_x_of_off (F := F) d L (1 : Fin 4) (0 : Fin 16) (k0_off3 L 0#32) (k0_off3_inb L 0) (off3_c L) (m (xLoc d)))); iexact HX_0_1
        isplitl [HX_0_2]; · iapply (Entails.of_eq (own_x_of_off (F := F) d L (2 : Fin 4) (0 : Fin 16) (k0_off4 L 0#32) (k0_off4_inb L 0) (off4_c L) (m (xLoc d)))); iexact HX_0_2
        iapply (Entails.of_eq (own_x_of_off (F := F) d L (3 : Fin 4) (0 : Fin 16) (k0_off5 L 0#32) (k0_off5_inb L 0) (off5_c L) (m (xLoc d)))); iexact HX_0_3
      isplitl [HP_0]
      · iapply (Entails.of_eq (own_p_of_off (F := F) d L (0 : Fin 16) (k0_off1 L) (k0_off1_inb L) (off1_c L) (m (pLoc d)))); iexact HP_0
      isplitl [HO_0_0]; · iapply (Entails.of_eq (own_block_fin_b2 (F := F) m d L (0 : Fin 4) (0 : Fin 16) (k0_off2 L 0#32) (k0_off2_inb L 0) (k0_off1 L) (k0_off1_inb L) (k0_off16 L (Tr 0) 0#32) (k0_off16_inb L (Tr 0) 0) (off2_c L) (off1_c L) (off16_c0 L (Tr 0)) _)); iexact HO_0_0
      isplitl [HO_0_1]; · iapply (Entails.of_eq (own_block_fin_b3 (F := F) m d L (1 : Fin 4) (0 : Fin 16) (k0_off3 L 0#32) (k0_off3_inb L 0) (k0_off1 L) (k0_off1_inb L) (k0_off17 L (Tr 0) 0#32) (k0_off17_inb L (Tr 0) 0) (off3_c L) (off1_c L) (off17_c0 L (Tr 0)) _)); iexact HO_0_1
      isplitl [HO_0_2]; · iapply (Entails.of_eq (own_block_fin_b4 (F := F) m d L (2 : Fin 4) (0 : Fin 16) (k0_off4 L 0#32) (k0_off4_inb L 0) (k0_off1 L) (k0_off1_inb L) (k0_off18 L (Tr 0) 0#32) (k0_off18_inb L (Tr 0) 0) (off4_c L) (off1_c L) (off18_c0 L (Tr 0)) _)); iexact HO_0_2
      iapply (Entails.of_eq (own_block_fin_b5 (F := F) m d L (3 : Fin 4) (0 : Fin 16) (k0_off5 L 0#32) (k0_off5_inb L 0) (k0_off1 L) (k0_off1_inb L) (k0_off19 L (Tr 0) 0#32) (k0_off19_inb L (Tr 0) 0) (off5_c L) (off1_c L) (off19_c0 L (Tr 0)) _)); iexact HO_0_3
    isplitl [HX_1_0 HX_1_1 HX_1_2 HX_1_3 HP_1 HO_1_0 HO_1_1 HO_1_2 HO_1_3]
    ·
      isplitl [HX_1_0 HX_1_1 HX_1_2 HX_1_3]
      · isplitl [HX_1_0]; · iapply (Entails.of_eq (own_x_of_off (F := F) d L (0 : Fin 4) (1 : Fin 16) (k0_off10 L (Tr 0)) (k0_off10_inb L (Tr 0) (cond2_all _)) (off10_c L (Tr 0)) (m (xLoc d)))); iexact HX_1_0
        isplitl [HX_1_1]; · iapply (Entails.of_eq (own_x_of_off (F := F) d L (1 : Fin 4) (1 : Fin 16) (k0_off11 L (Tr 0)) (k0_off11_inb L (Tr 0) (cond2_all _)) (off11_c L (Tr 0)) (m (xLoc d)))); iexact HX_1_1
        isplitl [HX_1_2]; · iapply (Entails.of_eq (own_x_of_off (F := F) d L (2 : Fin 4) (1 : Fin 16) (k0_off12 L (Tr 0)) (k0_off12_inb L (Tr 0) (cond2_all _)) (off12_c L (Tr 0)) (m (xLoc d)))); iexact HX_1_2
        iapply (Entails.of_eq (own_x_of_off (F := F) d L (3 : Fin 4) (1 : Fin 16) (k0_off13 L (Tr 0)) (k0_off13_inb L (Tr 0) (cond2_all _)) (off13_c L (Tr 0)) (m (xLoc d)))); iexact HX_1_3
      isplitl [HP_1]
      · iapply (Entails.of_eq (own_p_of_off (F := F) d L (1 : Fin 16) (k0_off15 L (Tr 0)) (k0_off15_inb L (Tr 0) (cond3_all _)) (off15_c L (Tr 0)) (m (pLoc d)))); iexact HP_1
      isplitl [HO_1_0]; · iapply (Entails.of_eq (own_block_fin_b6 (F := F) m d L (0 : Fin 4) (1 : Fin 16) (k0_off10 L (Tr 0)) (k0_off10_inb L (Tr 0) (cond2_all _)) (k0_off15 L (Tr 0)) (k0_off15_inb L (Tr 0) (cond3_all _)) (k0_off16 L (Tr 0) 1#32) (k0_off16_inb L (Tr 0) 1) (off10_c L (Tr 0)) (off15_c L (Tr 0)) (off16_c1 L (Tr 0)) _)); iexact HO_1_0
      isplitl [HO_1_1]; · iapply (Entails.of_eq (own_block_fin_b7 (F := F) m d L (1 : Fin 4) (1 : Fin 16) (k0_off11 L (Tr 0)) (k0_off11_inb L (Tr 0) (cond2_all _)) (k0_off15 L (Tr 0)) (k0_off15_inb L (Tr 0) (cond3_all _)) (k0_off17 L (Tr 0) 1#32) (k0_off17_inb L (Tr 0) 1) (off11_c L (Tr 0)) (off15_c L (Tr 0)) (off17_c1 L (Tr 0)) _)); iexact HO_1_1
      isplitl [HO_1_2]; · iapply (Entails.of_eq (own_block_fin_b8 (F := F) m d L (2 : Fin 4) (1 : Fin 16) (k0_off12 L (Tr 0)) (k0_off12_inb L (Tr 0) (cond2_all _)) (k0_off15 L (Tr 0)) (k0_off15_inb L (Tr 0) (cond3_all _)) (k0_off18 L (Tr 0) 1#32) (k0_off18_inb L (Tr 0) 1) (off12_c L (Tr 0)) (off15_c L (Tr 0)) (off18_c1 L (Tr 0)) _)); iexact HO_1_2
      iapply (Entails.of_eq (own_block_fin_b9 (F := F) m d L (3 : Fin 4) (1 : Fin 16) (k0_off13 L (Tr 0)) (k0_off13_inb L (Tr 0) (cond2_all _)) (k0_off15 L (Tr 0)) (k0_off15_inb L (Tr 0) (cond3_all _)) (k0_off19 L (Tr 0) 1#32) (k0_off19_inb L (Tr 0) 1) (off13_c L (Tr 0)) (off15_c L (Tr 0)) (off19_c1 L (Tr 0)) _)); iexact HO_1_3
    isplitl [HX_2_0 HX_2_1 HX_2_2 HX_2_3 HP_2 HO_2_0 HO_2_1 HO_2_2 HO_2_3]
    ·
      isplitl [HX_2_0 HX_2_1 HX_2_2 HX_2_3]
      · isplitl [HX_2_0]; · iapply (Entails.of_eq (own_x_of_off (F := F) d L (0 : Fin 4) (2 : Fin 16) (k0_off72 L (Tr 0)) (k0_off72_inb L (Tr 0) (cond5_of _ (by decide))) (off72_c L (Tr 0) (by decide)) (m (xLoc d)))); iexact HX_2_0
        isplitl [HX_2_1]; · iapply (Entails.of_eq (own_x_of_off (F := F) d L (1 : Fin 4) (2 : Fin 16) (k0_off73 L (Tr 0)) (k0_off73_inb L (Tr 0) (cond5_of _ (by decide))) (off73_c L (Tr 0) (by decide)) (m (xLoc d)))); iexact HX_2_1
        isplitl [HX_2_2]; · iapply (Entails.of_eq (own_x_of_off (F := F) d L (2 : Fin 4) (2 : Fin 16) (k0_off74 L (Tr 0)) (k0_off74_inb L (Tr 0) (cond5_of _ (by decide))) (off74_c L (Tr 0) (by decide)) (m (xLoc d)))); iexact HX_2_2
        iapply (Entails.of_eq (own_x_of_off (F := F) d L (3 : Fin 4) (2 : Fin 16) (k0_off75 L (Tr 0)) (k0_off75_inb L (Tr 0) (cond5_of _ (by decide))) (off75_c L (Tr 0) (by decide)) (m (xLoc d)))); iexact HX_2_3
      isplitl [HP_2]
      · iapply (Entails.of_eq (own_p_of_off (F := F) d L (2 : Fin 16) (k0_off76 L (Tr 0)) (k0_off76_inb L (Tr 0) (cond6_of _ (by decide))) (off76_c L (Tr 0) (by decide)) (m (pLoc d)))); iexact HP_2
      isplitl [HO_2_0]; · iapply (Entails.of_eq (own_block_fin_b2 (F := F) m d L (0 : Fin 4) (2 : Fin 16) (k0_off72 L (Tr 0)) (k0_off72_inb L (Tr 0) (cond5_of _ (by decide))) (k0_off76 L (Tr 0)) (k0_off76_inb L (Tr 0) (cond6_of _ (by decide))) (k0_off16 L (Tr 1) 0#32) (k0_off16_inb L (Tr 1) 0) (off72_c L (Tr 0) (by decide)) (off76_c L (Tr 0) (by decide)) (off16_c0 L (Tr 1)) _)); iexact HO_2_0
      isplitl [HO_2_1]; · iapply (Entails.of_eq (own_block_fin_b3 (F := F) m d L (1 : Fin 4) (2 : Fin 16) (k0_off73 L (Tr 0)) (k0_off73_inb L (Tr 0) (cond5_of _ (by decide))) (k0_off76 L (Tr 0)) (k0_off76_inb L (Tr 0) (cond6_of _ (by decide))) (k0_off17 L (Tr 1) 0#32) (k0_off17_inb L (Tr 1) 0) (off73_c L (Tr 0) (by decide)) (off76_c L (Tr 0) (by decide)) (off17_c0 L (Tr 1)) _)); iexact HO_2_1
      isplitl [HO_2_2]; · iapply (Entails.of_eq (own_block_fin_b4 (F := F) m d L (2 : Fin 4) (2 : Fin 16) (k0_off74 L (Tr 0)) (k0_off74_inb L (Tr 0) (cond5_of _ (by decide))) (k0_off76 L (Tr 0)) (k0_off76_inb L (Tr 0) (cond6_of _ (by decide))) (k0_off18 L (Tr 1) 0#32) (k0_off18_inb L (Tr 1) 0) (off74_c L (Tr 0) (by decide)) (off76_c L (Tr 0) (by decide)) (off18_c0 L (Tr 1)) _)); iexact HO_2_2
      iapply (Entails.of_eq (own_block_fin_b5 (F := F) m d L (3 : Fin 4) (2 : Fin 16) (k0_off75 L (Tr 0)) (k0_off75_inb L (Tr 0) (cond5_of _ (by decide))) (k0_off76 L (Tr 0)) (k0_off76_inb L (Tr 0) (cond6_of _ (by decide))) (k0_off19 L (Tr 1) 0#32) (k0_off19_inb L (Tr 1) 0) (off75_c L (Tr 0) (by decide)) (off76_c L (Tr 0) (by decide)) (off19_c0 L (Tr 1)) _)); iexact HO_2_3
    isplitl [HX_3_0 HX_3_1 HX_3_2 HX_3_3 HP_3 HO_3_0 HO_3_1 HO_3_2 HO_3_3]
    ·
      isplitl [HX_3_0 HX_3_1 HX_3_2 HX_3_3]
      · isplitl [HX_3_0]; · iapply (Entails.of_eq (own_x_of_off (F := F) d L (0 : Fin 4) (3 : Fin 16) (k0_off10 L (Tr 1)) (k0_off10_inb L (Tr 1) (cond2_all _)) (off10_c L (Tr 1)) (m (xLoc d)))); iexact HX_3_0
        isplitl [HX_3_1]; · iapply (Entails.of_eq (own_x_of_off (F := F) d L (1 : Fin 4) (3 : Fin 16) (k0_off11 L (Tr 1)) (k0_off11_inb L (Tr 1) (cond2_all _)) (off11_c L (Tr 1)) (m (xLoc d)))); iexact HX_3_1
        isplitl [HX_3_2]; · iapply (Entails.of_eq (own_x_of_off (F := F) d L (2 : Fin 4) (3 : Fin 16) (k0_off12 L (Tr 1)) (k0_off12_inb L (Tr 1) (cond2_all _)) (off12_c L (Tr 1)) (m (xLoc d)))); iexact HX_3_2
        iapply (Entails.of_eq (own_x_of_off (F := F) d L (3 : Fin 4) (3 : Fin 16) (k0_off13 L (Tr 1)) (k0_off13_inb L (Tr 1) (cond2_all _)) (off13_c L (Tr 1)) (m (xLoc d)))); iexact HX_3_3
      isplitl [HP_3]
      · iapply (Entails.of_eq (own_p_of_off (F := F) d L (3 : Fin 16) (k0_off15 L (Tr 1)) (k0_off15_inb L (Tr 1) (cond3_all _)) (off15_c L (Tr 1)) (m (pLoc d)))); iexact HP_3
      isplitl [HO_3_0]; · iapply (Entails.of_eq (own_block_fin_b6 (F := F) m d L (0 : Fin 4) (3 : Fin 16) (k0_off10 L (Tr 1)) (k0_off10_inb L (Tr 1) (cond2_all _)) (k0_off15 L (Tr 1)) (k0_off15_inb L (Tr 1) (cond3_all _)) (k0_off16 L (Tr 1) 1#32) (k0_off16_inb L (Tr 1) 1) (off10_c L (Tr 1)) (off15_c L (Tr 1)) (off16_c1 L (Tr 1)) _)); iexact HO_3_0
      isplitl [HO_3_1]; · iapply (Entails.of_eq (own_block_fin_b7 (F := F) m d L (1 : Fin 4) (3 : Fin 16) (k0_off11 L (Tr 1)) (k0_off11_inb L (Tr 1) (cond2_all _)) (k0_off15 L (Tr 1)) (k0_off15_inb L (Tr 1) (cond3_all _)) (k0_off17 L (Tr 1) 1#32) (k0_off17_inb L (Tr 1) 1) (off11_c L (Tr 1)) (off15_c L (Tr 1)) (off17_c1 L (Tr 1)) _)); iexact HO_3_1
      isplitl [HO_3_2]; · iapply (Entails.of_eq (own_block_fin_b8 (F := F) m d L (2 : Fin 4) (3 : Fin 16) (k0_off12 L (Tr 1)) (k0_off12_inb L (Tr 1) (cond2_all _)) (k0_off15 L (Tr 1)) (k0_off15_inb L (Tr 1) (cond3_all _)) (k0_off18 L (Tr 1) 1#32) (k0_off18_inb L (Tr 1) 1) (off12_c L (Tr 1)) (off15_c L (Tr 1)) (off18_c1 L (Tr 1)) _)); iexact HO_3_2
      iapply (Entails.of_eq (own_block_fin_b9 (F := F) m d L (3 : Fin 4) (3 : Fin 16) (k0_off13 L (Tr 1)) (k0_off13_inb L (Tr 1) (cond2_all _)) (k0_off15 L (Tr 1)) (k0_off15_inb L (Tr 1) (cond3_all _)) (k0_off19 L (Tr 1) 1#32) (k0_off19_inb L (Tr 1) 1) (off13_c L (Tr 1)) (off15_c L (Tr 1)) (off19_c1 L (Tr 1)) _)); iexact HO_3_3
    isplitl [HX_4_0 HX_4_1 HX_4_2 HX_4_3 HP_4 HO_4_0 HO_4_1 HO_4_2 HO_4_3]
    ·
      isplitl [HX_4_0 HX_4_1 HX_4_2 HX_4_3]
      · isplitl [HX_4_0]; · iapply (Entails.of_eq (own_x_of_off (F := F) d L (0 : Fin 4) (4 : Fin 16) (k0_off72 L (Tr 1)) (k0_off72_inb L (Tr 1) (cond5_of _ (by decide))) (off72_c L (Tr 1) (by decide)) (m (xLoc d)))); iexact HX_4_0
        isplitl [HX_4_1]; · iapply (Entails.of_eq (own_x_of_off (F := F) d L (1 : Fin 4) (4 : Fin 16) (k0_off73 L (Tr 1)) (k0_off73_inb L (Tr 1) (cond5_of _ (by decide))) (off73_c L (Tr 1) (by decide)) (m (xLoc d)))); iexact HX_4_1
        isplitl [HX_4_2]; · iapply (Entails.of_eq (own_x_of_off (F := F) d L (2 : Fin 4) (4 : Fin 16) (k0_off74 L (Tr 1)) (k0_off74_inb L (Tr 1) (cond5_of _ (by decide))) (off74_c L (Tr 1) (by decide)) (m (xLoc d)))); iexact HX_4_2
        iapply (Entails.of_eq (own_x_of_off (F := F) d L (3 : Fin 4) (4 : Fin 16) (k0_off75 L (Tr 1)) (k0_off75_inb L (Tr 1) (cond5_of _ (by decide))) (off75_c L (Tr 1) (by decide)) (m (xLoc d)))); iexact HX_4_3
      isplitl [HP_4]
      · iapply (Entails.of_eq (own_p_of_off (F := F) d L (4 : Fin 16) (k0_off76 L (Tr 1)) (k0_off76_inb L (Tr 1) (cond6_of _ (by decide))) (off76_c L (Tr 1) (by decide)) (m (pLoc d)))); iexact HP_4
      isplitl [HO_4_0]; · iapply (Entails.of_eq (own_block_fin_b2 (F := F) m d L (0 : Fin 4) (4 : Fin 16) (k0_off72 L (Tr 1)) (k0_off72_inb L (Tr 1) (cond5_of _ (by decide))) (k0_off76 L (Tr 1)) (k0_off76_inb L (Tr 1) (cond6_of _ (by decide))) (k0_off16 L (Tr 2) 0#32) (k0_off16_inb L (Tr 2) 0) (off72_c L (Tr 1) (by decide)) (off76_c L (Tr 1) (by decide)) (off16_c0 L (Tr 2)) _)); iexact HO_4_0
      isplitl [HO_4_1]; · iapply (Entails.of_eq (own_block_fin_b3 (F := F) m d L (1 : Fin 4) (4 : Fin 16) (k0_off73 L (Tr 1)) (k0_off73_inb L (Tr 1) (cond5_of _ (by decide))) (k0_off76 L (Tr 1)) (k0_off76_inb L (Tr 1) (cond6_of _ (by decide))) (k0_off17 L (Tr 2) 0#32) (k0_off17_inb L (Tr 2) 0) (off73_c L (Tr 1) (by decide)) (off76_c L (Tr 1) (by decide)) (off17_c0 L (Tr 2)) _)); iexact HO_4_1
      isplitl [HO_4_2]; · iapply (Entails.of_eq (own_block_fin_b4 (F := F) m d L (2 : Fin 4) (4 : Fin 16) (k0_off74 L (Tr 1)) (k0_off74_inb L (Tr 1) (cond5_of _ (by decide))) (k0_off76 L (Tr 1)) (k0_off76_inb L (Tr 1) (cond6_of _ (by decide))) (k0_off18 L (Tr 2) 0#32) (k0_off18_inb L (Tr 2) 0) (off74_c L (Tr 1) (by decide)) (off76_c L (Tr 1) (by decide)) (off18_c0 L (Tr 2)) _)); iexact HO_4_2
      iapply (Entails.of_eq (own_block_fin_b5 (F := F) m d L (3 : Fin 4) (4 : Fin 16) (k0_off75 L (Tr 1)) (k0_off75_inb L (Tr 1) (cond5_of _ (by decide))) (k0_off76 L (Tr 1)) (k0_off76_inb L (Tr 1) (cond6_of _ (by decide))) (k0_off19 L (Tr 2) 0#32) (k0_off19_inb L (Tr 2) 0) (off75_c L (Tr 1) (by decide)) (off76_c L (Tr 1) (by decide)) (off19_c0 L (Tr 2)) _)); iexact HO_4_3
    isplitl [HX_5_0 HX_5_1 HX_5_2 HX_5_3 HP_5 HO_5_0 HO_5_1 HO_5_2 HO_5_3]
    ·
      isplitl [HX_5_0 HX_5_1 HX_5_2 HX_5_3]
      · isplitl [HX_5_0]; · iapply (Entails.of_eq (own_x_of_off (F := F) d L (0 : Fin 4) (5 : Fin 16) (k0_off10 L (Tr 2)) (k0_off10_inb L (Tr 2) (cond2_all _)) (off10_c L (Tr 2)) (m (xLoc d)))); iexact HX_5_0
        isplitl [HX_5_1]; · iapply (Entails.of_eq (own_x_of_off (F := F) d L (1 : Fin 4) (5 : Fin 16) (k0_off11 L (Tr 2)) (k0_off11_inb L (Tr 2) (cond2_all _)) (off11_c L (Tr 2)) (m (xLoc d)))); iexact HX_5_1
        isplitl [HX_5_2]; · iapply (Entails.of_eq (own_x_of_off (F := F) d L (2 : Fin 4) (5 : Fin 16) (k0_off12 L (Tr 2)) (k0_off12_inb L (Tr 2) (cond2_all _)) (off12_c L (Tr 2)) (m (xLoc d)))); iexact HX_5_2
        iapply (Entails.of_eq (own_x_of_off (F := F) d L (3 : Fin 4) (5 : Fin 16) (k0_off13 L (Tr 2)) (k0_off13_inb L (Tr 2) (cond2_all _)) (off13_c L (Tr 2)) (m (xLoc d)))); iexact HX_5_3
      isplitl [HP_5]
      · iapply (Entails.of_eq (own_p_of_off (F := F) d L (5 : Fin 16) (k0_off15 L (Tr 2)) (k0_off15_inb L (Tr 2) (cond3_all _)) (off15_c L (Tr 2)) (m (pLoc d)))); iexact HP_5
      isplitl [HO_5_0]; · iapply (Entails.of_eq (own_block_fin_b6 (F := F) m d L (0 : Fin 4) (5 : Fin 16) (k0_off10 L (Tr 2)) (k0_off10_inb L (Tr 2) (cond2_all _)) (k0_off15 L (Tr 2)) (k0_off15_inb L (Tr 2) (cond3_all _)) (k0_off16 L (Tr 2) 1#32) (k0_off16_inb L (Tr 2) 1) (off10_c L (Tr 2)) (off15_c L (Tr 2)) (off16_c1 L (Tr 2)) _)); iexact HO_5_0
      isplitl [HO_5_1]; · iapply (Entails.of_eq (own_block_fin_b7 (F := F) m d L (1 : Fin 4) (5 : Fin 16) (k0_off11 L (Tr 2)) (k0_off11_inb L (Tr 2) (cond2_all _)) (k0_off15 L (Tr 2)) (k0_off15_inb L (Tr 2) (cond3_all _)) (k0_off17 L (Tr 2) 1#32) (k0_off17_inb L (Tr 2) 1) (off11_c L (Tr 2)) (off15_c L (Tr 2)) (off17_c1 L (Tr 2)) _)); iexact HO_5_1
      isplitl [HO_5_2]; · iapply (Entails.of_eq (own_block_fin_b8 (F := F) m d L (2 : Fin 4) (5 : Fin 16) (k0_off12 L (Tr 2)) (k0_off12_inb L (Tr 2) (cond2_all _)) (k0_off15 L (Tr 2)) (k0_off15_inb L (Tr 2) (cond3_all _)) (k0_off18 L (Tr 2) 1#32) (k0_off18_inb L (Tr 2) 1) (off12_c L (Tr 2)) (off15_c L (Tr 2)) (off18_c1 L (Tr 2)) _)); iexact HO_5_2
      iapply (Entails.of_eq (own_block_fin_b9 (F := F) m d L (3 : Fin 4) (5 : Fin 16) (k0_off13 L (Tr 2)) (k0_off13_inb L (Tr 2) (cond2_all _)) (k0_off15 L (Tr 2)) (k0_off15_inb L (Tr 2) (cond3_all _)) (k0_off19 L (Tr 2) 1#32) (k0_off19_inb L (Tr 2) 1) (off13_c L (Tr 2)) (off15_c L (Tr 2)) (off19_c1 L (Tr 2)) _)); iexact HO_5_3
    isplitl [HX_6_0 HX_6_1 HX_6_2 HX_6_3 HP_6 HO_6_0 HO_6_1 HO_6_2 HO_6_3]
    ·
      isplitl [HX_6_0 HX_6_1 HX_6_2 HX_6_3]
      · isplitl [HX_6_0]; · iapply (Entails.of_eq (own_x_of_off (F := F) d L (0 : Fin 4) (6 : Fin 16) (k0_off72 L (Tr 2)) (k0_off72_inb L (Tr 2) (cond5_of _ (by decide))) (off72_c L (Tr 2) (by decide)) (m (xLoc d)))); iexact HX_6_0
        isplitl [HX_6_1]; · iapply (Entails.of_eq (own_x_of_off (F := F) d L (1 : Fin 4) (6 : Fin 16) (k0_off73 L (Tr 2)) (k0_off73_inb L (Tr 2) (cond5_of _ (by decide))) (off73_c L (Tr 2) (by decide)) (m (xLoc d)))); iexact HX_6_1
        isplitl [HX_6_2]; · iapply (Entails.of_eq (own_x_of_off (F := F) d L (2 : Fin 4) (6 : Fin 16) (k0_off74 L (Tr 2)) (k0_off74_inb L (Tr 2) (cond5_of _ (by decide))) (off74_c L (Tr 2) (by decide)) (m (xLoc d)))); iexact HX_6_2
        iapply (Entails.of_eq (own_x_of_off (F := F) d L (3 : Fin 4) (6 : Fin 16) (k0_off75 L (Tr 2)) (k0_off75_inb L (Tr 2) (cond5_of _ (by decide))) (off75_c L (Tr 2) (by decide)) (m (xLoc d)))); iexact HX_6_3
      isplitl [HP_6]
      · iapply (Entails.of_eq (own_p_of_off (F := F) d L (6 : Fin 16) (k0_off76 L (Tr 2)) (k0_off76_inb L (Tr 2) (cond6_of _ (by decide))) (off76_c L (Tr 2) (by decide)) (m (pLoc d)))); iexact HP_6
      isplitl [HO_6_0]; · iapply (Entails.of_eq (own_block_fin_b2 (F := F) m d L (0 : Fin 4) (6 : Fin 16) (k0_off72 L (Tr 2)) (k0_off72_inb L (Tr 2) (cond5_of _ (by decide))) (k0_off76 L (Tr 2)) (k0_off76_inb L (Tr 2) (cond6_of _ (by decide))) (k0_off16 L (Tr 3) 0#32) (k0_off16_inb L (Tr 3) 0) (off72_c L (Tr 2) (by decide)) (off76_c L (Tr 2) (by decide)) (off16_c0 L (Tr 3)) _)); iexact HO_6_0
      isplitl [HO_6_1]; · iapply (Entails.of_eq (own_block_fin_b3 (F := F) m d L (1 : Fin 4) (6 : Fin 16) (k0_off73 L (Tr 2)) (k0_off73_inb L (Tr 2) (cond5_of _ (by decide))) (k0_off76 L (Tr 2)) (k0_off76_inb L (Tr 2) (cond6_of _ (by decide))) (k0_off17 L (Tr 3) 0#32) (k0_off17_inb L (Tr 3) 0) (off73_c L (Tr 2) (by decide)) (off76_c L (Tr 2) (by decide)) (off17_c0 L (Tr 3)) _)); iexact HO_6_1
      isplitl [HO_6_2]; · iapply (Entails.of_eq (own_block_fin_b4 (F := F) m d L (2 : Fin 4) (6 : Fin 16) (k0_off74 L (Tr 2)) (k0_off74_inb L (Tr 2) (cond5_of _ (by decide))) (k0_off76 L (Tr 2)) (k0_off76_inb L (Tr 2) (cond6_of _ (by decide))) (k0_off18 L (Tr 3) 0#32) (k0_off18_inb L (Tr 3) 0) (off74_c L (Tr 2) (by decide)) (off76_c L (Tr 2) (by decide)) (off18_c0 L (Tr 3)) _)); iexact HO_6_2
      iapply (Entails.of_eq (own_block_fin_b5 (F := F) m d L (3 : Fin 4) (6 : Fin 16) (k0_off75 L (Tr 2)) (k0_off75_inb L (Tr 2) (cond5_of _ (by decide))) (k0_off76 L (Tr 2)) (k0_off76_inb L (Tr 2) (cond6_of _ (by decide))) (k0_off19 L (Tr 3) 0#32) (k0_off19_inb L (Tr 3) 0) (off75_c L (Tr 2) (by decide)) (off76_c L (Tr 2) (by decide)) (off19_c0 L (Tr 3)) _)); iexact HO_6_3
    isplitl [HX_7_0 HX_7_1 HX_7_2 HX_7_3 HP_7 HO_7_0 HO_7_1 HO_7_2 HO_7_3]
    ·
      isplitl [HX_7_0 HX_7_1 HX_7_2 HX_7_3]
      · isplitl [HX_7_0]; · iapply (Entails.of_eq (own_x_of_off (F := F) d L (0 : Fin 4) (7 : Fin 16) (k0_off10 L (Tr 3)) (k0_off10_inb L (Tr 3) (cond2_all _)) (off10_c L (Tr 3)) (m (xLoc d)))); iexact HX_7_0
        isplitl [HX_7_1]; · iapply (Entails.of_eq (own_x_of_off (F := F) d L (1 : Fin 4) (7 : Fin 16) (k0_off11 L (Tr 3)) (k0_off11_inb L (Tr 3) (cond2_all _)) (off11_c L (Tr 3)) (m (xLoc d)))); iexact HX_7_1
        isplitl [HX_7_2]; · iapply (Entails.of_eq (own_x_of_off (F := F) d L (2 : Fin 4) (7 : Fin 16) (k0_off12 L (Tr 3)) (k0_off12_inb L (Tr 3) (cond2_all _)) (off12_c L (Tr 3)) (m (xLoc d)))); iexact HX_7_2
        iapply (Entails.of_eq (own_x_of_off (F := F) d L (3 : Fin 4) (7 : Fin 16) (k0_off13 L (Tr 3)) (k0_off13_inb L (Tr 3) (cond2_all _)) (off13_c L (Tr 3)) (m (xLoc d)))); iexact HX_7_3
      isplitl [HP_7]
      · iapply (Entails.of_eq (own_p_of_off (F := F) d L (7 : Fin 16) (k0_off15 L (Tr 3)) (k0_off15_inb L (Tr 3) (cond3_all _)) (off15_c L (Tr 3)) (m (pLoc d)))); iexact HP_7
      isplitl [HO_7_0]; · iapply (Entails.of_eq (own_block_fin_b6 (F := F) m d L (0 : Fin 4) (7 : Fin 16) (k0_off10 L (Tr 3)) (k0_off10_inb L (Tr 3) (cond2_all _)) (k0_off15 L (Tr 3)) (k0_off15_inb L (Tr 3) (cond3_all _)) (k0_off16 L (Tr 3) 1#32) (k0_off16_inb L (Tr 3) 1) (off10_c L (Tr 3)) (off15_c L (Tr 3)) (off16_c1 L (Tr 3)) _)); iexact HO_7_0
      isplitl [HO_7_1]; · iapply (Entails.of_eq (own_block_fin_b7 (F := F) m d L (1 : Fin 4) (7 : Fin 16) (k0_off11 L (Tr 3)) (k0_off11_inb L (Tr 3) (cond2_all _)) (k0_off15 L (Tr 3)) (k0_off15_inb L (Tr 3) (cond3_all _)) (k0_off17 L (Tr 3) 1#32) (k0_off17_inb L (Tr 3) 1) (off11_c L (Tr 3)) (off15_c L (Tr 3)) (off17_c1 L (Tr 3)) _)); iexact HO_7_1
      isplitl [HO_7_2]; · iapply (Entails.of_eq (own_block_fin_b8 (F := F) m d L (2 : Fin 4) (7 : Fin 16) (k0_off12 L (Tr 3)) (k0_off12_inb L (Tr 3) (cond2_all _)) (k0_off15 L (Tr 3)) (k0_off15_inb L (Tr 3) (cond3_all _)) (k0_off18 L (Tr 3) 1#32) (k0_off18_inb L (Tr 3) 1) (off12_c L (Tr 3)) (off15_c L (Tr 3)) (off18_c1 L (Tr 3)) _)); iexact HO_7_2
      iapply (Entails.of_eq (own_block_fin_b9 (F := F) m d L (3 : Fin 4) (7 : Fin 16) (k0_off13 L (Tr 3)) (k0_off13_inb L (Tr 3) (cond2_all _)) (k0_off15 L (Tr 3)) (k0_off15_inb L (Tr 3) (cond3_all _)) (k0_off19 L (Tr 3) 1#32) (k0_off19_inb L (Tr 3) 1) (off13_c L (Tr 3)) (off15_c L (Tr 3)) (off19_c1 L (Tr 3)) _)); iexact HO_7_3
    isplitl [HX_8_0 HX_8_1 HX_8_2 HX_8_3 HP_8 HO_8_0 HO_8_1 HO_8_2 HO_8_3]
    ·
      isplitl [HX_8_0 HX_8_1 HX_8_2 HX_8_3]
      · isplitl [HX_8_0]; · iapply (Entails.of_eq (own_x_of_off (F := F) d L (0 : Fin 4) (8 : Fin 16) (k0_off72 L (Tr 3)) (k0_off72_inb L (Tr 3) (cond5_of _ (by decide))) (off72_c L (Tr 3) (by decide)) (m (xLoc d)))); iexact HX_8_0
        isplitl [HX_8_1]; · iapply (Entails.of_eq (own_x_of_off (F := F) d L (1 : Fin 4) (8 : Fin 16) (k0_off73 L (Tr 3)) (k0_off73_inb L (Tr 3) (cond5_of _ (by decide))) (off73_c L (Tr 3) (by decide)) (m (xLoc d)))); iexact HX_8_1
        isplitl [HX_8_2]; · iapply (Entails.of_eq (own_x_of_off (F := F) d L (2 : Fin 4) (8 : Fin 16) (k0_off74 L (Tr 3)) (k0_off74_inb L (Tr 3) (cond5_of _ (by decide))) (off74_c L (Tr 3) (by decide)) (m (xLoc d)))); iexact HX_8_2
        iapply (Entails.of_eq (own_x_of_off (F := F) d L (3 : Fin 4) (8 : Fin 16) (k0_off75 L (Tr 3)) (k0_off75_inb L (Tr 3) (cond5_of _ (by decide))) (off75_c L (Tr 3) (by decide)) (m (xLoc d)))); iexact HX_8_3
      isplitl [HP_8]
      · iapply (Entails.of_eq (own_p_of_off (F := F) d L (8 : Fin 16) (k0_off76 L (Tr 3)) (k0_off76_inb L (Tr 3) (cond6_of _ (by decide))) (off76_c L (Tr 3) (by decide)) (m (pLoc d)))); iexact HP_8
      isplitl [HO_8_0]; · iapply (Entails.of_eq (own_block_fin_b2 (F := F) m d L (0 : Fin 4) (8 : Fin 16) (k0_off72 L (Tr 3)) (k0_off72_inb L (Tr 3) (cond5_of _ (by decide))) (k0_off76 L (Tr 3)) (k0_off76_inb L (Tr 3) (cond6_of _ (by decide))) (k0_off16 L (Tr 4) 0#32) (k0_off16_inb L (Tr 4) 0) (off72_c L (Tr 3) (by decide)) (off76_c L (Tr 3) (by decide)) (off16_c0 L (Tr 4)) _)); iexact HO_8_0
      isplitl [HO_8_1]; · iapply (Entails.of_eq (own_block_fin_b3 (F := F) m d L (1 : Fin 4) (8 : Fin 16) (k0_off73 L (Tr 3)) (k0_off73_inb L (Tr 3) (cond5_of _ (by decide))) (k0_off76 L (Tr 3)) (k0_off76_inb L (Tr 3) (cond6_of _ (by decide))) (k0_off17 L (Tr 4) 0#32) (k0_off17_inb L (Tr 4) 0) (off73_c L (Tr 3) (by decide)) (off76_c L (Tr 3) (by decide)) (off17_c0 L (Tr 4)) _)); iexact HO_8_1
      isplitl [HO_8_2]; · iapply (Entails.of_eq (own_block_fin_b4 (F := F) m d L (2 : Fin 4) (8 : Fin 16) (k0_off74 L (Tr 3)) (k0_off74_inb L (Tr 3) (cond5_of _ (by decide))) (k0_off76 L (Tr 3)) (k0_off76_inb L (Tr 3) (cond6_of _ (by decide))) (k0_off18 L (Tr 4) 0#32) (k0_off18_inb L (Tr 4) 0) (off74_c L (Tr 3) (by decide)) (off76_c L (Tr 3) (by decide)) (off18_c0 L (Tr 4)) _)); iexact HO_8_2
      iapply (Entails.of_eq (own_block_fin_b5 (F := F) m d L (3 : Fin 4) (8 : Fin 16) (k0_off75 L (Tr 3)) (k0_off75_inb L (Tr 3) (cond5_of _ (by decide))) (k0_off76 L (Tr 3)) (k0_off76_inb L (Tr 3) (cond6_of _ (by decide))) (k0_off19 L (Tr 4) 0#32) (k0_off19_inb L (Tr 4) 0) (off75_c L (Tr 3) (by decide)) (off76_c L (Tr 3) (by decide)) (off19_c0 L (Tr 4)) _)); iexact HO_8_3
    isplitl [HX_9_0 HX_9_1 HX_9_2 HX_9_3 HP_9 HO_9_0 HO_9_1 HO_9_2 HO_9_3]
    ·
      isplitl [HX_9_0 HX_9_1 HX_9_2 HX_9_3]
      · isplitl [HX_9_0]; · iapply (Entails.of_eq (own_x_of_off (F := F) d L (0 : Fin 4) (9 : Fin 16) (k0_off10 L (Tr 4)) (k0_off10_inb L (Tr 4) (cond2_all _)) (off10_c L (Tr 4)) (m (xLoc d)))); iexact HX_9_0
        isplitl [HX_9_1]; · iapply (Entails.of_eq (own_x_of_off (F := F) d L (1 : Fin 4) (9 : Fin 16) (k0_off11 L (Tr 4)) (k0_off11_inb L (Tr 4) (cond2_all _)) (off11_c L (Tr 4)) (m (xLoc d)))); iexact HX_9_1
        isplitl [HX_9_2]; · iapply (Entails.of_eq (own_x_of_off (F := F) d L (2 : Fin 4) (9 : Fin 16) (k0_off12 L (Tr 4)) (k0_off12_inb L (Tr 4) (cond2_all _)) (off12_c L (Tr 4)) (m (xLoc d)))); iexact HX_9_2
        iapply (Entails.of_eq (own_x_of_off (F := F) d L (3 : Fin 4) (9 : Fin 16) (k0_off13 L (Tr 4)) (k0_off13_inb L (Tr 4) (cond2_all _)) (off13_c L (Tr 4)) (m (xLoc d)))); iexact HX_9_3
      isplitl [HP_9]
      · iapply (Entails.of_eq (own_p_of_off (F := F) d L (9 : Fin 16) (k0_off15 L (Tr 4)) (k0_off15_inb L (Tr 4) (cond3_all _)) (off15_c L (Tr 4)) (m (pLoc d)))); iexact HP_9
      isplitl [HO_9_0]; · iapply (Entails.of_eq (own_block_fin_b6 (F := F) m d L (0 : Fin 4) (9 : Fin 16) (k0_off10 L (Tr 4)) (k0_off10_inb L (Tr 4) (cond2_all _)) (k0_off15 L (Tr 4)) (k0_off15_inb L (Tr 4) (cond3_all _)) (k0_off16 L (Tr 4) 1#32) (k0_off16_inb L (Tr 4) 1) (off10_c L (Tr 4)) (off15_c L (Tr 4)) (off16_c1 L (Tr 4)) _)); iexact HO_9_0
      isplitl [HO_9_1]; · iapply (Entails.of_eq (own_block_fin_b7 (F := F) m d L (1 : Fin 4) (9 : Fin 16) (k0_off11 L (Tr 4)) (k0_off11_inb L (Tr 4) (cond2_all _)) (k0_off15 L (Tr 4)) (k0_off15_inb L (Tr 4) (cond3_all _)) (k0_off17 L (Tr 4) 1#32) (k0_off17_inb L (Tr 4) 1) (off11_c L (Tr 4)) (off15_c L (Tr 4)) (off17_c1 L (Tr 4)) _)); iexact HO_9_1
      isplitl [HO_9_2]; · iapply (Entails.of_eq (own_block_fin_b8 (F := F) m d L (2 : Fin 4) (9 : Fin 16) (k0_off12 L (Tr 4)) (k0_off12_inb L (Tr 4) (cond2_all _)) (k0_off15 L (Tr 4)) (k0_off15_inb L (Tr 4) (cond3_all _)) (k0_off18 L (Tr 4) 1#32) (k0_off18_inb L (Tr 4) 1) (off12_c L (Tr 4)) (off15_c L (Tr 4)) (off18_c1 L (Tr 4)) _)); iexact HO_9_2
      iapply (Entails.of_eq (own_block_fin_b9 (F := F) m d L (3 : Fin 4) (9 : Fin 16) (k0_off13 L (Tr 4)) (k0_off13_inb L (Tr 4) (cond2_all _)) (k0_off15 L (Tr 4)) (k0_off15_inb L (Tr 4) (cond3_all _)) (k0_off19 L (Tr 4) 1#32) (k0_off19_inb L (Tr 4) 1) (off13_c L (Tr 4)) (off15_c L (Tr 4)) (off19_c1 L (Tr 4)) _)); iexact HO_9_3
    isplitl [HX_10_0 HX_10_1 HX_10_2 HX_10_3 HP_10 HO_10_0 HO_10_1 HO_10_2 HO_10_3]
    ·
      isplitl [HX_10_0 HX_10_1 HX_10_2 HX_10_3]
      · isplitl [HX_10_0]; · iapply (Entails.of_eq (own_x_of_off (F := F) d L (0 : Fin 4) (10 : Fin 16) (k0_off72 L (Tr 4)) (k0_off72_inb L (Tr 4) (cond5_of _ (by decide))) (off72_c L (Tr 4) (by decide)) (m (xLoc d)))); iexact HX_10_0
        isplitl [HX_10_1]; · iapply (Entails.of_eq (own_x_of_off (F := F) d L (1 : Fin 4) (10 : Fin 16) (k0_off73 L (Tr 4)) (k0_off73_inb L (Tr 4) (cond5_of _ (by decide))) (off73_c L (Tr 4) (by decide)) (m (xLoc d)))); iexact HX_10_1
        isplitl [HX_10_2]; · iapply (Entails.of_eq (own_x_of_off (F := F) d L (2 : Fin 4) (10 : Fin 16) (k0_off74 L (Tr 4)) (k0_off74_inb L (Tr 4) (cond5_of _ (by decide))) (off74_c L (Tr 4) (by decide)) (m (xLoc d)))); iexact HX_10_2
        iapply (Entails.of_eq (own_x_of_off (F := F) d L (3 : Fin 4) (10 : Fin 16) (k0_off75 L (Tr 4)) (k0_off75_inb L (Tr 4) (cond5_of _ (by decide))) (off75_c L (Tr 4) (by decide)) (m (xLoc d)))); iexact HX_10_3
      isplitl [HP_10]
      · iapply (Entails.of_eq (own_p_of_off (F := F) d L (10 : Fin 16) (k0_off76 L (Tr 4)) (k0_off76_inb L (Tr 4) (cond6_of _ (by decide))) (off76_c L (Tr 4) (by decide)) (m (pLoc d)))); iexact HP_10
      isplitl [HO_10_0]; · iapply (Entails.of_eq (own_block_fin_b2 (F := F) m d L (0 : Fin 4) (10 : Fin 16) (k0_off72 L (Tr 4)) (k0_off72_inb L (Tr 4) (cond5_of _ (by decide))) (k0_off76 L (Tr 4)) (k0_off76_inb L (Tr 4) (cond6_of _ (by decide))) (k0_off16 L (Tr 5) 0#32) (k0_off16_inb L (Tr 5) 0) (off72_c L (Tr 4) (by decide)) (off76_c L (Tr 4) (by decide)) (off16_c0 L (Tr 5)) _)); iexact HO_10_0
      isplitl [HO_10_1]; · iapply (Entails.of_eq (own_block_fin_b3 (F := F) m d L (1 : Fin 4) (10 : Fin 16) (k0_off73 L (Tr 4)) (k0_off73_inb L (Tr 4) (cond5_of _ (by decide))) (k0_off76 L (Tr 4)) (k0_off76_inb L (Tr 4) (cond6_of _ (by decide))) (k0_off17 L (Tr 5) 0#32) (k0_off17_inb L (Tr 5) 0) (off73_c L (Tr 4) (by decide)) (off76_c L (Tr 4) (by decide)) (off17_c0 L (Tr 5)) _)); iexact HO_10_1
      isplitl [HO_10_2]; · iapply (Entails.of_eq (own_block_fin_b4 (F := F) m d L (2 : Fin 4) (10 : Fin 16) (k0_off74 L (Tr 4)) (k0_off74_inb L (Tr 4) (cond5_of _ (by decide))) (k0_off76 L (Tr 4)) (k0_off76_inb L (Tr 4) (cond6_of _ (by decide))) (k0_off18 L (Tr 5) 0#32) (k0_off18_inb L (Tr 5) 0) (off74_c L (Tr 4) (by decide)) (off76_c L (Tr 4) (by decide)) (off18_c0 L (Tr 5)) _)); iexact HO_10_2
      iapply (Entails.of_eq (own_block_fin_b5 (F := F) m d L (3 : Fin 4) (10 : Fin 16) (k0_off75 L (Tr 4)) (k0_off75_inb L (Tr 4) (cond5_of _ (by decide))) (k0_off76 L (Tr 4)) (k0_off76_inb L (Tr 4) (cond6_of _ (by decide))) (k0_off19 L (Tr 5) 0#32) (k0_off19_inb L (Tr 5) 0) (off75_c L (Tr 4) (by decide)) (off76_c L (Tr 4) (by decide)) (off19_c0 L (Tr 5)) _)); iexact HO_10_3
    isplitl [HX_11_0 HX_11_1 HX_11_2 HX_11_3 HP_11 HO_11_0 HO_11_1 HO_11_2 HO_11_3]
    ·
      isplitl [HX_11_0 HX_11_1 HX_11_2 HX_11_3]
      · isplitl [HX_11_0]; · iapply (Entails.of_eq (own_x_of_off (F := F) d L (0 : Fin 4) (11 : Fin 16) (k0_off10 L (Tr 5)) (k0_off10_inb L (Tr 5) (cond2_all _)) (off10_c L (Tr 5)) (m (xLoc d)))); iexact HX_11_0
        isplitl [HX_11_1]; · iapply (Entails.of_eq (own_x_of_off (F := F) d L (1 : Fin 4) (11 : Fin 16) (k0_off11 L (Tr 5)) (k0_off11_inb L (Tr 5) (cond2_all _)) (off11_c L (Tr 5)) (m (xLoc d)))); iexact HX_11_1
        isplitl [HX_11_2]; · iapply (Entails.of_eq (own_x_of_off (F := F) d L (2 : Fin 4) (11 : Fin 16) (k0_off12 L (Tr 5)) (k0_off12_inb L (Tr 5) (cond2_all _)) (off12_c L (Tr 5)) (m (xLoc d)))); iexact HX_11_2
        iapply (Entails.of_eq (own_x_of_off (F := F) d L (3 : Fin 4) (11 : Fin 16) (k0_off13 L (Tr 5)) (k0_off13_inb L (Tr 5) (cond2_all _)) (off13_c L (Tr 5)) (m (xLoc d)))); iexact HX_11_3
      isplitl [HP_11]
      · iapply (Entails.of_eq (own_p_of_off (F := F) d L (11 : Fin 16) (k0_off15 L (Tr 5)) (k0_off15_inb L (Tr 5) (cond3_all _)) (off15_c L (Tr 5)) (m (pLoc d)))); iexact HP_11
      isplitl [HO_11_0]; · iapply (Entails.of_eq (own_block_fin_b6 (F := F) m d L (0 : Fin 4) (11 : Fin 16) (k0_off10 L (Tr 5)) (k0_off10_inb L (Tr 5) (cond2_all _)) (k0_off15 L (Tr 5)) (k0_off15_inb L (Tr 5) (cond3_all _)) (k0_off16 L (Tr 5) 1#32) (k0_off16_inb L (Tr 5) 1) (off10_c L (Tr 5)) (off15_c L (Tr 5)) (off16_c1 L (Tr 5)) _)); iexact HO_11_0
      isplitl [HO_11_1]; · iapply (Entails.of_eq (own_block_fin_b7 (F := F) m d L (1 : Fin 4) (11 : Fin 16) (k0_off11 L (Tr 5)) (k0_off11_inb L (Tr 5) (cond2_all _)) (k0_off15 L (Tr 5)) (k0_off15_inb L (Tr 5) (cond3_all _)) (k0_off17 L (Tr 5) 1#32) (k0_off17_inb L (Tr 5) 1) (off11_c L (Tr 5)) (off15_c L (Tr 5)) (off17_c1 L (Tr 5)) _)); iexact HO_11_1
      isplitl [HO_11_2]; · iapply (Entails.of_eq (own_block_fin_b8 (F := F) m d L (2 : Fin 4) (11 : Fin 16) (k0_off12 L (Tr 5)) (k0_off12_inb L (Tr 5) (cond2_all _)) (k0_off15 L (Tr 5)) (k0_off15_inb L (Tr 5) (cond3_all _)) (k0_off18 L (Tr 5) 1#32) (k0_off18_inb L (Tr 5) 1) (off12_c L (Tr 5)) (off15_c L (Tr 5)) (off18_c1 L (Tr 5)) _)); iexact HO_11_2
      iapply (Entails.of_eq (own_block_fin_b9 (F := F) m d L (3 : Fin 4) (11 : Fin 16) (k0_off13 L (Tr 5)) (k0_off13_inb L (Tr 5) (cond2_all _)) (k0_off15 L (Tr 5)) (k0_off15_inb L (Tr 5) (cond3_all _)) (k0_off19 L (Tr 5) 1#32) (k0_off19_inb L (Tr 5) 1) (off13_c L (Tr 5)) (off15_c L (Tr 5)) (off19_c1 L (Tr 5)) _)); iexact HO_11_3
    isplitl [HX_12_0 HX_12_1 HX_12_2 HX_12_3 HP_12 HO_12_0 HO_12_1 HO_12_2 HO_12_3]
    ·
      isplitl [HX_12_0 HX_12_1 HX_12_2 HX_12_3]
      · isplitl [HX_12_0]; · iapply (Entails.of_eq (own_x_of_off (F := F) d L (0 : Fin 4) (12 : Fin 16) (k0_off72 L (Tr 5)) (k0_off72_inb L (Tr 5) (cond5_of _ (by decide))) (off72_c L (Tr 5) (by decide)) (m (xLoc d)))); iexact HX_12_0
        isplitl [HX_12_1]; · iapply (Entails.of_eq (own_x_of_off (F := F) d L (1 : Fin 4) (12 : Fin 16) (k0_off73 L (Tr 5)) (k0_off73_inb L (Tr 5) (cond5_of _ (by decide))) (off73_c L (Tr 5) (by decide)) (m (xLoc d)))); iexact HX_12_1
        isplitl [HX_12_2]; · iapply (Entails.of_eq (own_x_of_off (F := F) d L (2 : Fin 4) (12 : Fin 16) (k0_off74 L (Tr 5)) (k0_off74_inb L (Tr 5) (cond5_of _ (by decide))) (off74_c L (Tr 5) (by decide)) (m (xLoc d)))); iexact HX_12_2
        iapply (Entails.of_eq (own_x_of_off (F := F) d L (3 : Fin 4) (12 : Fin 16) (k0_off75 L (Tr 5)) (k0_off75_inb L (Tr 5) (cond5_of _ (by decide))) (off75_c L (Tr 5) (by decide)) (m (xLoc d)))); iexact HX_12_3
      isplitl [HP_12]
      · iapply (Entails.of_eq (own_p_of_off (F := F) d L (12 : Fin 16) (k0_off76 L (Tr 5)) (k0_off76_inb L (Tr 5) (cond6_of _ (by decide))) (off76_c L (Tr 5) (by decide)) (m (pLoc d)))); iexact HP_12
      isplitl [HO_12_0]; · iapply (Entails.of_eq (own_block_fin_b2 (F := F) m d L (0 : Fin 4) (12 : Fin 16) (k0_off72 L (Tr 5)) (k0_off72_inb L (Tr 5) (cond5_of _ (by decide))) (k0_off76 L (Tr 5)) (k0_off76_inb L (Tr 5) (cond6_of _ (by decide))) (k0_off16 L (Tr 6) 0#32) (k0_off16_inb L (Tr 6) 0) (off72_c L (Tr 5) (by decide)) (off76_c L (Tr 5) (by decide)) (off16_c0 L (Tr 6)) _)); iexact HO_12_0
      isplitl [HO_12_1]; · iapply (Entails.of_eq (own_block_fin_b3 (F := F) m d L (1 : Fin 4) (12 : Fin 16) (k0_off73 L (Tr 5)) (k0_off73_inb L (Tr 5) (cond5_of _ (by decide))) (k0_off76 L (Tr 5)) (k0_off76_inb L (Tr 5) (cond6_of _ (by decide))) (k0_off17 L (Tr 6) 0#32) (k0_off17_inb L (Tr 6) 0) (off73_c L (Tr 5) (by decide)) (off76_c L (Tr 5) (by decide)) (off17_c0 L (Tr 6)) _)); iexact HO_12_1
      isplitl [HO_12_2]; · iapply (Entails.of_eq (own_block_fin_b4 (F := F) m d L (2 : Fin 4) (12 : Fin 16) (k0_off74 L (Tr 5)) (k0_off74_inb L (Tr 5) (cond5_of _ (by decide))) (k0_off76 L (Tr 5)) (k0_off76_inb L (Tr 5) (cond6_of _ (by decide))) (k0_off18 L (Tr 6) 0#32) (k0_off18_inb L (Tr 6) 0) (off74_c L (Tr 5) (by decide)) (off76_c L (Tr 5) (by decide)) (off18_c0 L (Tr 6)) _)); iexact HO_12_2
      iapply (Entails.of_eq (own_block_fin_b5 (F := F) m d L (3 : Fin 4) (12 : Fin 16) (k0_off75 L (Tr 5)) (k0_off75_inb L (Tr 5) (cond5_of _ (by decide))) (k0_off76 L (Tr 5)) (k0_off76_inb L (Tr 5) (cond6_of _ (by decide))) (k0_off19 L (Tr 6) 0#32) (k0_off19_inb L (Tr 6) 0) (off75_c L (Tr 5) (by decide)) (off76_c L (Tr 5) (by decide)) (off19_c0 L (Tr 6)) _)); iexact HO_12_3
    isplitl [HX_13_0 HX_13_1 HX_13_2 HX_13_3 HP_13 HO_13_0 HO_13_1 HO_13_2 HO_13_3]
    ·
      isplitl [HX_13_0 HX_13_1 HX_13_2 HX_13_3]
      · isplitl [HX_13_0]; · iapply (Entails.of_eq (own_x_of_off (F := F) d L (0 : Fin 4) (13 : Fin 16) (k0_off10 L (Tr 6)) (k0_off10_inb L (Tr 6) (cond2_all _)) (off10_c L (Tr 6)) (m (xLoc d)))); iexact HX_13_0
        isplitl [HX_13_1]; · iapply (Entails.of_eq (own_x_of_off (F := F) d L (1 : Fin 4) (13 : Fin 16) (k0_off11 L (Tr 6)) (k0_off11_inb L (Tr 6) (cond2_all _)) (off11_c L (Tr 6)) (m (xLoc d)))); iexact HX_13_1
        isplitl [HX_13_2]; · iapply (Entails.of_eq (own_x_of_off (F := F) d L (2 : Fin 4) (13 : Fin 16) (k0_off12 L (Tr 6)) (k0_off12_inb L (Tr 6) (cond2_all _)) (off12_c L (Tr 6)) (m (xLoc d)))); iexact HX_13_2
        iapply (Entails.of_eq (own_x_of_off (F := F) d L (3 : Fin 4) (13 : Fin 16) (k0_off13 L (Tr 6)) (k0_off13_inb L (Tr 6) (cond2_all _)) (off13_c L (Tr 6)) (m (xLoc d)))); iexact HX_13_3
      isplitl [HP_13]
      · iapply (Entails.of_eq (own_p_of_off (F := F) d L (13 : Fin 16) (k0_off15 L (Tr 6)) (k0_off15_inb L (Tr 6) (cond3_all _)) (off15_c L (Tr 6)) (m (pLoc d)))); iexact HP_13
      isplitl [HO_13_0]; · iapply (Entails.of_eq (own_block_fin_b6 (F := F) m d L (0 : Fin 4) (13 : Fin 16) (k0_off10 L (Tr 6)) (k0_off10_inb L (Tr 6) (cond2_all _)) (k0_off15 L (Tr 6)) (k0_off15_inb L (Tr 6) (cond3_all _)) (k0_off16 L (Tr 6) 1#32) (k0_off16_inb L (Tr 6) 1) (off10_c L (Tr 6)) (off15_c L (Tr 6)) (off16_c1 L (Tr 6)) _)); iexact HO_13_0
      isplitl [HO_13_1]; · iapply (Entails.of_eq (own_block_fin_b7 (F := F) m d L (1 : Fin 4) (13 : Fin 16) (k0_off11 L (Tr 6)) (k0_off11_inb L (Tr 6) (cond2_all _)) (k0_off15 L (Tr 6)) (k0_off15_inb L (Tr 6) (cond3_all _)) (k0_off17 L (Tr 6) 1#32) (k0_off17_inb L (Tr 6) 1) (off11_c L (Tr 6)) (off15_c L (Tr 6)) (off17_c1 L (Tr 6)) _)); iexact HO_13_1
      isplitl [HO_13_2]; · iapply (Entails.of_eq (own_block_fin_b8 (F := F) m d L (2 : Fin 4) (13 : Fin 16) (k0_off12 L (Tr 6)) (k0_off12_inb L (Tr 6) (cond2_all _)) (k0_off15 L (Tr 6)) (k0_off15_inb L (Tr 6) (cond3_all _)) (k0_off18 L (Tr 6) 1#32) (k0_off18_inb L (Tr 6) 1) (off12_c L (Tr 6)) (off15_c L (Tr 6)) (off18_c1 L (Tr 6)) _)); iexact HO_13_2
      iapply (Entails.of_eq (own_block_fin_b9 (F := F) m d L (3 : Fin 4) (13 : Fin 16) (k0_off13 L (Tr 6)) (k0_off13_inb L (Tr 6) (cond2_all _)) (k0_off15 L (Tr 6)) (k0_off15_inb L (Tr 6) (cond3_all _)) (k0_off19 L (Tr 6) 1#32) (k0_off19_inb L (Tr 6) 1) (off13_c L (Tr 6)) (off15_c L (Tr 6)) (off19_c1 L (Tr 6)) _)); iexact HO_13_3
    isplitl [HX_14_0 HX_14_1 HX_14_2 HX_14_3 HP_14 HO_14_0 HO_14_1 HO_14_2 HO_14_3]
    ·
      isplitl [HX_14_0 HX_14_1 HX_14_2 HX_14_3]
      · isplitl [HX_14_0]; · iapply (Entails.of_eq (own_x_of_off (F := F) d L (0 : Fin 4) (14 : Fin 16) (k0_off72 L (Tr 6)) (k0_off72_inb L (Tr 6) (cond5_of _ (by decide))) (off72_c L (Tr 6) (by decide)) (m (xLoc d)))); iexact HX_14_0
        isplitl [HX_14_1]; · iapply (Entails.of_eq (own_x_of_off (F := F) d L (1 : Fin 4) (14 : Fin 16) (k0_off73 L (Tr 6)) (k0_off73_inb L (Tr 6) (cond5_of _ (by decide))) (off73_c L (Tr 6) (by decide)) (m (xLoc d)))); iexact HX_14_1
        isplitl [HX_14_2]; · iapply (Entails.of_eq (own_x_of_off (F := F) d L (2 : Fin 4) (14 : Fin 16) (k0_off74 L (Tr 6)) (k0_off74_inb L (Tr 6) (cond5_of _ (by decide))) (off74_c L (Tr 6) (by decide)) (m (xLoc d)))); iexact HX_14_2
        iapply (Entails.of_eq (own_x_of_off (F := F) d L (3 : Fin 4) (14 : Fin 16) (k0_off75 L (Tr 6)) (k0_off75_inb L (Tr 6) (cond5_of _ (by decide))) (off75_c L (Tr 6) (by decide)) (m (xLoc d)))); iexact HX_14_3
      isplitl [HP_14]
      · iapply (Entails.of_eq (own_p_of_off (F := F) d L (14 : Fin 16) (k0_off76 L (Tr 6)) (k0_off76_inb L (Tr 6) (cond6_of _ (by decide))) (off76_c L (Tr 6) (by decide)) (m (pLoc d)))); iexact HP_14
      isplitl [HO_14_0]; · iapply (Entails.of_eq (own_block_fin_b2 (F := F) m d L (0 : Fin 4) (14 : Fin 16) (k0_off72 L (Tr 6)) (k0_off72_inb L (Tr 6) (cond5_of _ (by decide))) (k0_off76 L (Tr 6)) (k0_off76_inb L (Tr 6) (cond6_of _ (by decide))) (k0_off16 L (Tr 7) 0#32) (k0_off16_inb L (Tr 7) 0) (off72_c L (Tr 6) (by decide)) (off76_c L (Tr 6) (by decide)) (off16_c0 L (Tr 7)) _)); iexact HO_14_0
      isplitl [HO_14_1]; · iapply (Entails.of_eq (own_block_fin_b3 (F := F) m d L (1 : Fin 4) (14 : Fin 16) (k0_off73 L (Tr 6)) (k0_off73_inb L (Tr 6) (cond5_of _ (by decide))) (k0_off76 L (Tr 6)) (k0_off76_inb L (Tr 6) (cond6_of _ (by decide))) (k0_off17 L (Tr 7) 0#32) (k0_off17_inb L (Tr 7) 0) (off73_c L (Tr 6) (by decide)) (off76_c L (Tr 6) (by decide)) (off17_c0 L (Tr 7)) _)); iexact HO_14_1
      isplitl [HO_14_2]; · iapply (Entails.of_eq (own_block_fin_b4 (F := F) m d L (2 : Fin 4) (14 : Fin 16) (k0_off74 L (Tr 6)) (k0_off74_inb L (Tr 6) (cond5_of _ (by decide))) (k0_off76 L (Tr 6)) (k0_off76_inb L (Tr 6) (cond6_of _ (by decide))) (k0_off18 L (Tr 7) 0#32) (k0_off18_inb L (Tr 7) 0) (off74_c L (Tr 6) (by decide)) (off76_c L (Tr 6) (by decide)) (off18_c0 L (Tr 7)) _)); iexact HO_14_2
      iapply (Entails.of_eq (own_block_fin_b5 (F := F) m d L (3 : Fin 4) (14 : Fin 16) (k0_off75 L (Tr 6)) (k0_off75_inb L (Tr 6) (cond5_of _ (by decide))) (k0_off76 L (Tr 6)) (k0_off76_inb L (Tr 6) (cond6_of _ (by decide))) (k0_off19 L (Tr 7) 0#32) (k0_off19_inb L (Tr 7) 0) (off75_c L (Tr 6) (by decide)) (off76_c L (Tr 6) (by decide)) (off19_c0 L (Tr 7)) _)); iexact HO_14_3
    isplitl [HX_15_0 HX_15_1 HX_15_2 HX_15_3]
    · isplitl [HX_15_0]; · iapply (Entails.of_eq (own_x_of_off (F := F) d L (0 : Fin 4) (15 : Fin 16) (k0_off10 L (Tr 7)) (k0_off10_inb L (Tr 7) (cond2_all _)) (off10_c L (Tr 7)) (m (xLoc d)))); iexact HX_15_0
      isplitl [HX_15_1]; · iapply (Entails.of_eq (own_x_of_off (F := F) d L (1 : Fin 4) (15 : Fin 16) (k0_off11 L (Tr 7)) (k0_off11_inb L (Tr 7) (cond2_all _)) (off11_c L (Tr 7)) (m (xLoc d)))); iexact HX_15_1
      isplitl [HX_15_2]; · iapply (Entails.of_eq (own_x_of_off (F := F) d L (2 : Fin 4) (15 : Fin 16) (k0_off12 L (Tr 7)) (k0_off12_inb L (Tr 7) (cond2_all _)) (off12_c L (Tr 7)) (m (xLoc d)))); iexact HX_15_2
      iapply (Entails.of_eq (own_x_of_off (F := F) d L (3 : Fin 4) (15 : Fin 16) (k0_off13 L (Tr 7)) (k0_off13_inb L (Tr 7) (cond2_all _)) (off13_c L (Tr 7)) (m (xLoc d)))); iexact HX_15_3
    isplitl [HP_15]
    · iapply (Entails.of_eq (own_p_of_off (F := F) d L (15 : Fin 16) (k0_off15 L (Tr 7)) (k0_off15_inb L (Tr 7) (cond3_all _)) (off15_c L (Tr 7)) (m (pLoc d)))); iexact HP_15
    isplitl [HO_15_0]; · iapply (Entails.of_eq (own_block_fin_b6 (F := F) m d L (0 : Fin 4) (15 : Fin 16) (k0_off10 L (Tr 7)) (k0_off10_inb L (Tr 7) (cond2_all _)) (k0_off15 L (Tr 7)) (k0_off15_inb L (Tr 7) (cond3_all _)) (k0_off16 L (Tr 7) 1#32) (k0_off16_inb L (Tr 7) 1) (off10_c L (Tr 7)) (off15_c L (Tr 7)) (off16_c1 L (Tr 7)) _)); iexact HO_15_0
    isplitl [HO_15_1]; · iapply (Entails.of_eq (own_block_fin_b7 (F := F) m d L (1 : Fin 4) (15 : Fin 16) (k0_off11 L (Tr 7)) (k0_off11_inb L (Tr 7) (cond2_all _)) (k0_off15 L (Tr 7)) (k0_off15_inb L (Tr 7) (cond3_all _)) (k0_off17 L (Tr 7) 1#32) (k0_off17_inb L (Tr 7) 1) (off11_c L (Tr 7)) (off15_c L (Tr 7)) (off17_c1 L (Tr 7)) _)); iexact HO_15_1
    isplitl [HO_15_2]; · iapply (Entails.of_eq (own_block_fin_b8 (F := F) m d L (2 : Fin 4) (15 : Fin 16) (k0_off12 L (Tr 7)) (k0_off12_inb L (Tr 7) (cond2_all _)) (k0_off15 L (Tr 7)) (k0_off15_inb L (Tr 7) (cond3_all _)) (k0_off18 L (Tr 7) 1#32) (k0_off18_inb L (Tr 7) 1) (off12_c L (Tr 7)) (off15_c L (Tr 7)) (off18_c1 L (Tr 7)) _)); iexact HO_15_2
    iapply (Entails.of_eq (own_block_fin_b9 (F := F) m d L (3 : Fin 4) (15 : Fin 16) (k0_off13 L (Tr 7)) (k0_off13_inb L (Tr 7) (cond2_all _)) (k0_off15 L (Tr 7)) (k0_off15_inb L (Tr 7) (cond3_all _)) (k0_off19 L (Tr 7) 1#32) (k0_off19_inb L (Tr 7) 1) (off13_c L (Tr 7)) (off15_c L (Tr 7)) (off19_c1 L (Tr 7)) _)); iexact HO_15_3
  -- its buffers and semaphores
  isplitl [Hb0 Hb1 Hb2 Hb3 Hb4 Hb5 Hb6 Hb7 Hb8 Hb9 Hbufs]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs10 Hs11 Hs12 Hs13 Hs14 Hs15 Hsems]
  · isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    iexact Hsems
  -- what it owes, and the waits it recorded
  iexists _
  isplitr
  rotate_left
  · iexact HO
  · ipureintro
    repeat' apply ins_ok
    exact fun p hp => Or.inl hp

end Cert.Kernel.Hand

end
-- ==== Proof.Ref.lean ====
/-
  The reference program's run, read as the kernel's function of the two argument arrays. The reference is a short
  chain of host operations: the zero constant, broadcast to the input's shape; the comparison of the input with it;
  the position table broadcast along a new leading axis of size one and then to the four batch entries; the sum of the
  input and that; and the selection between the input and the sum. Index by index that is `Gfun`: the two broadcasts
  of the table, composed, read it at the last two coordinates of the result's index, the broadcast constant is the
  zero word at every index, and the comparison, the sum and the selection act entry by entry.
-/
import proofs.«210086_g67980742361152_cont_9to1c4b_184_18_alg».proof.Defs
import proofs.«210086_g67980742361152_cont_9to1c4b_184_18_alg».proof.Proof.Gen.ReferenceIdeal
import proofs.«210086_g67980742361152_cont_9to1c4b_184_18_alg».proof.Proof.Gen.Pre_finite_inputs
import proofs.«210086_g67980742361152_cont_9to1c4b_184_18_alg».proof.Proof.Gen.ReferenceIdeal.Run
import proofs.«210086_g67980742361152_cont_9to1c4b_184_18_alg».proof.Proof.Gen.ReferenceIdeal.Read
import proofs.«210086_g67980742361152_cont_9to1c4b_184_18_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read

/-! ## The reference's term is the kernel's function -/

/-- The two broadcasts of the table, composed, read it at the last two coordinates of the result's index. -/
theorem idx_table (i : S4x8192x768.Idx) : idx_main_v2 (idx_main_v3 i) = ValueIdx.ix2 (i 1) (i 2) := by
  funext a
  match a with
  | ⟨0, _⟩ => rfl
  | ⟨1, _⟩ => rfl

/-- The reference's result, as a function of its two arguments, is the kernel's function of them: at every index
    the input's entry where it equals the zero word, and else its sum with the table's entry of that row and column. -/
theorem result_eq (x : (⟨S4x8192x768, .f32⟩ : BufTy).Contents (Elt Ideal)) (pe : (⟨S8192x768, .f32⟩ : BufTy).Contents (Elt Ideal)) :
    val_main_v5 (F := Ideal) x pe = Cert.KernelIdeal.Hand.Gfun (F := Ideal) x pe := by
  funext i
  rw [val_main_v5_apply, val_main_v1_apply, val_main_v4_apply, val_main_v3_apply, val_main_v2_apply, val_main_v0_apply,
    val_main_cst_apply, idx_table]
  rfl

/-! ## The run -/

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- From any memory, the reference ends with its result at the kernel's function of the two arguments' launch
    contents, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v5)
          = Cert.KernelIdeal.Hand.Gfun (F := Ideal) (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono
    (fun _ h c => ⟨(h c).1.trans ((val_main_v5_eq _ _).trans (result_eq _ _)), (h c).2⟩)
    (Cert.ReferenceIdeal.Value.run (F := Ideal) m' ρ')

end Cert.ReferenceIdeal.RefValue

end
-- ==== Proof.lean ====
/-
  The claim. The kernel as printed, and the same text read at the ideal instance, run to the end from any memory and
  leave their two argument arrays unchanged; so does the reference; and at the ideal instance, from memories that agree
  on the arguments, the kernel and the reference end with the same result: at every index the input's entry where that
  entry is exactly zero (a padding entry), and else the sum of that entry and the position table's entry of the same row
  and column. The kernel's run is the launch applied to one tile's run, at either instance; the reference's run is read
  off its chain of host operations; both results are one function of the two arguments, so memories that agree on the
  arguments give equal results. The ideal reading rewrote no operation, so there is nothing for it to preserve.
-/
import proofs.«210086_g67980742361152_cont_9to1c4b_184_18_alg».proof.Defs
import proofs.«210086_g67980742361152_cont_9to1c4b_184_18_alg».proof.Proof.Gen.Kernel
import proofs.«210086_g67980742361152_cont_9to1c4b_184_18_alg».proof.Proof.Gen.Kernel.Skeleton
import proofs.«210086_g67980742361152_cont_9to1c4b_184_18_alg».proof.Proof.Gen.KernelIdeal
import proofs.«210086_g67980742361152_cont_9to1c4b_184_18_alg».proof.Proof.Gen.KernelIdeal.Skeleton
import proofs.«210086_g67980742361152_cont_9to1c4b_184_18_alg».proof.Proof.Gen.ReferenceIdeal
import proofs.«210086_g67980742361152_cont_9to1c4b_184_18_alg».proof.Proof.Gen.Pre_finite_inputs
import proofs.«210086_g67980742361152_cont_9to1c4b_184_18_alg».proof.Proof.Gen.ReferenceIdeal.Run
import proofs.«210086_g67980742361152_cont_9to1c4b_184_18_alg».proof.Proof.Gen.ReferenceIdeal.Read
import proofs.«210086_g67980742361152_cont_9to1c4b_184_18_alg».proof.Proof.Launch
import proofs.«210086_g67980742361152_cont_9to1c4b_184_18_alg».proof.Proof.LaunchK
import proofs.«210086_g67980742361152_cont_9to1c4b_184_18_alg».proof.Proof.TileBody
import proofs.«210086_g67980742361152_cont_9to1c4b_184_18_alg».proof.Proof.TileBodyK
import proofs.«210086_g67980742361152_cont_9to1c4b_184_18_alg».proof.Proof.Ref
import Idealize.ShloMosaic.Adequacy
import Idealize.ShloMosaic.Init

noncomputable section

namespace Cert.Proof

open Idealize.ShloMosaic Idealize.SL.Sem

/-- The kernel as printed runs to the end and leaves its two arguments unchanged: its run with the result's equation
    dropped. -/
theorem frame_Kernel : Cert.frame_Kernel := fun m ρ _ =>
  (θ_run Cert.Kernel.defs _ _).mono (fun _ h c => (h c).2)
    (Cert.Kernel.Hand.run_main (F := Bits) m ρ (Cert.Kernel.Hand.tile_body m))

/-- The same at the ideal instance. -/
theorem frame_KernelIdeal : Cert.frame_KernelIdeal := fun m ρ _ =>
  (θ_run Cert.KernelIdeal.defs _ _).mono (fun _ h c => (h c).2)
    (Cert.KernelIdeal.Hand.run_main (F := Ideal) m ρ (Cert.KernelIdeal.Hand.tile_body m))

/-- At the ideal instance the kernel leaves, on every device, its function of the two arguments; the reference leaves
    the same function of its own arguments, which are the kernel's. -/
theorem algebraic : Cert.algebraic_KernelIdeal_ReferenceIdeal := fun m ρ m' ρ' _ hagree =>
  ⟨fun c => Cert.KernelIdeal.Hand.Gout m c,
    Cert.KernelIdeal.Hand.run_main (F := Ideal) m ρ (Cert.KernelIdeal.Hand.tile_body m),
    (θ_run Cert.ReferenceIdeal.defs _ _).mono
      (fun _ h c => ⟨(h c).1.trans (by rw [(hagree c).1, (hagree c).2]; rfl), (h c).2⟩)
      (Cert.ReferenceIdeal.RefValue.ref_run m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, Cert.ReferenceIdeal.RefValue.frame_ri, trivial, algebraic⟩

end Cert.Proof

end
